-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v123_0)) (v1 : (c : Dev Cert.KernelIdeal.nD) → Buf (Elt Ideal) ((c.tc : Thread Cert.KernelIdeal.nD Cert.KernelIdeal.τ).loc Cert.KernelIdeal.main_v123_1)) (v2 : (c : Dev Cert.KernelIdeal.nD) → Buf (Elt Ideal) ((c.tc : Thread Cert.KernelIdeal.nD Cert.KernelIdeal.τ).loc Cert.KernelIdeal.main_v123_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123_0) = v0 c
          ∧ r.2.mem ((c.tc : Thread Cert.KernelIdeal.nD Cert.KernelIdeal.τ).loc Cert.KernelIdeal.main_v123_1) = v1 c
          ∧ r.2.mem ((c.tc : Thread Cert.KernelIdeal.nD Cert.KernelIdeal.τ).loc Cert.KernelIdeal.main_v123_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S65536x2 : Shape := ⟨2, ![65536, 2]⟩
abbrev S400x784 : Shape := ⟨2, ![400, 784]⟩
abbrev S400x400 : Shape := ⟨2, ![400, 400]⟩
abbrev S200x400 : Shape := ⟨2, ![200, 400]⟩
abbrev S2x200 : Shape := ⟨2, ![2, 200]⟩
abbrev S200x2 : Shape := ⟨2, ![200, 2]⟩
abbrev S400x200 : Shape := ⟨2, ![400, 200]⟩
abbrev S784x400 : Shape := ⟨2, ![784, 400]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S65536x2 : S_.BroadcastsInDim S65536x2 (![] : Fin 0 → Fin S65536x2.rank)
  reducesTo_S65536x2_S_d0_1 : S65536x2.ReducesTo [0, 1] S_
  bcast_S_S400x784 : S_.BroadcastsInDim S400x784 (![] : Fin 0 → Fin S400x784.rank)
  reducesTo_S400x784_S_d0_1 : S400x784.ReducesTo [0, 1] S_
  bcast_S_S400x400 : S_.BroadcastsInDim S400x400 (![] : Fin 0 → Fin S400x400.rank)
  reducesTo_S400x400_S_d0_1 : S400x400.ReducesTo [0, 1] S_
  bcast_S_S200x400 : S_.BroadcastsInDim S200x400 (![] : Fin 0 → Fin S200x400.rank)
  reducesTo_S200x400_S_d0_1 : S200x400.ReducesTo [0, 1] S_
  bcast_S_S2x200 : S_.BroadcastsInDim S2x200 (![] : Fin 0 → Fin S2x200.rank)
  reducesTo_S2x200_S_d0_1 : S2x200.ReducesTo [0, 1] S_
  bcast_S_S200x2 : S_.BroadcastsInDim S200x2 (![] : Fin 0 → Fin S200x2.rank)
  reducesTo_S200x2_S_d0_1 : S200x2.ReducesTo [0, 1] S_
  bcast_S_S400x200 : S_.BroadcastsInDim S400x200 (![] : Fin 0 → Fin S400x200.rank)
  reducesTo_S400x200_S_d0_1 : S400x200.ReducesTo [0, 1] S_
  bcast_S_S784x400 : S_.BroadcastsInDim S784x400 (![] : Fin 0 → Fin S784x400.rank)
  reducesTo_S784x400_S_d0_1 : S784x400.ReducesTo [0, 1] S_

variable [Facts]

def fn_part3 {F : FTy → Type} [FloatOps F] (main_arg11 : FVec F S784x400 .f32) (main_v48 : IVec S_ 1) (main_v49 : FVec F S400x400 .f32) (main_v50 : FVec F S400x400 .f32) : IVec S_ 1 :=
  let main_v51 : IVec S400x400 1 := cmpf .olt main_v49 main_v50
  let main_c_19 : IVec S_ 1 := constantI S_ 1 1#1
  let main_v52 : IVec S_ 1 := (fun x v => Host.reduce IntOp.andi x v reducesTo_S400x400_S_d0_1 h_S_) main_v51 main_c_19
  let main_v53 : IVec S_ 1 := andi main_v48 main_v52
  let main_v54 : FVec F S784x400 .f32 := Host.absf main_arg11
  let main_cst_20 : FVec F S_ .f32 := constant S_ .f32 0x7F800000#32
  let main_v55 : FVec F S784x400 .f32 := broadcastInDim S784x400 ![] bcast_S_S784x400 main_cst_20
  let main_v56 : IVec S784x400 1 := cmpf .olt main_v54 main_v55
  let main_c_21 : IVec S_ 1 := constantI S_ 1 1#1
  let main_v57 : IVec S_ 1 := (fun x v => Host.reduce IntOp.andi x v reducesTo_S784x400_S_d0_1 h_S_) main_v56 main_c_21
  let main_v58 : IVec S_ 1 := andi main_v53 main_v57
  main_v58

def fn_part2 {F : FTy → Type} [FloatOps F] (main_arg7 : FVec F S200x2 .f32) (main_arg8 : FVec F S400x200 .f32) (main_arg9 : FVec F S400x400 .f32) (main_arg10 : FVec F S400x400 .f32) (main_arg11 : FVec F S784x400 .f32) (main_v33 : IVec S_ 1) : IVec S_ 1 :=
  let main_v34 : FVec F S200x2 .f32 := Host.absf main_arg7
  let main_cst_12 : FVec F S_ .f32 := constant S_ .f32 0x7F800000#32
  let main_v35 : FVec F S200x2 .f32 := broadcastInDim S200x2 ![] bcast_S_S200x2 main_cst_12
  let main_v36 : IVec S200x2 1 := cmpf .olt main_v34 main_v35
  let main_c_13 : IVec S_ 1 := constantI S_ 1 1#1
  let main_v37 : IVec S_ 1 := (fun x v => Host.reduce IntOp.andi x v reducesTo_S200x2_S_d0_1 h_S_) main_v36 main_c_13
  let main_v38 : IVec S_ 1 := andi main_v33 main_v37
  let main_v39 : FVec F S400x200 .f32 := Host.absf main_arg8
  let main_cst_14 : FVec F S_ .f32 := constant S_ .f32 0x7F800000#32
  let main_v40 : FVec F S400x200 .f32 := broadcastInDim S400x200 ![] bcast_S_S400x200 main_cst_14
  let main_v41 : IVec S400x200 1 := cmpf .olt main_v39 main_v40
  let main_c_15 : IVec S_ 1 := constantI S_ 1 1#1
  let main_v42 : IVec S_ 1 := (fun x v => Host.reduce IntOp.andi x v reducesTo_S400x200_S_d0_1 h_S_) main_v41 main_c_15
  let main_v43 : IVec S_ 1 := andi main_v38 main_v42
  let main_v44 : FVec F S400x400 .f32 := Host.absf main_arg9
  let main_cst_16 : FVec F S_ .f32 := constant S_ .f32 0x7F800000#32
  let main_v45 : FVec F S400x400 .f32 := broadcastInDim S400x400 ![] bcast_S_S400x400 main_cst_16
  let main_v46 : IVec S400x400 1 := cmpf .olt main_v44 main_v45
  let main_c_17 : IVec S_ 1 := constantI S_ 1 1#1
  let main_v47 : IVec S_ 1 := (fun x v => Host.reduce IntOp.andi x v reducesTo_S400x400_S_d0_1 h_S_) main_v46 main_c_17
  let main_v48 : IVec S_ 1 := andi main_v43 main_v47
  let main_v49 : FVec F S400x400 .f32 := Host.absf main_arg10
  let main_cst_18 : FVec F S_ .f32 := constant S_ .f32 0x7F800000#32
  let main_v50 : FVec F S400x400 .f32 := broadcastInDim S400x400 ![] bcast_S_S400x400 main_cst_18
  fn_part3 (F := F) main_arg11 main_v48 main_v49 main_v50

def fn_part1 {F : FTy → Type} [FloatOps F] (main_arg4 : FVec F S200x400 .f32) (main_arg5 : FVec F S2x200 .f32) (main_arg6 : FVec F S2x200 .f32) (main_arg7 : FVec F S200x2 .f32) (main_arg8 : FVec F S400x200 .f32) (main_arg9 : FVec F S400x400 .f32) (main_arg10 : FVec F S400x400 .f32) (main_arg11 : FVec F S784x400 .f32) (main_v13 : IVec S_ 1) (main_v16 : IVec S400x400 1) : IVec S_ 1 :=
  let main_c_5 : IVec S_ 1 := constantI S_ 1 1#1
  let main_v17 : IVec S_ 1 := (fun x v => Host.reduce IntOp.andi x v reducesTo_S400x400_S_d0_1 h_S_) main_v16 main_c_5
  let main_v18 : IVec S_ 1 := andi main_v13 main_v17
  let main_v19 : FVec F S200x400 .f32 := Host.absf main_arg4
  let main_cst_6 : FVec F S_ .f32 := constant S_ .f32 0x7F800000#32
  let main_v20 : FVec F S200x400 .f32 := broadcastInDim S200x400 ![] bcast_S_S200x400 main_cst_6
  let main_v21 : IVec S200x400 1 := cmpf .olt main_v19 main_v20
  let main_c_7 : IVec S_ 1 := constantI S_ 1 1#1
  let main_v22 : IVec S_ 1 := (fun x v => Host.reduce IntOp.andi x v reducesTo_S200x400_S_d0_1 h_S_) main_v21 main_c_7
  let main_v23 : IVec S_ 1 := andi main_v18 main_v22
  let main_v24 : FVec F S2x200 .f32 := Host.absf main_arg5
  let main_cst_8 : FVec F S_ .f32 := constant S_ .f32 0x7F800000#32
  let main_v25 : FVec F S2x200 .f32 := broadcastInDim S2x200 ![] bcast_S_S2x200 main_cst_8
  let main_v26 : IVec S2x200 1 := cmpf .olt main_v24 main_v25
  let main_c_9 : IVec S_ 1 := constantI S_ 1 1#1
  let main_v27 : IVec S_ 1 := (fun x v => Host.reduce IntOp.andi x v reducesTo_S2x200_S_d0_1 h_S_) main_v26 main_c_9
  let main_v28 : IVec S_ 1 := andi main_v23 main_v27
  let main_v29 : FVec F S2x200 .f32 := Host.absf main_arg6
  let main_cst_10 : FVec F S_ .f32 := constant S_ .f32 0x7F800000#32
  let main_v30 : FVec F S2x200 .f32 := broadcastInDim S2x200 ![] bcast_S_S2x200 main_cst_10
  let main_v31 : IVec S2x200 1 := cmpf .olt main_v29 main_v30
  let main_c_11 : IVec S_ 1 := constantI S_ 1 1#1
  let main_v32 : IVec S_ 1 := (fun x v => Host.reduce IntOp.andi x v reducesTo_S2x200_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x784 .f32) (main_arg1 : FVec F S65536x2 .f32) (main_arg2 : FVec F S400x784 .f32) (main_arg3 : FVec F S400x400 .f32) (main_arg4 : FVec F S200x400 .f32) (main_arg5 : FVec F S2x200 .f32) (main_arg6 : FVec F S2x200 .f32) (main_arg7 : FVec F S200x2 .f32) (main_arg8 : FVec F S400x200 .f32) (main_arg9 : FVec F S400x400 .f32) (main_arg10 : FVec F S400x400 .f32) (main_arg11 : FVec F S784x400 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S65536x2 .f32 := Host.absf main_arg1
  let main_cst_0 : FVec F S_ .f32 := constant S_ .f32 0x7F800000#32
  let main_v5 : FVec F S65536x2 .f32 := broadcastInDim S65536x2 ![] bcast_S_S65536x2 main_cst_0
  let main_v6 : IVec S65536x2 1 := cmpf .olt main_v4 main_v5
  let main_c_1 : IVec S_ 1 := constantI S_ 1 1#1
  let main_v7 : IVec S_ 1 := (fun x v => Host.reduce IntOp.andi x v reducesTo_S65536x2_S_d0_1 h_S_) main_v6 main_c_1
  let main_v8 : IVec S_ 1 := andi main_v3 main_v7
  let main_v9 : FVec F S400x784 .f32 := Host.absf main_arg2
  let main_cst_2 : FVec F S_ .f32 := constant S_ .f32 0x7F800000#32
  let main_v10 : FVec F S400x784 .f32 := broadcastInDim S400x784 ![] bcast_S_S400x784 main_cst_2
  let main_v11 : IVec S400x784 1 := cmpf .olt main_v9 main_v10
  let main_c_3 : IVec S_ 1 := constantI S_ 1 1#1
  let main_v12 : IVec S_ 1 := (fun x v => Host.reduce IntOp.andi x v reducesTo_S400x784_S_d0_1 h_S_) main_v11 main_c_3
  let main_v13 : IVec S_ 1 := andi main_v8 main_v12
  let main_v14 : FVec F S400x400 .f32 := Host.absf main_arg3
  let main_cst_4 : FVec F S_ .f32 := constant S_ .f32 0x7F800000#32
  let main_v15 : FVec F S400x400 .f32 := broadcastInDim S400x400 ![] bcast_S_S400x400 main_cst_4
  let main_v16 : IVec S400x400 1 := cmpf .olt main_v14 main_v15
  fn_part1 (F := F) main_arg4 main_arg5 main_arg6 main_arg7 main_arg8 main_arg9 main_arg10 main_arg11 main_v13 main_v16
-- ==== Kernel.lean ====
abbrev S65536x784 : Shape := ⟨2, ![65536, 784]⟩
abbrev S65536x2 : Shape := ⟨2, ![65536, 2]⟩
abbrev S400x784 : Shape := ⟨2, ![400, 784]⟩
abbrev S400x400 : Shape := ⟨2, ![400, 400]⟩
abbrev S200x400 : Shape := ⟨2, ![200, 400]⟩
abbrev S2x200 : Shape := ⟨2, ![2, 200]⟩
abbrev S200x2 : Shape := ⟨2, ![200, 2]⟩
abbrev S400x200 : Shape := ⟨2, ![400, 200]⟩
abbrev S784x400 : Shape := ⟨2, ![784, 400]⟩
abbrev S_ : Shape := ⟨0, ![]⟩
abbrev S200x4 : Shape := ⟨2, ![200, 4]⟩
abbrev S1 : Shape := ⟨1, ![1]⟩
abbrev S10 : Shape := ⟨1, ![10]⟩
abbrev S1x10 : Shape := ⟨2, ![1, 10]⟩
abbrev S1024x784 : Shape := ⟨2, ![1024, 784]⟩
abbrev S1024x2 : Shape := ⟨2, ![1024, 2]⟩
abbrev S1024x400 : Shape := ⟨2, ![1024, 400]⟩
abbrev S1x1 : Shape := ⟨2, ![1, 1]⟩
abbrev S1024x200 : Shape := ⟨2, ![1024, 200]⟩
abbrev S1024x4 : Shape := ⟨2, ![1024, 4]⟩

abbrev nBuf : Space → Nat
  | .hbm => 258
  | .vmem => 20
  | .smem => 0
  | _ => 0

abbrev hbmTy0_0 (i : Nat) : BufTy := match i % 128 with
  | 0 => ⟨S65536x784, .f32⟩
  | 1 => ⟨S65536x2, .f32⟩
  | 2 => ⟨S400x784, .f32⟩
  | 3 => ⟨S400x400, .f32⟩
  | 4 => ⟨S200x400, .f32⟩
  | 5 => ⟨S2x200, .f32⟩
  | 6 => ⟨S2x200, .f32⟩
  | 7 => ⟨S200x2, .f32⟩
  | 8 => ⟨S400x200, .f32⟩
  | 9 => ⟨S400x400, .f32⟩
  | 10 => ⟨S400x400, .f32⟩
  | 11 => ⟨S784x400, .f32⟩
  | 12 => ⟨S400x784, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S400x784, .f32⟩
  | 23 => ⟨S400x784, .f32⟩
  | 24 => ⟨S400x784, .f32⟩
  | 25 => ⟨S_, .f32⟩
  | 26 => ⟨S_, .f32⟩
  | 27 => ⟨S_, .f32⟩
  | 28 => ⟨S400x784, .f32⟩
  | 29 => ⟨S400x784, .f32⟩
  | 30 => ⟨S_, .f32⟩
  | 31 => ⟨S400x784, .f32⟩
  | 32 => ⟨S400x784, .f32⟩
  | 33 => ⟨S400x784, .bf16⟩
  | 34 => ⟨S400x400, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S400x400, .f32⟩
  | 45 => ⟨S400x400, .f32⟩
  | 46 => ⟨S400x400, .f32⟩
  | 47 => ⟨S_, .f32⟩
  | 48 => ⟨S_, .f32⟩
  | 49 => ⟨S_, .f32⟩
  | 50 => ⟨S400x400, .f32⟩
  | 51 => ⟨S400x400, .f32⟩
  | 52 => ⟨S_, .f32⟩
  | 53 => ⟨S400x400, .f32⟩
  | 54 => ⟨S400x400, .f32⟩
  | 55 => ⟨S400x400, .bf16⟩
  | 56 => ⟨S200x400, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S200x400, .f32⟩
  | 67 => ⟨S200x400, .f32⟩
  | 68 => ⟨S200x400, .f32⟩
  | 69 => ⟨S_, .f32⟩
  | 70 => ⟨S_, .f32⟩
  | 71 => ⟨S_, .f32⟩
  | 72 => ⟨S200x400, .f32⟩
  | 73 => ⟨S200x400, .f32⟩
  | 74 => ⟨S_, .f32⟩
  | 75 => ⟨S200x400, .f32⟩
  | 76 => ⟨S200x400, .f32⟩
  | 77 => ⟨S200x400, .bf16⟩
  | 78 => ⟨S2x200, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S2x200, .f32⟩
  | 89 => ⟨S2x200, .f32⟩
  | 90 => ⟨S2x200, .f32⟩
  | 91 => ⟨S_, .f32⟩
  | 92 => ⟨S_, .f32⟩
  | 93 => ⟨S_, .f32⟩
  | 94 => ⟨S2x200, .f32⟩
  | 95 => ⟨S2x200, .f32⟩
  | 96 => ⟨S_, .f32⟩
  | 97 => ⟨S2x200, .f32⟩
  | 98 => ⟨S2x200, .f32⟩
  | 99 => ⟨S2x200, .bf16⟩
  | 100 => ⟨S2x200, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S2x200, .f32⟩
  | 111 => ⟨S2x200, .f32⟩
  | 112 => ⟨S2x200, .f32⟩
  | 113 => ⟨S_, .f32⟩
  | 114 => ⟨S_, .f32⟩
  | 115 => ⟨S_, .f32⟩
  | 116 => ⟨S2x200, .f32⟩
  | 117 => ⟨S2x200, .f32⟩
  | 118 => ⟨S_, .f32⟩
  | 119 => ⟨S2x200, .f32⟩
  | 120 => ⟨S2x200, .f32⟩
  | 121 => ⟨S2x200, .bf16⟩
  | 122 => ⟨S200x2, .f32⟩
  | 123 => ⟨S_, .f32⟩
  | 124 => ⟨S_, .f32⟩
  | 125 => ⟨S_, .f32⟩
  | 126 => ⟨S_, .f32⟩
  | 127 => ⟨S_, .f32⟩
  | _ => ⟨S65536x784, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S200x2, .f32⟩
  | 5 => ⟨S200x2, .f32⟩
  | 6 => ⟨S200x2, .f32⟩
  | 7 => ⟨S_, .f32⟩
  | 8 => ⟨S_, .f32⟩
  | 9 => ⟨S_, .f32⟩
  | 10 => ⟨S200x2, .f32⟩
  | 11 => ⟨S200x2, .f32⟩
  | 12 => ⟨S_, .f32⟩
  | 13 => ⟨S200x2, .f32⟩
  | 14 => ⟨S200x2, .f32⟩
  | 15 => ⟨S200x2, .bf16⟩
  | 16 => ⟨S400x200, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S400x200, .f32⟩
  | 27 => ⟨S400x200, .f32⟩
  | 28 => ⟨S400x200, .f32⟩
  | 29 => ⟨S_, .f32⟩
  | 30 => ⟨S_, .f32⟩
  | 31 => ⟨S_, .f32⟩
  | 32 => ⟨S400x200, .f32⟩
  | 33 => ⟨S400x200, .f32⟩
  | 34 => ⟨S_, .f32⟩
  | 35 => ⟨S400x200, .f32⟩
  | 36 => ⟨S400x200, .f32⟩
  | 37 => ⟨S400x200, .bf16⟩
  | 38 => ⟨S400x400, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S400x400, .f32⟩
  | 49 => ⟨S400x400, .f32⟩
  | 50 => ⟨S400x400, .f32⟩
  | 51 => ⟨S_, .f32⟩
  | 52 => ⟨S_, .f32⟩
  | 53 => ⟨S_, .f32⟩
  | 54 => ⟨S400x400, .f32⟩
  | 55 => ⟨S400x400, .f32⟩
  | 56 => ⟨S_, .f32⟩
  | 57 => ⟨S400x400, .f32⟩
  | 58 => ⟨S400x400, .f32⟩
  | 59 => ⟨S400x400, .bf16⟩
  | 60 => ⟨S400x400, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S400x400, .f32⟩
  | 71 => ⟨S400x400, .f32⟩
  | 72 => ⟨S400x400, .f32⟩
  | 73 => ⟨S_, .f32⟩
  | 74 => ⟨S_, .f32⟩
  | 75 => ⟨S_, .f32⟩
  | 76 => ⟨S400x400, .f32⟩
  | 77 => ⟨S400x400, .f32⟩
  | 78 => ⟨S_, .f32⟩
  | 79 => ⟨S400x400, .f32⟩
  | 80 => ⟨S400x400, .f32⟩
  | 81 => ⟨S400x400, .bf16⟩
  | 82 => ⟨S784x400, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S784x400, .f32⟩
  | 93 => ⟨S784x400, .f32⟩
  | 94 => ⟨S784x400, .f32⟩
  | 95 => ⟨S_, .f32⟩
  | 96 => ⟨S_, .f32⟩
  | 97 => ⟨S_, .f32⟩
  | 98 => ⟨S784x400, .f32⟩
  | 99 => ⟨S784x400, .f32⟩
  | 100 => ⟨S_, .f32⟩
  | 101 => ⟨S784x400, .f32⟩
  | 102 => ⟨S784x400, .f32⟩
  | 103 => ⟨S784x400, .bf16⟩
  | 104 => ⟨S784x400, .bf16⟩
  | 105 => ⟨S400x400, .bf16⟩
  | 106 => ⟨S400x200, .bf16⟩
  | 107 => ⟨S200x2, .bf16⟩
  | 108 => ⟨S200x2, .bf16⟩
  | 109 => ⟨S200x4, .bf16⟩
  | 110 => ⟨S2x200, .bf16⟩
  | 111 => ⟨S200x400, .bf16⟩
  | 112 => ⟨S400x400, .bf16⟩
  | 113 => ⟨S400x400, .bf16⟩
  | 114 => ⟨S400x784, .bf16⟩
  | 115 => ⟨S1, .f32⟩
  | 116 => ⟨S1, .f32⟩
  | 117 => ⟨S1, .f32⟩
  | 118 => ⟨S1, .f32⟩
  | 119 => ⟨S1, .f32⟩
  | 120 => ⟨S1, .f32⟩
  | 121 => ⟨S1, .f32⟩
  | 122 => ⟨S1, .f32⟩
  | 123 => ⟨S1, .f32⟩
  | 124 => ⟨S1, .f32⟩
  | 125 => ⟨S10, .f32⟩
  | 126 => ⟨S1x10, .f32⟩
  | 127 => ⟨S65536x784, .f32⟩
  | _ => ⟨S65536x784, .f32⟩

abbrev hbmTy0_2 (i : Nat) : BufTy := match i % 128 with
  | 0 => ⟨S65536x2, .f32⟩
  | 1 => ⟨S65536x2, .f32⟩
  | _ => ⟨S65536x784, .f32⟩

abbrev hbmTy (i : Nat) : BufTy := match i / 128 with
  | 0 => hbmTy0_0 i
  | 1 => hbmTy0_1 i
  | 2 => hbmTy0_2 i
  | _ => ⟨S65536x784, .f32⟩

abbrev bufTy : (tb : Table) → Fin (tcTables nBuf tb) → BufTy
  | .hbm, ⟨i, _⟩ => hbmTy i
  | .local _ .vmem, ⟨0, _⟩ => ⟨S1024x784, .f32⟩
  | .local _ .vmem, ⟨1, _⟩ => ⟨S1024x784, .f32⟩
  | .local _ .vmem, ⟨2, _⟩ => ⟨S1024x2, .f32⟩
  | .local _ .vmem, ⟨3, _⟩ => ⟨S1024x2, .f32⟩
  | .local _ .vmem, ⟨4, _⟩ => ⟨S784x400, .bf16⟩
  | .local _ .vmem, ⟨5, _⟩ => ⟨S400x400, .bf16⟩
  | .local _ .vmem, ⟨6, _⟩ => ⟨S400x200, .bf16⟩
  | .local _ .vmem, ⟨7, _⟩ => ⟨S200x4, .bf16⟩
  | .local _ .vmem, ⟨8, _⟩ => ⟨S2x200, .bf16⟩
  | .local _ .vmem, ⟨9, _⟩ => ⟨S200x400, .bf16⟩
  | .local _ .vmem, ⟨10, _⟩ => ⟨S400x400, .bf16⟩
  | .local _ .vmem, ⟨11, _⟩ => ⟨S400x400, .bf16⟩
  | .local _ .vmem, ⟨12, _⟩ => ⟨S400x784, .bf16⟩
  | .local _ .vmem, ⟨13, _⟩ => ⟨S1x10, .f32⟩
  | .local _ .vmem, ⟨14, _⟩ => ⟨S1024x784, .f32⟩
  | .local _ .vmem, ⟨15, _⟩ => ⟨S1024x784, .f32⟩
  | .local _ .vmem, ⟨16, _⟩ => ⟨S1024x2, .f32⟩
  | .local _ .vmem, ⟨17, _⟩ => ⟨S1024x2, .f32⟩
  | .local _ .vmem, ⟨18, _⟩ => ⟨S1024x2, .f32⟩
  | .local _ .vmem, ⟨19, _⟩ => ⟨S1024x2, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_cst_1 : Ref sig .tc := ⟨.hbm, 17, rfl⟩
abbrev main_call0_v0 : Ref sig .tc := ⟨.hbm, 18, rfl⟩
abbrev main_v3 : Ref sig .tc := ⟨.hbm, 19, rfl⟩
abbrev main_cst_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_5 : Ref sig .tc := ⟨.hbm, 35, rfl⟩
abbrev main_v11 : Ref sig .tc := ⟨.hbm, 36, rfl⟩
abbrev main_cst_6 : Ref sig .tc := ⟨.hbm, 37, rfl⟩
abbrev main_v12 : Ref sig .tc := ⟨.hbm, 38, rfl⟩
abbrev main_cst_7 : Ref sig .tc := ⟨.hbm, 39, rfl⟩
abbrev main_call3_v0 : Ref sig .tc := ⟨.hbm, 40, rfl⟩
abbrev main_v13 : Ref sig .tc := ⟨.hbm, 41, rfl⟩
abbrev main_cst_8 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_9 : Ref sig .tc := ⟨.hbm, 47, rfl⟩
abbrev main_cst_10 : Ref sig .tc := ⟨.hbm, 48, rfl⟩
abbrev main_call5_v0 : Ref sig .tc := ⟨.hbm, 49, rfl⟩
abbrev main_call5_v1 : Ref sig .tc := ⟨.hbm, 50, rfl⟩
abbrev main_call5_v2 : Ref sig .tc := ⟨.hbm, 51, rfl⟩
abbrev main_call5_v3 : Ref sig .tc := ⟨.hbm, 52, rfl⟩
abbrev main_call5_v4 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_11 : Ref sig .tc := ⟨.hbm, 57, rfl⟩
abbrev main_v21 : Ref sig .tc := ⟨.hbm, 58, rfl⟩
abbrev main_cst_12 : Ref sig .tc := ⟨.hbm, 59, rfl⟩
abbrev main_v22 : Ref sig .tc := ⟨.hbm, 60, rfl⟩
abbrev main_cst_13 : Ref sig .tc := ⟨.hbm, 61, rfl⟩
abbrev main_call6_v0 : Ref sig .tc := ⟨.hbm, 62, rfl⟩
abbrev main_v23 : Ref sig .tc := ⟨.hbm, 63, rfl⟩
abbrev main_cst_14 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_15 : Ref sig .tc := ⟨.hbm, 69, rfl⟩
abbrev main_cst_16 : Ref sig .tc := ⟨.hbm, 70, rfl⟩
abbrev main_call8_v0 : Ref sig .tc := ⟨.hbm, 71, rfl⟩
abbrev main_call8_v1 : Ref sig .tc := ⟨.hbm, 72, rfl⟩
abbrev main_call8_v2 : Ref sig .tc := ⟨.hbm, 73, rfl⟩
abbrev main_call8_v3 : Ref sig .tc := ⟨.hbm, 74, rfl⟩
abbrev main_call8_v4 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_17 : Ref sig .tc := ⟨.hbm, 79, rfl⟩
abbrev main_v31 : Ref sig .tc := ⟨.hbm, 80, rfl⟩
abbrev main_cst_18 : Ref sig .tc := ⟨.hbm, 81, rfl⟩
abbrev main_v32 : Ref sig .tc := ⟨.hbm, 82, rfl⟩
abbrev main_cst_19 : Ref sig .tc := ⟨.hbm, 83, rfl⟩
abbrev main_call9_v0 : Ref sig .tc := ⟨.hbm, 84, rfl⟩
abbrev main_v33 : Ref sig .tc := ⟨.hbm, 85, rfl⟩
abbrev main_cst_20 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_21 : Ref sig .tc := ⟨.hbm, 91, rfl⟩
abbrev main_cst_22 : Ref sig .tc := ⟨.hbm, 92, rfl⟩
abbrev main_call11_v0 : Ref sig .tc := ⟨.hbm, 93, rfl⟩
abbrev main_call11_v1 : Ref sig .tc := ⟨.hbm, 94, rfl⟩
abbrev main_call11_v2 : Ref sig .tc := ⟨.hbm, 95, rfl⟩
abbrev main_call11_v3 : Ref sig .tc := ⟨.hbm, 96, rfl⟩
abbrev main_call11_v4 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_cst_23 : Ref sig .tc := ⟨.hbm, 101, rfl⟩
abbrev main_v41 : Ref sig .tc := ⟨.hbm, 102, rfl⟩
abbrev main_cst_24 : Ref sig .tc := ⟨.hbm, 103, rfl⟩
abbrev main_v42 : Ref sig .tc := ⟨.hbm, 104, rfl⟩
abbrev main_cst_25 : Ref sig .tc := ⟨.hbm, 105, rfl⟩
abbrev main_call12_v0 : Ref sig .tc := ⟨.hbm, 106, rfl⟩
abbrev main_v43 : Ref sig .tc := ⟨.hbm, 107, rfl⟩
abbrev main_cst_26 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_cst_27 : Ref sig .tc := ⟨.hbm, 113, rfl⟩
abbrev main_cst_28 : Ref sig .tc := ⟨.hbm, 114, rfl⟩
abbrev main_call14_v0 : Ref sig .tc := ⟨.hbm, 115, rfl⟩
abbrev main_call14_v1 : Ref sig .tc := ⟨.hbm, 116, rfl⟩
abbrev main_call14_v2 : Ref sig .tc := ⟨.hbm, 117, rfl⟩
abbrev main_call14_v3 : Ref sig .tc := ⟨.hbm, 118, rfl⟩
abbrev main_call14_v4 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_cst_29 : Ref sig .tc := ⟨.hbm, 123, rfl⟩
abbrev main_v51 : Ref sig .tc := ⟨.hbm, 124, rfl⟩
abbrev main_cst_30 : Ref sig .tc := ⟨.hbm, 125, rfl⟩
abbrev main_v52 : Ref sig .tc := ⟨.hbm, 126, rfl⟩
abbrev main_cst_31 : Ref sig .tc := ⟨.hbm, 127, rfl⟩
abbrev main_call15_v0 : Ref sig .tc := ⟨.hbm, 128, rfl⟩
abbrev main_v53 : Ref sig .tc := ⟨.hbm, 129, rfl⟩
abbrev main_cst_32 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_cst_33 : Ref sig .tc := ⟨.hbm, 135, rfl⟩
abbrev main_cst_34 : Ref sig .tc := ⟨.hbm, 136, rfl⟩
abbrev main_call17_v0 : Ref sig .tc := ⟨.hbm, 137, rfl⟩
abbrev main_call17_v1 : Ref sig .tc := ⟨.hbm, 138, rfl⟩
abbrev main_call17_v2 : Ref sig .tc := ⟨.hbm, 139, rfl⟩
abbrev main_call17_v3 : Ref sig .tc := ⟨.hbm, 140, rfl⟩
abbrev main_call17_v4 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_cst_35 : Ref sig .tc := ⟨.hbm, 145, rfl⟩
abbrev main_v61 : Ref sig .tc := ⟨.hbm, 146, rfl⟩
abbrev main_cst_36 : Ref sig .tc := ⟨.hbm, 147, rfl⟩
abbrev main_v62 : Ref sig .tc := ⟨.hbm, 148, rfl⟩
abbrev main_cst_37 : Ref sig .tc := ⟨.hbm, 149, rfl⟩
abbrev main_call18_v0 : Ref sig .tc := ⟨.hbm, 150, rfl⟩
abbrev main_v63 : Ref sig .tc := ⟨.hbm, 151, rfl⟩
abbrev main_cst_38 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_cst_39 : Ref sig .tc := ⟨.hbm, 157, rfl⟩
abbrev main_cst_40 : Ref sig .tc := ⟨.hbm, 158, rfl⟩
abbrev main_call20_v0 : Ref sig .tc := ⟨.hbm, 159, rfl⟩
abbrev main_call20_v1 : Ref sig .tc := ⟨.hbm, 160, rfl⟩
abbrev main_call20_v2 : Ref sig .tc := ⟨.hbm, 161, rfl⟩
abbrev main_call20_v3 : Ref sig .tc := ⟨.hbm, 162, rfl⟩
abbrev main_call20_v4 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_cst_41 : Ref sig .tc := ⟨.hbm, 167, rfl⟩
abbrev main_v71 : Ref sig .tc := ⟨.hbm, 168, rfl⟩
abbrev main_cst_42 : Ref sig .tc := ⟨.hbm, 169, rfl⟩
abbrev main_v72 : Ref sig .tc := ⟨.hbm, 170, rfl⟩
abbrev main_cst_43 : Ref sig .tc := ⟨.hbm, 171, rfl⟩
abbrev main_call21_v0 : Ref sig .tc := ⟨.hbm, 172, rfl⟩
abbrev main_v73 : Ref sig .tc := ⟨.hbm, 173, rfl⟩
abbrev main_cst_44 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_cst_45 : Ref sig .tc := ⟨.hbm, 179, rfl⟩
abbrev main_cst_46 : Ref sig .tc := ⟨.hbm, 180, rfl⟩
abbrev main_call23_v0 : Ref sig .tc := ⟨.hbm, 181, rfl⟩
abbrev main_call23_v1 : Ref sig .tc := ⟨.hbm, 182, rfl⟩
abbrev main_call23_v2 : Ref sig .tc := ⟨.hbm, 183, rfl⟩
abbrev main_call23_v3 : Ref sig .tc := ⟨.hbm, 184, rfl⟩
abbrev main_call23_v4 : Ref sig .tc := ⟨.hbm, 185, rfl⟩
abbrev main_v78 : Ref sig .tc := ⟨.hbm, 186, rfl⟩
abbrev main_v79 : Ref sig .tc := ⟨.hbm, 187, rfl⟩
abbrev main_v80 : Ref sig .tc := ⟨.hbm, 188, rfl⟩
abbrev main_cst_47 : Ref sig .tc := ⟨.hbm, 189, rfl⟩
abbrev main_v81 : Ref sig .tc := ⟨.hbm, 190, rfl⟩
abbrev main_cst_48 : Ref sig .tc := ⟨.hbm, 191, rfl⟩
abbrev main_v82 : Ref sig .tc := ⟨.hbm, 192, rfl⟩
abbrev main_cst_49 : Ref sig .tc := ⟨.hbm, 193, rfl⟩
abbrev main_call24_v0 : Ref sig .tc := ⟨.hbm, 194, rfl⟩
abbrev main_v83 : Ref sig .tc := ⟨.hbm, 195, rfl⟩
abbrev main_cst_50 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_cst_51 : Ref sig .tc := ⟨.hbm, 201, rfl⟩
abbrev main_cst_52 : Ref sig .tc := ⟨.hbm, 202, rfl⟩
abbrev main_call26_v0 : Ref sig .tc := ⟨.hbm, 203, rfl⟩
abbrev main_call26_v1 : Ref sig .tc := ⟨.hbm, 204, rfl⟩
abbrev main_call26_v2 : Ref sig .tc := ⟨.hbm, 205, rfl⟩
abbrev main_call26_v3 : Ref sig .tc := ⟨.hbm, 206, rfl⟩
abbrev main_call26_v4 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_cst_53 : Ref sig .tc := ⟨.hbm, 211, rfl⟩
abbrev main_v91 : Ref sig .tc := ⟨.hbm, 212, rfl⟩
abbrev main_cst_54 : Ref sig .tc := ⟨.hbm, 213, rfl⟩
abbrev main_v92 : Ref sig .tc := ⟨.hbm, 214, rfl⟩
abbrev main_cst_55 : Ref sig .tc := ⟨.hbm, 215, rfl⟩
abbrev main_call27_v0 : Ref sig .tc := ⟨.hbm, 216, rfl⟩
abbrev main_v93 : Ref sig .tc := ⟨.hbm, 217, rfl⟩
abbrev main_cst_56 : Ref sig .tc := ⟨.hbm, 218, rfl⟩
abbrev main_v94 : Ref sig .tc := ⟨.hbm, 219, rfl⟩
abbrev main_v95 : Ref sig .tc := ⟨.hbm, 220, rfl⟩
abbrev main_v96 : Ref sig .tc := ⟨.hbm, 221, rfl⟩
abbrev main_v97 : Ref sig .tc := ⟨.hbm, 222, rfl⟩
abbrev main_cst_57 : Ref sig .tc := ⟨.hbm, 223, rfl⟩
abbrev main_cst_58 : Ref sig .tc := ⟨.hbm, 224, rfl⟩
abbrev main_call29_v0 : Ref sig .tc := ⟨.hbm, 225, rfl⟩
abbrev main_call29_v1 : Ref sig .tc := ⟨.hbm, 226, rfl⟩
abbrev main_call29_v2 : Ref sig .tc := ⟨.hbm, 227, rfl⟩
abbrev main_call29_v3 : Ref sig .tc := ⟨.hbm, 228, rfl⟩
abbrev main_call29_v4 : Ref sig .tc := ⟨.hbm, 229, rfl⟩
abbrev main_v98 : Ref sig .tc := ⟨.hbm, 230, rfl⟩
abbrev main_v99 : Ref sig .tc := ⟨.hbm, 231, rfl⟩
abbrev main_v100 : Ref sig .tc := ⟨.hbm, 232, rfl⟩
abbrev main_v101 : Ref sig .tc := ⟨.hbm, 233, rfl⟩
abbrev main_v102 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_v108 : Ref sig .tc := ⟨.hbm, 240, rfl⟩
abbrev main_v109 : Ref sig .tc := ⟨.hbm, 241, rfl⟩
abbrev main_v110 : Ref sig .tc := ⟨.hbm, 242, rfl⟩
abbrev main_v111 : Ref sig .tc := ⟨.hbm, 243, rfl⟩
abbrev main_v112 : Ref sig .tc := ⟨.hbm, 244, rfl⟩
abbrev main_v113 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_v117 : Ref sig .tc := ⟨.hbm, 249, rfl⟩
abbrev main_v118 : Ref sig .tc := ⟨.hbm, 250, rfl⟩
abbrev main_v119 : Ref sig .tc := ⟨.hbm, 251, rfl⟩
abbrev main_v120 : Ref sig .tc := ⟨.hbm, 252, rfl⟩
abbrev main_v121 : Ref sig .tc := ⟨.hbm, 253, rfl⟩
abbrev main_v122 : Ref sig .tc := ⟨.hbm, 254, rfl⟩
abbrev main_v123_0 : Ref sig .tc := ⟨.hbm, 255, rfl⟩
abbrev main_v123_1 : Ref sig .tc := ⟨.hbm, 256, rfl⟩
abbrev main_v123_2 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S784x400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S400x400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S400x200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x4 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x200 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S200x400 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400x400 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x400 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S400x784 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x784 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x2 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  reducesTo_S400x784_S_d0_1 : S400x784.ReducesTo [0, 1] S_
  h_S_ : 0 < S_.numel
  bcast_S_S400x784 : S_.BroadcastsInDim S400x784 (![] : Fin 0 → Fin S400x784.rank)
  bitsLt_bf16_f32 : FTy.bits .bf16 < FTy.bits .f32
  reducesTo_S400x400_S_d0_1 : S400x400.ReducesTo [0, 1] S_
  bcast_S_S400x400 : S_.BroadcastsInDim S400x400 (![] : Fin 0 → Fin S400x400.rank)
  reducesTo_S200x400_S_d0_1 : S200x400.ReducesTo [0, 1] S_
  bcast_S_S200x400 : S_.BroadcastsInDim S200x400 (![] : Fin 0 → Fin S200x400.rank)
  reducesTo_S2x200_S_d0_1 : S2x200.ReducesTo [0, 1] S_
  bcast_S_S2x200 : S_.BroadcastsInDim S2x200 (![] : Fin 0 → Fin S2x200.rank)
  reducesTo_S200x2_S_d0_1 : S200x2.ReducesTo [0, 1] S_
  bcast_S_S200x2 : S_.BroadcastsInDim S200x2 (![] : Fin 0 → Fin S200x2.rank)
  reducesTo_S400x200_S_d0_1 : S400x200.ReducesTo [0, 1] S_
  bcast_S_S400x200 : S_.BroadcastsInDim S400x200 (![] : Fin 0 → Fin S400x200.rank)
  reducesTo_S784x400_S_d0_1 : S784x400.ReducesTo [0, 1] S_
  bcast_S_S784x400 : S_.BroadcastsInDim S784x400 (![] : Fin 0 → Fin S784x400.rank)
  transposes_S400x784_S784x400_1_0 : S400x784.Transposes [1, 0] S784x400
  transposes_S400x400_S400x400_1_0 : S400x400.Transposes [1, 0] S400x400
  transposes_S200x400_S400x200_1_0 : S200x400.Transposes [1, 0] S400x200
  transposes_S2x200_S200x2_1_0 : S2x200.Transposes [1, 0] S200x2
  concatenates_S200x2_S200x2_S200x4_d1 : Shape.Concatenates [S200x2, S200x2] S200x4 1
  transposes_S200x2_S2x200_1_0 : S200x2.Transposes [1, 0] S2x200
  transposes_S400x200_S200x400_1_0 : S400x200.Transposes [1, 0] S200x400
  transposes_S784x400_S400x784_1_0 : S784x400.Transposes [1, 0] S400x784
  bcast_S_S1 : S_.BroadcastsInDim S1 (![] : Fin 0 → Fin S1.rank)
  concatenates_S1_S1_S1_S1_S1_S1_S1_S1_S1_S1_S10_d0 : Shape.Concatenates [S1, S1, S1, S1, S1, S1, S1, S1, S1, S1] S10 0
  shapeCasts_S10_S1x10 : S10.ShapeCasts S1x10
  inb_S1024x784_S1024x784_0_0 : ∀ a, (![0, 0] : Fin 2 → Nat) a + S1024x784.size a ≤ S1024x784.size a
  h_S1024x784 : 0 < S1024x784.numel
  inb_S784x400_S784x400_0_0 : ∀ a, (![0, 0] : Fin 2 → Nat) a + S784x400.size a ≤ S784x400.size a
  h_S784x400 : 0 < S784x400.numel
  shapeCasts_S784x400_S784x400 : S784x400.ShapeCasts S784x400
  inb_S1x10_S1x1_0_0 : ∀ a, (![0, 0] : Fin 2 → Nat) a + S1x1.size a ≤ S1x10.size a
  h_S1x1 : 0 < S1x1.numel
  inpos_S1x1_p0_0 : ∀ a, (![0, 0] : Fin 2 → Nat) a < S1x1.size a
  inb_S400x400_S400x400_0_0 : ∀ a, (![0, 0] : Fin 2 → Nat) a + S400x400.size a ≤ S400x400.size a
  h_S400x400 : 0 < S400x400.numel
  shapeCasts_S400x400_S400x400 : S400x400.ShapeCasts S400x400
  inb_S1x10_S1x1_0_1 : ∀ a, (![0, 1] : Fin 2 → Nat) a + S1x1.size a ≤ S1x10.size a
  inb_S400x200_S400x200_0_0 : ∀ a, (![0, 0] : Fin 2 → Nat) a + S400x200.size a ≤ S400x200.size a
  h_S400x200 : 0 < S400x200.numel
  shapeCasts_S400x200_S400x200 : S400x200.ShapeCasts S400x200
  inb_S1x10_S1x1_0_2 : ∀ a, (![0, 2] : Fin 2 → Nat) a + S1x1.size a ≤ S1x10.size a
  inb_S200x4_S200x4_0_0 : ∀ a, (![0, 0] : Fin 2 → Nat) a + S200x4.size a ≤ S200x4.size a
  h_S200x4 : 0 < S200x4.numel
  shapeCasts_S200x4_S200x4 : S200x4.ShapeCasts S200x4
  slices_S1024x4_o0_0_S1024x2 : S1024x4.Slices ![0, 0] S1024x2
  inb_S1x10_S1x1_0_3 : ∀ a, (![0, 3] : Fin 2 → Nat) a + S1x1.size a ≤ S1x10.size a
  slices_S1024x4_o0_2_S1024x2 : S1024x4.Slices ![0, 2] S1024x2
  inb_S1x10_S1x1_0_4 : ∀ a, (![0, 4] : Fin 2 → Nat) a + S1x1.size a ≤ S1x10.size a
  inb_S1024x2_S1024x2_0_0 : ∀ a, (![0, 0] : Fin 2 → Nat) a + S1024x2.size a ≤ S1024x2.size a
  h_S1024x2 : 0 < S1024x2.numel
  inb_S2x200_S2x200_0_0 : ∀ a, (![0, 0] : Fin 2 → Nat) a + S2x200.size a ≤ S2x200.size a
  h_S2x200 : 0 < S2x200.numel
  shapeCasts_S2x200_S2x200 : S2x200.ShapeCasts S2x200
  inb_S1x10_S1x1_0_5 : ∀ a, (![0, 5] : Fin 2 → Nat) a + S1x1.size a ≤ S1x10.size a
  inb_S200x400_S200x400_0_0 : ∀ a, (![0, 0] : Fin 2 → Nat) a + S200x400.size a ≤ S200x400.size a
  h_S200x400 : 0 < S200x400.numel
  shapeCasts_S200x400_S200x400 : S200x400.ShapeCasts S200x400
  inb_S1x10_S1x1_0_6 : ∀ a, (![0, 6] : Fin 2 → Nat) a + S1x1.size a ≤ S1x10.size a
  inb_S1x10_S1x1_0_7 : ∀ a, (![0, 7] : Fin 2 → Nat) a + S1x1.size a ≤ S1x10.size a
  inb_S1x10_S1x1_0_8 : ∀ a, (![0, 8] : Fin 2 → Nat) a + S1x1.size a ≤ S1x10.size a
  inb_S400x784_S400x784_0_0 : ∀ a, (![0, 0] : Fin 2 → Nat) a + S400x784.size a ≤ S400x784.size a
  h_S400x784 : 0 < S400x784.numel
  shapeCasts_S400x784_S400x784 : S400x784.ShapeCasts S400x784
  inb_S1x10_S1x1_0_9 : ∀ a, (![0, 9] : Fin 2 → Nat) a + S1x1.size a ≤ S1x10.size a
  dot_S1024x784_S784x400_S1024x400_1_0_0_1_n_n_wf : DotDims.WF S1024x784 S784x400 S1024x400 [1] [0] [0] [1] [] []
  dot_S1024x400_S400x400_S1024x400_1_0_0_1_n_n_wf : DotDims.WF S1024x400 S400x400 S1024x400 [1] [0] [0] [1] [] []
  dot_S1024x400_S400x200_S1024x200_1_0_0_1_n_n_wf : DotDims.WF S1024x400 S400x200 S1024x200 [1] [0] [0] [1] [] []
  dot_S1024x200_S200x4_S1024x4_1_0_0_1_n_n_wf : DotDims.WF S1024x200 S200x4 S1024x4 [1] [0] [0] [1] [] []
  dot_S1024x2_S2x200_S1024x200_1_0_0_1_n_n_wf : DotDims.WF S1024x2 S2x200 S1024x200 [1] [0] [0] [1] [] []
  dot_S1024x200_S200x400_S1024x400_1_0_0_1_n_n_wf : DotDims.WF S1024x200 S200x400 S1024x400 [1] [0] [0] [1] [] []
  dot_S1024x400_S400x784_S1024x784_1_0_0_1_n_n_wf : DotDims.WF S1024x400 S400x784 S1024x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S65536x2.size a
  hwx0_1 : ∀ i : grid0.Coords, EltTy.bits .f32 = 32 ∨ (Rect.block (s := S65536x2) S1024x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x400.size a ≤ S784x400.size a
  hwx0_2 : ∀ i : grid0.Coords, EltTy.bits .bf16 = 32 ∨ (Rect.block (s := S784x400) S784x400.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S400x400.size a ≤ S400x400.size a
  hwx0_3 : ∀ i : grid0.Coords, EltTy.bits .bf16 = 32 ∨ (Rect.block (s := S400x400) S400x400.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S400x200.size a ≤ S400x200.size a
  hwx0_4 : ∀ i : grid0.Coords, EltTy.bits .bf16 = 32 ∨ (Rect.block (s := S400x200) S400x200.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x4.size a ≤ S200x4.size a
  hwx0_5 : ∀ i : grid0.Coords, EltTy.bits .bf16 = 32 ∨ (Rect.block (s := S200x4) S200x4.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x200.size a ≤ S2x200.size a
  hwx0_6 : ∀ i : grid0.Coords, EltTy.bits .bf16 = 32 ∨ (Rect.block (s := S2x200) S2x200.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S200x400.size a ≤ S200x400.size a
  hwx0_7 : ∀ i : grid0.Coords, EltTy.bits .bf16 = 32 ∨ (Rect.block (s := S200x400) S200x400.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S400x400.size a ≤ S400x400.size a
  hwx0_8 : ∀ i : grid0.Coords, EltTy.bits .bf16 = 32 ∨ (Rect.block (s := S400x400) S400x400.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400x400.size a ≤ S400x400.size a
  hwx0_9 : ∀ i : grid0.Coords, EltTy.bits .bf16 = 32 ∨ (Rect.block (s := S400x400) S400x400.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S400x784.size a ≤ S400x784.size a
  hwx0_10 : ∀ i : grid0.Coords, EltTy.bits .bf16 = 32 ∨ (Rect.block (s := S400x784) S400x784.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x10.size a ≤ S1x10.size a
  hwx0_11 : ∀ i : grid0.Coords, EltTy.bits .f32 = 32 ∨ (Rect.block (s := S1x10) S1x10.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x784.size a ≤ S65536x784.size a
  hwx0_12 : ∀ i : grid0.Coords, EltTy.bits .f32 = 32 ∨ (Rect.block (s := S65536x784) S1024x784.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x2.size a ≤ S65536x2.size a
  hwx0_13 : ∀ i : grid0.Coords, EltTy.bits .f32 = 32 ∨ (Rect.block (s := S65536x2) S1024x2.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x2.size a ≤ S65536x2.size a
  hwx0_14 : ∀ i : grid0.Coords, EltTy.bits .f32 = 32 ∨ (Rect.block (s := S65536x2) S1024x2.size (cc0_transform_14 i) (hinb0_14 i)).WholeWords (EltTy.packing .f32)

variable [Facts₀]

def dot_S1024x784_S784x400_S1024x400_1_0_0_1_n_n : DotDims S1024x784 S784x400 S1024x400 where
  lhsContracting := [1]
  rhsContracting := [0]
  lhsNonContracting := [0]
  rhsNonContracting := [1]
  lhsBatch := []
  rhsBatch := []
  wf := dot_S1024x784_S784x400_S1024x400_1_0_0_1_n_n_wf
def dot_S1024x400_S400x400_S1024x400_1_0_0_1_n_n : DotDims S1024x400 S400x400 S1024x400 where
  lhsContracting := [1]
  rhsContracting := [0]
  lhsNonContracting := [0]
  rhsNonContracting := [1]
  lhsBatch := []
  rhsBatch := []
  wf := dot_S1024x400_S400x400_S1024x400_1_0_0_1_n_n_wf
def dot_S1024x400_S400x200_S1024x200_1_0_0_1_n_n : DotDims S1024x400 S400x200 S1024x200 where
  lhsContracting := [1]
  rhsContracting := [0]
  lhsNonContracting := [0]
  rhsNonContracting := [1]
  lhsBatch := []
  rhsBatch := []
  wf := dot_S1024x400_S400x200_S1024x200_1_0_0_1_n_n_wf
def dot_S1024x200_S200x4_S1024x4_1_0_0_1_n_n : DotDims S1024x200 S200x4 S1024x4 where
  lhsContracting := [1]
  rhsContracting := [0]
  lhsNonContracting := [0]
  rhsNonContracting := [1]
  lhsBatch := []
  rhsBatch := []
  wf := dot_S1024x200_S200x4_S1024x4_1_0_0_1_n_n_wf
def dot_S1024x2_S2x200_S1024x200_1_0_0_1_n_n : DotDims S1024x2 S2x200 S1024x200 where
  lhsContracting := [1]
  rhsContracting := [0]
  lhsNonContracting := [0]
  rhsNonContracting := [1]
  lhsBatch := []
  rhsBatch := []
  wf := dot_S1024x2_S2x200_S1024x200_1_0_0_1_n_n_wf
def dot_S1024x200_S200x400_S1024x400_1_0_0_1_n_n : DotDims S1024x200 S200x400 S1024x400 where
  lhsContracting := [1]
  rhsContracting := [0]
  lhsNonContracting := [0]
  rhsNonContracting := [1]
  lhsBatch := []
  rhsBatch := []
  wf := dot_S1024x200_S200x400_S1024x400_1_0_0_1_n_n_wf
def dot_S1024x400_S400x784_S1024x784_1_0_0_1_n_n : DotDims S1024x400 S400x784 S1024x784 where
  lhsContracting := [1]
  rhsContracting := [0]
  lhsNonContracting := [0]
  rhsNonContracting := [1]
  lhsBatch := []
  rhsBatch := []
  wf := dot_S1024x400_S400x784_S1024x784_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v100) S784x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v101) S400x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v102) S400x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v105) S200x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v106) S2x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v107) S200x400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v108) S400x400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v109) S400x400.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v110) S400x784.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v122) S1x10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v123_0) S1024x784.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v123_1) S1024x2.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v123_2) S1024x2.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x784 : Shape := ⟨2, ![65536, 784]⟩
abbrev S65536x2 : Shape := ⟨2, ![65536, 2]⟩
abbrev S400x784 : Shape := ⟨2, ![400, 784]⟩
abbrev S400x400 : Shape := ⟨2, ![400, 400]⟩
abbrev S200x400 : Shape := ⟨2, ![200, 400]⟩
abbrev S2x200 : Shape := ⟨2, ![2, 200]⟩
abbrev S200x2 : Shape := ⟨2, ![200, 2]⟩
abbrev S400x200 : Shape := ⟨2, ![400, 200]⟩
abbrev S784x400 : Shape := ⟨2, ![784, 400]⟩
abbrev S_ : Shape := ⟨0, ![]⟩
abbrev S65536x400 : Shape := ⟨2, ![65536, 400]⟩
abbrev S65536x200 : Shape := ⟨2, ![65536, 200]⟩

abbrev nBuf : Space → Nat
  | .hbm => 341
  | .vmem => 0
  | .smem => 0
  | _ => 0

abbrev hbmTy0_0 (i : Nat) : BufTy := match i % 128 with
  | 0 => ⟨S65536x784, .f32⟩
  | 1 => ⟨S65536x2, .f32⟩
  | 2 => ⟨S400x784, .f32⟩
  | 3 => ⟨S400x400, .f32⟩
  | 4 => ⟨S200x400, .f32⟩
  | 5 => ⟨S2x200, .f32⟩
  | 6 => ⟨S2x200, .f32⟩
  | 7 => ⟨S200x2, .f32⟩
  | 8 => ⟨S400x200, .f32⟩
  | 9 => ⟨S400x400, .f32⟩
  | 10 => ⟨S400x400, .f32⟩
  | 11 => ⟨S784x400, .f32⟩
  | 12 => ⟨S400x784, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S400x784, .f32⟩
  | 23 => ⟨S400x784, .f32⟩
  | 24 => ⟨S400x784, .f32⟩
  | 25 => ⟨S_, .f32⟩
  | 26 => ⟨S_, .f32⟩
  | 27 => ⟨S_, .f32⟩
  | 28 => ⟨S400x784, .f32⟩
  | 29 => ⟨S400x784, .f32⟩
  | 30 => ⟨S_, .f32⟩
  | 31 => ⟨S400x784, .f32⟩
  | 32 => ⟨S400x784, .f32⟩
  | 33 => ⟨S400x784, .f32⟩
  | 34 => ⟨S400x784, .f32⟩
  | 35 => ⟨S400x784, .f32⟩
  | 36 => ⟨S400x784, .f32⟩
  | 37 => ⟨S784x400, .f32⟩
  | 38 => ⟨S65536x400, .f32⟩
  | 39 => ⟨S_, .f32⟩
  | 40 => ⟨S65536x400, .f32⟩
  | 41 => ⟨S65536x400, .i1⟩
  | 42 => ⟨S_, .f32⟩
  | 43 => ⟨S65536x400, .f32⟩
  | 44 => ⟨S65536x400, .f32⟩
  | 45 => ⟨S65536x400, .f32⟩
  | 46 => ⟨S400x400, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S400x400, .f32⟩
  | 57 => ⟨S400x400, .f32⟩
  | 58 => ⟨S400x400, .f32⟩
  | 59 => ⟨S_, .f32⟩
  | 60 => ⟨S_, .f32⟩
  | 61 => ⟨S_, .f32⟩
  | 62 => ⟨S400x400, .f32⟩
  | 63 => ⟨S400x400, .f32⟩
  | 64 => ⟨S_, .f32⟩
  | 65 => ⟨S400x400, .f32⟩
  | 66 => ⟨S400x400, .f32⟩
  | 67 => ⟨S400x400, .f32⟩
  | 68 => ⟨S400x400, .f32⟩
  | 69 => ⟨S400x400, .f32⟩
  | 70 => ⟨S400x400, .f32⟩
  | 71 => ⟨S400x400, .f32⟩
  | 72 => ⟨S65536x400, .f32⟩
  | 73 => ⟨S_, .f32⟩
  | 74 => ⟨S65536x400, .f32⟩
  | 75 => ⟨S65536x400, .i1⟩
  | 76 => ⟨S_, .f32⟩
  | 77 => ⟨S65536x400, .f32⟩
  | 78 => ⟨S65536x400, .f32⟩
  | 79 => ⟨S65536x400, .f32⟩
  | 80 => ⟨S200x400, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S200x400, .f32⟩
  | 91 => ⟨S200x400, .f32⟩
  | 92 => ⟨S200x400, .f32⟩
  | 93 => ⟨S_, .f32⟩
  | 94 => ⟨S_, .f32⟩
  | 95 => ⟨S_, .f32⟩
  | 96 => ⟨S200x400, .f32⟩
  | 97 => ⟨S200x400, .f32⟩
  | 98 => ⟨S_, .f32⟩
  | 99 => ⟨S200x400, .f32⟩
  | 100 => ⟨S200x400, .f32⟩
  | 101 => ⟨S200x400, .f32⟩
  | 102 => ⟨S200x400, .f32⟩
  | 103 => ⟨S200x400, .f32⟩
  | 104 => ⟨S200x400, .f32⟩
  | 105 => ⟨S400x200, .f32⟩
  | 106 => ⟨S65536x200, .f32⟩
  | 107 => ⟨S_, .f32⟩
  | 108 => ⟨S65536x200, .f32⟩
  | 109 => ⟨S65536x200, .i1⟩
  | 110 => ⟨S_, .f32⟩
  | 111 => ⟨S65536x200, .f32⟩
  | 112 => ⟨S65536x200, .f32⟩
  | 113 => ⟨S65536x200, .f32⟩
  | 114 => ⟨S2x200, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S2x200, .f32⟩
  | 125 => ⟨S2x200, .f32⟩
  | 126 => ⟨S2x200, .f32⟩
  | 127 => ⟨S_, .f32⟩
  | _ => ⟨S65536x784, .f32⟩

abbrev hbmTy0_1 (i : Nat) : BufTy := match i % 128 with
  | 0 => ⟨S_, .f32⟩
  | 1 => ⟨S_, .f32⟩
  | 2 => ⟨S2x200, .f32⟩
  | 3 => ⟨S2x200, .f32⟩
  | 4 => ⟨S_, .f32⟩
  | 5 => ⟨S2x200, .f32⟩
  | 6 => ⟨S2x200, .f32⟩
  | 7 => ⟨S2x200, .f32⟩
  | 8 => ⟨S2x200, .f32⟩
  | 9 => ⟨S2x200, .f32⟩
  | 10 => ⟨S2x200, .f32⟩
  | 11 => ⟨S200x2, .f32⟩
  | 12 => ⟨S65536x2, .f32⟩
  | 13 => ⟨S2x200, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S2x200, .f32⟩
  | 24 => ⟨S2x200, .f32⟩
  | 25 => ⟨S2x200, .f32⟩
  | 26 => ⟨S_, .f32⟩
  | 27 => ⟨S_, .f32⟩
  | 28 => ⟨S_, .f32⟩
  | 29 => ⟨S2x200, .f32⟩
  | 30 => ⟨S2x200, .f32⟩
  | 31 => ⟨S_, .f32⟩
  | 32 => ⟨S2x200, .f32⟩
  | 33 => ⟨S2x200, .f32⟩
  | 34 => ⟨S2x200, .f32⟩
  | 35 => ⟨S2x200, .f32⟩
  | 36 => ⟨S2x200, .f32⟩
  | 37 => ⟨S2x200, .f32⟩
  | 38 => ⟨S200x2, .f32⟩
  | 39 => ⟨S65536x2, .f32⟩
  | 40 => ⟨S65536x2, .f32⟩
  | 41 => ⟨S65536x2, .f32⟩
  | 42 => ⟨S200x2, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S200x2, .f32⟩
  | 53 => ⟨S200x2, .f32⟩
  | 54 => ⟨S200x2, .f32⟩
  | 55 => ⟨S_, .f32⟩
  | 56 => ⟨S_, .f32⟩
  | 57 => ⟨S_, .f32⟩
  | 58 => ⟨S200x2, .f32⟩
  | 59 => ⟨S200x2, .f32⟩
  | 60 => ⟨S_, .f32⟩
  | 61 => ⟨S200x2, .f32⟩
  | 62 => ⟨S200x2, .f32⟩
  | 63 => ⟨S200x2, .f32⟩
  | 64 => ⟨S200x2, .f32⟩
  | 65 => ⟨S200x2, .f32⟩
  | 66 => ⟨S200x2, .f32⟩
  | 67 => ⟨S2x200, .f32⟩
  | 68 => ⟨S65536x200, .f32⟩
  | 69 => ⟨S_, .f32⟩
  | 70 => ⟨S65536x200, .f32⟩
  | 71 => ⟨S65536x200, .i1⟩
  | 72 => ⟨S_, .f32⟩
  | 73 => ⟨S65536x200, .f32⟩
  | 74 => ⟨S65536x200, .f32⟩
  | 75 => ⟨S65536x200, .f32⟩
  | 76 => ⟨S400x200, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S400x200, .f32⟩
  | 87 => ⟨S400x200, .f32⟩
  | 88 => ⟨S400x200, .f32⟩
  | 89 => ⟨S_, .f32⟩
  | 90 => ⟨S_, .f32⟩
  | 91 => ⟨S_, .f32⟩
  | 92 => ⟨S400x200, .f32⟩
  | 93 => ⟨S400x200, .f32⟩
  | 94 => ⟨S_, .f32⟩
  | 95 => ⟨S400x200, .f32⟩
  | 96 => ⟨S400x200, .f32⟩
  | 97 => ⟨S400x200, .f32⟩
  | 98 => ⟨S400x200, .f32⟩
  | 99 => ⟨S400x200, .f32⟩
  | 100 => ⟨S400x200, .f32⟩
  | 101 => ⟨S200x400, .f32⟩
  | 102 => ⟨S65536x400, .f32⟩
  | 103 => ⟨S_, .f32⟩
  | 104 => ⟨S65536x400, .f32⟩
  | 105 => ⟨S65536x400, .i1⟩
  | 106 => ⟨S_, .f32⟩
  | 107 => ⟨S65536x400, .f32⟩
  | 108 => ⟨S65536x400, .f32⟩
  | 109 => ⟨S65536x400, .f32⟩
  | 110 => ⟨S400x400, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S400x400, .f32⟩
  | 121 => ⟨S400x400, .f32⟩
  | 122 => ⟨S400x400, .f32⟩
  | 123 => ⟨S_, .f32⟩
  | 124 => ⟨S_, .f32⟩
  | 125 => ⟨S_, .f32⟩
  | 126 => ⟨S400x400, .f32⟩
  | 127 => ⟨S400x400, .f32⟩
  | _ => ⟨S65536x784, .f32⟩

abbrev hbmTy0_2 (i : Nat) : BufTy := match i % 128 with
  | 0 => ⟨S_, .f32⟩
  | 1 => ⟨S400x400, .f32⟩
  | 2 => ⟨S400x400, .f32⟩
  | 3 => ⟨S400x400, .f32⟩
  | 4 => ⟨S400x400, .f32⟩
  | 5 => ⟨S400x400, .f32⟩
  | 6 => ⟨S400x400, .f32⟩
  | 7 => ⟨S400x400, .f32⟩
  | 8 => ⟨S65536x400, .f32⟩
  | 9 => ⟨S_, .f32⟩
  | 10 => ⟨S65536x400, .f32⟩
  | 11 => ⟨S65536x400, .i1⟩
  | 12 => ⟨S_, .f32⟩
  | 13 => ⟨S65536x400, .f32⟩
  | 14 => ⟨S65536x400, .f32⟩
  | 15 => ⟨S65536x400, .f32⟩
  | 16 => ⟨S400x400, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S400x400, .f32⟩
  | 27 => ⟨S400x400, .f32⟩
  | 28 => ⟨S400x400, .f32⟩
  | 29 => ⟨S_, .f32⟩
  | 30 => ⟨S_, .f32⟩
  | 31 => ⟨S_, .f32⟩
  | 32 => ⟨S400x400, .f32⟩
  | 33 => ⟨S400x400, .f32⟩
  | 34 => ⟨S_, .f32⟩
  | 35 => ⟨S400x400, .f32⟩
  | 36 => ⟨S400x400, .f32⟩
  | 37 => ⟨S400x400, .f32⟩
  | 38 => ⟨S400x400, .f32⟩
  | 39 => ⟨S400x400, .f32⟩
  | 40 => ⟨S400x400, .f32⟩
  | 41 => ⟨S400x400, .f32⟩
  | 42 => ⟨S65536x400, .f32⟩
  | 43 => ⟨S_, .f32⟩
  | 44 => ⟨S65536x400, .f32⟩
  | 45 => ⟨S65536x400, .i1⟩
  | 46 => ⟨S_, .f32⟩
  | 47 => ⟨S65536x400, .f32⟩
  | 48 => ⟨S65536x400, .f32⟩
  | 49 => ⟨S65536x400, .f32⟩
  | 50 => ⟨S784x400, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S784x400, .f32⟩
  | 61 => ⟨S784x400, .f32⟩
  | 62 => ⟨S784x400, .f32⟩
  | 63 => ⟨S_, .f32⟩
  | 64 => ⟨S_, .f32⟩
  | 65 => ⟨S_, .f32⟩
  | 66 => ⟨S784x400, .f32⟩
  | 67 => ⟨S784x400, .f32⟩
  | 68 => ⟨S_, .f32⟩
  | 69 => ⟨S784x400, .f32⟩
  | 70 => ⟨S784x400, .f32⟩
  | 71 => ⟨S784x400, .f32⟩
  | 72 => ⟨S784x400, .f32⟩
  | 73 => ⟨S784x400, .f32⟩
  | 74 => ⟨S784x400, .f32⟩
  | 75 => ⟨S400x784, .f32⟩
  | 76 => ⟨S65536x784, .f32⟩
  | 77 => ⟨S65536x784, .f32⟩
  | 78 => ⟨S65536x784, .f32⟩
  | 79 => ⟨S_, .f32⟩
  | 80 => ⟨S65536x784, .f32⟩
  | 81 => ⟨S65536x784, .f32⟩
  | 82 => ⟨S_, .f32⟩
  | 83 => ⟨S65536x784, .f32⟩
  | 84 => ⟨S65536x784, .f32⟩
  | _ => ⟨S65536x784, .f32⟩

abbrev hbmTy (i : Nat) : BufTy := match i / 128 with
  | 0 => hbmTy0_0 i
  | 1 => hbmTy0_1 i
  | 2 => hbmTy0_2 i
  | _ => ⟨S65536x784, .f32⟩

abbrev bufTy : (tb : Table) → Fin (tcTables nBuf tb) → BufTy
  | .hbm, ⟨i, _⟩ => hbmTy i
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_cst_1 : Ref sig .tc := ⟨.hbm, 17, rfl⟩
abbrev main_call0_v0 : Ref sig .tc := ⟨.hbm, 18, rfl⟩
abbrev main_v3 : Ref sig .tc := ⟨.hbm, 19, rfl⟩
abbrev main_cst_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_5 : Ref sig .tc := ⟨.hbm, 39, rfl⟩
abbrev main_v15 : Ref sig .tc := ⟨.hbm, 40, rfl⟩
abbrev main_v16 : Ref sig .tc := ⟨.hbm, 41, rfl⟩
abbrev main_cst_6 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_7 : Ref sig .tc := ⟨.hbm, 47, rfl⟩
abbrev main_v21 : Ref sig .tc := ⟨.hbm, 48, rfl⟩
abbrev main_cst_8 : Ref sig .tc := ⟨.hbm, 49, rfl⟩
abbrev main_v22 : Ref sig .tc := ⟨.hbm, 50, rfl⟩
abbrev main_cst_9 : Ref sig .tc := ⟨.hbm, 51, rfl⟩
abbrev main_call4_v0 : Ref sig .tc := ⟨.hbm, 52, rfl⟩
abbrev main_v23 : Ref sig .tc := ⟨.hbm, 53, rfl⟩
abbrev main_cst_10 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_11 : Ref sig .tc := ⟨.hbm, 59, rfl⟩
abbrev main_cst_12 : Ref sig .tc := ⟨.hbm, 60, rfl⟩
abbrev main_call6_v0 : Ref sig .tc := ⟨.hbm, 61, rfl⟩
abbrev main_call6_v1 : Ref sig .tc := ⟨.hbm, 62, rfl⟩
abbrev main_call6_v2 : Ref sig .tc := ⟨.hbm, 63, rfl⟩
abbrev main_call6_v3 : Ref sig .tc := ⟨.hbm, 64, rfl⟩
abbrev main_call6_v4 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_13 : Ref sig .tc := ⟨.hbm, 73, rfl⟩
abbrev main_v35 : Ref sig .tc := ⟨.hbm, 74, rfl⟩
abbrev main_v36 : Ref sig .tc := ⟨.hbm, 75, rfl⟩
abbrev main_cst_14 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_15 : Ref sig .tc := ⟨.hbm, 81, rfl⟩
abbrev main_v41 : Ref sig .tc := ⟨.hbm, 82, rfl⟩
abbrev main_cst_16 : Ref sig .tc := ⟨.hbm, 83, rfl⟩
abbrev main_v42 : Ref sig .tc := ⟨.hbm, 84, rfl⟩
abbrev main_cst_17 : Ref sig .tc := ⟨.hbm, 85, rfl⟩
abbrev main_call8_v0 : Ref sig .tc := ⟨.hbm, 86, rfl⟩
abbrev main_v43 : Ref sig .tc := ⟨.hbm, 87, rfl⟩
abbrev main_cst_18 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_19 : Ref sig .tc := ⟨.hbm, 93, rfl⟩
abbrev main_cst_20 : Ref sig .tc := ⟨.hbm, 94, rfl⟩
abbrev main_call10_v0 : Ref sig .tc := ⟨.hbm, 95, rfl⟩
abbrev main_call10_v1 : Ref sig .tc := ⟨.hbm, 96, rfl⟩
abbrev main_call10_v2 : Ref sig .tc := ⟨.hbm, 97, rfl⟩
abbrev main_call10_v3 : Ref sig .tc := ⟨.hbm, 98, rfl⟩
abbrev main_call10_v4 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_21 : Ref sig .tc := ⟨.hbm, 107, rfl⟩
abbrev main_v55 : Ref sig .tc := ⟨.hbm, 108, rfl⟩
abbrev main_v56 : Ref sig .tc := ⟨.hbm, 109, rfl⟩
abbrev main_cst_22 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_23 : Ref sig .tc := ⟨.hbm, 115, rfl⟩
abbrev main_v61 : Ref sig .tc := ⟨.hbm, 116, rfl⟩
abbrev main_cst_24 : Ref sig .tc := ⟨.hbm, 117, rfl⟩
abbrev main_v62 : Ref sig .tc := ⟨.hbm, 118, rfl⟩
abbrev main_cst_25 : Ref sig .tc := ⟨.hbm, 119, rfl⟩
abbrev main_call12_v0 : Ref sig .tc := ⟨.hbm, 120, rfl⟩
abbrev main_v63 : Ref sig .tc := ⟨.hbm, 121, rfl⟩
abbrev main_cst_26 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_cst_27 : Ref sig .tc := ⟨.hbm, 127, rfl⟩
abbrev main_cst_28 : Ref sig .tc := ⟨.hbm, 128, rfl⟩
abbrev main_call14_v0 : Ref sig .tc := ⟨.hbm, 129, rfl⟩
abbrev main_call14_v1 : Ref sig .tc := ⟨.hbm, 130, rfl⟩
abbrev main_call14_v2 : Ref sig .tc := ⟨.hbm, 131, rfl⟩
abbrev main_call14_v3 : Ref sig .tc := ⟨.hbm, 132, rfl⟩
abbrev main_call14_v4 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_29 : Ref sig .tc := ⟨.hbm, 142, rfl⟩
abbrev main_v76 : Ref sig .tc := ⟨.hbm, 143, rfl⟩
abbrev main_cst_30 : Ref sig .tc := ⟨.hbm, 144, rfl⟩
abbrev main_v77 : Ref sig .tc := ⟨.hbm, 145, rfl⟩
abbrev main_cst_31 : Ref sig .tc := ⟨.hbm, 146, rfl⟩
abbrev main_call15_v0 : Ref sig .tc := ⟨.hbm, 147, rfl⟩
abbrev main_v78 : Ref sig .tc := ⟨.hbm, 148, rfl⟩
abbrev main_cst_32 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_33 : Ref sig .tc := ⟨.hbm, 154, rfl⟩
abbrev main_cst_34 : Ref sig .tc := ⟨.hbm, 155, rfl⟩
abbrev main_call17_v0 : Ref sig .tc := ⟨.hbm, 156, rfl⟩
abbrev main_call17_v1 : Ref sig .tc := ⟨.hbm, 157, rfl⟩
abbrev main_call17_v2 : Ref sig .tc := ⟨.hbm, 158, rfl⟩
abbrev main_call17_v3 : Ref sig .tc := ⟨.hbm, 159, rfl⟩
abbrev main_call17_v4 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_cst_35 : Ref sig .tc := ⟨.hbm, 171, rfl⟩
abbrev main_v93 : Ref sig .tc := ⟨.hbm, 172, rfl⟩
abbrev main_cst_36 : Ref sig .tc := ⟨.hbm, 173, rfl⟩
abbrev main_v94 : Ref sig .tc := ⟨.hbm, 174, rfl⟩
abbrev main_cst_37 : Ref sig .tc := ⟨.hbm, 175, rfl⟩
abbrev main_call18_v0 : Ref sig .tc := ⟨.hbm, 176, rfl⟩
abbrev main_v95 : Ref sig .tc := ⟨.hbm, 177, rfl⟩
abbrev main_cst_38 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_cst_39 : Ref sig .tc := ⟨.hbm, 183, rfl⟩
abbrev main_cst_40 : Ref sig .tc := ⟨.hbm, 184, rfl⟩
abbrev main_call20_v0 : Ref sig .tc := ⟨.hbm, 185, rfl⟩
abbrev main_call20_v1 : Ref sig .tc := ⟨.hbm, 186, rfl⟩
abbrev main_call20_v2 : Ref sig .tc := ⟨.hbm, 187, rfl⟩
abbrev main_call20_v3 : Ref sig .tc := ⟨.hbm, 188, rfl⟩
abbrev main_call20_v4 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_cst_41 : Ref sig .tc := ⟨.hbm, 197, rfl⟩
abbrev main_v107 : Ref sig .tc := ⟨.hbm, 198, rfl⟩
abbrev main_v108 : Ref sig .tc := ⟨.hbm, 199, rfl⟩
abbrev main_cst_42 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_cst_43 : Ref sig .tc := ⟨.hbm, 205, rfl⟩
abbrev main_v113 : Ref sig .tc := ⟨.hbm, 206, rfl⟩
abbrev main_cst_44 : Ref sig .tc := ⟨.hbm, 207, rfl⟩
abbrev main_v114 : Ref sig .tc := ⟨.hbm, 208, rfl⟩
abbrev main_cst_45 : Ref sig .tc := ⟨.hbm, 209, rfl⟩
abbrev main_call22_v0 : Ref sig .tc := ⟨.hbm, 210, rfl⟩
abbrev main_v115 : Ref sig .tc := ⟨.hbm, 211, rfl⟩
abbrev main_cst_46 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_cst_47 : Ref sig .tc := ⟨.hbm, 217, rfl⟩
abbrev main_cst_48 : Ref sig .tc := ⟨.hbm, 218, rfl⟩
abbrev main_call24_v0 : Ref sig .tc := ⟨.hbm, 219, rfl⟩
abbrev main_call24_v1 : Ref sig .tc := ⟨.hbm, 220, rfl⟩
abbrev main_call24_v2 : Ref sig .tc := ⟨.hbm, 221, rfl⟩
abbrev main_call24_v3 : Ref sig .tc := ⟨.hbm, 222, rfl⟩
abbrev main_call24_v4 : Ref sig .tc := ⟨.hbm, 223, rfl⟩
abbrev main_v120 : Ref sig .tc := ⟨.hbm, 224, rfl⟩
abbrev main_v121 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_cst_49 : Ref sig .tc := ⟨.hbm, 231, rfl⟩
abbrev main_v127 : Ref sig .tc := ⟨.hbm, 232, rfl⟩
abbrev main_v128 : Ref sig .tc := ⟨.hbm, 233, rfl⟩
abbrev main_cst_50 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_cst_51 : Ref sig .tc := ⟨.hbm, 239, rfl⟩
abbrev main_v133 : Ref sig .tc := ⟨.hbm, 240, rfl⟩
abbrev main_cst_52 : Ref sig .tc := ⟨.hbm, 241, rfl⟩
abbrev main_v134 : Ref sig .tc := ⟨.hbm, 242, rfl⟩
abbrev main_cst_53 : Ref sig .tc := ⟨.hbm, 243, rfl⟩
abbrev main_call26_v0 : Ref sig .tc := ⟨.hbm, 244, rfl⟩
abbrev main_v135 : Ref sig .tc := ⟨.hbm, 245, rfl⟩
abbrev main_cst_54 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_cst_55 : Ref sig .tc := ⟨.hbm, 251, rfl⟩
abbrev main_cst_56 : Ref sig .tc := ⟨.hbm, 252, rfl⟩
abbrev main_call28_v0 : Ref sig .tc := ⟨.hbm, 253, rfl⟩
abbrev main_call28_v1 : Ref sig .tc := ⟨.hbm, 254, rfl⟩
abbrev main_call28_v2 : Ref sig .tc := ⟨.hbm, 255, rfl⟩
abbrev main_call28_v3 : Ref sig .tc := ⟨.hbm, 256, rfl⟩
abbrev main_call28_v4 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩
abbrev main_v144 : Ref sig .tc := ⟨.hbm, 262, rfl⟩
abbrev main_v145 : Ref sig .tc := ⟨.hbm, 263, rfl⟩
abbrev main_v146 : Ref sig .tc := ⟨.hbm, 264, rfl⟩
abbrev main_cst_57 : Ref sig .tc := ⟨.hbm, 265, rfl⟩
abbrev main_v147 : Ref sig .tc := ⟨.hbm, 266, rfl⟩
abbrev main_v148 : Ref sig .tc := ⟨.hbm, 267, rfl⟩
abbrev main_cst_58 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_v152 : Ref sig .tc := ⟨.hbm, 272, rfl⟩
abbrev main_cst_59 : Ref sig .tc := ⟨.hbm, 273, rfl⟩
abbrev main_v153 : Ref sig .tc := ⟨.hbm, 274, rfl⟩
abbrev main_cst_60 : Ref sig .tc := ⟨.hbm, 275, rfl⟩
abbrev main_v154 : Ref sig .tc := ⟨.hbm, 276, rfl⟩
abbrev main_cst_61 : Ref sig .tc := ⟨.hbm, 277, rfl⟩
abbrev main_call30_v0 : Ref sig .tc := ⟨.hbm, 278, rfl⟩
abbrev main_v155 : Ref sig .tc := ⟨.hbm, 279, rfl⟩
abbrev main_cst_62 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_cst_63 : Ref sig .tc := ⟨.hbm, 285, rfl⟩
abbrev main_cst_64 : Ref sig .tc := ⟨.hbm, 286, rfl⟩
abbrev main_call32_v0 : Ref sig .tc := ⟨.hbm, 287, rfl⟩
abbrev main_call32_v1 : Ref sig .tc := ⟨.hbm, 288, rfl⟩
abbrev main_call32_v2 : Ref sig .tc := ⟨.hbm, 289, rfl⟩
abbrev main_call32_v3 : Ref sig .tc := ⟨.hbm, 290, rfl⟩
abbrev main_call32_v4 : Ref sig .tc := ⟨.hbm, 291, rfl⟩
abbrev main_v160 : Ref sig .tc := ⟨.hbm, 292, rfl⟩
abbrev main_v161 : Ref sig .tc := ⟨.hbm, 293, rfl⟩
abbrev main_v162 : Ref sig .tc := ⟨.hbm, 294, rfl⟩
abbrev main_v163 : Ref sig .tc := ⟨.hbm, 295, rfl⟩
abbrev main_v164 : Ref sig .tc := ⟨.hbm, 296, rfl⟩
abbrev main_v165 : Ref sig .tc := ⟨.hbm, 297, rfl⟩
abbrev main_v166 : Ref sig .tc := ⟨.hbm, 298, rfl⟩
abbrev main_cst_65 : Ref sig .tc := ⟨.hbm, 299, rfl⟩
abbrev main_v167 : Ref sig .tc := ⟨.hbm, 300, rfl⟩
abbrev main_v168 : Ref sig .tc := ⟨.hbm, 301, rfl⟩
abbrev main_cst_66 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_cst_67 : Ref sig .tc := ⟨.hbm, 307, rfl⟩
abbrev main_v173 : Ref sig .tc := ⟨.hbm, 308, rfl⟩
abbrev main_cst_68 : Ref sig .tc := ⟨.hbm, 309, rfl⟩
abbrev main_v174 : Ref sig .tc := ⟨.hbm, 310, rfl⟩
abbrev main_cst_69 : Ref sig .tc := ⟨.hbm, 311, rfl⟩
abbrev main_call34_v0 : Ref sig .tc := ⟨.hbm, 312, rfl⟩
abbrev main_v175 : Ref sig .tc := ⟨.hbm, 313, rfl⟩
abbrev main_cst_70 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_v179 : Ref sig .tc := ⟨.hbm, 318, rfl⟩
abbrev main_cst_71 : Ref sig .tc := ⟨.hbm, 319, rfl⟩
abbrev main_cst_72 : Ref sig .tc := ⟨.hbm, 320, rfl⟩
abbrev main_call36_v0 : Ref sig .tc := ⟨.hbm, 321, rfl⟩
abbrev main_call36_v1 : Ref sig .tc := ⟨.hbm, 322, rfl⟩
abbrev main_call36_v2 : Ref sig .tc := ⟨.hbm, 323, rfl⟩
abbrev main_call36_v3 : Ref sig .tc := ⟨.hbm, 324, rfl⟩
abbrev main_call36_v4 : Ref sig .tc := ⟨.hbm, 325, rfl⟩
abbrev main_v180 : Ref sig .tc := ⟨.hbm, 326, rfl⟩
abbrev main_v181 : Ref sig .tc := ⟨.hbm, 327, rfl⟩
abbrev main_v182 : Ref sig .tc := ⟨.hbm, 328, rfl⟩
abbrev main_v183 : Ref sig .tc := ⟨.hbm, 329, rfl⟩
abbrev main_v184 : Ref sig .tc := ⟨.hbm, 330, rfl⟩
abbrev main_v185 : Ref sig .tc := ⟨.hbm, 331, rfl⟩
abbrev main_v186 : Ref sig .tc := ⟨.hbm, 332, rfl⟩
abbrev main_v187 : Ref sig .tc := ⟨.hbm, 333, rfl⟩
abbrev main_v188 : Ref sig .tc := ⟨.hbm, 334, rfl⟩
abbrev main_cst_73 : Ref sig .tc := ⟨.hbm, 335, rfl⟩
abbrev main_v189 : Ref sig .tc := ⟨.hbm, 336, rfl⟩
abbrev main_v190 : Ref sig .tc := ⟨.hbm, 337, rfl⟩
abbrev main_cst_74 : Ref sig .tc := ⟨.hbm, 338, rfl⟩
abbrev main_v191 : Ref sig .tc := ⟨.hbm, 339, rfl⟩
abbrev main_v192 : Ref sig .tc := ⟨.hbm, 340, rfl⟩

abbrev nD : Nat := 1
abbrev τ : Topo := Topo.v7x

variable {F : FTy → Type} [FloatOps F]

class Facts₀ : Prop where
  reducesTo_S400x784_S_d0_1 : S400x784.ReducesTo [0, 1] S_
  h_S_ : 0 < S_.numel
  bcast_S_S400x784 : S_.BroadcastsInDim S400x784 (![] : Fin 0 → Fin S400x784.rank)
  transposes_S400x784_S784x400_1_0 : S400x784.Transposes [1, 0] S784x400
  bcast_S_S65536x400 : S_.BroadcastsInDim S65536x400 (![] : Fin 0 → Fin S65536x400.rank)
  reducesTo_S400x400_S_d0_1 : S400x400.ReducesTo [0, 1] S_
  bcast_S_S400x400 : S_.BroadcastsInDim S400x400 (![] : Fin 0 → Fin S400x400.rank)
  transposes_S400x400_S400x400_1_0 : S400x400.Transposes [1, 0] S400x400
  reducesTo_S200x400_S_d0_1 : S200x400.ReducesTo [0, 1] S_
  bcast_S_S200x400 : S_.BroadcastsInDim S200x400 (![] : Fin 0 → Fin S200x400.rank)
  transposes_S200x400_S400x200_1_0 : S200x400.Transposes [1, 0] S400x200
  bcast_S_S65536x200 : S_.BroadcastsInDim S65536x200 (![] : Fin 0 → Fin S65536x200.rank)
  reducesTo_S2x200_S_d0_1 : S2x200.ReducesTo [0, 1] S_
  bcast_S_S2x200 : S_.BroadcastsInDim S2x200 (![] : Fin 0 → Fin S2x200.rank)
  transposes_S2x200_S200x2_1_0 : S2x200.Transposes [1, 0] S200x2
  reducesTo_S200x2_S_d0_1 : S200x2.ReducesTo [0, 1] S_
  bcast_S_S200x2 : S_.BroadcastsInDim S200x2 (![] : Fin 0 → Fin S200x2.rank)
  transposes_S200x2_S2x200_1_0 : S200x2.Transposes [1, 0] S2x200
  reducesTo_S400x200_S_d0_1 : S400x200.ReducesTo [0, 1] S_
  bcast_S_S400x200 : S_.BroadcastsInDim S400x200 (![] : Fin 0 → Fin S400x200.rank)
  transposes_S400x200_S200x400_1_0 : S400x200.Transposes [1, 0] S200x400
  reducesTo_S784x400_S_d0_1 : S784x400.ReducesTo [0, 1] S_
  bcast_S_S784x400 : S_.BroadcastsInDim S784x400 (![] : Fin 0 → Fin S784x400.rank)
  transposes_S784x400_S400x784_1_0 : S784x400.Transposes [1, 0] S400x784
  bcast_S_S65536x784 : S_.BroadcastsInDim S65536x784 (![] : Fin 0 → Fin S65536x784.rank)
  dot_S65536x784_S784x400_S65536x400_1_0_0_1_n_n_wf : DotDims.WF S65536x784 S784x400 S65536x400 [1] [0] [0] [1] [] []
  dot_S65536x400_S400x400_S65536x400_1_0_0_1_n_n_wf : DotDims.WF S65536x400 S400x400 S65536x400 [1] [0] [0] [1] [] []
  dot_S65536x400_S400x200_S65536x200_1_0_0_1_n_n_wf : DotDims.WF S65536x400 S400x200 S65536x200 [1] [0] [0] [1] [] []
  dot_S65536x200_S200x2_S65536x2_1_0_0_1_n_n_wf : DotDims.WF S65536x200 S200x2 S65536x2 [1] [0] [0] [1] [] []
  dot_S65536x2_S2x200_S65536x200_1_0_0_1_n_n_wf : DotDims.WF S65536x2 S2x200 S65536x200 [1] [0] [0] [1] [] []
  dot_S65536x200_S200x400_S65536x400_1_0_0_1_n_n_wf : DotDims.WF S65536x200 S200x400 S65536x400 [1] [0] [0] [1] [] []
  dot_S65536x400_S400x784_S65536x784_1_0_0_1_n_n_wf : DotDims.WF S65536x400 S400x784 S65536x784 [1] [0] [0] [1] [] []

variable [Facts₀]

def dot_S65536x784_S784x400_S65536x400_1_0_0_1_n_n : DotDims S65536x784 S784x400 S65536x400 where
  lhsContracting := [1]
  rhsContracting := [0]
  lhsNonContracting := [0]
  rhsNonContracting := [1]
  lhsBatch := []
  rhsBatch := []
  wf := dot_S65536x784_S784x400_S65536x400_1_0_0_1_n_n_wf
def dot_S65536x400_S400x400_S65536x400_1_0_0_1_n_n : DotDims S65536x400 S400x400 S65536x400 where
  lhsContracting := [1]
  rhsContracting := [0]
  lhsNonContracting := [0]
  rhsNonContracting := [1]
  lhsBatch := []
  rhsBatch := []
  wf := dot_S65536x400_S400x400_S65536x400_1_0_0_1_n_n_wf
def dot_S65536x400_S400x200_S65536x200_1_0_0_1_n_n : DotDims S65536x400 S400x200 S65536x200 where
  lhsContracting := [1]
  rhsContracting := [0]
  lhsNonContracting := [0]
  rhsNonContracting := [1]
  lhsBatch := []
  rhsBatch := []
  wf := dot_S65536x400_S400x200_S65536x200_1_0_0_1_n_n_wf
def dot_S65536x200_S200x2_S65536x2_1_0_0_1_n_n : DotDims S65536x200 S200x2 S65536x2 where
  lhsContracting := [1]
  rhsContracting := [0]
  lhsNonContracting := [0]
  rhsNonContracting := [1]
  lhsBatch := []
  rhsBatch := []
  wf := dot_S65536x200_S200x2_S65536x2_1_0_0_1_n_n_wf
def dot_S65536x2_S2x200_S65536x200_1_0_0_1_n_n : DotDims S65536x2 S2x200 S65536x200 where
  lhsContracting := [1]
  rhsContracting := [0]
  lhsNonContracting := [0]
  rhsNonContracting := [1]
  lhsBatch := []
  rhsBatch := []
  wf := dot_S65536x2_S2x200_S65536x200_1_0_0_1_n_n_wf
def dot_S65536x200_S200x400_S65536x400_1_0_0_1_n_n : DotDims S65536x200 S200x400 S65536x400 where
  lhsContracting := [1]
  rhsContracting := [0]
  lhsNonContracting := [0]
  rhsNonContracting := [1]
  lhsBatch := []
  rhsBatch := []
  wf := dot_S65536x200_S200x400_S65536x400_1_0_0_1_n_n_wf
def dot_S65536x400_S400x784_S65536x784_1_0_0_1_n_n : DotDims S65536x400 S400x784 S65536x784 where
  lhsContracting := [1]
  rhsContracting := [0]
  lhsNonContracting := [0]
  rhsNonContracting := [1]
  lhsBatch := []
  rhsBatch := []
  wf := dot_S65536x400_S400x784_S65536x784_1_0_0_1_n_n_wf

class Facts : Prop extends Facts₀ where

variable [Facts]
-- ==== Proof.KernelHost.lean ====
/-
  The host side of `Kernel`'s frame. @main is sixty-one stretches of host operations (the ten weight
  quantizations: absolute value, mean, clamp, reciprocal, scaling, rounding to the nearest even integer, clipping to
  [-1, 1]; the transposes; the stacking of the ten scales into a row) followed by the one region. Here: the contents
  every buffer holds when the region is entered (`V`), that @main is those stretches and then the region (`hmain`),
  that no host operation writes an argument array (`V_main_argK`), each window's block at a grid point (`iblk`), that
  an input window's staging buffer holds its block at every point whether or not the pipeline fetched it there, and
  that a run ending in the library's frame post leaves the twelve argument arrays as they were launched (`frame_of`).
-/
import proofs.«175214_j61469571940629_2_alg».proof.Proof.Gen.Kernel.Launch
import proofs.«175214_j61469571940629_2_alg».proof.Proof.Gen.Kernel.Skeleton
import proofs.«175214_j61469571940629_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The list of the stretches of host operations before the region, in order. -/
abbrev prefixes : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60]

/-- Core `c`'s TensorCore buffers when the region is entered: the launch memory after every host stretch. -/
abbrev V (c : Dev nD) (b : Ref sig .tc) : Buf (Elt F) ((c : Thread nD τ).loc b) :=
  StableHlo.after (List.flatten (prefixes (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor

/-- @main is the host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixes (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh, hostOps0_59_fresh, hostOps0_60_fresh⟩) main_chain

/-- No host operation writes `main_arg0` (each writes only its own result buffer): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg1` (each writes only its own result buffer): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg2` (each writes only its own result buffer): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg3` (each writes only its own result buffer): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg4` (each writes only its own result buffer): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg5` (each writes only its own result buffer): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg6` (each writes only its own result buffer): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg7` (each writes only its own result buffer): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg8` (each writes only its own result buffer): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg9` (each writes only its own result buffer): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg10` (each writes only its own result buffer): the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg11` (each writes only its own result buffer): the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (where it is not fetched the
    block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (where it is not fetched the
    block index has not moved since the last fetch). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (where it is not fetched the
    block index has not moved since the last fetch). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (where it is not fetched the
    block index has not moved since the last fetch). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (where it is not fetched the
    block index has not moved since the last fetch). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (where it is not fetched the
    block index has not moved since the last fetch). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (where it is not fetched the
    block index has not moved since the last fetch). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (where it is not fetched the
    block index has not moved since the last fetch). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (where it is not fetched the
    block index has not moved since the last fetch). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (where it is not fetched the
    block index has not moved since the last fetch). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not (where it is not fetched the
    block index has not moved since the last fetch). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or not (where it is not fetched the
    block index has not moved since the last fetch). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run ending in the library's frame post leaves every argument array as launched: the two staged arguments (the
    batch rows and the noise) are input windows' arrays, which the pipeline only reads; the ten weight matrices are
    staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

end Cert.Kernel.Hand

end
-- ==== Proof.KernelBody.lean ====
/-
  The kernel body of `Kernel` run once on whole staging buffers. The body loads the batch tile, the noise tile, the
  ten ternary weight matrices and the ten scales, computes the encoder, the reparameterised latent and the decoder, and
  stores three blocks: the reconstruction, the mean and the log-variance. Here each stored block is named as a function
  of the twelve input blocks (`xhatBlk`, `meanBlk`, `logvarBlk`, over the skeleton's payloads), and the body's triple
  says that the inputs are left as they were and each output buffer ends holding exactly its one whole-block store.
-/
import proofs.«175214_j61469571940629_2_alg».proof.Proof.Gen.Kernel.Launch
import proofs.«175214_j61469571940629_2_alg».proof.Proof.Gen.Kernel.Skeleton
import proofs.«175214_j61469571940629_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body loads and stores through -/

abbrev rx : Rect S1024x784 := Rect.unit (s := S1024x784) ![0, 0] S1024x784.size inb_S1024x784_S1024x784_0_0
abbrev re : Rect S1024x2 := Rect.unit (s := S1024x2) ![0, 0] S1024x2.size inb_S1024x2_S1024x2_0_0
abbrev rw2 : Rect S784x400 := Rect.unit (s := S784x400) ![0, 0] S784x400.size inb_S784x400_S784x400_0_0
abbrev rw3 : Rect S400x400 := Rect.unit (s := S400x400) ![0, 0] S400x400.size inb_S400x400_S400x400_0_0
abbrev rw4 : Rect S400x200 := Rect.unit (s := S400x200) ![0, 0] S400x200.size inb_S400x200_S400x200_0_0
abbrev rw5 : Rect S200x4 := Rect.unit (s := S200x4) ![0, 0] S200x4.size inb_S200x4_S200x4_0_0
abbrev rw6 : Rect S2x200 := Rect.unit (s := S2x200) ![0, 0] S2x200.size inb_S2x200_S2x200_0_0
abbrev rw7 : Rect S200x400 := Rect.unit (s := S200x400) ![0, 0] S200x400.size inb_S200x400_S200x400_0_0
abbrev rw10 : Rect S400x784 := Rect.unit (s := S400x784) ![0, 0] S400x784.size inb_S400x784_S400x784_0_0
abbrev rs0 : Rect S1x10 := Rect.unit (s := S1x10) ![0, 0] S1x1.size inb_S1x10_S1x1_0_0
abbrev rs1 : Rect S1x10 := Rect.unit (s := S1x10) ![0, 1] S1x1.size inb_S1x10_S1x1_0_1
abbrev rs2 : Rect S1x10 := Rect.unit (s := S1x10) ![0, 2] S1x1.size inb_S1x10_S1x1_0_2
abbrev rs3 : Rect S1x10 := Rect.unit (s := S1x10) ![0, 3] S1x1.size inb_S1x10_S1x1_0_3
abbrev rs4 : Rect S1x10 := Rect.unit (s := S1x10) ![0, 4] S1x1.size inb_S1x10_S1x1_0_4
abbrev rs5 : Rect S1x10 := Rect.unit (s := S1x10) ![0, 5] S1x1.size inb_S1x10_S1x1_0_5
abbrev rs6 : Rect S1x10 := Rect.unit (s := S1x10) ![0, 6] S1x1.size inb_S1x10_S1x1_0_6
abbrev rs7 : Rect S1x10 := Rect.unit (s := S1x10) ![0, 7] S1x1.size inb_S1x10_S1x1_0_7
abbrev rs8 : Rect S1x10 := Rect.unit (s := S1x10) ![0, 8] S1x1.size inb_S1x10_S1x1_0_8
abbrev rs9 : Rect S1x10 := Rect.unit (s := S1x10) ![0, 9] S1x1.size inb_S1x10_S1x1_0_9

/-! ## What the body stores, from the input blocks -/

/-- The third encoder layer before its activation: the batch tile through three scaled ternary products, the first two
    followed by the leaky rectifier. -/
def enc3 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x200 .f32 :=
  k0_pay2 (View.ld x0 rx) (View.ld x2 rw2) (View.ld x11 rs0) (View.ld x3 rw3) (View.ld x11 rs1) (View.ld x4 rw4) (View.ld x11 rs2)
/-- Where that layer is non-negative (the rectifier's choice). -/
def enc3Mask (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : IVec S1024x200 1 :=
  k0_pay3 (View.ld x0 rx) (View.ld x2 rw2) (View.ld x11 rs0) (View.ld x3 rw3) (View.ld x11 rs1) (View.ld x4 rw4) (View.ld x11 rs2)
/-- The mean block: the first two columns of the merged head product, scaled. -/
def meanBlk (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x2 .f32 :=
  k0_pay5 (enc3 x0 x1 x2 x3 x4 x5 x6 x7 x8 x9 x10 x11) (enc3Mask x0 x1 x2 x3 x4 x5 x6 x7 x8 x9 x10 x11) (View.ld x5 rw5) (View.ld x11 rs3)
/-- The log-variance block: the last two columns of the merged head product, scaled. -/
def logvarBlk (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x2 .f32 :=
  k0_pay6 (enc3 x0 x1 x2 x3 x4 x5 x6 x7 x8 x9 x10 x11) (enc3Mask x0 x1 x2 x3 x4 x5 x6 x7 x8 x9 x10 x11) (View.ld x5 rw5) (View.ld x11 rs4)
/-- The second decoder product (unscaled): the latent `mean + logvar · noise` through the first decoder layer and its
    rectifier, times the second decoder matrix. -/
def dec2 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x400 .f32 :=
  k0_pay7 (enc3 x0 x1 x2 x3 x4 x5 x6 x7 x8 x9 x10 x11) (enc3Mask x0 x1 x2 x3 x4 x5 x6 x7 x8 x9 x10 x11) (View.ld x5 rw5) (View.ld x11 rs3) (View.ld x11 rs4) (View.ld x1 re) (View.ld x6 rw6) (View.ld x11 rs5) (View.ld x7 rw7)
/-- The last decoder product (unscaled). -/
def dec5 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x784 .f32 :=
  k0_pay8 (dec2 x0 x1 x2 x3 x4 x5 x6 x7 x8 x9 x10 x11) (View.ld x11 rs6) (View.ld x8 rw3) (View.ld x11 rs7) (View.ld x9 rw3) (View.ld x11 rs8) (View.ld x10 rw10)
/-- The reconstruction block: the logistic function of the scaled last product. -/
def xhatBlk (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x784 .f32 :=
  k0_pay1 (dec5 x0 x1 x2 x3 x4 x5 x6 x7 x8 x9 x10 x11) (View.ld x11 rs9)

/-- The reconstruction window's staging buffer after the body: its one whole-block store. -/
def out0_12 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : Vec F S1024x784 .f32 :=
  View.canon [⟨rx, xhatBlk x0 x1 x2 x3 x4 x5 x6 x7 x8 x9 x10 x11⟩]
/-- The mean window's staging buffer after the body. -/
def out0_13 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : Vec F S1024x2 .f32 :=
  View.canon [⟨re, meanBlk x0 x1 x2 x3 x4 x5 x6 x7 x8 x9 x10 x11⟩]
/-- The log-variance window's staging buffer after the body. -/
def out0_14 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : Vec F S1024x2 .f32 :=
  View.canon [⟨re, logvarBlk x0 x1 x2 x3 x4 x5 x6 x7 x8 x9 x10 x11⟩]

/-- A whole-block store covers its buffer. -/
theorem cover0_12 (p0 : Vec F S1024x784 .f32) (y : S1024x784.Idx) :
    ∃ pc ∈ ([⟨rx, p0⟩] : List (View.Piece (Elt F) S1024x784 .f32)), y ∈ pc.1.set :=
  View.cover_of_tiled [⟨rx, p0⟩] S1024x784.size (by rfl) y
theorem cover0_13 (p0 : Vec F S1024x2 .f32) (y : S1024x2.Idx) :
    ∃ pc ∈ ([⟨re, p0⟩] : List (View.Piece (Elt F) S1024x2 .f32)), y ∈ pc.1.set :=
  View.cover_of_tiled [⟨re, p0⟩] S1024x2.size (by rfl) y

/-! ## The body's triple -/

set_option maxHeartbeats 4000000 in
/-- The body on whole staging memrefs, the inputs' at contents `xW` and the outputs' at anything, runs to the
    continuation holding the inputs' as they were and each output's at its stored block. -/
theorem sound_kernel (c : Dev nD) (E : Set ℕ) (i : grid0.Coords) (arg1 : Memref sig .tc .vmem S1024x784 .f32) (harg1 : arg1.IsWhole) (arg2 : Memref sig .tc .vmem S1024x2 .f32) (harg2 : arg2.IsWhole) (arg3 : Memref sig .tc .vmem S784x400 .bf16) (harg3 : arg3.IsWhole) (arg4 : Memref sig .tc .vmem S400x400 .bf16) (harg4 : arg4.IsWhole) (arg5 : Memref sig .tc .vmem S400x200 .bf16) (harg5 : arg5.IsWhole) (arg6 : Memref sig .tc .vmem S200x4 .bf16) (harg6 : arg6.IsWhole) (arg7 : Memref sig .tc .vmem S2x200 .bf16) (harg7 : arg7.IsWhole) (arg8 : Memref sig .tc .vmem S200x400 .bf16) (harg8 : arg8.IsWhole) (arg9 : Memref sig .tc .vmem S400x400 .bf16) (harg9 : arg9.IsWhole) (arg10 : Memref sig .tc .vmem S400x400 .bf16) (harg10 : arg10.IsWhole) (arg11 : Memref sig .tc .vmem S400x784 .bf16) (harg11 : arg11.IsWhole) (arg12 : Memref sig .tc .vmem S1x10 .f32) (harg12 : arg12.IsWhole) (arg13 : Memref sig .tc .vmem S1024x784 .f32) (harg13 : arg13.IsWhole) (arg14 : Memref sig .tc .vmem S1024x2 .f32) (harg14 : arg14.IsWhole) (arg15 : Memref sig .tc .vmem S1024x2 .f32) (harg15 : arg15.IsWhole)
    (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11) ∗ owns (c : Thread nD τ) arg15 fullShare (out0_14 x0 x1 x2 x3 x4 x5 x6 x7 x8 x9 x10 x11)) -∗ K ⟨⟩))
      ⊢ wp frame (wpE (defs₀ (F := F)) Variants.none c none) E (cc0__vae_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__vae_kernel_eq_skeleton]; unfold cc0__vae_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_13 _)

end Cert.Kernel.Hand

end
-- ==== Proof.KernelRun.lean ====
/-
  The frame of `Kernel`: the pipeline's proof data (every window's array as the region finds it; after the body at a
  grid point each input's staging buffer still at its block and each output's at the block the body stored), the body
  obligation at a generic point, the run of @main to the library's frame post, and the frame claim: every weakly fair
  execution terminates without a fault and leaves the twelve argument arrays unchanged.
-/
import proofs.«175214_j61469571940629_2_alg».proof.Proof.KernelHost
import proofs.«175214_j61469571940629_2_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- The body at any point: the inputs' staging buffers hold their blocks, so the body's triple applies; the invariant
    and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Hand

end
-- ==== Proof.KernelIdealHost.lean ====
/-
  The host side of `KernelIdeal`'s frame. @main is sixty-one stretches of host operations (the ten weight
  quantizations: absolute value, mean, clamp, reciprocal, scaling, rounding to the nearest even integer, clipping to
  [-1, 1]; the transposes; the stacking of the ten scales into a row) followed by the one region. Here: the contents
  every buffer holds when the region is entered (`V`), that @main is those stretches and then the region (`hmain`),
  that no host operation writes an argument array (`V_main_argK`), each window's block at a grid point (`iblk`), that
  an input window's staging buffer holds its block at every point whether or not the pipeline fetched it there, and
  that a run ending in the library's frame post leaves the twelve argument arrays as they were launched (`frame_of`).
-/
import proofs.«175214_j61469571940629_2_alg».proof.Proof.Gen.KernelIdeal.Launch
import proofs.«175214_j61469571940629_2_alg».proof.Proof.Gen.KernelIdeal.Skeleton
import proofs.«175214_j61469571940629_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The list of the stretches of host operations before the region, in order. -/
abbrev prefixes : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60]

/-- Core `c`'s TensorCore buffers when the region is entered: the launch memory after every host stretch. -/
abbrev V (c : Dev nD) (b : Ref sig .tc) : Buf (Elt F) ((c : Thread nD τ).loc b) :=
  StableHlo.after (List.flatten (prefixes (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor

/-- @main is the host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixes (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh, hostOps0_59_fresh, hostOps0_60_fresh⟩) main_chain

/-- No host operation writes `main_arg0` (each writes only its own result buffer): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg1` (each writes only its own result buffer): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg2` (each writes only its own result buffer): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg3` (each writes only its own result buffer): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg4` (each writes only its own result buffer): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg5` (each writes only its own result buffer): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg6` (each writes only its own result buffer): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg7` (each writes only its own result buffer): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg8` (each writes only its own result buffer): the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg9` (each writes only its own result buffer): the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg10` (each writes only its own result buffer): the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg11` (each writes only its own result buffer): the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [prefixes, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (where it is not fetched the
    block index has not moved since the last fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (where it is not fetched the
    block index has not moved since the last fetch). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (where it is not fetched the
    block index has not moved since the last fetch). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (where it is not fetched the
    block index has not moved since the last fetch). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (where it is not fetched the
    block index has not moved since the last fetch). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (where it is not fetched the
    block index has not moved since the last fetch). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (where it is not fetched the
    block index has not moved since the last fetch). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (where it is not fetched the
    block index has not moved since the last fetch). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (where it is not fetched the
    block index has not moved since the last fetch). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (where it is not fetched the
    block index has not moved since the last fetch). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not (where it is not fetched the
    block index has not moved since the last fetch). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or not (where it is not fetched the
    block index has not moved since the last fetch). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run ending in the library's frame post leaves every argument array as launched: the two staged arguments (the
    batch rows and the noise) are input windows' arrays, which the pipeline only reads; the ten weight matrices are
    staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

end Cert.KernelIdeal.Hand

end
-- ==== Proof.KernelIdealBody.lean ====
/-
  The kernel body of `KernelIdeal` run once on whole staging buffers. The body loads the batch tile, the noise tile, the
  ten ternary weight matrices and the ten scales, computes the encoder, the reparameterised latent and the decoder, and
  stores three blocks: the reconstruction, the mean and the log-variance. Here each stored block is named as a function
  of the twelve input blocks (`xhatBlk`, `meanBlk`, `logvarBlk`, over the skeleton's payloads), and the body's triple
  says that the inputs are left as they were and each output buffer ends holding exactly its one whole-block store.
-/
import proofs.«175214_j61469571940629_2_alg».proof.Proof.Gen.KernelIdeal.Launch
import proofs.«175214_j61469571940629_2_alg».proof.Proof.Gen.KernelIdeal.Skeleton
import proofs.«175214_j61469571940629_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body loads and stores through -/

abbrev rx : Rect S1024x784 := Rect.unit (s := S1024x784) ![0, 0] S1024x784.size inb_S1024x784_S1024x784_0_0
abbrev re : Rect S1024x2 := Rect.unit (s := S1024x2) ![0, 0] S1024x2.size inb_S1024x2_S1024x2_0_0
abbrev rw2 : Rect S784x400 := Rect.unit (s := S784x400) ![0, 0] S784x400.size inb_S784x400_S784x400_0_0
abbrev rw3 : Rect S400x400 := Rect.unit (s := S400x400) ![0, 0] S400x400.size inb_S400x400_S400x400_0_0
abbrev rw4 : Rect S400x200 := Rect.unit (s := S400x200) ![0, 0] S400x200.size inb_S400x200_S400x200_0_0
abbrev rw5 : Rect S200x4 := Rect.unit (s := S200x4) ![0, 0] S200x4.size inb_S200x4_S200x4_0_0
abbrev rw6 : Rect S2x200 := Rect.unit (s := S2x200) ![0, 0] S2x200.size inb_S2x200_S2x200_0_0
abbrev rw7 : Rect S200x400 := Rect.unit (s := S200x400) ![0, 0] S200x400.size inb_S200x400_S200x400_0_0
abbrev rw10 : Rect S400x784 := Rect.unit (s := S400x784) ![0, 0] S400x784.size inb_S400x784_S400x784_0_0
abbrev rs0 : Rect S1x10 := Rect.unit (s := S1x10) ![0, 0] S1x1.size inb_S1x10_S1x1_0_0
abbrev rs1 : Rect S1x10 := Rect.unit (s := S1x10) ![0, 1] S1x1.size inb_S1x10_S1x1_0_1
abbrev rs2 : Rect S1x10 := Rect.unit (s := S1x10) ![0, 2] S1x1.size inb_S1x10_S1x1_0_2
abbrev rs3 : Rect S1x10 := Rect.unit (s := S1x10) ![0, 3] S1x1.size inb_S1x10_S1x1_0_3
abbrev rs4 : Rect S1x10 := Rect.unit (s := S1x10) ![0, 4] S1x1.size inb_S1x10_S1x1_0_4
abbrev rs5 : Rect S1x10 := Rect.unit (s := S1x10) ![0, 5] S1x1.size inb_S1x10_S1x1_0_5
abbrev rs6 : Rect S1x10 := Rect.unit (s := S1x10) ![0, 6] S1x1.size inb_S1x10_S1x1_0_6
abbrev rs7 : Rect S1x10 := Rect.unit (s := S1x10) ![0, 7] S1x1.size inb_S1x10_S1x1_0_7
abbrev rs8 : Rect S1x10 := Rect.unit (s := S1x10) ![0, 8] S1x1.size inb_S1x10_S1x1_0_8
abbrev rs9 : Rect S1x10 := Rect.unit (s := S1x10) ![0, 9] S1x1.size inb_S1x10_S1x1_0_9

/-! ## What the body stores, from the input blocks -/

/-- The third encoder layer before its activation: the batch tile through three scaled ternary products, the first two
    followed by the leaky rectifier. -/
def enc3 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x200 .f32 :=
  k0_pay2 (View.ld x0 rx) (View.ld x2 rw2) (View.ld x11 rs0) (View.ld x3 rw3) (View.ld x11 rs1) (View.ld x4 rw4) (View.ld x11 rs2)
/-- Where that layer is non-negative (the rectifier's choice). -/
def enc3Mask (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : IVec S1024x200 1 :=
  k0_pay3 (View.ld x0 rx) (View.ld x2 rw2) (View.ld x11 rs0) (View.ld x3 rw3) (View.ld x11 rs1) (View.ld x4 rw4) (View.ld x11 rs2)
/-- The mean block: the first two columns of the merged head product, scaled. -/
def meanBlk (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x2 .f32 :=
  k0_pay5 (enc3 x0 x1 x2 x3 x4 x5 x6 x7 x8 x9 x10 x11) (enc3Mask x0 x1 x2 x3 x4 x5 x6 x7 x8 x9 x10 x11) (View.ld x5 rw5) (View.ld x11 rs3)
/-- The log-variance block: the last two columns of the merged head product, scaled. -/
def logvarBlk (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x2 .f32 :=
  k0_pay6 (enc3 x0 x1 x2 x3 x4 x5 x6 x7 x8 x9 x10 x11) (enc3Mask x0 x1 x2 x3 x4 x5 x6 x7 x8 x9 x10 x11) (View.ld x5 rw5) (View.ld x11 rs4)
/-- The second decoder product (unscaled): the latent `mean + logvar · noise` through the first decoder layer and its
    rectifier, times the second decoder matrix. -/
def dec2 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x400 .f32 :=
  k0_pay7 (enc3 x0 x1 x2 x3 x4 x5 x6 x7 x8 x9 x10 x11) (enc3Mask x0 x1 x2 x3 x4 x5 x6 x7 x8 x9 x10 x11) (View.ld x5 rw5) (View.ld x11 rs3) (View.ld x11 rs4) (View.ld x1 re) (View.ld x6 rw6) (View.ld x11 rs5) (View.ld x7 rw7)
/-- The last decoder product (unscaled). -/
def dec5 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x784 .f32 :=
  k0_pay8 (dec2 x0 x1 x2 x3 x4 x5 x6 x7 x8 x9 x10 x11) (View.ld x11 rs6) (View.ld x8 rw3) (View.ld x11 rs7) (View.ld x9 rw3) (View.ld x11 rs8) (View.ld x10 rw10)
/-- The reconstruction block: the logistic function of the scaled last product. -/
def xhatBlk (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : FVec F S1024x784 .f32 :=
  k0_pay1 (dec5 x0 x1 x2 x3 x4 x5 x6 x7 x8 x9 x10 x11) (View.ld x11 rs9)

/-- The reconstruction window's staging buffer after the body: its one whole-block store. -/
def out0_12 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : Vec F S1024x784 .f32 :=
  View.canon [⟨rx, xhatBlk x0 x1 x2 x3 x4 x5 x6 x7 x8 x9 x10 x11⟩]
/-- The mean window's staging buffer after the body. -/
def out0_13 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : Vec F S1024x2 .f32 :=
  View.canon [⟨re, meanBlk x0 x1 x2 x3 x4 x5 x6 x7 x8 x9 x10 x11⟩]
/-- The log-variance window's staging buffer after the body. -/
def out0_14 (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) : Vec F S1024x2 .f32 :=
  View.canon [⟨re, logvarBlk x0 x1 x2 x3 x4 x5 x6 x7 x8 x9 x10 x11⟩]

/-- A whole-block store covers its buffer. -/
theorem cover0_12 (p0 : Vec F S1024x784 .f32) (y : S1024x784.Idx) :
    ∃ pc ∈ ([⟨rx, p0⟩] : List (View.Piece (Elt F) S1024x784 .f32)), y ∈ pc.1.set :=
  View.cover_of_tiled [⟨rx, p0⟩] S1024x784.size (by rfl) y
theorem cover0_13 (p0 : Vec F S1024x2 .f32) (y : S1024x2.Idx) :
    ∃ pc ∈ ([⟨re, p0⟩] : List (View.Piece (Elt F) S1024x2 .f32)), y ∈ pc.1.set :=
  View.cover_of_tiled [⟨re, p0⟩] S1024x2.size (by rfl) y

/-! ## The body's triple -/

set_option maxHeartbeats 4000000 in
/-- The body on whole staging memrefs, the inputs' at contents `xW` and the outputs' at anything, runs to the
    continuation holding the inputs' as they were and each output's at its stored block. -/
theorem sound_kernel (c : Dev nD) (E : Set ℕ) (i : grid0.Coords) (arg1 : Memref sig .tc .vmem S1024x784 .f32) (harg1 : arg1.IsWhole) (arg2 : Memref sig .tc .vmem S1024x2 .f32) (harg2 : arg2.IsWhole) (arg3 : Memref sig .tc .vmem S784x400 .bf16) (harg3 : arg3.IsWhole) (arg4 : Memref sig .tc .vmem S400x400 .bf16) (harg4 : arg4.IsWhole) (arg5 : Memref sig .tc .vmem S400x200 .bf16) (harg5 : arg5.IsWhole) (arg6 : Memref sig .tc .vmem S200x4 .bf16) (harg6 : arg6.IsWhole) (arg7 : Memref sig .tc .vmem S2x200 .bf16) (harg7 : arg7.IsWhole) (arg8 : Memref sig .tc .vmem S200x400 .bf16) (harg8 : arg8.IsWhole) (arg9 : Memref sig .tc .vmem S400x400 .bf16) (harg9 : arg9.IsWhole) (arg10 : Memref sig .tc .vmem S400x400 .bf16) (harg10 : arg10.IsWhole) (arg11 : Memref sig .tc .vmem S400x784 .bf16) (harg11 : arg11.IsWhole) (arg12 : Memref sig .tc .vmem S1x10 .f32) (harg12 : arg12.IsWhole) (arg13 : Memref sig .tc .vmem S1024x784 .f32) (harg13 : arg13.IsWhole) (arg14 : Memref sig .tc .vmem S1024x2 .f32) (harg14 : arg14.IsWhole) (arg15 : Memref sig .tc .vmem S1024x2 .f32) (harg15 : arg15.IsWhole)
    (x0 : Vec F S1024x784 .f32) (x1 : Vec F S1024x2 .f32) (x2 : Vec F S784x400 .bf16) (x3 : Vec F S400x400 .bf16) (x4 : Vec F S400x200 .bf16) (x5 : Vec F S200x4 .bf16) (x6 : Vec F S2x200 .bf16) (x7 : Vec F S200x400 .bf16) (x8 : Vec F S400x400 .bf16) (x9 : Vec F S400x400 .bf16) (x10 : Vec F S400x784 .bf16) (x11 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11) ∗ owns (c : Thread nD τ) arg15 fullShare (out0_14 x0 x1 x2 x3 x4 x5 x6 x7 x8 x9 x10 x11)) -∗ K ⟨⟩))
      ⊢ wp frame (wpE (defs₀ (F := F)) Variants.none c none) E (cc0__vae_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__vae_kernel_eq_skeleton]; unfold cc0__vae_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_13 _)

end Cert.KernelIdeal.Hand

end
-- ==== Proof.KernelIdealRun.lean ====
/-
  The frame of `KernelIdeal`: the pipeline's proof data (every window's array as the region finds it; after the body at a
  grid point each input's staging buffer still at its block and each output's at the block the body stored), the body
  obligation at a generic point, the run of @main to the library's frame post, and the frame claim: every weakly fair
  execution terminates without a fault and leaves the twelve argument arrays unchanged.
-/
import proofs.«175214_j61469571940629_2_alg».proof.Proof.KernelIdealHost
import proofs.«175214_j61469571940629_2_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- The body at any point: the inputs' staging buffers hold their blocks, so the body's triple applies; the invariant
    and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Hand

end
-- ==== Proof.KernelIdealArrays.lean ====
/-
  From blocks to arrays. The grid has sixty-four points; point `t` handles batch rows `1024 t … 1024 t + 1023`, and every
  point writes back one block of each of the three results. So each result array, after the run, is one function of its
  index: at row `b` it is what the body stored, at the point `b / 1024`, in row `b % 1024` of its block. Here that function
  is named for each result (`Gxhat`, `Gmean`, `Glogvar`), the block a point writes back is shown to be the function read
  through the point's block, the blocks are shown to cover the array, and the run is restated with the three result arrays
  at these functions.
-/
import proofs.«175214_j61469571940629_2_alg».proof.Proof.KernelIdealRun
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hz : (![0, 0] : Fin 2 → Nat) = fun _ => 0 := funext fun a => by fin_cases a <;> rfl

/-- The grid point that handles batch row `b`. -/
def ptOf (b : Nat) (hb : b < 65536) : Fin cfg0.N := ⟨b / 1024, by rw [show cfg0.N = 64 from N_0]; omega⟩

/-- The block index maps of the three result windows, decided over the grid: block `t` on the row axis, block 0 on the
    column axis. -/
theorem idx_out : ∀ t : Fin cfg0.N, win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-! ## Result window 12 -/

/-- The position inside its block of an index of the array. -/
def loc12 (i : S65536x784.Idx) : S1024x784.Idx := fun a => match a with
  | ⟨0, _⟩ => ⟨(i 0).val % 1024, Nat.mod_lt _ (by decide)⟩
  | ⟨1, _⟩ => ⟨(i 1).val, (i 1).isLt⟩

/-- The array after the run, as one function of its index. -/
def Gxhat (c : Dev nD) : S65536x784.Idx → Elt F .f32 := fun i =>
  xhatBlk (iblk m c 0 (ptOf (i 0).val (i 0).isLt)) (iblk m c 1 (ptOf (i 0).val (i 0).isLt)) (iblk m c 2 (ptOf (i 0).val (i 0).isLt)) (iblk m c 3 (ptOf (i 0).val (i 0).isLt)) (iblk m c 4 (ptOf (i 0).val (i 0).isLt)) (iblk m c 5 (ptOf (i 0).val (i 0).isLt)) (iblk m c 6 (ptOf (i 0).val (i 0).isLt)) (iblk m c 7 (ptOf (i 0).val (i 0).isLt)) (iblk m c 8 (ptOf (i 0).val (i 0).isLt)) (iblk m c 9 (ptOf (i 0).val (i 0).isLt)) (iblk m c 10 (ptOf (i 0).val (i 0).isLt)) (iblk m c 11 (ptOf (i 0).val (i 0).isLt)) (loc12 i)

theorem mem_blk12 (t : Fin cfg0.N) (i : S65536x784.Idx) :
    i ∈ ((cfg0.win 12).blk t).view.set ↔ ∀ a : Fin 2, win0_12.index t a * S1024x784.size a ≤ (i a).val ∧ (i a).val < win0_12.index t a * S1024x784.size a + S1024x784.size a := by
  show i ∈ ((View.whole main_v123_0).slice (win0_12.rect t)).set ↔ _
  rw [View.set_slice_whole, Rect.mem_set_unit]
  exact Iff.rfl

/-- What point `t` writes back is the function read through the point's block. -/
theorem flushed12_eq (c : Dev nD) (t : Fin cfg0.N) :
    (dats m 0 c).flushed 12 t = ((cfg0.win 12).blk t).view.read (Elt F) (Gxhat m c) := by
  show (cfg0.win 12).cut (grid0.coords t) ((dats m 0 c).after 12 t) = _
  rw [after0_12]
  unfold out0_12
  rw [View.canon_unit_zero hz]
  obtain ⟨e0, e1, e2, e3, e4, e5⟩ := idx_out t
  have hN : cfg0.N = 64 := N_0
  have ht : t.val < 64 := hN ▸ t.isLt
  funext y
  show xhatBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = Gxhat m c (((cfg0.win 12).blk t).view.emb y)
  have hy0 : (y 0).val < 1024 := (y 0).isLt
  have h0 : ((((cfg0.win 12).blk t).view.emb y) 0).val = t.val * 1024 + (y 0).val := by
    show win0_12.index t (0 : Fin 2) * 1024 + 1 * (y 0).val = _
    omega
  have h1 : ((((cfg0.win 12).blk t).view.emb y) 1).val = (y 1).val := by
    show win0_12.index t (1 : Fin 2) * 784 + 1 * (y 1).val = _
    omega
  have hpt : ptOf ((((cfg0.win 12).blk t).view.emb y) 0).val ((((cfg0.win 12).blk t).view.emb y) 0).isLt = t := by
    apply Fin.ext
    show ((((cfg0.win 12).blk t).view.emb y) 0).val / 1024 = t.val
    rw [h0]; omega
  have hloc : loc12 (((cfg0.win 12).blk t).view.emb y) = y := by
    funext a
    apply Fin.ext
    match a with
    | ⟨0, _⟩ => show ((((cfg0.win 12).blk t).view.emb y) 0).val % 1024 = (y 0).val; rw [h0]; omega
    | ⟨1, _⟩ => show ((((cfg0.win 12).blk t).view.emb y) 1).val = (y 1).val; exact h1
  unfold Gxhat
  rw [hpt, hloc]

/-- Every index of the array lies in the block of the point that handles its row. -/
theorem cover12 (i : S65536x784.Idx) : ∃ t : Fin cfg0.N, (cfg0.win 12).flush t = true ∧ i ∈ ((cfg0.win 12).blk t).view.set := by
  refine ⟨ptOf (i 0).val (i 0).isLt, flush0_12 _, ?_⟩
  rw [mem_blk12]
  obtain ⟨e0, e1, e2, e3, e4, e5⟩ := idx_out (ptOf (i 0).val (i 0).isLt)
  have hp : (ptOf (i 0).val (i 0).isLt).val = (i 0).val / 1024 := rfl
  have hi0 : (i 0).val < 65536 := (i 0).isLt
  have hi1 : (i 1).val < 784 := (i 1).isLt
  intro a
  match a with
  | ⟨0, _⟩ => show win0_12.index _ (0 : Fin 2) * 1024 ≤ (i 0).val ∧ (i 0).val < win0_12.index _ (0 : Fin 2) * 1024 + 1024; omega
  | ⟨1, _⟩ => show win0_12.index _ (1 : Fin 2) * 784 ≤ (i 1).val ∧ (i 1).val < win0_12.index _ (1 : Fin 2) * 784 + 784; omega

/-- So the array ends holding the function. -/
theorem final12 (c : Dev nD) : (dats m 0 c).arrAt 12 cfg0.N = Gxhat m c :=
  (dats m 0 c).arrAt_eq_of_cover 12 (Gxhat m c) (fun t _ => flushed12_eq m c t) (cover12)

/-! ## Result window 13 -/

/-- The position inside its block of an index of the array. -/
def loc13 (i : S65536x2.Idx) : S1024x2.Idx := fun a => match a with
  | ⟨0, _⟩ => ⟨(i 0).val % 1024, Nat.mod_lt _ (by decide)⟩
  | ⟨1, _⟩ => ⟨(i 1).val, (i 1).isLt⟩

/-- The array after the run, as one function of its index. -/
def Gmean (c : Dev nD) : S65536x2.Idx → Elt F .f32 := fun i =>
  meanBlk (iblk m c 0 (ptOf (i 0).val (i 0).isLt)) (iblk m c 1 (ptOf (i 0).val (i 0).isLt)) (iblk m c 2 (ptOf (i 0).val (i 0).isLt)) (iblk m c 3 (ptOf (i 0).val (i 0).isLt)) (iblk m c 4 (ptOf (i 0).val (i 0).isLt)) (iblk m c 5 (ptOf (i 0).val (i 0).isLt)) (iblk m c 6 (ptOf (i 0).val (i 0).isLt)) (iblk m c 7 (ptOf (i 0).val (i 0).isLt)) (iblk m c 8 (ptOf (i 0).val (i 0).isLt)) (iblk m c 9 (ptOf (i 0).val (i 0).isLt)) (iblk m c 10 (ptOf (i 0).val (i 0).isLt)) (iblk m c 11 (ptOf (i 0).val (i 0).isLt)) (loc13 i)

theorem mem_blk13 (t : Fin cfg0.N) (i : S65536x2.Idx) :
    i ∈ ((cfg0.win 13).blk t).view.set ↔ ∀ a : Fin 2, win0_13.index t a * S1024x2.size a ≤ (i a).val ∧ (i a).val < win0_13.index t a * S1024x2.size a + S1024x2.size a := by
  show i ∈ ((View.whole main_v123_1).slice (win0_13.rect t)).set ↔ _
  rw [View.set_slice_whole, Rect.mem_set_unit]
  exact Iff.rfl

/-- What point `t` writes back is the function read through the point's block. -/
theorem flushed13_eq (c : Dev nD) (t : Fin cfg0.N) :
    (dats m 0 c).flushed 13 t = ((cfg0.win 13).blk t).view.read (Elt F) (Gmean m c) := by
  show (cfg0.win 13).cut (grid0.coords t) ((dats m 0 c).after 13 t) = _
  rw [after0_13]
  unfold out0_13
  rw [View.canon_unit_zero hz]
  obtain ⟨e0, e1, e2, e3, e4, e5⟩ := idx_out t
  have hN : cfg0.N = 64 := N_0
  have ht : t.val < 64 := hN ▸ t.isLt
  funext y
  show meanBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = Gmean m c (((cfg0.win 13).blk t).view.emb y)
  have hy0 : (y 0).val < 1024 := (y 0).isLt
  have h0 : ((((cfg0.win 13).blk t).view.emb y) 0).val = t.val * 1024 + (y 0).val := by
    show win0_13.index t (0 : Fin 2) * 1024 + 1 * (y 0).val = _
    omega
  have h1 : ((((cfg0.win 13).blk t).view.emb y) 1).val = (y 1).val := by
    show win0_13.index t (1 : Fin 2) * 2 + 1 * (y 1).val = _
    omega
  have hpt : ptOf ((((cfg0.win 13).blk t).view.emb y) 0).val ((((cfg0.win 13).blk t).view.emb y) 0).isLt = t := by
    apply Fin.ext
    show ((((cfg0.win 13).blk t).view.emb y) 0).val / 1024 = t.val
    rw [h0]; omega
  have hloc : loc13 (((cfg0.win 13).blk t).view.emb y) = y := by
    funext a
    apply Fin.ext
    match a with
    | ⟨0, _⟩ => show ((((cfg0.win 13).blk t).view.emb y) 0).val % 1024 = (y 0).val; rw [h0]; omega
    | ⟨1, _⟩ => show ((((cfg0.win 13).blk t).view.emb y) 1).val = (y 1).val; exact h1
  unfold Gmean
  rw [hpt, hloc]

/-- Every index of the array lies in the block of the point that handles its row. -/
theorem cover13 (i : S65536x2.Idx) : ∃ t : Fin cfg0.N, (cfg0.win 13).flush t = true ∧ i ∈ ((cfg0.win 13).blk t).view.set := by
  refine ⟨ptOf (i 0).val (i 0).isLt, flush0_13 _, ?_⟩
  rw [mem_blk13]
  obtain ⟨e0, e1, e2, e3, e4, e5⟩ := idx_out (ptOf (i 0).val (i 0).isLt)
  have hp : (ptOf (i 0).val (i 0).isLt).val = (i 0).val / 1024 := rfl
  have hi0 : (i 0).val < 65536 := (i 0).isLt
  have hi1 : (i 1).val < 2 := (i 1).isLt
  intro a
  match a with
  | ⟨0, _⟩ => show win0_13.index _ (0 : Fin 2) * 1024 ≤ (i 0).val ∧ (i 0).val < win0_13.index _ (0 : Fin 2) * 1024 + 1024; omega
  | ⟨1, _⟩ => show win0_13.index _ (1 : Fin 2) * 2 ≤ (i 1).val ∧ (i 1).val < win0_13.index _ (1 : Fin 2) * 2 + 2; omega

/-- So the array ends holding the function. -/
theorem final13 (c : Dev nD) : (dats m 0 c).arrAt 13 cfg0.N = Gmean m c :=
  (dats m 0 c).arrAt_eq_of_cover 13 (Gmean m c) (fun t _ => flushed13_eq m c t) (cover13)

/-! ## Result window 14 -/

/-- The position inside its block of an index of the array. -/
def loc14 (i : S65536x2.Idx) : S1024x2.Idx := fun a => match a with
  | ⟨0, _⟩ => ⟨(i 0).val % 1024, Nat.mod_lt _ (by decide)⟩
  | ⟨1, _⟩ => ⟨(i 1).val, (i 1).isLt⟩

/-- The array after the run, as one function of its index. -/
def Glogvar (c : Dev nD) : S65536x2.Idx → Elt F .f32 := fun i =>
  logvarBlk (iblk m c 0 (ptOf (i 0).val (i 0).isLt)) (iblk m c 1 (ptOf (i 0).val (i 0).isLt)) (iblk m c 2 (ptOf (i 0).val (i 0).isLt)) (iblk m c 3 (ptOf (i 0).val (i 0).isLt)) (iblk m c 4 (ptOf (i 0).val (i 0).isLt)) (iblk m c 5 (ptOf (i 0).val (i 0).isLt)) (iblk m c 6 (ptOf (i 0).val (i 0).isLt)) (iblk m c 7 (ptOf (i 0).val (i 0).isLt)) (iblk m c 8 (ptOf (i 0).val (i 0).isLt)) (iblk m c 9 (ptOf (i 0).val (i 0).isLt)) (iblk m c 10 (ptOf (i 0).val (i 0).isLt)) (iblk m c 11 (ptOf (i 0).val (i 0).isLt)) (loc14 i)

theorem mem_blk14 (t : Fin cfg0.N) (i : S65536x2.Idx) :
    i ∈ ((cfg0.win 14).blk t).view.set ↔ ∀ a : Fin 2, win0_14.index t a * S1024x2.size a ≤ (i a).val ∧ (i a).val < win0_14.index t a * S1024x2.size a + S1024x2.size a := by
  show i ∈ ((View.whole main_v123_2).slice (win0_14.rect t)).set ↔ _
  rw [View.set_slice_whole, Rect.mem_set_unit]
  exact Iff.rfl

/-- What point `t` writes back is the function read through the point's block. -/
theorem flushed14_eq (c : Dev nD) (t : Fin cfg0.N) :
    (dats m 0 c).flushed 14 t = ((cfg0.win 14).blk t).view.read (Elt F) (Glogvar m c) := by
  show (cfg0.win 14).cut (grid0.coords t) ((dats m 0 c).after 14 t) = _
  rw [after0_14]
  unfold out0_14
  rw [View.canon_unit_zero hz]
  obtain ⟨e0, e1, e2, e3, e4, e5⟩ := idx_out t
  have hN : cfg0.N = 64 := N_0
  have ht : t.val < 64 := hN ▸ t.isLt
  funext y
  show logvarBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = Glogvar m c (((cfg0.win 14).blk t).view.emb y)
  have hy0 : (y 0).val < 1024 := (y 0).isLt
  have h0 : ((((cfg0.win 14).blk t).view.emb y) 0).val = t.val * 1024 + (y 0).val := by
    show win0_14.index t (0 : Fin 2) * 1024 + 1 * (y 0).val = _
    omega
  have h1 : ((((cfg0.win 14).blk t).view.emb y) 1).val = (y 1).val := by
    show win0_14.index t (1 : Fin 2) * 2 + 1 * (y 1).val = _
    omega
  have hpt : ptOf ((((cfg0.win 14).blk t).view.emb y) 0).val ((((cfg0.win 14).blk t).view.emb y) 0).isLt = t := by
    apply Fin.ext
    show ((((cfg0.win 14).blk t).view.emb y) 0).val / 1024 = t.val
    rw [h0]; omega
  have hloc : loc14 (((cfg0.win 14).blk t).view.emb y) = y := by
    funext a
    apply Fin.ext
    match a with
    | ⟨0, _⟩ => show ((((cfg0.win 14).blk t).view.emb y) 0).val % 1024 = (y 0).val; rw [h0]; omega
    | ⟨1, _⟩ => show ((((cfg0.win 14).blk t).view.emb y) 1).val = (y 1).val; exact h1
  unfold Glogvar
  rw [hpt, hloc]

/-- Every index of the array lies in the block of the point that handles its row. -/
theorem cover14 (i : S65536x2.Idx) : ∃ t : Fin cfg0.N, (cfg0.win 14).flush t = true ∧ i ∈ ((cfg0.win 14).blk t).view.set := by
  refine ⟨ptOf (i 0).val (i 0).isLt, flush0_14 _, ?_⟩
  rw [mem_blk14]
  obtain ⟨e0, e1, e2, e3, e4, e5⟩ := idx_out (ptOf (i 0).val (i 0).isLt)
  have hp : (ptOf (i 0).val (i 0).isLt).val = (i 0).val / 1024 := rfl
  have hi0 : (i 0).val < 65536 := (i 0).isLt
  have hi1 : (i 1).val < 2 := (i 1).isLt
  intro a
  match a with
  | ⟨0, _⟩ => show win0_14.index _ (0 : Fin 2) * 1024 ≤ (i 0).val ∧ (i 0).val < win0_14.index _ (0 : Fin 2) * 1024 + 1024; omega
  | ⟨1, _⟩ => show win0_14.index _ (1 : Fin 2) * 2 ≤ (i 1).val ∧ (i 1).val < win0_14.index _ (1 : Fin 2) * 2 + 2; omega

/-- So the array ends holding the function. -/
theorem final14 (c : Dev nD) : (dats m 0 c).arrAt 14 cfg0.N = Glogvar m c :=
  (dats m 0 c).arrAt_eq_of_cover 14 (Glogvar m c) (fun t _ => flushed14_eq m c t) (cover14)

/-! ## The run, read -/

/-- Every weakly fair execution terminates with the three result arrays at their functions and the argument arrays
    unchanged. -/
theorem run_vals : θ_run defs (onTc (τ := τ) (main (F := F))) ⟨m, fun _ => 0, ρ⟩ fun r => ∀ c : Dev nD,
      r.2.mem ((c : Thread nD τ).loc main_v123_0) = Gxhat m c
      ∧ r.2.mem ((c : Thread nD τ).loc main_v123_1) = Gmean m c
      ∧ r.2.mem ((c : Thread nD τ).loc main_v123_2) = Glogvar m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 12).trans (final12 m c), ((h c).1 13).trans (final13 m c), ((h c).1 14).trans (final14 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.KernelIdeal.Hand

end
-- ==== Proof.LibTernaryLinear.lean ====
/-
  Extended-real algebra of a linear layer whose weight matrix is a ternary matrix times one positive scale.

  Two arrangements of such a layer meet here. One multiplies the input row by the ternary matrix and then by the scale
  `s`. The other first rebuilds a dense weight `w + (t / β - w)` with `β = 1 / s` from the original weight `w` and the
  ternary entry `t`, and multiplies the input row by that. On the extended reals the two agree when the input row, the
  weights and the ternary entries are real numbers and the scale is a nonzero real: `t / (1 / s) = t · s`, the original
  weight cancels, and the scale leaves the finite sum. With an infinite entry the cancellation `w + (x - w) = x` and the
  distributive law fail, so every statement carries its finiteness hypotheses, written with `IsReal`.
-/
import Idealize.ShloMosaic.PureOps.Ideal
import Idealize.ShloMosaic.PureOps.Ideal.Laws

noncomputable section

namespace Cert.LibTernaryLinear

open Idealize.ShloMosaic
open scoped BigOperators

/-- An extended real that is a real number. -/
def IsReal (x : EReal) : Prop := ∃ r : ℝ, x = (r : EReal)

theorem isReal_coe (r : ℝ) : IsReal (r : EReal) := ⟨r, rfl⟩

theorem isReal_of_ne {x : EReal} (h1 : x ≠ ⊤) (h2 : x ≠ ⊥) : IsReal x := ⟨x.toReal, (EReal.coe_toReal h1 h2).symm⟩

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The coercion of a finite sum of reals is the sum of the coercions. -/
theorem coe_sum {K : Type*} (s : Finset K) (f : K → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem isReal_sum {K : Type*} (s : Finset K) (f : K → EReal) (h : ∀ k ∈ s, IsReal (f k)) : IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- A value clipped between two reals is real, whatever it was. -/
theorem isReal_clip (a b : ℝ) (y : EReal) : IsReal (min (b : EReal) (max (a : EReal) y)) := by
  refine isReal_of_ne (ne_top_of_le_ne_top (EReal.coe_ne_top b) (min_le_left _ _)) ?_
  refine ne_bot_of_le_ne_bot (b := ((min b a : ℝ) : EReal)) (EReal.coe_ne_bot _) ?_
  rw [EReal.coe_strictMono.monotone.map_min]
  exact min_le_min le_rfl (le_max_left _ _)

/-- The quotient by a nonzero real of a real is real. -/
theorem isReal_div {x : EReal} (hx : IsReal x) {n : ℝ} (hn : n ≠ 0) : IsReal (Ideal.div x (n : EReal)) := by
  rw [Ideal.div_coe hn]; exact hx.mul (isReal_coe _)

/-- The reciprocal, by the ideal division, of a nonzero real. -/
theorem div_one_coe {s : ℝ} (hs : s ≠ 0) : Ideal.div 1 (s : EReal) = ((1 / s : ℝ) : EReal) := by
  rw [Ideal.div_coe hs, one_mul]

/-- The two arrangements of a ternary layer agree on real data: dividing the ternary entry by the reciprocal of the scale is
    multiplying it by the scale, the original weight cancels, and the scale leaves the sum. -/
theorem ternary_layer {K : Type*} [Fintype K] (h W T : K → EReal) (s : ℝ) (hs : s ≠ 0)
    (hh : ∀ k, IsReal (h k)) (hW : ∀ k, IsReal (W k)) (hT : ∀ k, IsReal (T k)) :
    ∑ k, h k * (W k + (Ideal.div (T k) (Ideal.div 1 (s : EReal)) - W k)) = (∑ k, h k * T k) * (s : EReal) := by
  choose hr hhr using hh
  choose Wr hWr using hW
  choose Tr hTr using hT
  have hs' : (1 / s : ℝ) ≠ 0 := one_div_ne_zero hs
  have e1 : ∀ k, h k * (W k + (Ideal.div (T k) (Ideal.div 1 (s : EReal)) - W k)) = ((hr k * Tr k * s : ℝ) : EReal) := by
    intro k
    rw [div_one_coe hs, Ideal.div_coe hs', hhr k, hWr k, hTr k, ← EReal.coe_mul, ← EReal.coe_sub, ← EReal.coe_add, ← EReal.coe_mul]
    congr 1
    field_simp
    ring
  have e2 : ∀ k, h k * T k = ((hr k * Tr k : ℝ) : EReal) := by
    intro k; rw [hhr k, hTr k, ← EReal.coe_mul]
  simp only [e1, e2]
  rw [← coe_sum, ← coe_sum, ← EReal.coe_mul, Finset.sum_mul]

/-- The scaled ternary product of real data is real. -/
theorem isReal_layer {K : Type*} [Fintype K] (h T : K → EReal) (s : EReal)
    (hh : ∀ k, IsReal (h k)) (hT : ∀ k, IsReal (T k)) (hs : IsReal s) : IsReal ((∑ k, h k * T k) * s) :=
  (isReal_sum _ _ fun k _ => (hh k).mul (hT k)).mul hs

/-- The mean of absolute values of real entries (the sum started from a real, divided by a nonzero real) is real. -/
theorem isReal_absMean {K : Type*} [Fintype K] (w : K → EReal) (hw : ∀ k, IsReal (w k)) {z : EReal} (hz : IsReal z)
    {n : ℝ} (hn : n ≠ 0) : IsReal (Ideal.div (z + ∑ k, max (w k) (-(w k))) (n : EReal)) :=
  isReal_div (hz.add (isReal_sum _ _ fun k _ => (hw k).max (hw k).neg)) hn

/-- A real clamped from below by a positive real is a positive real. -/
theorem pos_real_of_max {e : ℝ} (he : 0 < e) {y : EReal} (hy : IsReal y) : ∃ r : ℝ, r ≠ 0 ∧ max (e : EReal) y = (r : EReal) := by
  obtain ⟨a, rfl⟩ := hy
  refine ⟨max e a, ?_, (EReal.coe_strictMono.monotone.map_max (a := e) (b := a))⟩
  exact (lt_of_lt_of_le he (le_max_left e a)).ne'

end Cert.LibTernaryLinear

end
-- ==== Proof.LibRowwise.lean ====
/-
  Row-wise array algebra on the extended reals, for kernels that process a batch in row blocks.

  `mm A B` is the matrix product of two rank-2 arrays as a plain finite sum over the contracted coordinate. A matrix-unit
  product into a zero accumulator and the host's dot product, both with the plain dimension numbers (rows × contraction times
  contraction × columns), are `mm` at the extended reals. `rowsOf off` restricts an array to a block of consecutive rows; it
  commutes with `mm` in the left operand and with every elementwise operation, so a row block of a whole-batch computation
  is the same computation of the row block. `AllReal` says every entry is a real number; it is preserved by sums of
  products, by elementwise products and sums and by a selection between two such arrays. Finally `layer_eq`: the product
  with a dense weight rebuilt as `w + (t / (1 / s) - w)` is the product with the ternary matrix `t` followed by the scale
  `s`, for real data and a nonzero real scale.
-/
import Idealize.ShloMosaic.PureOps.Ideal
import Idealize.ShloMosaic.PureOps.Ideal.Laws
import Idealize.ShloMosaic.Lib.ValueIdx
import Idealize.ShloMosaic.Lib.Pipeline.Value
import proofs.«175214_j61469571940629_2_alg».proof.Proof.LibTernaryLinear

noncomputable section

namespace Cert.LibRowwise

open Idealize.ShloMosaic Idealize.ShloMosaic.ValueIdx Cert.LibTernaryLinear
open scoped BigOperators

/-- The rank-2 shape with the given extents. -/
abbrev Sh2 (a b : Nat) : Shape := ⟨2, ![a, b]⟩

/-- The matrix product of two arrays: at (r, c) the sum over `k` of `A (r, k) · B (k, c)`. -/
def mm {M K N : Nat} (A : (Sh2 M K).Idx → EReal) (B : (Sh2 K N).Idx → EReal) : (Sh2 M N).Idx → EReal :=
  fun j => ∑ k : Fin K, A (ix2 (j 0) k) * B (ix2 k (j 1))

theorem lhsIdx_plain_0 (M K N : Nat) (j : (Sh2 M N).Idx) (q : (DotDims.plain M K N).contr.Idx) :
    ((DotDims.plain M K N).lhsIdx j q 0).val = (j 0).val := by
  unfold DotDims.lhsIdx
  rw [dif_neg (show ¬(0 : Fin (Sh2 M K).rank) ∈ (DotDims.plain M K N).lhsBatch by simp [DotDims.plain]),
    dif_pos (show (0 : Fin (Sh2 M K).rank) ∈ (DotDims.plain M K N).lhsNonContracting by simp [DotDims.plain])]
  rfl

theorem rhsIdx_plain_1 (M K N : Nat) (j : (Sh2 M N).Idx) (q : (DotDims.plain M K N).contr.Idx) :
    ((DotDims.plain M K N).rhsIdx j q 1).val = (j 1).val := by
  unfold DotDims.rhsIdx
  rw [dif_neg (show ¬(1 : Fin (Sh2 K N).rank) ∈ (DotDims.plain M K N).rhsBatch by simp [DotDims.plain]),
    dif_pos (show (1 : Fin (Sh2 K N).rank) ∈ (DotDims.plain M K N).rhsNonContracting by simp [DotDims.plain])]
  rfl

/-- The contraction sum of the plain dimension numbers is the sum over the one contracted coordinate. -/
theorem sum_plain (M K N : Nat) (lhs : (Sh2 M K).Idx → EReal) (rhs : (Sh2 K N).Idx → EReal) (j : (Sh2 M N).Idx) :
    ∑ q : (DotDims.plain M K N).contr.Idx, lhs ((DotDims.plain M K N).lhsIdx j q) * rhs ((DotDims.plain M K N).rhsIdx j q)
      = mm lhs rhs j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k := funext fun a => Fin.ext (by
    match a with
    | ⟨0, _⟩ => exact lhsIdx_plain_0 M K N _ _
    | ⟨1, _⟩ => exact ((DotDims.plain M K N).lhsIdx_val_of_single rfl j _).trans hk)
  have er : (DotDims.plain M K N).rhsIdx j ((contrEquiv1 (DotDims.plain M K N) K rfl rfl).symm k) = ix2 k (j 1) := funext fun a => Fin.ext (by
    match a with
    | ⟨0, _⟩ => exact ((DotDims.plain M K N).rhsIdx_val_of_single rfl j _).trans hk
    | ⟨1, _⟩ => exact rhsIdx_plain_1 M K N _ _)
  rw [el, er]
  rfl

/-- A matrix-unit product into the zero accumulator is `mm`. -/
theorem matmul_plain (M K N : Nat) {φ₁ φ₂ : FTy} (A : FVec Ideal (Sh2 M K) φ₁) (B : FVec Ideal (Sh2 K N) φ₂) :
    FloatOps.matmul (DotDims.plain M K N) none A B (constant (Sh2 M N) .f32 0x00000000#32) = mm A B :=
  funext fun j => (Ideal.matmul_constant_zero_apply (DotDims.plain M K N) none A B j).trans (sum_plain M K N A B j)

/-- The host's dot product is `mm`. -/
theorem dotGeneral_plain (M K N : Nat) {φ₁ φ₂ : FTy} (sched : HostSchedule) (A : FVec Ideal (Sh2 M K) φ₁) (B : FVec Ideal (Sh2 K N) φ₂) :
    FloatOps.dotGeneral (DotDims.plain M K N) none sched A B = mm A B :=
  funext fun j => (Ideal.dotGeneral_apply (DotDims.plain M K N) none sched A B j).trans (sum_plain M K N A B j)

/-! ## Row blocks -/

/-- The block of `r` consecutive rows of an array starting at row `off`. -/
def rowsOf {α : Type} {R r D : Nat} (off : Nat) (h : off + r ≤ R) (W : (Sh2 R D).Idx → α) : (Sh2 r D).Idx → α :=
  fun y => W (ix2 ⟨off + (y 0).val, by have h0 : (y 0).val < r := (y 0).isLt; omega⟩ (y 1))

theorem rowsOf_mm {R r K N : Nat} (off : Nat) (h : off + r ≤ R) (A : (Sh2 R K).Idx → EReal) (B : (Sh2 K N).Idx → EReal) :
    rowsOf off h (mm A B) = mm (rowsOf off h A) B := rfl

/-! ## Arrays of real numbers -/

/-- Every entry is a real number. -/
def AllReal {s : Shape} (A : s.Idx → EReal) : Prop := ∀ i, IsReal (A i)

theorem AllReal.rowsOf {R r D : Nat} {off : Nat} {h : off + r ≤ R} {W : (Sh2 R D).Idx → EReal} (hW : AllReal W) :
    AllReal (rowsOf off h W) := fun _ => hW _

theorem AllReal.mm {M K N : Nat} {A : (Sh2 M K).Idx → EReal} {B : (Sh2 K N).Idx → EReal} (hA : AllReal A) (hB : AllReal B) :
    AllReal (mm A B) := fun _ => isReal_sum _ _ fun _ _ => (hA _).mul (hB _)

theorem AllReal.mulf {s : Shape} {A B : s.Idx → EReal} (hA : AllReal A) (hB : AllReal B) :
    AllReal (mulf (F := Ideal) (φ := .f32) A B) := fun i => (hA i).mul (hB i)

theorem AllReal.addf {s : Shape} {A B : s.Idx → EReal} (hA : AllReal A) (hB : AllReal B) :
    AllReal (addf (F := Ideal) (φ := .f32) A B) := fun i => (hA i).add (hB i)

theorem AllReal.const {s : Shape} {x : EReal} (hx : IsReal x) : AllReal (fun _ : s.Idx => x) := fun _ => hx

theorem AllReal.select {s : Shape} (c : IVec s 1) {A B : s.Idx → EReal} (hA : AllReal A) (hB : AllReal B) :
    AllReal (select c A B) := fun i => by
  show IsReal (Scalar.select (c i) (A i) (B i))
  unfold Scalar.select
  split <;> [exact hA i; exact hB i]

/-! ## The two arrangements of a ternary layer -/

/-- A transposed array read at (k, c) is the array at (c, k). -/
theorem transpose_ix2 {N K : Nat} (x : (Sh2 N K).Idx → EReal) (hT : (Sh2 N K).Transposes [1, 0] (Sh2 K N)) (k : Fin K) (c : Fin N) :
    transpose (Sh2 K N) [1, 0] x hT (ix2 k c) = x (ix2 c k) :=
  transpose_apply [1, 0] x hT (ix2 k c) (ix2 c k) (fun b => match b with
    | ⟨0, _⟩ => rfl
    | ⟨1, _⟩ => rfl)

theorem AllReal.transpose {N K : Nat} {x : (Sh2 N K).Idx → EReal} (hx : AllReal x) (hT : (Sh2 N K).Transposes [1, 0] (Sh2 K N)) :
    AllReal (transpose (Sh2 K N) [1, 0] x hT) := fun i => by
  rw [transpose_apply [1, 0] x hT i (ix2 (i 1) (i 0)) (fun b => match b with
    | ⟨0, _⟩ => rfl
    | ⟨1, _⟩ => rfl)]
  exact hx _

/-- The product with the dense weight `w + (t / (1 / s) - w)`, transposed, is the product with the ternary matrix `t`,
    transposed, followed by the scale `s`: for real inputs, real weights, real ternary entries and a nonzero real scale. -/
theorem layer_eq {M K N : Nat} (h : (Sh2 M K).Idx → EReal) (W t : (Sh2 N K).Idx → EReal) (s : ℝ) (hs : s ≠ 0)
    (hh : AllReal h) (hW : AllReal W) (ht : AllReal t) (hT : (Sh2 N K).Transposes [1, 0] (Sh2 K N)) :
    mm h (transpose (Sh2 K N) [1, 0] (addf (F := Ideal) (φ := .f32) W (subf (F := Ideal) (φ := .f32) (Host.divf (F := Ideal) (φ := .f32) t (fun _ => Ideal.div 1 (s : EReal))) W)) hT)
      = mulf (F := Ideal) (φ := .f32) (mm h (transpose (Sh2 K N) [1, 0] t hT)) (fun _ => (s : EReal)) := by
  funext j
  show (∑ k : Fin K, h (ix2 (j 0) k) * transpose (Sh2 K N) [1, 0] _ hT (ix2 k (j 1)))
    = (∑ k : Fin K, h (ix2 (j 0) k) * transpose (Sh2 K N) [1, 0] t hT (ix2 k (j 1))) * (s : EReal)
  refine (Finset.sum_congr rfl fun k _ => congrArg (h (ix2 (j 0) k) * ·) (transpose_ix2 _ hT k (j 1))).trans ?_
  refine Eq.trans ?_ (congrArg (· * (s : EReal)) (Finset.sum_congr rfl fun k _ => congrArg (h (ix2 (j 0) k) * ·) (transpose_ix2 t hT k (j 1)).symm))
  exact ternary_layer (fun k => h (ix2 (j 0) k)) (fun k => W (ix2 (j 1) k)) (fun k => t (ix2 (j 1) k)) s hs
    (fun k => hh _) (fun k => hW _) (fun k => ht _)

end Cert.LibRowwise

end
-- ==== Proof.LibTernaryWeights.lean ====
/-
  The ternary quantization of a weight matrix, as both programs compute it on the host, and what is known of it.

  For a weight matrix `W` with `n` entries the scale is `max(ε, (0 + Σ |W|) / n)` and the ternary matrix is
  `min(1, max(-1, roundeven(W · (1 / scale))))`. When every entry of `W` is real, the scale is a positive real — the mean of
  the absolute values is real, and it is clamped from below by the positive real `ε` — and every ternary entry is real
  whatever the rounding returned, because it is clipped between `-1` and `1`.
-/
import Idealize.ShloMosaic.PureOps.Ideal
import Idealize.ShloMosaic.PureOps.Ideal.Laws
import Idealize.ShloMosaic.Lib.ValueIdx
import Idealize.ShloMosaic.Lib.Pipeline.Value
import proofs.«175214_j61469571940629_2_alg».proof.Proof.LibTernaryLinear
import proofs.«175214_j61469571940629_2_alg».proof.Proof.LibRowwise

noncomputable section

namespace Cert.LibTernaryWeights

open Idealize.ShloMosaic Idealize.ShloMosaic.ValueIdx Cert.LibTernaryLinear Cert.LibRowwise
open scoped BigOperators

/-- The scalar shape. -/
abbrev S0 : Shape := ⟨0, ![]⟩

/-! ## The literals -/

theorem ofBits_one : Ideal.ofBits .f32 0x3F800000#32 = ((1 : ℝ) : EReal) := by
  simp [Ideal.ofBits, Ideal.ieee, -EReal.coe_mul]; norm_num
theorem ofBits_negone : Ideal.ofBits .f32 0xBF800000#32 = ((-1 : ℝ) : EReal) := by
  simp [Ideal.ofBits, Ideal.ieee, -EReal.coe_mul]; norm_num
theorem ofBits_fifth : Ideal.ofBits .f32 0x3E4CCCCD#32 = ((13421773 / 67108864 : ℝ) : EReal) := by
  simp [Ideal.ofBits, Ideal.ieee, -EReal.coe_mul]; norm_num
theorem ofBits_400 : Ideal.ofBits .f32 0x43C80000#32 = ((400 : ℝ) : EReal) := by
  simp [Ideal.ofBits, Ideal.ieee, -EReal.coe_mul]; norm_num
theorem ofBits_80000 : Ideal.ofBits .f32 0x479C4000#32 = ((80000 : ℝ) : EReal) := by
  simp [Ideal.ofBits, Ideal.ieee, -EReal.coe_mul]; norm_num
theorem ofBits_160000 : Ideal.ofBits .f32 0x481C4000#32 = ((160000 : ℝ) : EReal) := by
  simp [Ideal.ofBits, Ideal.ieee, -EReal.coe_mul]; norm_num
theorem ofBits_313600 : Ideal.ofBits .f32 0x48992000#32 = ((313600 : ℝ) : EReal) := by
  simp [Ideal.ofBits, Ideal.ieee, -EReal.coe_mul]; norm_num
theorem ofBits_eps : Ideal.ofBits .f32 0x3727C5AC#32 = ((10995116 / 1099511627776 : ℝ) : EReal) := by
  simp [Ideal.ofBits, Ideal.ieee, -EReal.coe_mul]; norm_num

/-! ## The scale and the ternary matrix -/

/-- The scale of a weight matrix: the mean of its absolute values (the divisor's pattern is `nb`), clamped from below by `ε`. -/
def scOf {r c : Nat} (nb : BitVec 32) (hR : (Sh2 r c).ReducesTo [0, 1] S0) (hu : 0 < S0.numel) (W : FVec Ideal (Sh2 r c) .f32) :
    FVec Ideal S0 .f32 :=
  maximumf (id (constant S0 .f32 0x3727C5AC#32))
    (Host.divf (Host.reduceAdd (Host.absf W) (constant S0 .f32 0x00000000#32) hR hu) (constant S0 .f32 nb))

/-- The ternary matrix: the weight times the reciprocal of the scale, rounded to the nearest even integer, clipped to [-1, 1]. -/
def tnOf {r c : Nat} (nb : BitVec 32) (hR : (Sh2 r c).ReducesTo [0, 1] S0) (hu : 0 < S0.numel)
    (hb : S0.BroadcastsInDim (Sh2 r c) (![] : Fin 0 → Fin (Sh2 r c).rank)) (W : FVec Ideal (Sh2 r c) .f32) : FVec Ideal (Sh2 r c) .f32 :=
  minimumf (broadcastInDim (Sh2 r c) ![] hb (id (constant S0 .f32 0x3F800000#32)))
    (maximumf (broadcastInDim (Sh2 r c) ![] hb (id (constant S0 .f32 0xBF800000#32)))
      (Host.roundeven (mulf W (broadcastInDim (Sh2 r c) ![] hb (Host.divf (constant S0 .f32 0x3F800000#32) (scOf nb hR hu W))))))

/-- A scalar broadcast to a shape, read anywhere, is the scalar. -/
theorem bcast0_apply {t : Shape} (hb : S0.BroadcastsInDim t (![] : Fin 0 → Fin t.rank)) {α : Type} (x : S0.Idx → α) (j : t.Idx) :
    broadcastInDim t ![] hb x j = x ix0 :=
  broadcastInDim_apply _ hb x j ix0 (fun a => a.elim0)

/-- The scale of a matrix of reals is a nonzero (indeed positive) real, when the divisor's pattern denotes a nonzero real. -/
theorem scOf_real {r c : Nat} (nb : BitVec 32) (hR : (Sh2 r c).ReducesTo [0, 1] S0) (hu : 0 < S0.numel) (W : FVec Ideal (Sh2 r c) .f32)
    (hW : AllReal W) {n : ℝ} (hn : n ≠ 0) (hnb : Ideal.ofBits .f32 nb = (n : EReal)) :
    ∃ s : ℝ, s ≠ 0 ∧ scOf nb hR hu W ix0 = (s : EReal) := by
  have hsum : Host.reduceAdd (F := Ideal) (Host.absf W) (constant S0 .f32 0x00000000#32) hR hu ix0
      = Ideal.ofBits .f32 0x00000000#32 + ∑ i : (Sh2 r c).Idx, max (W i) (-(W i)) := by
    simp only [Host.reduceAdd, Ideal.hostReduceAdd_def]
    exact Ideal.hostReduceAdd_total hR (fun b => b.elim0) (Host.absf W) _ ix0
  have hmean : IsReal (Ideal.div (Host.reduceAdd (F := Ideal) (Host.absf W) (constant S0 .f32 0x00000000#32) hR hu ix0) (Ideal.ofBits .f32 nb)) := by
    rw [hsum, hnb, Ideal.ofBits_zero_f32]
    exact isReal_absMean W hW ⟨0, by simp⟩ hn
  have he : (0 : ℝ) < 10995116 / 1099511627776 := by norm_num
  obtain ⟨s, hs, e⟩ := pos_real_of_max he hmean
  refine ⟨s, hs, ?_⟩
  rw [← e, ← ofBits_eps]
  rfl

/-- Every entry of the ternary matrix is real. -/
theorem tnOf_real {r c : Nat} (nb : BitVec 32) (hR : (Sh2 r c).ReducesTo [0, 1] S0) (hu : 0 < S0.numel)
    (hb : S0.BroadcastsInDim (Sh2 r c) (![] : Fin 0 → Fin (Sh2 r c).rank)) (W : FVec Ideal (Sh2 r c) .f32) :
    AllReal (tnOf nb hR hu hb W) := by
  intro i
  show IsReal (min (broadcastInDim (Sh2 r c) ![] hb (id (constant (F := Ideal) S0 .f32 0x3F800000#32)) i)
    (max (broadcastInDim (Sh2 r c) ![] hb (id (constant (F := Ideal) S0 .f32 0xBF800000#32)) i) _))
  rw [bcast0_apply, bcast0_apply]
  show IsReal (min (Ideal.ofBits .f32 0x3F800000#32) (max (Ideal.ofBits .f32 0xBF800000#32) _))
  rw [ofBits_one, ofBits_negone]
  exact isReal_clip _ _ _

end Cert.LibTernaryWeights

end
-- ==== Proof.NetDefs.lean ====
/-
  The variational autoencoder's forward pass in its two arrangements, over a batch of any size, and their equality.

  Ten linear layers with ternary-quantized weights. The reference arrangement (`rlin`) multiplies the activations by a dense
  weight rebuilt from the ternary matrix and the reciprocal of the scale; the kernel arrangement (`klinW`) multiplies by
  the ternary matrix and then by the scale. Between layers stands the leaky rectifier; the latent is
  `mean + logvar · noise`; the reconstruction is `1 / (1 + exp(-y))` of the last layer. On real inputs and real weights every
  activation is real, so the two arrangements agree layer by layer (`LibRowwise.layer_eq`), and therefore as a whole.
-/
import Idealize.ShloMosaic.PureOps.Ideal
import Idealize.ShloMosaic.PureOps.Ideal.Laws
import Idealize.ShloMosaic.Lib.ValueIdx
import Idealize.ShloMosaic.Lib.Pipeline.Value
import proofs.«175214_j61469571940629_2_alg».proof.Proof.LibTernaryLinear
import proofs.«175214_j61469571940629_2_alg».proof.Proof.LibRowwise
import proofs.«175214_j61469571940629_2_alg».proof.Proof.LibTernaryWeights

noncomputable section

namespace Cert.Net

open Idealize.ShloMosaic Idealize.ShloMosaic.ValueIdx Cert.LibTernaryLinear Cert.LibRowwise Cert.LibTernaryWeights

/-- The leaky rectifier with slope one fifth (as a float literal), elementwise. -/
def lrelu {s : Shape} (y : s.Idx → EReal) : s.Idx → EReal :=
  select (cmpf (F := Ideal) (φ := .f32) .oge y (fun _ => Ideal.ofBits .f32 0x00000000#32)) y
    (mulf (F := Ideal) (φ := .f32) (fun _ => Ideal.ofBits .f32 0x3E4CCCCD#32) y)

theorem lrelu_real {s : Shape} {y : s.Idx → EReal} (hy : AllReal y) : AllReal (lrelu y) :=
  AllReal.select _ hy (AllReal.mulf (AllReal.const (by rw [ofBits_fifth]; exact isReal_coe _)) hy)

/-- A kernel layer: the product with the (transposed) ternary matrix, then the scale. -/
def klin {M K N : Nat} (h : (Sh2 M K).Idx → EReal) (T : (Sh2 K N).Idx → EReal) (s : EReal) : (Sh2 M N).Idx → EReal :=
  mulf (F := Ideal) (φ := .f32) (mm h T) (fun _ => s)

/-- What a weight matrix of `r × c` entries brings: the pattern of its entry count and the real it denotes, and the
    shape facts its quantization and transposition are printed with. -/
structure WSpec (r c : Nat) where
  nb : BitVec 32
  n : ℝ
  hn : n ≠ 0
  hnb : Ideal.ofBits .f32 nb = (n : EReal)
  hR : (Sh2 r c).ReducesTo [0, 1] S0
  hu : 0 < S0.numel
  hb : S0.BroadcastsInDim (Sh2 r c) (![] : Fin 0 → Fin (Sh2 r c).rank)
  hT : (Sh2 r c).Transposes [1, 0] (Sh2 c r)

variable {r c : Nat}

/-- The ternary matrix, transposed to (fan-in, fan-out). -/
def tT (ws : WSpec r c) (W : FVec Ideal (Sh2 r c) .f32) : (Sh2 c r).Idx → EReal :=
  transpose (Sh2 c r) [1, 0] (tnOf ws.nb ws.hR ws.hu ws.hb W) ws.hT

/-- The scale, as a number. -/
def sS (ws : WSpec r c) (W : FVec Ideal (Sh2 r c) .f32) : EReal := scOf ws.nb ws.hR ws.hu W ix0

/-- The kernel arrangement of a layer. -/
def klinW {M : Nat} (ws : WSpec r c) (h : (Sh2 M c).Idx → EReal) (W : FVec Ideal (Sh2 r c) .f32) : (Sh2 M r).Idx → EReal :=
  klin h (tT ws W) (sS ws W)

/-- The reference arrangement of a layer (the host's dot product with the plain dimension numbers): the dense weight `W + (t / β - W)`, `β` the reciprocal of the scale, transposed. -/
def rlin {M : Nat} (ws : WSpec r c) (h : (Sh2 M c).Idx → EReal) (W : FVec Ideal (Sh2 r c) .f32) : (Sh2 M r).Idx → EReal :=
  FloatOps.dotGeneral (F := Ideal) (φ₁ := .f32) (φ₂ := .f32) (DotDims.plain M c r) none .single h (transpose (Sh2 c r) [1, 0] (addf (F := Ideal) (φ := .f32) W (subf (F := Ideal) (φ := .f32)
    (Host.divf (F := Ideal) (φ := .f32) (tnOf ws.nb ws.hR ws.hu ws.hb W)
      (broadcastInDim (Sh2 r c) ![] ws.hb (Host.divf (F := Ideal) (φ := .f32) (constant S0 .f32 0x3F800000#32) (scOf ws.nb ws.hR ws.hu W)))) W)) ws.hT)

theorem rlin_eq {M : Nat} (ws : WSpec r c) {h : (Sh2 M c).Idx → EReal} {W : FVec Ideal (Sh2 r c) .f32} (hh : AllReal h) (hW : AllReal W) :
    rlin ws h W = klinW ws h W := by
  obtain ⟨s, hs, es⟩ := scOf_real ws.nb ws.hR ws.hu W hW ws.hn ws.hnb
  have eβ : broadcastInDim (Sh2 r c) ![] ws.hb (Host.divf (F := Ideal) (φ := .f32) (constant S0 .f32 0x3F800000#32) (scOf ws.nb ws.hR ws.hu W))
      = fun _ => Ideal.div 1 (s : EReal) := by
    funext j
    rw [bcast0_apply]
    show Ideal.div (Ideal.ofBits .f32 0x3F800000#32) (scOf ws.nb ws.hR ws.hu W ix0) = _
    rw [es, ofBits_one, EReal.coe_one]
  unfold rlin klinW klin tT sS
  rw [dotGeneral_plain, eβ, es]
  exact layer_eq h W _ s hs hh hW (tnOf_real ws.nb ws.hR ws.hu ws.hb W) ws.hT

theorem klinW_real {M : Nat} (ws : WSpec r c) {h : (Sh2 M c).Idx → EReal} {W : FVec Ideal (Sh2 r c) .f32} (hh : AllReal h) (hW : AllReal W) :
    AllReal (klinW ws h W) := by
  obtain ⟨s, hs, es⟩ := scOf_real ws.nb ws.hR ws.hu W hW ws.hn ws.hnb
  unfold klinW klin tT sS
  rw [es]
  exact AllReal.mulf (AllReal.mm hh (AllReal.transpose (tnOf_real ws.nb ws.hR ws.hu ws.hb W) ws.hT)) (AllReal.const (isReal_coe s))

end Cert.Net

end
-- ==== Proof.KernelIdealNet.lean ====
/-
  The kernel body's three stored blocks as compositions of scaled ternary products.

  Read at the extended reals, where a change of float format is the identity and a matrix-unit product into a zero
  accumulator is the plain matrix product `mm`: every layer of the body is `klin h T s`, the product of the activations
  with a ternary matrix followed by the layer's scale, and between layers stands the leaky rectifier `lrelu`. The mean
  and the log-variance are the two column halves of one merged head product; the latent is `mean + logvar · noise`;
  the reconstruction is the logistic function of the last layer.
-/
import proofs.«175214_j61469571940629_2_alg».proof.Proof.KernelIdealBody
import proofs.«175214_j61469571940629_2_alg».proof.Proof.LibRowwise
import proofs.«175214_j61469571940629_2_alg».proof.Proof.NetDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx Cert.LibRowwise Cert.Net

theorem hz0 : (![0, 0] : Fin 2 → Nat) = fun _ => 0 := funext fun a => by fin_cases a <;> rfl

theorem scaleLd0 (x11 : Vec Ideal S1x10 .f32) : extractAt ![0, 0] (View.ld x11 rs0) inpos_S1x1_p0_0 = x11 (ix2 0 0) :=
  congrArg x11 (funext fun a => Fin.ext (by match a with | ⟨0, _⟩ => rfl | ⟨1, _⟩ => rfl))
theorem scaleLd1 (x11 : Vec Ideal S1x10 .f32) : extractAt ![0, 0] (View.ld x11 rs1) inpos_S1x1_p0_0 = x11 (ix2 0 1) :=
  congrArg x11 (funext fun a => Fin.ext (by match a with | ⟨0, _⟩ => rfl | ⟨1, _⟩ => rfl))
theorem scaleLd2 (x11 : Vec Ideal S1x10 .f32) : extractAt ![0, 0] (View.ld x11 rs2) inpos_S1x1_p0_0 = x11 (ix2 0 2) :=
  congrArg x11 (funext fun a => Fin.ext (by match a with | ⟨0, _⟩ => rfl | ⟨1, _⟩ => rfl))
theorem scaleLd3 (x11 : Vec Ideal S1x10 .f32) : extractAt ![0, 0] (View.ld x11 rs3) inpos_S1x1_p0_0 = x11 (ix2 0 3) :=
  congrArg x11 (funext fun a => Fin.ext (by match a with | ⟨0, _⟩ => rfl | ⟨1, _⟩ => rfl))
theorem scaleLd4 (x11 : Vec Ideal S1x10 .f32) : extractAt ![0, 0] (View.ld x11 rs4) inpos_S1x1_p0_0 = x11 (ix2 0 4) :=
  congrArg x11 (funext fun a => Fin.ext (by match a with | ⟨0, _⟩ => rfl | ⟨1, _⟩ => rfl))
theorem scaleLd5 (x11 : Vec Ideal S1x10 .f32) : extractAt ![0, 0] (View.ld x11 rs5) inpos_S1x1_p0_0 = x11 (ix2 0 5) :=
  congrArg x11 (funext fun a => Fin.ext (by match a with | ⟨0, _⟩ => rfl | ⟨1, _⟩ => rfl))
theorem scaleLd6 (x11 : Vec Ideal S1x10 .f32) : extractAt ![0, 0] (View.ld x11 rs6) inpos_S1x1_p0_0 = x11 (ix2 0 6) :=
  congrArg x11 (funext fun a => Fin.ext (by match a with | ⟨0, _⟩ => rfl | ⟨1, _⟩ => rfl))
theorem scaleLd7 (x11 : Vec Ideal S1x10 .f32) : extractAt ![0, 0] (View.ld x11 rs7) inpos_S1x1_p0_0 = x11 (ix2 0 7) :=
  congrArg x11 (funext fun a => Fin.ext (by match a with | ⟨0, _⟩ => rfl | ⟨1, _⟩ => rfl))
theorem scaleLd8 (x11 : Vec Ideal S1x10 .f32) : extractAt ![0, 0] (View.ld x11 rs8) inpos_S1x1_p0_0 = x11 (ix2 0 8) :=
  congrArg x11 (funext fun a => Fin.ext (by match a with | ⟨0, _⟩ => rfl | ⟨1, _⟩ => rfl))
theorem scaleLd9 (x11 : Vec Ideal S1x10 .f32) : extractAt ![0, 0] (View.ld x11 rs9) inpos_S1x1_p0_0 = x11 (ix2 0 9) :=
  congrArg x11 (funext fun a => Fin.ext (by match a with | ⟨0, _⟩ => rfl | ⟨1, _⟩ => rfl))

theorem mm_784_400 (A : FVec Ideal S1024x784 .bf16) (B : FVec Ideal S784x400 .bf16) :
    FloatOps.matmul dot_S1024x784_S784x400_S1024x400_1_0_0_1_n_n none A B (constant S1024x400 .f32 0x00000000#32) = mm A B := matmul_plain 1024 784 400 A B
theorem mm_400_400 (A : FVec Ideal S1024x400 .bf16) (B : FVec Ideal S400x400 .bf16) :
    FloatOps.matmul dot_S1024x400_S400x400_S1024x400_1_0_0_1_n_n none A B (constant S1024x400 .f32 0x00000000#32) = mm A B := matmul_plain 1024 400 400 A B
theorem mm_400_200 (A : FVec Ideal S1024x400 .bf16) (B : FVec Ideal S400x200 .bf16) :
    FloatOps.matmul dot_S1024x400_S400x200_S1024x200_1_0_0_1_n_n none A B (constant S1024x200 .f32 0x00000000#32) = mm A B := matmul_plain 1024 400 200 A B
theorem mm_200_4 (A : FVec Ideal S1024x200 .bf16) (B : FVec Ideal S200x4 .bf16) :
    FloatOps.matmul dot_S1024x200_S200x4_S1024x4_1_0_0_1_n_n none A B (constant S1024x4 .f32 0x00000000#32) = mm A B := matmul_plain 1024 200 4 A B
theorem mm_2_200 (A : FVec Ideal S1024x2 .bf16) (B : FVec Ideal S2x200 .bf16) :
    FloatOps.matmul dot_S1024x2_S2x200_S1024x200_1_0_0_1_n_n none A B (constant S1024x200 .f32 0x00000000#32) = mm A B := matmul_plain 1024 2 200 A B
theorem mm_200_400 (A : FVec Ideal S1024x200 .bf16) (B : FVec Ideal S200x400 .bf16) :
    FloatOps.matmul dot_S1024x200_S200x400_S1024x400_1_0_0_1_n_n none A B (constant S1024x400 .f32 0x00000000#32) = mm A B := matmul_plain 1024 200 400 A B
theorem mm_400_784 (A : FVec Ideal S1024x400 .bf16) (B : FVec Ideal S400x784 .bf16) :
    FloatOps.matmul dot_S1024x400_S400x784_S1024x784_1_0_0_1_n_n none A B (constant S1024x784 .f32 0x00000000#32) = mm A B := matmul_plain 1024 400 784 A B

theorem ldx (x : Vec Ideal S1024x784 .f32) : View.ld x rx = x := View.ld_unit_zero (S := S1024x784) hz0 _ x
theorem lde (x : Vec Ideal S1024x2 .f32) : View.ld x re = x := View.ld_unit_zero (S := S1024x2) hz0 _ x
theorem ldw2 (x : Vec Ideal S784x400 .bf16) : View.ld x rw2 = x := View.ld_unit_zero (S := S784x400) hz0 _ x
theorem ldw3 (x : Vec Ideal S400x400 .bf16) : View.ld x rw3 = x := View.ld_unit_zero (S := S400x400) hz0 _ x
theorem ldw4 (x : Vec Ideal S400x200 .bf16) : View.ld x rw4 = x := View.ld_unit_zero (S := S400x200) hz0 _ x
theorem ldw5 (x : Vec Ideal S200x4 .bf16) : View.ld x rw5 = x := View.ld_unit_zero (S := S200x4) hz0 _ x
theorem ldw6 (x : Vec Ideal S2x200 .bf16) : View.ld x rw6 = x := View.ld_unit_zero (S := S2x200) hz0 _ x
theorem ldw7 (x : Vec Ideal S200x400 .bf16) : View.ld x rw7 = x := View.ld_unit_zero (S := S200x400) hz0 _ x
theorem ldw10 (x : Vec Ideal S400x784 .bf16) : View.ld x rw10 = x := View.ld_unit_zero (S := S400x784) hz0 _ x

set_option maxHeartbeats 2000000 in
/-- The third encoder layer before its activation. -/
theorem enc3_eq (x0 : Vec Ideal S1024x784 .f32) (x1 : Vec Ideal S1024x2 .f32) (x2 : Vec Ideal S784x400 .bf16) (x3 : Vec Ideal S400x400 .bf16) (x4 : Vec Ideal S400x200 .bf16) (x5 : Vec Ideal S200x4 .bf16) (x6 : Vec Ideal S2x200 .bf16) (x7 : Vec Ideal S200x400 .bf16) (x8 : Vec Ideal S400x400 .bf16) (x9 : Vec Ideal S400x400 .bf16) (x10 : Vec Ideal S400x784 .bf16) (x11 : Vec Ideal S1x10 .f32) :
    enc3 x0 x1 x2 x3 x4 x5 x6 x7 x8 x9 x10 x11 = klin (lrelu (klin (lrelu (klin x0 x2 (x11 (ix2 0 0)))) x3 (x11 (ix2 0 1)))) x4 (x11 (ix2 0 2)) := by
  unfold enc3 k0_pay2
  rw [ldx, ldw2, ldw3, ldw4, scaleLd0, scaleLd1, scaleLd2]
  simp only [shapeCast_self, mm_784_400, mm_400_400, mm_400_200]
  rfl

set_option maxHeartbeats 2000000 in
/-- The mean block: the first two columns of the merged head product, scaled. -/
theorem meanBlk_eq (x0 : Vec Ideal S1024x784 .f32) (x1 : Vec Ideal S1024x2 .f32) (x2 : Vec Ideal S784x400 .bf16) (x3 : Vec Ideal S400x400 .bf16) (x4 : Vec Ideal S400x200 .bf16) (x5 : Vec Ideal S200x4 .bf16) (x6 : Vec Ideal S2x200 .bf16) (x7 : Vec Ideal S200x400 .bf16) (x8 : Vec Ideal S400x400 .bf16) (x9 : Vec Ideal S400x400 .bf16) (x10 : Vec Ideal S400x784 .bf16) (x11 : Vec Ideal S1x10 .f32) :
    meanBlk x0 x1 x2 x3 x4 x5 x6 x7 x8 x9 x10 x11 = mulf (F := Ideal) (φ := .f32) (extractStridedSlice S1024x2 ![0, 0] (mm (lrelu (enc3 x0 x1 x2 x3 x4 x5 x6 x7 x8 x9 x10 x11)) x5) slices_S1024x4_o0_0_S1024x2) (fun _ => x11 (ix2 0 3)) := by
  unfold meanBlk k0_pay5 k0_pay4 enc3Mask k0_pay3
  rw [ldw5, scaleLd3]
  simp only [shapeCast_self, mm_200_4]
  rfl

set_option maxHeartbeats 2000000 in
/-- The log-variance block: the last two columns of the merged head product, scaled. -/
theorem logvarBlk_eq (x0 : Vec Ideal S1024x784 .f32) (x1 : Vec Ideal S1024x2 .f32) (x2 : Vec Ideal S784x400 .bf16) (x3 : Vec Ideal S400x400 .bf16) (x4 : Vec Ideal S400x200 .bf16) (x5 : Vec Ideal S200x4 .bf16) (x6 : Vec Ideal S2x200 .bf16) (x7 : Vec Ideal S200x400 .bf16) (x8 : Vec Ideal S400x400 .bf16) (x9 : Vec Ideal S400x400 .bf16) (x10 : Vec Ideal S400x784 .bf16) (x11 : Vec Ideal S1x10 .f32) :
    logvarBlk x0 x1 x2 x3 x4 x5 x6 x7 x8 x9 x10 x11 = mulf (F := Ideal) (φ := .f32) (extractStridedSlice S1024x2 ![0, 2] (mm (lrelu (enc3 x0 x1 x2 x3 x4 x5 x6 x7 x8 x9 x10 x11)) x5) slices_S1024x4_o0_2_S1024x2) (fun _ => x11 (ix2 0 4)) := by
  unfold logvarBlk k0_pay6 k0_pay4 enc3Mask k0_pay3
  rw [ldw5, scaleLd4]
  simp only [shapeCast_self, mm_200_4]
  rfl

set_option maxHeartbeats 2000000 in
/-- The second decoder product: the latent through the first decoder layer and its rectifier, times the second matrix. -/
theorem dec2_eq (x0 : Vec Ideal S1024x784 .f32) (x1 : Vec Ideal S1024x2 .f32) (x2 : Vec Ideal S784x400 .bf16) (x3 : Vec Ideal S400x400 .bf16) (x4 : Vec Ideal S400x200 .bf16) (x5 : Vec Ideal S200x4 .bf16) (x6 : Vec Ideal S2x200 .bf16) (x7 : Vec Ideal S200x400 .bf16) (x8 : Vec Ideal S400x400 .bf16) (x9 : Vec Ideal S400x400 .bf16) (x10 : Vec Ideal S400x784 .bf16) (x11 : Vec Ideal S1x10 .f32) :
    dec2 x0 x1 x2 x3 x4 x5 x6 x7 x8 x9 x10 x11 = mm (lrelu (klin (addf (F := Ideal) (φ := .f32) (meanBlk x0 x1 x2 x3 x4 x5 x6 x7 x8 x9 x10 x11) (mulf (F := Ideal) (φ := .f32) (logvarBlk x0 x1 x2 x3 x4 x5 x6 x7 x8 x9 x10 x11) x1)) x6 (x11 (ix2 0 5)))) x7 := by
  unfold dec2 k0_pay7 meanBlk logvarBlk
  rw [lde, ldw6, ldw7, scaleLd5]
  simp only [shapeCast_self, mm_2_200, mm_200_400]
  rfl

end Cert.KernelIdeal.Hand

end
-- ==== Proof.KernelIdealWeightsA.lean ====
/-
  What the host leaves in the weight windows' arrays before the region: for each weight matrix, its ternary matrix
  (rounded scaled weight clipped to [-1, 1]) converted to bf16 and transposed to (fan-in, fan-out).
-/
import proofs.«175214_j61469571940629_2_alg».proof.Proof.KernelIdealHost
import proofs.«175214_j61469571940629_2_alg».proof.Proof.LibTernaryWeights
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.LibTernaryWeights Cert.LibRowwise

variable (m : (ℓ : Loc nD τ sig) → Buf (Elt Ideal) ℓ)

set_option maxHeartbeats 4000000 in
/-- Window 2's array when the region is entered: the ternary matrix of argument 2, in bf16, transposed. -/
theorem V_w2 (c : Dev nD) : (V m c main_v100 : S784x400.Idx → EReal)
    = transpose S784x400 [1, 0] (truncf .bf16 (tnOf 0x48992000#32 reducesTo_S400x784_S_d0_1 h_S_ bcast_S_S400x784 (m ((c : Thread nD τ).loc main_arg2))) bitsLt_bf16_f32) transposes_S400x784_S784x400_1_0 := by
  dsimp only [V, prefixes]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append, List.nil_append]
  after_results_simp
  rfl

set_option maxHeartbeats 4000000 in
/-- Window 3's array when the region is entered: the ternary matrix of argument 3, in bf16, transposed. -/
theorem V_w3 (c : Dev nD) : (V m c main_v101 : S400x400.Idx → EReal)
    = transpose S400x400 [1, 0] (truncf .bf16 (tnOf 0x481C4000#32 reducesTo_S400x400_S_d0_1 h_S_ bcast_S_S400x400 (m ((c : Thread nD τ).loc main_arg3))) bitsLt_bf16_f32) transposes_S400x400_S400x400_1_0 := by
  dsimp only [V, prefixes]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append, List.nil_append]
  after_results_simp
  rfl

set_option maxHeartbeats 4000000 in
/-- Window 4's array when the region is entered: the ternary matrix of argument 4, in bf16, transposed. -/
theorem V_w4 (c : Dev nD) : (V m c main_v102 : S400x200.Idx → EReal)
    = transpose S400x200 [1, 0] (truncf .bf16 (tnOf 0x479C4000#32 reducesTo_S200x400_S_d0_1 h_S_ bcast_S_S200x400 (m ((c : Thread nD τ).loc main_arg4))) bitsLt_bf16_f32) transposes_S200x400_S400x200_1_0 := by
  dsimp only [V, prefixes]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append, List.nil_append]
  after_results_simp
  rfl

end Cert.KernelIdeal.Hand

end
-- ==== Proof.KernelIdealWeightsB.lean ====
/-
  What the host leaves in the weight windows' arrays before the region: for each weight matrix, its ternary matrix
  (rounded scaled weight clipped to [-1, 1]) converted to bf16 and transposed to (fan-in, fan-out).
-/
import proofs.«175214_j61469571940629_2_alg».proof.Proof.KernelIdealHost
import proofs.«175214_j61469571940629_2_alg».proof.Proof.LibTernaryWeights
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.LibTernaryWeights Cert.LibRowwise

variable (m : (ℓ : Loc nD τ sig) → Buf (Elt Ideal) ℓ)

set_option maxHeartbeats 4000000 in
/-- Window 6's array when the region is entered: the ternary matrix of argument 7, in bf16, transposed. -/
theorem V_w6 (c : Dev nD) : (V m c main_v106 : S2x200.Idx → EReal)
    = transpose S2x200 [1, 0] (truncf .bf16 (tnOf 0x43C80000#32 reducesTo_S200x2_S_d0_1 h_S_ bcast_S_S200x2 (m ((c : Thread nD τ).loc main_arg7))) bitsLt_bf16_f32) transposes_S200x2_S2x200_1_0 := by
  dsimp only [V, prefixes]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append, List.nil_append]
  after_results_simp
  rfl

set_option maxHeartbeats 4000000 in
/-- Window 7's array when the region is entered: the ternary matrix of argument 8, in bf16, transposed. -/
theorem V_w7 (c : Dev nD) : (V m c main_v107 : S200x400.Idx → EReal)
    = transpose S200x400 [1, 0] (truncf .bf16 (tnOf 0x479C4000#32 reducesTo_S400x200_S_d0_1 h_S_ bcast_S_S400x200 (m ((c : Thread nD τ).loc main_arg8))) bitsLt_bf16_f32) transposes_S400x200_S200x400_1_0 := by
  dsimp only [V, prefixes]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append, List.nil_append]
  after_results_simp
  rfl

set_option maxHeartbeats 4000000 in
/-- Window 8's array when the region is entered: the ternary matrix of argument 9, in bf16, transposed. -/
theorem V_w8 (c : Dev nD) : (V m c main_v108 : S400x400.Idx → EReal)
    = transpose S400x400 [1, 0] (truncf .bf16 (tnOf 0x481C4000#32 reducesTo_S400x400_S_d0_1 h_S_ bcast_S_S400x400 (m ((c : Thread nD τ).loc main_arg9))) bitsLt_bf16_f32) transposes_S400x400_S400x400_1_0 := by
  dsimp only [V, prefixes]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append, List.nil_append]
  after_results_simp
  rfl

end Cert.KernelIdeal.Hand

end
-- ==== Proof.KernelIdealWeightsC.lean ====
/-
  What the host leaves in the weight windows' arrays before the region: for each weight matrix, its ternary matrix
  (rounded scaled weight clipped to [-1, 1]) converted to bf16 and transposed to (fan-in, fan-out).
-/
import proofs.«175214_j61469571940629_2_alg».proof.Proof.KernelIdealHost
import proofs.«175214_j61469571940629_2_alg».proof.Proof.LibTernaryWeights
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.LibTernaryWeights Cert.LibRowwise

variable (m : (ℓ : Loc nD τ sig) → Buf (Elt Ideal) ℓ)

set_option maxHeartbeats 4000000 in
/-- Window 9's array when the region is entered: the ternary matrix of argument 10, in bf16, transposed. -/
theorem V_w9 (c : Dev nD) : (V m c main_v109 : S400x400.Idx → EReal)
    = transpose S400x400 [1, 0] (truncf .bf16 (tnOf 0x481C4000#32 reducesTo_S400x400_S_d0_1 h_S_ bcast_S_S400x400 (m ((c : Thread nD τ).loc main_arg10))) bitsLt_bf16_f32) transposes_S400x400_S400x400_1_0 := by
  dsimp only [V, prefixes]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append, List.nil_append]
  after_results_simp
  rfl

set_option maxHeartbeats 4000000 in
/-- Window 10's array when the region is entered: the ternary matrix of argument 11, in bf16, transposed. -/
theorem V_w10 (c : Dev nD) : (V m c main_v110 : S400x784.Idx → EReal)
    = transpose S400x784 [1, 0] (truncf .bf16 (tnOf 0x48992000#32 reducesTo_S784x400_S_d0_1 h_S_ bcast_S_S784x400 (m ((c : Thread nD τ).loc main_arg11))) bitsLt_bf16_f32) transposes_S784x400_S400x784_1_0 := by
  dsimp only [V, prefixes]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append, List.nil_append]
  after_results_simp
  rfl

end Cert.KernelIdeal.Hand

end
-- ==== Proof.KernelIdealWeightsD.lean ====
/-
  What the host leaves in the merged head window's array (the mean head's and the log-variance head's ternary matrices,
  transposed, side by side) and in the scales window's array (the ten scales in a row).
-/
import proofs.«175214_j61469571940629_2_alg».proof.Proof.KernelIdealHost
import proofs.«175214_j61469571940629_2_alg».proof.Proof.LibTernaryWeights
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.LibTernaryWeights Cert.LibRowwise

variable (m : (ℓ : Loc nD τ sig) → Buf (Elt Ideal) ℓ)

set_option maxHeartbeats 4000000 in
theorem V_w5 (c : Dev nD) : (V m c main_v105 : S200x4.Idx → EReal)
    = concatenate S200x4 1 [⟨S200x2, transpose S200x2 [1, 0] (truncf .bf16 (tnOf 0x43C80000#32 reducesTo_S2x200_S_d0_1 h_S_ bcast_S_S2x200 (m ((c : Thread nD τ).loc main_arg5))) bitsLt_bf16_f32) transposes_S2x200_S200x2_1_0⟩,
        ⟨S200x2, transpose S200x2 [1, 0] (truncf .bf16 (tnOf 0x43C80000#32 reducesTo_S2x200_S_d0_1 h_S_ bcast_S_S2x200 (m ((c : Thread nD τ).loc main_arg6))) bitsLt_bf16_f32) transposes_S2x200_S200x2_1_0⟩] concatenates_S200x2_S200x2_S200x4_d1 := by
  dsimp only [V, prefixes]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append, List.nil_append]
  after_results_simp
  rfl

set_option maxHeartbeats 8000000 in
theorem V_w11 (c : Dev nD) : (V m c main_v122 : S1x10.Idx → EReal)
    = shapeCast S1x10 (concatenate S10 0 [⟨S1, broadcastInDim S1 ![] bcast_S_S1 (scOf 0x48992000#32 reducesTo_S400x784_S_d0_1 h_S_ (m ((c : Thread nD τ).loc main_arg2)))⟩,
        ⟨S1, broadcastInDim S1 ![] bcast_S_S1 (scOf 0x481C4000#32 reducesTo_S400x400_S_d0_1 h_S_ (m ((c : Thread nD τ).loc main_arg3)))⟩,
        ⟨S1, broadcastInDim S1 ![] bcast_S_S1 (scOf 0x479C4000#32 reducesTo_S200x400_S_d0_1 h_S_ (m ((c : Thread nD τ).loc main_arg4)))⟩,
        ⟨S1, broadcastInDim S1 ![] bcast_S_S1 (scOf 0x43C80000#32 reducesTo_S2x200_S_d0_1 h_S_ (m ((c : Thread nD τ).loc main_arg5)))⟩,
        ⟨S1, broadcastInDim S1 ![] bcast_S_S1 (scOf 0x43C80000#32 reducesTo_S2x200_S_d0_1 h_S_ (m ((c : Thread nD τ).loc main_arg6)))⟩,
        ⟨S1, broadcastInDim S1 ![] bcast_S_S1 (scOf 0x43C80000#32 reducesTo_S200x2_S_d0_1 h_S_ (m ((c : Thread nD τ).loc main_arg7)))⟩,
        ⟨S1, broadcastInDim S1 ![] bcast_S_S1 (scOf 0x479C4000#32 reducesTo_S400x200_S_d0_1 h_S_ (m ((c : Thread nD τ).loc main_arg8)))⟩,
        ⟨S1, broadcastInDim S1 ![] bcast_S_S1 (scOf 0x481C4000#32 reducesTo_S400x400_S_d0_1 h_S_ (m ((c : Thread nD τ).loc main_arg9)))⟩,
        ⟨S1, broadcastInDim S1 ![] bcast_S_S1 (scOf 0x481C4000#32 reducesTo_S400x400_S_d0_1 h_S_ (m ((c : Thread nD τ).loc main_arg10)))⟩,
        ⟨S1, broadcastInDim S1 ![] bcast_S_S1 (scOf 0x48992000#32 reducesTo_S784x400_S_d0_1 h_S_ (m ((c : Thread nD τ).loc main_arg11)))⟩] concatenates_S1_S1_S1_S1_S1_S1_S1_S1_S1_S1_S10_d0) shapeCasts_S10_S1x10 := by
  dsimp only [V, prefixes]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, List.flatten_cons, List.flatten_nil, List.append_nil, List.cons_append, List.nil_append]
  after_results_simp
  rfl

end Cert.KernelIdeal.Hand

end
-- ==== Proof.NetEq.lean ====
/-
  The whole forward pass in the two arrangements (`r…`: the reference's, `k…`: the kernel's), their equality on real data,
  and that a block of rows of the kernel arrangement's results is the kernel arrangement of the block of rows.
-/
import proofs.«175214_j61469571940629_2_alg».proof.Proof.NetDefs

noncomputable section

namespace Cert.Net

open Idealize.ShloMosaic Idealize.ShloMosaic.ValueIdx Cert.LibTernaryLinear Cert.LibRowwise Cert.LibTernaryWeights

variable (ws1 : WSpec 400 784) (ws2 : WSpec 400 400) (ws3 : WSpec 200 400) (ws4 : WSpec 2 200) (ws5 : WSpec 2 200) (ws6 : WSpec 200 2) (ws7 : WSpec 400 200) (ws8 : WSpec 400 400) (ws9 : WSpec 400 400) (ws10 : WSpec 784 400)
variable (W1 : FVec Ideal (Sh2 400 784) .f32) (W2 : FVec Ideal (Sh2 400 400) .f32) (W3 : FVec Ideal (Sh2 200 400) .f32) (W4 : FVec Ideal (Sh2 2 200) .f32) (W5 : FVec Ideal (Sh2 2 200) .f32) (W6 : FVec Ideal (Sh2 200 2) .f32) (W7 : FVec Ideal (Sh2 400 200) .f32) (W8 : FVec Ideal (Sh2 400 400) .f32) (W9 : FVec Ideal (Sh2 400 400) .f32) (W10 : FVec Ideal (Sh2 784 400) .f32)
variable {B : Nat} (X : (Sh2 B 784).Idx → EReal) (E : (Sh2 B 2).Idx → EReal)

/-! ## The reference arrangement -/

def rE3 : (Sh2 B 200).Idx → EReal := lrelu (rlin ws3 (lrelu (rlin ws2 (lrelu (rlin ws1 X W1)) W2)) W3)
def rMean : (Sh2 B 2).Idx → EReal := rlin ws4 (rE3 ws1 ws2 ws3 W1 W2 W3 X) W4
def rLogvar : (Sh2 B 2).Idx → EReal := rlin ws5 (rE3 ws1 ws2 ws3 W1 W2 W3 X) W5
def rZ : (Sh2 B 2).Idx → EReal :=
  addf (F := Ideal) (φ := .f32) (rMean ws1 ws2 ws3 ws4 W1 W2 W3 W4 X) (mulf (F := Ideal) (φ := .f32) (rLogvar ws1 ws2 ws3 ws5 W1 W2 W3 W5 X) E)
def rD5 : (Sh2 B 784).Idx → EReal :=
  rlin ws10 (lrelu (rlin ws9 (lrelu (rlin ws8 (lrelu (rlin ws7 (lrelu (rlin ws6 (rZ ws1 ws2 ws3 ws4 ws5 W1 W2 W3 W4 W5 X E) W6)) W7)) W8)) W9)) W10
def rXhat : (Sh2 B 784).Idx → EReal :=
  Host.divf (F := Ideal) (φ := .f32) (fun _ => Ideal.ofBits .f32 0x3F800000#32)
    (addf (F := Ideal) (φ := .f32) (fun _ => Ideal.ofBits .f32 0x3F800000#32) (Host.exp (F := Ideal) (φ := .f32) (Host.negf (F := Ideal) (φ := .f32) (rD5 ws1 ws2 ws3 ws4 ws5 ws6 ws7 ws8 ws9 ws10 W1 W2 W3 W4 W5 W6 W7 W8 W9 W10 X E))))

/-! ## The kernel arrangement -/

def kE3 : (Sh2 B 200).Idx → EReal := lrelu (klinW ws3 (lrelu (klinW ws2 (lrelu (klinW ws1 X W1)) W2)) W3)
def kMean : (Sh2 B 2).Idx → EReal := klinW ws4 (kE3 ws1 ws2 ws3 W1 W2 W3 X) W4
def kLogvar : (Sh2 B 2).Idx → EReal := klinW ws5 (kE3 ws1 ws2 ws3 W1 W2 W3 X) W5
def kZ : (Sh2 B 2).Idx → EReal :=
  addf (F := Ideal) (φ := .f32) (kMean ws1 ws2 ws3 ws4 W1 W2 W3 W4 X) (mulf (F := Ideal) (φ := .f32) (kLogvar ws1 ws2 ws3 ws5 W1 W2 W3 W5 X) E)
def kD5 : (Sh2 B 784).Idx → EReal :=
  klinW ws10 (lrelu (klinW ws9 (lrelu (klinW ws8 (lrelu (klinW ws7 (lrelu (klinW ws6 (kZ ws1 ws2 ws3 ws4 ws5 W1 W2 W3 W4 W5 X E) W6)) W7)) W8)) W9)) W10
def kXhat : (Sh2 B 784).Idx → EReal := logistic (F := Ideal) (φ := .f32) (kD5 ws1 ws2 ws3 ws4 ws5 ws6 ws7 ws8 ws9 ws10 W1 W2 W3 W4 W5 W6 W7 W8 W9 W10 X E)

/-! ## They agree on real data -/

variable (hX : AllReal X) (hE : AllReal E) (h1 : AllReal W1) (h2 : AllReal W2) (h3 : AllReal W3) (h4 : AllReal W4) (h5 : AllReal W5)
  (h6 : AllReal W6) (h7 : AllReal W7) (h8 : AllReal W8) (h9 : AllReal W9) (h10 : AllReal W10)

include hX h1 h2 h3 in
theorem rE3_eq : rE3 ws1 ws2 ws3 W1 W2 W3 X = kE3 ws1 ws2 ws3 W1 W2 W3 X ∧ AllReal (kE3 ws1 ws2 ws3 W1 W2 W3 X) := by
  have a1 := rlin_eq ws1 hX h1
  have r1 := lrelu_real (klinW_real ws1 hX h1)
  have a2 := rlin_eq ws2 r1 h2
  have r2 := lrelu_real (klinW_real ws2 r1 h2)
  have a3 := rlin_eq ws3 r2 h3
  have r3 := lrelu_real (klinW_real ws3 r2 h3)
  refine ⟨?_, r3⟩
  unfold rE3 kE3
  rw [a1, a2, a3]

include hX h1 h2 h3 h4 in
theorem rMean_eq : rMean ws1 ws2 ws3 ws4 W1 W2 W3 W4 X = kMean ws1 ws2 ws3 ws4 W1 W2 W3 W4 X ∧ AllReal (kMean ws1 ws2 ws3 ws4 W1 W2 W3 W4 X) := by
  obtain ⟨e, r⟩ := rE3_eq ws1 ws2 ws3 W1 W2 W3 X hX h1 h2 h3
  unfold rMean kMean
  rw [e]
  exact ⟨rlin_eq ws4 r h4, klinW_real ws4 r h4⟩

include hX h1 h2 h3 h5 in
theorem rLogvar_eq : rLogvar ws1 ws2 ws3 ws5 W1 W2 W3 W5 X = kLogvar ws1 ws2 ws3 ws5 W1 W2 W3 W5 X ∧ AllReal (kLogvar ws1 ws2 ws3 ws5 W1 W2 W3 W5 X) := by
  obtain ⟨e, r⟩ := rE3_eq ws1 ws2 ws3 W1 W2 W3 X hX h1 h2 h3
  unfold rLogvar kLogvar
  rw [e]
  exact ⟨rlin_eq ws5 r h5, klinW_real ws5 r h5⟩

include hX hE h1 h2 h3 h4 h5 h6 h7 h8 h9 h10 in
theorem rD5_eq : rD5 ws1 ws2 ws3 ws4 ws5 ws6 ws7 ws8 ws9 ws10 W1 W2 W3 W4 W5 W6 W7 W8 W9 W10 X E = kD5 ws1 ws2 ws3 ws4 ws5 ws6 ws7 ws8 ws9 ws10 W1 W2 W3 W4 W5 W6 W7 W8 W9 W10 X E := by
  obtain ⟨em, rm⟩ := rMean_eq ws1 ws2 ws3 ws4 W1 W2 W3 W4 X hX h1 h2 h3 h4
  obtain ⟨el, rl⟩ := rLogvar_eq ws1 ws2 ws3 ws5 W1 W2 W3 W5 X hX h1 h2 h3 h5
  have rz : AllReal (kZ ws1 ws2 ws3 ws4 ws5 W1 W2 W3 W4 W5 X E) := AllReal.addf rm (AllReal.mulf rl hE)
  have ez : rZ ws1 ws2 ws3 ws4 ws5 W1 W2 W3 W4 W5 X E = kZ ws1 ws2 ws3 ws4 ws5 W1 W2 W3 W4 W5 X E := by
    unfold rZ kZ; rw [em, el]
  have a6 := rlin_eq ws6 rz h6
  have r6 := lrelu_real (klinW_real ws6 rz h6)
  have a7 := rlin_eq ws7 r6 h7
  have r7 := lrelu_real (klinW_real ws7 r6 h7)
  have a8 := rlin_eq ws8 r7 h8
  have r8 := lrelu_real (klinW_real ws8 r7 h8)
  have a9 := rlin_eq ws9 r8 h9
  have r9 := lrelu_real (klinW_real ws9 r8 h9)
  have a10 := rlin_eq ws10 r9 h10
  unfold rD5 kD5
  rw [ez, a6, a7, a8, a9, a10]

/-- `1 / (1 + exp(-y))`, as the host spells it, is the logistic function. -/
theorem host_logistic {s : Shape} (y : s.Idx → EReal) :
    Host.divf (F := Ideal) (φ := .f32) (fun _ => Ideal.ofBits .f32 0x3F800000#32)
      (addf (F := Ideal) (φ := .f32) (fun _ => Ideal.ofBits .f32 0x3F800000#32) (Host.exp (F := Ideal) (φ := .f32) (Host.negf (F := Ideal) (φ := .f32) y)))
      = logistic (F := Ideal) (φ := .f32) y := by
  funext i
  show Ideal.div (Ideal.ofBits .f32 0x3F800000#32) (Ideal.ofBits .f32 0x3F800000#32 + Ideal.exp (-(y i))) = Ideal.logistic (y i)
  rw [ofBits_one, EReal.coe_one]
  rfl

include hX hE h1 h2 h3 h4 h5 h6 h7 h8 h9 h10 in
theorem rXhat_eq : rXhat ws1 ws2 ws3 ws4 ws5 ws6 ws7 ws8 ws9 ws10 W1 W2 W3 W4 W5 W6 W7 W8 W9 W10 X E = kXhat ws1 ws2 ws3 ws4 ws5 ws6 ws7 ws8 ws9 ws10 W1 W2 W3 W4 W5 W6 W7 W8 W9 W10 X E := by
  unfold rXhat kXhat
  rw [rD5_eq ws1 ws2 ws3 ws4 ws5 ws6 ws7 ws8 ws9 ws10 W1 W2 W3 W4 W5 W6 W7 W8 W9 W10 X E hX hE h1 h2 h3 h4 h5 h6 h7 h8 h9 h10, host_logistic]

/-! ## Row blocks of the kernel arrangement -/

omit hX hE h1 h2 h3 h4 h5 h6 h7 h8 h9 h10

variable {r : Nat} (off : Nat) (hoff : off + r ≤ B)

theorem rowsOf_klinW {a b : Nat} (ws : WSpec a b) (h : (Sh2 B b).Idx → EReal) (W : FVec Ideal (Sh2 a b) .f32) :
    rowsOf off hoff (klinW ws h W) = klinW ws (rowsOf off hoff h) W := rfl
theorem rowsOf_lrelu {D : Nat} (y : (Sh2 B D).Idx → EReal) : rowsOf off hoff (lrelu y) = lrelu (rowsOf off hoff y) := rfl

theorem rowsOf_kE3 : rowsOf off hoff (kE3 ws1 ws2 ws3 W1 W2 W3 X) = kE3 ws1 ws2 ws3 W1 W2 W3 (rowsOf off hoff X) := by
  unfold kE3
  simp only [rowsOf_klinW, rowsOf_lrelu]
theorem rowsOf_kMean : rowsOf off hoff (kMean ws1 ws2 ws3 ws4 W1 W2 W3 W4 X) = kMean ws1 ws2 ws3 ws4 W1 W2 W3 W4 (rowsOf off hoff X) := by
  unfold kMean
  rw [rowsOf_klinW, rowsOf_kE3]
theorem rowsOf_kLogvar : rowsOf off hoff (kLogvar ws1 ws2 ws3 ws5 W1 W2 W3 W5 X) = kLogvar ws1 ws2 ws3 ws5 W1 W2 W3 W5 (rowsOf off hoff X) := by
  unfold kLogvar
  rw [rowsOf_klinW, rowsOf_kE3]
theorem rowsOf_kZ : rowsOf off hoff (kZ ws1 ws2 ws3 ws4 ws5 W1 W2 W3 W4 W5 X E) = kZ ws1 ws2 ws3 ws4 ws5 W1 W2 W3 W4 W5 (rowsOf off hoff X) (rowsOf off hoff E) := by
  unfold kZ
  rw [← rowsOf_kMean, ← rowsOf_kLogvar]
  rfl
theorem rowsOf_kXhat : rowsOf off hoff (kXhat ws1 ws2 ws3 ws4 ws5 ws6 ws7 ws8 ws9 ws10 W1 W2 W3 W4 W5 W6 W7 W8 W9 W10 X E) = kXhat ws1 ws2 ws3 ws4 ws5 ws6 ws7 ws8 ws9 ws10 W1 W2 W3 W4 W5 W6 W7 W8 W9 W10 (rowsOf off hoff X) (rowsOf off hoff E) := by
  unfold kXhat kD5
  rw [← rowsOf_kZ]
  rfl

end Cert.Net

end
-- ==== Proof.NetWSpecs.lean ====
/-
  The ten weight matrices of the network with what their quantization is printed with: the entry count's float pattern
  and value (313600, 160000, 80000 and 400 entries), and the shape facts of the reduction, the broadcast and the
  transposition.
-/
import proofs.«175214_j61469571940629_2_alg».proof.Proof.Gen.KernelIdeal
import proofs.«175214_j61469571940629_2_alg».proof.Proof.NetDefs

noncomputable section

namespace Cert.Net

open Idealize.ShloMosaic Cert.LibRowwise Cert.LibTernaryWeights Cert.KernelIdeal Cert.KernelIdeal.Gen

def ws1 : WSpec 400 784 := ⟨0x48992000#32, 313600, by norm_num, ofBits_313600, reducesTo_S400x784_S_d0_1, h_S_, bcast_S_S400x784, transposes_S400x784_S784x400_1_0⟩
def ws2 : WSpec 400 400 := ⟨0x481C4000#32, 160000, by norm_num, ofBits_160000, reducesTo_S400x400_S_d0_1, h_S_, bcast_S_S400x400, transposes_S400x400_S400x400_1_0⟩
def ws3 : WSpec 200 400 := ⟨0x479C4000#32, 80000, by norm_num, ofBits_80000, reducesTo_S200x400_S_d0_1, h_S_, bcast_S_S200x400, transposes_S200x400_S400x200_1_0⟩
def ws4 : WSpec 2 200 := ⟨0x43C80000#32, 400, by norm_num, ofBits_400, reducesTo_S2x200_S_d0_1, h_S_, bcast_S_S2x200, transposes_S2x200_S200x2_1_0⟩
def ws5 : WSpec 2 200 := ⟨0x43C80000#32, 400, by norm_num, ofBits_400, reducesTo_S2x200_S_d0_1, h_S_, bcast_S_S2x200, transposes_S2x200_S200x2_1_0⟩
def ws6 : WSpec 200 2 := ⟨0x43C80000#32, 400, by norm_num, ofBits_400, reducesTo_S200x2_S_d0_1, h_S_, bcast_S_S200x2, transposes_S200x2_S2x200_1_0⟩
def ws7 : WSpec 400 200 := ⟨0x479C4000#32, 80000, by norm_num, ofBits_80000, reducesTo_S400x200_S_d0_1, h_S_, bcast_S_S400x200, transposes_S400x200_S200x400_1_0⟩
def ws8 : WSpec 400 400 := ⟨0x481C4000#32, 160000, by norm_num, ofBits_160000, reducesTo_S400x400_S_d0_1, h_S_, bcast_S_S400x400, transposes_S400x400_S400x400_1_0⟩
def ws9 : WSpec 400 400 := ⟨0x481C4000#32, 160000, by norm_num, ofBits_160000, reducesTo_S400x400_S_d0_1, h_S_, bcast_S_S400x400, transposes_S400x400_S400x400_1_0⟩
def ws10 : WSpec 784 400 := ⟨0x48992000#32, 313600, by norm_num, ofBits_313600, reducesTo_S784x400_S_d0_1, h_S_, bcast_S_S784x400, transposes_S784x400_S400x784_1_0⟩

end Cert.Net

end
-- ==== Proof.LibSliceConcat.lean ====
/-
  Column halves of a product with two matrices set side by side.

  When the right operand of a matrix product is two matrices concatenated along the column axis, the leading columns of
  the product are the product with the first matrix and the trailing columns the product with the second: column `c` of
  the product only reads column `c` of the right operand.
-/
import Idealize.ShloMosaic.PureOps.Ideal
import Idealize.ShloMosaic.Lib.ValueIdx
import Idealize.ShloMosaic.Lib.Pipeline.Value
import proofs.«175214_j61469571940629_2_alg».proof.Proof.LibRowwise

noncomputable section

namespace Cert.LibSliceConcat

open Idealize.ShloMosaic Idealize.ShloMosaic.ValueIdx Cert.LibRowwise
open scoped BigOperators

variable {M K n1 n2 n : Nat}

/-- The leading `n1` columns of `h · [A | B]` are `h · A`. -/
theorem slice_mm_left (h : (Sh2 M K).Idx → EReal) (A : (Sh2 K n1).Idx → EReal) (B : (Sh2 K n2).Idx → EReal)
    (hc : Shape.Concatenates [Sh2 K n1, Sh2 K n2] (Sh2 K n) 1) (hs : (Sh2 M n).Slices ![0, 0] (Sh2 M n1)) (hn : n1 ≤ n) :
    extractStridedSlice (Sh2 M n1) ![0, 0] (mm h (concatenate (Sh2 K n) 1 [⟨Sh2 K n1, A⟩, ⟨Sh2 K n2, B⟩] hc)) hs = mm h A := by
  funext j
  have hj1 : (j 1).val < n1 := (j 1).isLt
  refine (extractStridedSlice_apply ![0, 0] _ hs j (ix2 (j 0) ⟨(j 1).val, by omega⟩) (fun a => match a with
    | ⟨0, _⟩ => (Nat.zero_add _).symm
    | ⟨1, _⟩ => (Nat.zero_add _).symm)).trans ?_
  show (∑ k : Fin K, h (ix2 (j 0) k) * concatenate (Sh2 K n) 1 [⟨Sh2 K n1, A⟩, ⟨Sh2 K n2, B⟩] hc (ix2 k ⟨(j 1).val, by omega⟩))
    = ∑ k : Fin K, h (ix2 (j 0) k) * A (ix2 k (j 1))
  refine Finset.sum_congr rfl fun k _ => congrArg (h (ix2 (j 0) k) * ·) ?_
  exact concatenate_pair_apply_left 1 A B hc (ix2 k ⟨(j 1).val, by omega⟩) rfl (ix2 k (j 1)) (fun b => match b with
    | ⟨0, _⟩ => rfl
    | ⟨1, _⟩ => rfl)

/-- The columns from `n1` on of `h · [A | B]` are `h · B`. -/
theorem slice_mm_right (h : (Sh2 M K).Idx → EReal) (A : (Sh2 K n1).Idx → EReal) (B : (Sh2 K n2).Idx → EReal)
    (hc : Shape.Concatenates [Sh2 K n1, Sh2 K n2] (Sh2 K n) 1) (hs : (Sh2 M n).Slices ![0, n1] (Sh2 M n2)) (hn : n1 + n2 ≤ n) :
    extractStridedSlice (Sh2 M n2) ![0, n1] (mm h (concatenate (Sh2 K n) 1 [⟨Sh2 K n1, A⟩, ⟨Sh2 K n2, B⟩] hc)) hs = mm h B := by
  funext j
  have hj1 : (j 1).val < n2 := (j 1).isLt
  refine (extractStridedSlice_apply ![0, n1] _ hs j (ix2 (j 0) ⟨n1 + (j 1).val, by omega⟩) (fun a => match a with
    | ⟨0, _⟩ => (Nat.zero_add _).symm
    | ⟨1, _⟩ => rfl)).trans ?_
  show (∑ k : Fin K, h (ix2 (j 0) k) * concatenate (Sh2 K n) 1 [⟨Sh2 K n1, A⟩, ⟨Sh2 K n2, B⟩] hc (ix2 k ⟨n1 + (j 1).val, by omega⟩))
    = ∑ k : Fin K, h (ix2 (j 0) k) * B (ix2 k (j 1))
  refine Finset.sum_congr rfl fun k _ => congrArg (h (ix2 (j 0) k) * ·) ?_
  exact concatenate_pair_apply_right 1 A B hc (ix2 k ⟨n1 + (j 1).val, by omega⟩) rfl rfl (ix2 k (j 1)) (fun b hb => match b, hb with
    | ⟨0, _⟩, _ => rfl
    | ⟨1, _⟩, hb => absurd rfl hb) (Nat.add_comm _ _)

end Cert.LibSliceConcat

end
-- ==== Proof.KernelIdealBridge.lean ====
/-
  The kernel's stored blocks are the kernel arrangement of the network on the point's rows.

  At grid point `t` the batch window's block is rows `1024 t … 1024 t + 1023` of the batch and the noise window's block the
  same rows of the noise; every weight window's block is the whole of its array, which the host filled with the transposed
  ternary matrix (the merged head: the two heads' matrices side by side); the scales window holds the ten scales. With these
  the three blocks the body stores are the reconstruction, the mean and the log-variance of the kernel arrangement
  (`Net.kXhat`, `Net.kMean`, `Net.kLogvar`) applied to the point's rows.
-/
import proofs.«175214_j61469571940629_2_alg».proof.Proof.KernelIdealArrays
import proofs.«175214_j61469571940629_2_alg».proof.Proof.KernelIdealNet
import proofs.«175214_j61469571940629_2_alg».proof.Proof.KernelIdealWeightsA
import proofs.«175214_j61469571940629_2_alg».proof.Proof.KernelIdealWeightsB
import proofs.«175214_j61469571940629_2_alg».proof.Proof.KernelIdealWeightsC
import proofs.«175214_j61469571940629_2_alg».proof.Proof.KernelIdealWeightsD
import proofs.«175214_j61469571940629_2_alg».proof.Proof.NetEq
import proofs.«175214_j61469571940629_2_alg».proof.Proof.NetWSpecs
import proofs.«175214_j61469571940629_2_alg».proof.Proof.LibSliceConcat

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowwise Cert.LibTernaryWeights Cert.LibSliceConcat Cert.Net

variable (m : (ℓ : Loc nD τ sig) → Buf (Elt Ideal) ℓ) (c : Dev nD)

/-- The input windows' block index maps, decided over the grid: the batch and the noise move with the point along the
    rows; every other window stays at block (0, 0). -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

theorem pt_rows (t : Fin cfg0.N) : 1024 * t.val + 1024 ≤ 65536 := by
  have : t.val < 64 := (show cfg0.N = 64 from N_0) ▸ t.isLt
  omega

/-- The batch window's block at point `t` is the point's rows of the batch. -/
theorem iblk0_eq (t : Fin cfg0.N) : (iblk m c 0 t : S1024x784.Idx → EReal) = rowsOf (1024 * t.val) (pt_rows t) (m ((c : Thread nD τ).loc main_arg0)) := by
  funext y
  obtain ⟨e0, e1, -⟩ := idx_in t
  unfold iblk
  rw [View.read_apply]
  show V m c main_arg0 _ = _
  rw [V_main_arg0]
  unfold rowsOf
  refine congrArg (m ((c : Thread nD τ).loc main_arg0)) (funext fun a => Fin.ext ?_)
  match a with
  | ⟨0, _⟩ => show win0_0.index t (0 : Fin 2) * 1024 + 1 * (y 0).val = 1024 * t.val + (y 0).val; omega
  | ⟨1, _⟩ => show win0_0.index t (1 : Fin 2) * 784 + 1 * (y 1).val = (y 1).val; omega

/-- The noise window's block at point `t` is the point's rows of the noise. -/
theorem iblk1_eq (t : Fin cfg0.N) : (iblk m c 1 t : S1024x2.Idx → EReal) = rowsOf (1024 * t.val) (pt_rows t) (m ((c : Thread nD τ).loc main_arg1)) := by
  funext y
  obtain ⟨-, -, e0, e1, -⟩ := idx_in t
  unfold iblk
  rw [View.read_apply]
  show V m c main_arg1 _ = _
  rw [V_main_arg1]
  unfold rowsOf
  refine congrArg (m ((c : Thread nD τ).loc main_arg1)) (funext fun a => Fin.ext ?_)
  match a with
  | ⟨0, _⟩ => show win0_1.index t (0 : Fin 2) * 1024 + 1 * (y 0).val = 1024 * t.val + (y 0).val; omega
  | ⟨1, _⟩ => show win0_1.index t (1 : Fin 2) * 2 + 1 * (y 1).val = (y 1).val; omega

/-- Window 2's block is the whole of its array at every point. -/
theorem iblk2_eq (t : Fin cfg0.N) : (iblk m c 2 t : S784x400.Idx → EReal) = V m c main_v100 := by
  funext y
  have hi := idx_in t
  have e0 : win0_2.index t (0 : Fin 2) = 0 := hi.2.2.2.2.1
  have e1 : win0_2.index t (1 : Fin 2) = 0 := hi.2.2.2.2.2.1
  unfold iblk
  rw [View.read_apply]
  show V m c main_v100 _ = V m c main_v100 y
  refine congrArg (V m c main_v100) (funext fun a => Fin.ext ?_)
  match a with
  | ⟨0, _⟩ => show win0_2.index t (0 : Fin 2) * 784 + 1 * (y 0).val = (y 0).val; omega
  | ⟨1, _⟩ => show win0_2.index t (1 : Fin 2) * 400 + 1 * (y 1).val = (y 1).val; omega

/-- Window 3's block is the whole of its array at every point. -/
theorem iblk3_eq (t : Fin cfg0.N) : (iblk m c 3 t : S400x400.Idx → EReal) = V m c main_v101 := by
  funext y
  have hi := idx_in t
  have e0 : win0_3.index t (0 : Fin 2) = 0 := hi.2.2.2.2.2.2.1
  have e1 : win0_3.index t (1 : Fin 2) = 0 := hi.2.2.2.2.2.2.2.1
  unfold iblk
  rw [View.read_apply]
  show V m c main_v101 _ = V m c main_v101 y
  refine congrArg (V m c main_v101) (funext fun a => Fin.ext ?_)
  match a with
  | ⟨0, _⟩ => show win0_3.index t (0 : Fin 2) * 400 + 1 * (y 0).val = (y 0).val; omega
  | ⟨1, _⟩ => show win0_3.index t (1 : Fin 2) * 400 + 1 * (y 1).val = (y 1).val; omega

/-- Window 4's block is the whole of its array at every point. -/
theorem iblk4_eq (t : Fin cfg0.N) : (iblk m c 4 t : S400x200.Idx → EReal) = V m c main_v102 := by
  funext y
  have hi := idx_in t
  have e0 : win0_4.index t (0 : Fin 2) = 0 := hi.2.2.2.2.2.2.2.2.1
  have e1 : win0_4.index t (1 : Fin 2) = 0 := hi.2.2.2.2.2.2.2.2.2.1
  unfold iblk
  rw [View.read_apply]
  show V m c main_v102 _ = V m c main_v102 y
  refine congrArg (V m c main_v102) (funext fun a => Fin.ext ?_)
  match a with
  | ⟨0, _⟩ => show win0_4.index t (0 : Fin 2) * 400 + 1 * (y 0).val = (y 0).val; omega
  | ⟨1, _⟩ => show win0_4.index t (1 : Fin 2) * 200 + 1 * (y 1).val = (y 1).val; omega

/-- Window 5's block is the whole of its array at every point. -/
theorem iblk5_eq (t : Fin cfg0.N) : (iblk m c 5 t : S200x4.Idx → EReal) = V m c main_v105 := by
  funext y
  have hi := idx_in t
  have e0 : win0_5.index t (0 : Fin 2) = 0 := hi.2.2.2.2.2.2.2.2.2.2.1
  have e1 : win0_5.index t (1 : Fin 2) = 0 := hi.2.2.2.2.2.2.2.2.2.2.2.1
  unfold iblk
  rw [View.read_apply]
  show V m c main_v105 _ = V m c main_v105 y
  refine congrArg (V m c main_v105) (funext fun a => Fin.ext ?_)
  match a with
  | ⟨0, _⟩ => show win0_5.index t (0 : Fin 2) * 200 + 1 * (y 0).val = (y 0).val; omega
  | ⟨1, _⟩ => show win0_5.index t (1 : Fin 2) * 4 + 1 * (y 1).val = (y 1).val; omega

/-- Window 6's block is the whole of its array at every point. -/
theorem iblk6_eq (t : Fin cfg0.N) : (iblk m c 6 t : S2x200.Idx → EReal) = V m c main_v106 := by
  funext y
  have hi := idx_in t
  have e0 : win0_6.index t (0 : Fin 2) = 0 := hi.2.2.2.2.2.2.2.2.2.2.2.2.1
  have e1 : win0_6.index t (1 : Fin 2) = 0 := hi.2.2.2.2.2.2.2.2.2.2.2.2.2.1
  unfold iblk
  rw [View.read_apply]
  show V m c main_v106 _ = V m c main_v106 y
  refine congrArg (V m c main_v106) (funext fun a => Fin.ext ?_)
  match a with
  | ⟨0, _⟩ => show win0_6.index t (0 : Fin 2) * 2 + 1 * (y 0).val = (y 0).val; omega
  | ⟨1, _⟩ => show win0_6.index t (1 : Fin 2) * 200 + 1 * (y 1).val = (y 1).val; omega

/-- Window 7's block is the whole of its array at every point. -/
theorem iblk7_eq (t : Fin cfg0.N) : (iblk m c 7 t : S200x400.Idx → EReal) = V m c main_v107 := by
  funext y
  have hi := idx_in t
  have e0 : win0_7.index t (0 : Fin 2) = 0 := hi.2.2.2.2.2.2.2.2.2.2.2.2.2.2.1
  have e1 : win0_7.index t (1 : Fin 2) = 0 := hi.2.2.2.2.2.2.2.2.2.2.2.2.2.2.2.1
  unfold iblk
  rw [View.read_apply]
  show V m c main_v107 _ = V m c main_v107 y
  refine congrArg (V m c main_v107) (funext fun a => Fin.ext ?_)
  match a with
  | ⟨0, _⟩ => show win0_7.index t (0 : Fin 2) * 200 + 1 * (y 0).val = (y 0).val; omega
  | ⟨1, _⟩ => show win0_7.index t (1 : Fin 2) * 400 + 1 * (y 1).val = (y 1).val; omega

/-- Window 8's block is the whole of its array at every point. -/
theorem iblk8_eq (t : Fin cfg0.N) : (iblk m c 8 t : S400x400.Idx → EReal) = V m c main_v108 := by
  funext y
  have hi := idx_in t
  have e0 : win0_8.index t (0 : Fin 2) = 0 := hi.2.2.2.2.2.2.2.2.2.2.2.2.2.2.2.2.1
  have e1 : win0_8.index t (1 : Fin 2) = 0 := hi.2.2.2.2.2.2.2.2.2.2.2.2.2.2.2.2.2.1
  unfold iblk
  rw [View.read_apply]
  show V m c main_v108 _ = V m c main_v108 y
  refine congrArg (V m c main_v108) (funext fun a => Fin.ext ?_)
  match a with
  | ⟨0, _⟩ => show win0_8.index t (0 : Fin 2) * 400 + 1 * (y 0).val = (y 0).val; omega
  | ⟨1, _⟩ => show win0_8.index t (1 : Fin 2) * 400 + 1 * (y 1).val = (y 1).val; omega

/-- Window 9's block is the whole of its array at every point. -/
theorem iblk9_eq (t : Fin cfg0.N) : (iblk m c 9 t : S400x400.Idx → EReal) = V m c main_v109 := by
  funext y
  have hi := idx_in t
  have e0 : win0_9.index t (0 : Fin 2) = 0 := hi.2.2.2.2.2.2.2.2.2.2.2.2.2.2.2.2.2.2.1
  have e1 : win0_9.index t (1 : Fin 2) = 0 := hi.2.2.2.2.2.2.2.2.2.2.2.2.2.2.2.2.2.2.2.1
  unfold iblk
  rw [View.read_apply]
  show V m c main_v109 _ = V m c main_v109 y
  refine congrArg (V m c main_v109) (funext fun a => Fin.ext ?_)
  match a with
  | ⟨0, _⟩ => show win0_9.index t (0 : Fin 2) * 400 + 1 * (y 0).val = (y 0).val; omega
  | ⟨1, _⟩ => show win0_9.index t (1 : Fin 2) * 400 + 1 * (y 1).val = (y 1).val; omega

/-- Window 10's block is the whole of its array at every point. -/
theorem iblk10_eq (t : Fin cfg0.N) : (iblk m c 10 t : S400x784.Idx → EReal) = V m c main_v110 := by
  funext y
  have hi := idx_in t
  have e0 : win0_10.index t (0 : Fin 2) = 0 := hi.2.2.2.2.2.2.2.2.2.2.2.2.2.2.2.2.2.2.2.2.1
  have e1 : win0_10.index t (1 : Fin 2) = 0 := hi.2.2.2.2.2.2.2.2.2.2.2.2.2.2.2.2.2.2.2.2.2.1
  unfold iblk
  rw [View.read_apply]
  show V m c main_v110 _ = V m c main_v110 y
  refine congrArg (V m c main_v110) (funext fun a => Fin.ext ?_)
  match a with
  | ⟨0, _⟩ => show win0_10.index t (0 : Fin 2) * 400 + 1 * (y 0).val = (y 0).val; omega
  | ⟨1, _⟩ => show win0_10.index t (1 : Fin 2) * 784 + 1 * (y 1).val = (y 1).val; omega

/-- Window 11's block is the whole of its array at every point. -/
theorem iblk11_eq (t : Fin cfg0.N) : (iblk m c 11 t : S1x10.Idx → EReal) = V m c main_v122 := by
  funext y
  have hi := idx_in t
  have e0 : win0_11.index t (0 : Fin 2) = 0 := hi.2.2.2.2.2.2.2.2.2.2.2.2.2.2.2.2.2.2.2.2.2.2.1
  have e1 : win0_11.index t (1 : Fin 2) = 0 := hi.2.2.2.2.2.2.2.2.2.2.2.2.2.2.2.2.2.2.2.2.2.2.2
  unfold iblk
  rw [View.read_apply]
  show V m c main_v122 _ = V m c main_v122 y
  refine congrArg (V m c main_v122) (funext fun a => Fin.ext ?_)
  match a with
  | ⟨0, _⟩ => show win0_11.index t (0 : Fin 2) * 1 + 1 * (y 0).val = (y 0).val; omega
  | ⟨1, _⟩ => show win0_11.index t (1 : Fin 2) * 10 + 1 * (y 1).val = (y 1).val; omega

/-! ## The scales -/

/-- The ten scales, each broadcast to one entry, in the order the host stacks them. -/
def scalePieces : List ((s : Shape) × (s.Idx → EReal)) :=
  [⟨S1, broadcastInDim S1 ![] bcast_S_S1 (scOf 0x48992000#32 reducesTo_S400x784_S_d0_1 h_S_ (m ((c : Thread nD τ).loc main_arg2)))⟩,
    ⟨S1, broadcastInDim S1 ![] bcast_S_S1 (scOf 0x481C4000#32 reducesTo_S400x400_S_d0_1 h_S_ (m ((c : Thread nD τ).loc main_arg3)))⟩,
    ⟨S1, broadcastInDim S1 ![] bcast_S_S1 (scOf 0x479C4000#32 reducesTo_S200x400_S_d0_1 h_S_ (m ((c : Thread nD τ).loc main_arg4)))⟩,
    ⟨S1, broadcastInDim S1 ![] bcast_S_S1 (scOf 0x43C80000#32 reducesTo_S2x200_S_d0_1 h_S_ (m ((c : Thread nD τ).loc main_arg5)))⟩,
    ⟨S1, broadcastInDim S1 ![] bcast_S_S1 (scOf 0x43C80000#32 reducesTo_S2x200_S_d0_1 h_S_ (m ((c : Thread nD τ).loc main_arg6)))⟩,
    ⟨S1, broadcastInDim S1 ![] bcast_S_S1 (scOf 0x43C80000#32 reducesTo_S200x2_S_d0_1 h_S_ (m ((c : Thread nD τ).loc main_arg7)))⟩,
    ⟨S1, broadcastInDim S1 ![] bcast_S_S1 (scOf 0x479C4000#32 reducesTo_S400x200_S_d0_1 h_S_ (m ((c : Thread nD τ).loc main_arg8)))⟩,
    ⟨S1, broadcastInDim S1 ![] bcast_S_S1 (scOf 0x481C4000#32 reducesTo_S400x400_S_d0_1 h_S_ (m ((c : Thread nD τ).loc main_arg9)))⟩,
    ⟨S1, broadcastInDim S1 ![] bcast_S_S1 (scOf 0x481C4000#32 reducesTo_S400x400_S_d0_1 h_S_ (m ((c : Thread nD τ).loc main_arg10)))⟩,
    ⟨S1, broadcastInDim S1 ![] bcast_S_S1 (scOf 0x48992000#32 reducesTo_S784x400_S_d0_1 h_S_ (m ((c : Thread nD τ).loc main_arg11)))⟩]

theorem V_w11' : (V m c main_v122 : S1x10.Idx → EReal)
    = shapeCast S1x10 (concatenate S10 0 (scalePieces m c) concatenates_S1_S1_S1_S1_S1_S1_S1_S1_S1_S1_S10_d0) shapeCasts_S10_S1x10 := V_w11 m c

theorem scale0 : (V m c main_v122 : S1x10.Idx → EReal) (ix2 0 0) = sS ws1 (m ((c : Thread nD τ).loc main_arg2)) := by
  rw [V_w11']
  refine (shapeCast_apply _ shapeCasts_S10_S1x10 (ix2 0 0) (ix1 0) (by rw [Shape.rowMajor_val_one, Shape.rowMajor_val_two]; rfl)).trans ?_
  refine (concatenate_apply_piece (0 : Fin S10.rank) (scalePieces m c) concatenates_S1_S1_S1_S1_S1_S1_S1_S1_S1_S1_S10_d0 (ix1 0) 0 (show 0 < 10 from by decide)
    S1 (broadcastInDim S1 ![] bcast_S_S1 (scOf 0x48992000#32 reducesTo_S400x784_S_d0_1 h_S_ (m ((c : Thread nD τ).loc main_arg2)))) rfl rfl 0 rfl (ix1 0)
    (fun b hb => absurd (Fin.ext (Nat.lt_one_iff.mp b.isLt)) hb) rfl).trans ?_
  exact bcast0_apply bcast_S_S1 _ _

theorem scale1 : (V m c main_v122 : S1x10.Idx → EReal) (ix2 0 1) = sS ws2 (m ((c : Thread nD τ).loc main_arg3)) := by
  rw [V_w11']
  refine (shapeCast_apply _ shapeCasts_S10_S1x10 (ix2 0 1) (ix1 1) (by rw [Shape.rowMajor_val_one, Shape.rowMajor_val_two]; rfl)).trans ?_
  refine (concatenate_apply_piece (0 : Fin S10.rank) (scalePieces m c) concatenates_S1_S1_S1_S1_S1_S1_S1_S1_S1_S1_S10_d0 (ix1 1) 1 (show 1 < 10 from by decide)
    S1 (broadcastInDim S1 ![] bcast_S_S1 (scOf 0x481C4000#32 reducesTo_S400x400_S_d0_1 h_S_ (m ((c : Thread nD τ).loc main_arg3)))) rfl rfl 1 rfl (ix1 0)
    (fun b hb => absurd (Fin.ext (Nat.lt_one_iff.mp b.isLt)) hb) rfl).trans ?_
  exact bcast0_apply bcast_S_S1 _ _

theorem scale2 : (V m c main_v122 : S1x10.Idx → EReal) (ix2 0 2) = sS ws3 (m ((c : Thread nD τ).loc main_arg4)) := by
  rw [V_w11']
  refine (shapeCast_apply _ shapeCasts_S10_S1x10 (ix2 0 2) (ix1 2) (by rw [Shape.rowMajor_val_one, Shape.rowMajor_val_two]; rfl)).trans ?_
  refine (concatenate_apply_piece (0 : Fin S10.rank) (scalePieces m c) concatenates_S1_S1_S1_S1_S1_S1_S1_S1_S1_S1_S10_d0 (ix1 2) 2 (show 2 < 10 from by decide)
    S1 (broadcastInDim S1 ![] bcast_S_S1 (scOf 0x479C4000#32 reducesTo_S200x400_S_d0_1 h_S_ (m ((c : Thread nD τ).loc main_arg4)))) rfl rfl 2 rfl (ix1 0)
    (fun b hb => absurd (Fin.ext (Nat.lt_one_iff.mp b.isLt)) hb) rfl).trans ?_
  exact bcast0_apply bcast_S_S1 _ _

theorem scale3 : (V m c main_v122 : S1x10.Idx → EReal) (ix2 0 3) = sS ws4 (m ((c : Thread nD τ).loc main_arg5)) := by
  rw [V_w11']
  refine (shapeCast_apply _ shapeCasts_S10_S1x10 (ix2 0 3) (ix1 3) (by rw [Shape.rowMajor_val_one, Shape.rowMajor_val_two]; rfl)).trans ?_
  refine (concatenate_apply_piece (0 : Fin S10.rank) (scalePieces m c) concatenates_S1_S1_S1_S1_S1_S1_S1_S1_S1_S1_S10_d0 (ix1 3) 3 (show 3 < 10 from by decide)
    S1 (broadcastInDim S1 ![] bcast_S_S1 (scOf 0x43C80000#32 reducesTo_S2x200_S_d0_1 h_S_ (m ((c : Thread nD τ).loc main_arg5)))) rfl rfl 3 rfl (ix1 0)
    (fun b hb => absurd (Fin.ext (Nat.lt_one_iff.mp b.isLt)) hb) rfl).trans ?_
  exact bcast0_apply bcast_S_S1 _ _

theorem scale4 : (V m c main_v122 : S1x10.Idx → EReal) (ix2 0 4) = sS ws5 (m ((c : Thread nD τ).loc main_arg6)) := by
  rw [V_w11']
  refine (shapeCast_apply _ shapeCasts_S10_S1x10 (ix2 0 4) (ix1 4) (by rw [Shape.rowMajor_val_one, Shape.rowMajor_val_two]; rfl)).trans ?_
  refine (concatenate_apply_piece (0 : Fin S10.rank) (scalePieces m c) concatenates_S1_S1_S1_S1_S1_S1_S1_S1_S1_S1_S10_d0 (ix1 4) 4 (show 4 < 10 from by decide)
    S1 (broadcastInDim S1 ![] bcast_S_S1 (scOf 0x43C80000#32 reducesTo_S2x200_S_d0_1 h_S_ (m ((c : Thread nD τ).loc main_arg6)))) rfl rfl 4 rfl (ix1 0)
    (fun b hb => absurd (Fin.ext (Nat.lt_one_iff.mp b.isLt)) hb) rfl).trans ?_
  exact bcast0_apply bcast_S_S1 _ _

theorem scale5 : (V m c main_v122 : S1x10.Idx → EReal) (ix2 0 5) = sS ws6 (m ((c : Thread nD τ).loc main_arg7)) := by
  rw [V_w11']
  refine (shapeCast_apply _ shapeCasts_S10_S1x10 (ix2 0 5) (ix1 5) (by rw [Shape.rowMajor_val_one, Shape.rowMajor_val_two]; rfl)).trans ?_
  refine (concatenate_apply_piece (0 : Fin S10.rank) (scalePieces m c) concatenates_S1_S1_S1_S1_S1_S1_S1_S1_S1_S1_S10_d0 (ix1 5) 5 (show 5 < 10 from by decide)
    S1 (broadcastInDim S1 ![] bcast_S_S1 (scOf 0x43C80000#32 reducesTo_S200x2_S_d0_1 h_S_ (m ((c : Thread nD τ).loc main_arg7)))) rfl rfl 5 rfl (ix1 0)
    (fun b hb => absurd (Fin.ext (Nat.lt_one_iff.mp b.isLt)) hb) rfl).trans ?_
  exact bcast0_apply bcast_S_S1 _ _

theorem scale6 : (V m c main_v122 : S1x10.Idx → EReal) (ix2 0 6) = sS ws7 (m ((c : Thread nD τ).loc main_arg8)) := by
  rw [V_w11']
  refine (shapeCast_apply _ shapeCasts_S10_S1x10 (ix2 0 6) (ix1 6) (by rw [Shape.rowMajor_val_one, Shape.rowMajor_val_two]; rfl)).trans ?_
  refine (concatenate_apply_piece (0 : Fin S10.rank) (scalePieces m c) concatenates_S1_S1_S1_S1_S1_S1_S1_S1_S1_S1_S10_d0 (ix1 6) 6 (show 6 < 10 from by decide)
    S1 (broadcastInDim S1 ![] bcast_S_S1 (scOf 0x479C4000#32 reducesTo_S400x200_S_d0_1 h_S_ (m ((c : Thread nD τ).loc main_arg8)))) rfl rfl 6 rfl (ix1 0)
    (fun b hb => absurd (Fin.ext (Nat.lt_one_iff.mp b.isLt)) hb) rfl).trans ?_
  exact bcast0_apply bcast_S_S1 _ _

theorem scale7 : (V m c main_v122 : S1x10.Idx → EReal) (ix2 0 7) = sS ws8 (m ((c : Thread nD τ).loc main_arg9)) := by
  rw [V_w11']
  refine (shapeCast_apply _ shapeCasts_S10_S1x10 (ix2 0 7) (ix1 7) (by rw [Shape.rowMajor_val_one, Shape.rowMajor_val_two]; rfl)).trans ?_
  refine (concatenate_apply_piece (0 : Fin S10.rank) (scalePieces m c) concatenates_S1_S1_S1_S1_S1_S1_S1_S1_S1_S1_S10_d0 (ix1 7) 7 (show 7 < 10 from by decide)
    S1 (broadcastInDim S1 ![] bcast_S_S1 (scOf 0x481C4000#32 reducesTo_S400x400_S_d0_1 h_S_ (m ((c : Thread nD τ).loc main_arg9)))) rfl rfl 7 rfl (ix1 0)
    (fun b hb => absurd (Fin.ext (Nat.lt_one_iff.mp b.isLt)) hb) rfl).trans ?_
  exact bcast0_apply bcast_S_S1 _ _

theorem scale8 : (V m c main_v122 : S1x10.Idx → EReal) (ix2 0 8) = sS ws9 (m ((c : Thread nD τ).loc main_arg10)) := by
  rw [V_w11']
  refine (shapeCast_apply _ shapeCasts_S10_S1x10 (ix2 0 8) (ix1 8) (by rw [Shape.rowMajor_val_one, Shape.rowMajor_val_two]; rfl)).trans ?_
  refine (concatenate_apply_piece (0 : Fin S10.rank) (scalePieces m c) concatenates_S1_S1_S1_S1_S1_S1_S1_S1_S1_S1_S10_d0 (ix1 8) 8 (show 8 < 10 from by decide)
    S1 (broadcastInDim S1 ![] bcast_S_S1 (scOf 0x481C4000#32 reducesTo_S400x400_S_d0_1 h_S_ (m ((c : Thread nD τ).loc main_arg10)))) rfl rfl 8 rfl (ix1 0)
    (fun b hb => absurd (Fin.ext (Nat.lt_one_iff.mp b.isLt)) hb) rfl).trans ?_
  exact bcast0_apply bcast_S_S1 _ _

theorem scale9 : (V m c main_v122 : S1x10.Idx → EReal) (ix2 0 9) = sS ws10 (m ((c : Thread nD τ).loc main_arg11)) := by
  rw [V_w11']
  refine (shapeCast_apply _ shapeCasts_S10_S1x10 (ix2 0 9) (ix1 9) (by rw [Shape.rowMajor_val_one, Shape.rowMajor_val_two]; rfl)).trans ?_
  refine (concatenate_apply_piece (0 : Fin S10.rank) (scalePieces m c) concatenates_S1_S1_S1_S1_S1_S1_S1_S1_S1_S1_S10_d0 (ix1 9) 9 (show 9 < 10 from by decide)
    S1 (broadcastInDim S1 ![] bcast_S_S1 (scOf 0x48992000#32 reducesTo_S784x400_S_d0_1 h_S_ (m ((c : Thread nD τ).loc main_arg11)))) rfl rfl 9 rfl (ix1 0)
    (fun b hb => absurd (Fin.ext (Nat.lt_one_iff.mp b.isLt)) hb) rfl).trans ?_
  exact bcast0_apply bcast_S_S1 _ _

/-! ## The blocks are the kernel arrangement on the point's rows -/

set_option maxHeartbeats 4000000 in
theorem enc3_blk (t : Fin cfg0.N) : lrelu (enc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) = kE3 ws1 ws2 ws3 (m ((c : Thread nD τ).loc main_arg2)) (m ((c : Thread nD τ).loc main_arg3)) (m ((c : Thread nD τ).loc main_arg4)) (rowsOf (1024 * t.val) (pt_rows t) (m ((c : Thread nD τ).loc main_arg0))) := by
  rw [enc3_eq, iblk0_eq, iblk2_eq, iblk3_eq, iblk4_eq, iblk11_eq, scale0, scale1, scale2, V_w2, V_w3, V_w4]
  rfl

set_option maxHeartbeats 4000000 in
theorem mean_blk (t : Fin cfg0.N) : meanBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = kMean ws1 ws2 ws3 ws4 (m ((c : Thread nD τ).loc main_arg2)) (m ((c : Thread nD τ).loc main_arg3)) (m ((c : Thread nD τ).loc main_arg4)) (m ((c : Thread nD τ).loc main_arg5)) (rowsOf (1024 * t.val) (pt_rows t) (m ((c : Thread nD τ).loc main_arg0))) := by
  rw [meanBlk_eq, enc3_blk, iblk5_eq, iblk11_eq, scale3, V_w5]
  rw [slice_mm_left _ _ _ concatenates_S200x2_S200x2_S200x4_d1 slices_S1024x4_o0_0_S1024x2 (by decide)]
  rfl

set_option maxHeartbeats 4000000 in
theorem logvar_blk (t : Fin cfg0.N) : logvarBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = kLogvar ws1 ws2 ws3 ws5 (m ((c : Thread nD τ).loc main_arg2)) (m ((c : Thread nD τ).loc main_arg3)) (m ((c : Thread nD τ).loc main_arg4)) (m ((c : Thread nD τ).loc main_arg6)) (rowsOf (1024 * t.val) (pt_rows t) (m ((c : Thread nD τ).loc main_arg0))) := by
  rw [logvarBlk_eq, enc3_blk, iblk5_eq, iblk11_eq, scale4, V_w5]
  rw [slice_mm_right _ _ _ concatenates_S200x2_S200x2_S200x4_d1 slices_S1024x4_o0_2_S1024x2 (by decide)]
  rfl

/-! ## The result arrays are the kernel arrangement on the whole batch -/

theorem row_split (i0 : Nat) : 1024 * (i0 / 1024) + i0 % 1024 = i0 := by omega

theorem Gmean_eq : Gmean m c = kMean ws1 ws2 ws3 ws4 (m ((c : Thread nD τ).loc main_arg2)) (m ((c : Thread nD τ).loc main_arg3)) (m ((c : Thread nD τ).loc main_arg4)) (m ((c : Thread nD τ).loc main_arg5)) (m ((c : Thread nD τ).loc main_arg0)) := by
  funext i
  unfold Gmean
  rw [mean_blk, ← rowsOf_kMean]
  unfold rowsOf
  refine congrArg _ (funext fun a => Fin.ext ?_)
  match a with
  | ⟨0, _⟩ => exact row_split (i 0).val
  | ⟨1, _⟩ => rfl

theorem Glogvar_eq : Glogvar m c = kLogvar ws1 ws2 ws3 ws5 (m ((c : Thread nD τ).loc main_arg2)) (m ((c : Thread nD τ).loc main_arg3)) (m ((c : Thread nD τ).loc main_arg4)) (m ((c : Thread nD τ).loc main_arg6)) (m ((c : Thread nD τ).loc main_arg0)) := by
  funext i
  unfold Glogvar
  rw [logvar_blk, ← rowsOf_kLogvar]
  unfold rowsOf
  refine congrArg _ (funext fun a => Fin.ext ?_)
  match a with
  | ⟨0, _⟩ => exact row_split (i 0).val
  | ⟨1, _⟩ => rfl

end Cert.KernelIdeal.Hand

end
-- ==== Proof.KernelIdealNet2.lean ====
/-
  The last decoder product and the reconstruction block of the kernel body, as compositions of scaled ternary products.
-/
import proofs.«175214_j61469571940629_2_alg».proof.Proof.KernelIdealNet

set_option maxRecDepth 16384

noncomputable section

namespace Cert.KernelIdeal.Hand

open Cert.KernelIdeal Cert.KernelIdeal.Gen
open Idealize.ShloMosaic Idealize.ShloMosaic.ValueIdx Cert.LibRowwise Cert.Net

set_option maxHeartbeats 1000000 in
/-- The last three decoder layers on any inputs: scale and rectify the incoming product, two scaled ternary products with
    the rectifier between and after them, and the last product. -/
theorem pay8_eq (v73 : FVec Ideal S1024x400 .f32) (v74 v87 v100 : Vec Ideal S1x1 .f32) (v84 v97 : Vec Ideal S400x400 .bf16) (v110 : Vec Ideal S400x784 .bf16) :
    k0_pay8 v73 v74 v84 v87 v97 v100 v110
      = mm (lrelu (klin (lrelu (klin (lrelu (mulf (F := Ideal) (φ := .f32) v73 (fun _ => extractAt ![0, 0] v74 inpos_S1x1_p0_0))) v84 (extractAt ![0, 0] v87 inpos_S1x1_p0_0)))
          v97 (extractAt ![0, 0] v100 inpos_S1x1_p0_0))) v110 := by
  unfold k0_pay8
  simp only [shapeCast_self, mm_400_400, mm_400_784]
  rfl

/-- The last decoder product. -/
theorem dec5_eq (x0 : Vec Ideal S1024x784 .f32) (x1 : Vec Ideal S1024x2 .f32) (x2 : Vec Ideal S784x400 .bf16) (x3 : Vec Ideal S400x400 .bf16) (x4 : Vec Ideal S400x200 .bf16) (x5 : Vec Ideal S200x4 .bf16) (x6 : Vec Ideal S2x200 .bf16) (x7 : Vec Ideal S200x400 .bf16) (x8 : Vec Ideal S400x400 .bf16) (x9 : Vec Ideal S400x400 .bf16) (x10 : Vec Ideal S400x784 .bf16) (x11 : Vec Ideal S1x10 .f32) :
    dec5 x0 x1 x2 x3 x4 x5 x6 x7 x8 x9 x10 x11 = mm (lrelu (klin (lrelu (klin (lrelu (mulf (F := Ideal) (φ := .f32) (dec2 x0 x1 x2 x3 x4 x5 x6 x7 x8 x9 x10 x11) (fun _ => x11 (ix2 0 6)))) x8 (x11 (ix2 0 7)))) x9 (x11 (ix2 0 8)))) x10 := by
  unfold dec5
  rw [pay8_eq, ldw3, ldw3, ldw10, scaleLd6, scaleLd7, scaleLd8]

/-- The reconstruction block. -/
theorem xhatBlk_eq (x0 : Vec Ideal S1024x784 .f32) (x1 : Vec Ideal S1024x2 .f32) (x2 : Vec Ideal S784x400 .bf16) (x3 : Vec Ideal S400x400 .bf16) (x4 : Vec Ideal S400x200 .bf16) (x5 : Vec Ideal S200x4 .bf16) (x6 : Vec Ideal S2x200 .bf16) (x7 : Vec Ideal S200x400 .bf16) (x8 : Vec Ideal S400x400 .bf16) (x9 : Vec Ideal S400x400 .bf16) (x10 : Vec Ideal S400x784 .bf16) (x11 : Vec Ideal S1x10 .f32) :
    xhatBlk x0 x1 x2 x3 x4 x5 x6 x7 x8 x9 x10 x11 = logistic (F := Ideal) (φ := .f32) (mulf (F := Ideal) (φ := .f32) (dec5 x0 x1 x2 x3 x4 x5 x6 x7 x8 x9 x10 x11) (fun _ => x11 (ix2 0 9))) := by
  unfold xhatBlk k0_pay1
  rw [scaleLd9]
  rfl

end Cert.KernelIdeal.Hand

end
-- ==== Proof.KernelIdealBridgeB.lean ====
/-
  The reconstruction block the kernel body stores at a grid point is the kernel arrangement's reconstruction of the
  point's rows, and so the reconstruction array after the run is the kernel arrangement's reconstruction of the whole batch.
-/
import proofs.«175214_j61469571940629_2_alg».proof.Proof.KernelIdealBridge
import proofs.«175214_j61469571940629_2_alg».proof.Proof.KernelIdealNet2

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowwise Cert.LibTernaryWeights Cert.LibSliceConcat Cert.Net

variable (m : (ℓ : Loc nD τ sig) → Buf (Elt Ideal) ℓ) (c : Dev nD)

set_option maxHeartbeats 8000000 in
theorem xhat_blk (t : Fin cfg0.N) : xhatBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    = kXhat ws1 ws2 ws3 ws4 ws5 ws6 ws7 ws8 ws9 ws10 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (rowsOf (1024 * t.val) (pt_rows t) (m ((c : Thread nD τ).loc main_arg0))) (rowsOf (1024 * t.val) (pt_rows t) (m ((c : Thread nD τ).loc main_arg1))) := by
  rw [xhatBlk_eq, dec5_eq, dec2_eq, mean_blk, logvar_blk, iblk1_eq, iblk6_eq, iblk7_eq, iblk8_eq, iblk9_eq, iblk10_eq, iblk11_eq,
    scale5, scale6, scale7, scale8, scale9, V_w6, V_w7, V_w8, V_w9, V_w10]
  rfl

theorem Gxhat_eq : Gxhat m c = kXhat ws1 ws2 ws3 ws4 ws5 ws6 ws7 ws8 ws9 ws10 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg0)) (m ((c : Thread nD τ).loc main_arg1)) := by
  funext i
  unfold Gxhat
  rw [xhat_blk, ← rowsOf_kXhat]
  unfold rowsOf
  refine congrArg _ (funext fun a => Fin.ext ?_)
  match a with
  | ⟨0, _⟩ => exact row_split (i 0).val
  | ⟨1, _⟩ => rfl

end Cert.KernelIdeal.Hand

end
-- ==== Proof.RefOps.lean ====
/-
  The reference's @main as the list of its 329 host operations, and its run to the fold of their results: every weakly
  fair execution terminates with each buffer at what the operations, folded over the launch contents, leave in it.
-/
import proofs.«175214_j61469571940629_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 20000000 in
/-- @main's 329 operations, in order (a called function's operations stand in its call's place, spelt `TRef.…`). -/
abbrev ops : List (HloOp τ sig (Elt F)) :=
  [ unary main_arg2 main_v0 (Host.absf : (⟨S400x784, .f32⟩ : BufTy).Contents (Elt F) → (⟨S400x784, .f32⟩ : BufTy).Contents (Elt F)),
    nullary main_cst (constant S_ .f32 0x00000000#32),
    binary main_v0 main_cst main_v1 ((fun x v => Host.reduceAdd x v reducesTo_S400x784_S_d0_1 h_S_) : (⟨S400x784, .f32⟩ : BufTy).Contents (Elt F) → (⟨S_, .f32⟩ : BufTy).Contents (Elt F) → (⟨S_, .f32⟩ : BufTy).Contents (Elt F)),
    nullary main_cst_0 (constant S_ .f32 0x48992000#32),
    binary main_v1 main_cst_0 main_v2 (Host.divf : (⟨S_, .f32⟩ : BufTy).Contents (Elt F) → (⟨S_, .f32⟩ : BufTy).Contents (Elt F) → (⟨S_, .f32⟩ : BufTy).Contents (Elt F)),
    nullary main_cst_1 (constant S_ .f32 0x3727C5AC#32),
    TRef.unary (TRef.of (T := ⟨S_, .f32⟩) main_cst_1) (TRef.of (T := ⟨S_, .f32⟩) main_call0_v0) id,
    TRef.binary (TRef.of (T := ⟨S_, .f32⟩) main_call0_v0) (TRef.of (T := ⟨S_, .f32⟩) main_v2) (TRef.of (T := ⟨S_, .f32⟩) main_v3) maximumf,
    nullary main_cst_2 (constant S_ .f32 0x3F800000#32),
    binary main_cst_2 main_v3 main_v4 (Host.divf : (⟨S_, .f32⟩ : BufTy).Contents (Elt F) → (⟨S_, .f32⟩ : BufTy).Contents (Elt F) → (⟨S_, .f32⟩ : BufTy).Contents (Elt F)),
    unary main_v4 main_v5 (broadcastInDim S400x784 ![] bcast_S_S400x784 : (⟨S_, .f32⟩ : BufTy).Contents (Elt F) → (⟨S400x784, .f32⟩ : BufTy).Contents (Elt F)),
    binary main_arg2 main_v5 main_v6 (mulf : (⟨S400x784, .f32⟩ : BufTy).Contents (Elt F) → (⟨S400x784, .f32⟩ : BufTy).Contents (Elt F) → (⟨S400x784, .f32⟩ : BufTy).Contents (Elt F)),
    TRef.unary (TRef.of (T := ⟨S400x784, .f32⟩) main_v6) (TRef.of (T := ⟨S400x784, .f32⟩) main_v7) Host.roundeven,
    nullary main_cst_3 (constant S_ .f32 0xBF800000#32),
    nullary main_cst_4 (constant S_ .f32 0x3F800000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S400x784, .f32⟩) main_call2_v1) (broadcastInDim S400x784 ![] bcast_S_S400x784),
    TRef.binary (TRef.of (T := ⟨S400x784, .f32⟩) main_call2_v1) (TRef.of (T := ⟨S400x784, .f32⟩) main_v7) (TRef.of (T := ⟨S400x784, .f32⟩) main_call2_v2) maximumf,
    TRef.unary (TRef.of (T := ⟨S_, .f32⟩) main_cst_4) (TRef.of (T := ⟨S_, .f32⟩) main_call2_v3) id,
    TRef.unary (TRef.of (T := ⟨S_, .f32⟩) main_call2_v3) (TRef.of (T := ⟨S400x784, .f32⟩) main_call2_v4) (broadcastInDim S400x784 ![] bcast_S_S400x784),
    TRef.binary (TRef.of (T := ⟨S400x784, .f32⟩) main_call2_v4) (TRef.of (T := ⟨S400x784, .f32⟩) main_call2_v2) (TRef.of (T := ⟨S400x784, .f32⟩) main_v8) minimumf,
    unary main_v4 main_v9 (broadcastInDim S400x784 ![] bcast_S_S400x784 : (⟨S_, .f32⟩ : BufTy).Contents (Elt F) → (⟨S400x784, .f32⟩ : BufTy).Contents (Elt F)),
    binary main_v8 main_v9 main_v10 (Host.divf : (⟨S400x784, .f32⟩ : BufTy).Contents (Elt F) → (⟨S400x784, .f32⟩ : BufTy).Contents (Elt F) → (⟨S400x784, .f32⟩ : BufTy).Contents (Elt F)),
    binary main_v10 main_arg2 main_v11 (subf : (⟨S400x784, .f32⟩ : BufTy).Contents (Elt F) → (⟨S400x784, .f32⟩ : BufTy).Contents (Elt F) → (⟨S400x784, .f32⟩ : BufTy).Contents (Elt F)),
    binary main_arg2 main_v11 main_v12 (addf : (⟨S400x784, .f32⟩ : BufTy).Contents (Elt F) → (⟨S400x784, .f32⟩ : BufTy).Contents (Elt F) → (⟨S400x784, .f32⟩ : BufTy).Contents (Elt F)),
    unary main_v12 main_v13 ((transpose S784x400 [1, 0] · transposes_S400x784_S784x400_1_0) : (⟨S400x784, .f32⟩ : BufTy).Contents (Elt F) → (⟨S784x400, .f32⟩ : BufTy).Contents (Elt F)),
    binary main_arg0 main_v13 main_v14 ((fun l r => Host.dotGeneral dot_S65536x784_S784x400_S65536x400_1_0_0_1_n_n none l r) : (⟨S65536x784, .f32⟩ : BufTy).Contents (Elt F) → (⟨S784x400, .f32⟩ : BufTy).Contents (Elt F) → (⟨S65536x400, .f32⟩ : BufTy).Contents (Elt F)),
    nullary main_cst_5 (constant S_ .f32 0x00000000#32),
    unary main_cst_5 main_v15 (broadcastInDim S65536x400 ![] bcast_S_S65536x400 : (⟨S_, .f32⟩ : BufTy).Contents (Elt F) → (⟨S65536x400, .f32⟩ : BufTy).Contents (Elt F)),
    binary main_v14 main_v15 main_v16 (cmpf .oge : (⟨S65536x400, .f32⟩ : BufTy).Contents (Elt F) → (⟨S65536x400, .f32⟩ : BufTy).Contents (Elt F) → (⟨S65536x400, .i1⟩ : BufTy).Contents (Elt F)),
    nullary main_cst_6 (constant S_ .f32 0x3E4CCCCD#32),
    unary main_cst_6 main_v17 (broadcastInDim S65536x400 ![] bcast_S_S65536x400 : (⟨S_, .f32⟩ : BufTy).Contents (Elt F) → (⟨S65536x400, .f32⟩ : BufTy).Contents (Elt F)),
    binary main_v17 main_v14 main_v18 (mulf : (⟨S65536x400, .f32⟩ : BufTy).Contents (Elt F) → (⟨S65536x400, .f32⟩ : BufTy).Contents (Elt F) → (⟨S65536x400, .f32⟩ : BufTy).Contents (Elt F)),
    TRef.ternary (TRef.of (T := ⟨S65536x400, .i1⟩) main_v16) (TRef.of (T := ⟨S65536x400, .f32⟩) main_v14) (TRef.of (T := ⟨S65536x400, .f32⟩) main_v18) (TRef.of (T := ⟨S65536x400, .f32⟩) main_v19) select,
    unary main_arg3 main_v20 (Host.absf : (⟨S400x400, .f32⟩ : BufTy).Contents (Elt F) → (⟨S400x400, .f32⟩ : BufTy).Contents (Elt F)),
    nullary main_cst_7 (constant S_ .f32 0x00000000#32),
    binary main_v20 main_cst_7 main_v21 ((fun x v => Host.reduceAdd x v reducesTo_S400x400_S_d0_1 h_S_) : (⟨S400x400, .f32⟩ : BufTy).Contents (Elt F) → (⟨S_, .f32⟩ : BufTy).Contents (Elt F) → (⟨S_, .f32⟩ : BufTy).Contents (Elt F)),
    nullary main_cst_8 (constant S_ .f32 0x481C4000#32),
    binary main_v21 main_cst_8 main_v22 (Host.divf : (⟨S_, .f32⟩ : BufTy).Contents (Elt F) → (⟨S_, .f32⟩ : BufTy).Contents (Elt F) → (⟨S_, .f32⟩ : BufTy).Contents (Elt F)),
    nullary main_cst_9 (constant S_ .f32 0x3727C5AC#32),
    TRef.unary (TRef.of (T := ⟨S_, .f32⟩) main_cst_9) (TRef.of (T := ⟨S_, .f32⟩) main_call4_v0) id,
    TRef.binary (TRef.of (T := ⟨S_, .f32⟩) main_call4_v0) (TRef.of (T := ⟨S_, .f32⟩) main_v22) (TRef.of (T := ⟨S_, .f32⟩) main_v23) maximumf,
    nullary main_cst_10 (constant S_ .f32 0x3F800000#32),
    binary main_cst_10 main_v23 main_v24 (Host.divf : (⟨S_, .f32⟩ : BufTy).Contents (Elt F) → (⟨S_, .f32⟩ : BufTy).Contents (Elt F) → (⟨S_, .f32⟩ : BufTy).Contents (Elt F)),
    unary main_v24 main_v25 (broadcastInDim S400x400 ![] bcast_S_S400x400 : (⟨S_, .f32⟩ : BufTy).Contents (Elt F) → (⟨S400x400, .f32⟩ : BufTy).Contents (Elt F)),
    binary main_arg3 main_v25 main_v26 (mulf : (⟨S400x400, .f32⟩ : BufTy).Contents (Elt F) → (⟨S400x400, .f32⟩ : BufTy).Contents (Elt F) → (⟨S400x400, .f32⟩ : BufTy).Contents (Elt F)),
    TRef.unary (TRef.of (T := ⟨S400x400, .f32⟩) main_v26) (TRef.of (T := ⟨S400x400, .f32⟩) main_v27) Host.roundeven,
    nullary main_cst_11 (constant S_ .f32 0xBF800000#32),
    nullary main_cst_12 (constant S_ .f32 0x3F800000#32),
    TRef.unary (TRef.of (T := ⟨S_, .f32⟩) main_cst_11) (TRef.of (T := ⟨S_, .f32⟩) main_call6_v0) id,
    TRef.unary (TRef.of (T := ⟨S_, .f32⟩) main_call6_v0) (TRef.of (T := ⟨S400x400, .f32⟩) main_call6_v1) (broadcastInDim S400x400 ![] bcast_S_S400x400),
    TRef.binary (TRef.of (T := ⟨S400x400, .f32⟩) main_call6_v1) (TRef.of (T := ⟨S400x400, .f32⟩) main_v27) (TRef.of (T := ⟨S400x400, .f32⟩) main_call6_v2) maximumf,
    TRef.unary (TRef.of (T := ⟨S_, .f32⟩) main_cst_12) (TRef.of (T := ⟨S_, .f32⟩) main_call6_v3) id,
    TRef.unary (TRef.of (T := ⟨S_, .f32⟩) main_call6_v3) (TRef.of (T := ⟨S400x400, .f32⟩) main_call6_v4) (broadcastInDim S400x400 ![] bcast_S_S400x400),
    TRef.binary (TRef.of (T := ⟨S400x400, .f32⟩) main_call6_v4) (TRef.of (T := ⟨S400x400, .f32⟩) main_call6_v2) (TRef.of (T := ⟨S400x400, .f32⟩) main_v28) minimumf,
    unary main_v24 main_v29 (broadcastInDim S400x400 ![] bcast_S_S400x400 : (⟨S_, .f32⟩ : BufTy).Contents (Elt F) → (⟨S400x400, .f32⟩ : BufTy).Contents (Elt F)),
    binary main_v28 main_v29 main_v30 (Host.divf : (⟨S400x400, .f32⟩ : BufTy).Contents (Elt F) → (⟨S400x400, .f32⟩ : BufTy).Contents (Elt F) → (⟨S400x400, .f32⟩ : BufTy).Contents (Elt F)),
    binary main_v30 main_arg3 main_v31 (subf : (⟨S400x400, .f32⟩ : BufTy).Contents (Elt F) → (⟨S400x400, .f32⟩ : BufTy).Contents (Elt F) → (⟨S400x400, .f32⟩ : BufTy).Contents (Elt F)),
    binary main_arg3 main_v31 main_v32 (addf : (⟨S400x400, .f32⟩ : BufTy).Contents (Elt F) → (⟨S400x400, .f32⟩ : BufTy).Contents (Elt F) → (⟨S400x400, .f32⟩ : BufTy).Contents (Elt F)),
    unary main_v32 main_v33 ((transpose S400x400 [1, 0] · transposes_S400x400_S400x400_1_0) : (⟨S400x400, .f32⟩ : BufTy).Contents (Elt F) → (⟨S400x400, .f32⟩ : BufTy).Contents (Elt F)),
    binary main_v19 main_v33 main_v34 ((fun l r => Host.dotGeneral dot_S65536x400_S400x400_S65536x400_1_0_0_1_n_n none l r) : (⟨S65536x400, .f32⟩ : BufTy).Contents (Elt F) → (⟨S400x400, .f32⟩ : BufTy).Contents (Elt F) → (⟨S65536x400, .f32⟩ : BufTy).Contents (Elt F)),
    nullary main_cst_13 (constant S_ .f32 0x00000000#32),
    unary main_cst_13 main_v35 (broadcastInDim S65536x400 ![] bcast_S_S65536x400 : (⟨S_, .f32⟩ : BufTy).Contents (Elt F) → (⟨S65536x400, .f32⟩ : BufTy).Contents (Elt F)),
    binary main_v34 main_v35 main_v36 (cmpf .oge : (⟨S65536x400, .f32⟩ : BufTy).Contents (Elt F) → (⟨S65536x400, .f32⟩ : BufTy).Contents (Elt F) → (⟨S65536x400, .i1⟩ : BufTy).Contents (Elt F)),
    nullary main_cst_14 (constant S_ .f32 0x3E4CCCCD#32),
    unary main_cst_14 main_v37 (broadcastInDim S65536x400 ![] bcast_S_S65536x400 : (⟨S_, .f32⟩ : BufTy).Contents (Elt F) → (⟨S65536x400, .f32⟩ : BufTy).Contents (Elt F)),
    binary main_v37 main_v34 main_v38 (mulf : (⟨S65536x400, .f32⟩ : BufTy).Contents (Elt F) → (⟨S65536x400, .f32⟩ : BufTy).Contents (Elt F) → (⟨S65536x400, .f32⟩ : BufTy).Contents (Elt F)),
    TRef.ternary (TRef.of (T := ⟨S65536x400, .i1⟩) main_v36) (TRef.of (T := ⟨S65536x400, .f32⟩) main_v34) (TRef.of (T := ⟨S65536x400, .f32⟩) main_v38) (TRef.of (T := ⟨S65536x400, .f32⟩) main_v39) select,
    unary main_arg4 main_v40 (Host.absf : (⟨S200x400, .f32⟩ : BufTy).Contents (Elt F) → (⟨S200x400, .f32⟩ : BufTy).Contents (Elt F)),
    nullary main_cst_15 (constant S_ .f32 0x00000000#32),
    binary main_v40 main_cst_15 main_v41 ((fun x v => Host.reduceAdd x v reducesTo_S200x400_S_d0_1 h_S_) : (⟨S200x400, .f32⟩ : BufTy).Contents (Elt F) → (⟨S_, .f32⟩ : BufTy).Contents (Elt F) → (⟨S_, .f32⟩ : BufTy).Contents (Elt F)),
    nullary main_cst_16 (constant S_ .f32 0x479C4000#32),
    binary main_v41 main_cst_16 main_v42 (Host.divf : (⟨S_, .f32⟩ : BufTy).Contents (Elt F) → (⟨S_, .f32⟩ : BufTy).Contents (Elt F) → (⟨S_, .f32⟩ : BufTy).Contents (Elt F)),
    nullary main_cst_17 (constant S_ .f32 0x3727C5AC#32),
    TRef.unary (TRef.of (T := ⟨S_, .f32⟩) main_cst_17) (TRef.of (T := ⟨S_, .f32⟩) main_call8_v0) id,
    TRef.binary (TRef.of (T := ⟨S_, .f32⟩) main_call8_v0) (TRef.of (T := ⟨S_, .f32⟩) main_v42) (TRef.of (T := ⟨S_, .f32⟩) main_v43) maximumf,
    nullary main_cst_18 (constant S_ .f32 0x3F800000#32),
    binary main_cst_18 main_v43 main_v44 (Host.divf : (⟨S_, .f32⟩ : BufTy).Contents (Elt F) → (⟨S_, .f32⟩ : BufTy).Contents (Elt F) → (⟨S_, .f32⟩ : BufTy).Contents (Elt F)),
    unary main_v44 main_v45 (broadcastInDim S200x400 ![] bcast_S_S200x400 : (⟨S_, .f32⟩ : BufTy).Contents (Elt F) → (⟨S200x400, .f32⟩ : BufTy).Contents (Elt F)),
    binary main_arg4 main_v45 main_v46 (mulf : (⟨S200x400, .f32⟩ : BufTy).Contents (Elt F) → (⟨S200x400, .f32⟩ : BufTy).Contents (Elt F) → (⟨S200x400, .f32⟩ : BufTy).Contents (Elt F)),
    TRef.unary (TRef.of (T := ⟨S200x400, .f32⟩) main_v46) (TRef.of (T := ⟨S200x400, .f32⟩) main_v47) Host.roundeven,
    nullary main_cst_19 (constant S_ .f32 0xBF800000#32),
    nullary main_cst_20 (constant S_ .f32 0x3F800000#32),
    TRef.unary (TRef.of (T := ⟨S_, .f32⟩) main_cst_19) (TRef.of (T := ⟨S_, .f32⟩) main_call10_v0) id,
    TRef.unary (TRef.of (T := ⟨S_, .f32⟩) main_call10_v0) (TRef.of (T := ⟨S200x400, .f32⟩) main_call10_v1) (broadcastInDim S200x400 ![] bcast_S_S200x400),
    TRef.binary (TRef.of (T := ⟨S200x400, .f32⟩) main_call10_v1) (TRef.of (T := ⟨S200x400, .f32⟩) main_v47) (TRef.of (T := ⟨S200x400, .f32⟩) main_call10_v2) maximumf,
    TRef.unary (TRef.of (T := ⟨S_, .f32⟩) main_cst_20) (TRef.of (T := ⟨S_, .f32⟩) main_call10_v3) id,
    TRef.unary (TRef.of (T := ⟨S_, .f32⟩) main_call10_v3) (TRef.of (T := ⟨S200x400, .f32⟩) main_call10_v4) (broadcastInDim S200x400 ![] bcast_S_S200x400),
    TRef.binary (TRef.of (T := ⟨S200x400, .f32⟩) main_call10_v4) (TRef.of (T := ⟨S200x400, .f32⟩) main_call10_v2) (TRef.of (T := ⟨S200x400, .f32⟩) main_v48) minimumf,
    unary main_v44 main_v49 (broadcastInDim S200x400 ![] bcast_S_S200x400 : (⟨S_, .f32⟩ : BufTy).Contents (Elt F) → (⟨S200x400, .f32⟩ : BufTy).Contents (Elt F)),
    binary main_v48 main_v49 main_v50 (Host.divf : (⟨S200x400, .f32⟩ : BufTy).Contents (Elt F) → (⟨S200x400, .f32⟩ : BufTy).Contents (Elt F) → (⟨S200x400, .f32⟩ : BufTy).Contents (Elt F)),
    binary main_v50 main_arg4 main_v51 (subf : (⟨S200x400, .f32⟩ : BufTy).Contents (Elt F) → (⟨S200x400, .f32⟩ : BufTy).Contents (Elt F) → (⟨S200x400, .f32⟩ : BufTy).Contents (Elt F)),
    binary main_arg4 main_v51 main_v52 (addf : (⟨S200x400, .f32⟩ : BufTy).Contents (Elt F) → (⟨S200x400, .f32⟩ : BufTy).Contents (Elt F) → (⟨S200x400, .f32⟩ : BufTy).Contents (Elt F)),
    unary main_v52 main_v53 ((transpose S400x200 [1, 0] · transposes_S200x400_S400x200_1_0) : (⟨S200x400, .f32⟩ : BufTy).Contents (Elt F) → (⟨S400x200, .f32⟩ : BufTy).Contents (Elt F)),
    binary main_v39 main_v53 main_v54 ((fun l r => Host.dotGeneral dot_S65536x400_S400x200_S65536x200_1_0_0_1_n_n none l r) : (⟨S65536x400, .f32⟩ : BufTy).Contents (Elt F) → (⟨S400x200, .f32⟩ : BufTy).Contents (Elt F) → (⟨S65536x200, .f32⟩ : BufTy).Contents (Elt F)),
    nullary main_cst_21 (constant S_ .f32 0x00000000#32),
    unary main_cst_21 main_v55 (broadcastInDim S65536x200 ![] bcast_S_S65536x200 : (⟨S_, .f32⟩ : BufTy).Contents (Elt F) → (⟨S65536x200, .f32⟩ : BufTy).Contents (Elt F)),
    binary main_v54 main_v55 main_v56 (cmpf .oge : (⟨S65536x200, .f32⟩ : BufTy).Contents (Elt F) → (⟨S65536x200, .f32⟩ : BufTy).Contents (Elt F) → (⟨S65536x200, .i1⟩ : BufTy).Contents (Elt F)),
    nullary main_cst_22 (constant S_ .f32 0x3E4CCCCD#32),
    unary main_cst_22 main_v57 (broadcastInDim S65536x200 ![] bcast_S_S65536x200 : (⟨S_, .f32⟩ : BufTy).Contents (Elt F) → (⟨S65536x200, .f32⟩ : BufTy).Contents (Elt F)),
    binary main_v57 main_v54 main_v58 (mulf : (⟨S65536x200, .f32⟩ : BufTy).Contents (Elt F) → (⟨S65536x200, .f32⟩ : BufTy).Contents (Elt F) → (⟨S65536x200, .f32⟩ : BufTy).Contents (Elt F)),
    TRef.ternary (TRef.of (T := ⟨S65536x200, .i1⟩) main_v56) (TRef.of (T := ⟨S65536x200, .f32⟩) main_v54) (TRef.of (T := ⟨S65536x200, .f32⟩) main_v58) (TRef.of (T := ⟨S65536x200, .f32⟩) main_v59) select,
    unary main_arg5 main_v60 (Host.absf : (⟨S2x200, .f32⟩ : BufTy).Contents (Elt F) → (⟨S2x200, .f32⟩ : BufTy).Contents (Elt F)),
    nullary main_cst_23 (constant S_ .f32 0x00000000#32),
    binary main_v60 main_cst_23 main_v61 ((fun x v => Host.reduceAdd x v reducesTo_S2x200_S_d0_1 h_S_) : (⟨S2x200, .f32⟩ : BufTy).Contents (Elt F) → (⟨S_, .f32⟩ : BufTy).Contents (Elt F) → (⟨S_, .f32⟩ : BufTy).Contents (Elt F)),
    nullary main_cst_24 (constant S_ .f32 0x43C80000#32),
    binary main_v61 main_cst_24 main_v62 (Host.divf : (⟨S_, .f32⟩ : BufTy).Contents (Elt F) → (⟨S_, .f32⟩ : BufTy).Contents (Elt F) → (⟨S_, .f32⟩ : BufTy).Contents (Elt F)),
    nullary main_cst_25 (constant S_ .f32 0x3727C5AC#32),
    TRef.unary (TRef.of (T := ⟨S_, .f32⟩) main_cst_25) (TRef.of (T := ⟨S_, .f32⟩) main_call12_v0) id,
    TRef.binary (TRef.of (T := ⟨S_, .f32⟩) main_call12_v0) (TRef.of (T := ⟨S_, .f32⟩) main_v62) (TRef.of (T := ⟨S_, .f32⟩) main_v63) maximumf,
    nullary main_cst_26 (constant S_ .f32 0x3F800000#32),
    binary main_cst_26 main_v63 main_v64 (Host.divf : (⟨S_, .f32⟩ : BufTy).Contents (Elt F) → (⟨S_, .f32⟩ : BufTy).Contents (Elt F) → (⟨S_, .f32⟩ : BufTy).Contents (Elt F)),
    unary main_v64 main_v65 (broadcastInDim S2x200 ![] bcast_S_S2x200 : (⟨S_, .f32⟩ : BufTy).Contents (Elt F) → (⟨S2x200, .f32⟩ : BufTy).Contents (Elt F)),
    binary main_arg5 main_v65 main_v66 (mulf : (⟨S2x200, .f32⟩ : BufTy).Contents (Elt F) → (⟨S2x200, .f32⟩ : BufTy).Contents (Elt F) → (⟨S2x200, .f32⟩ : BufTy).Contents (Elt F)),
    TRef.unary (TRef.of (T := ⟨S2x200, .f32⟩) main_v66) (TRef.of (T := ⟨S2x200, .f32⟩) main_v67) Host.roundeven,
    nullary main_cst_27 (constant S_ .f32 0xBF800000#32),
    nullary main_cst_28 (constant S_ .f32 0x3F800000#32),
    TRef.unary (TRef.of (T := ⟨S_, .f32⟩) main_cst_27) (TRef.of (T := ⟨S_, .f32⟩) main_call14_v0) id,
    TRef.unary (TRef.of (T := ⟨S_, .f32⟩) main_call14_v0) (TRef.of (T := ⟨S2x200, .f32⟩) main_call14_v1) (broadcastInDim S2x200 ![] bcast_S_S2x200),
    TRef.binary (TRef.of (T := ⟨S2x200, .f32⟩) main_call14_v1) (TRef.of (T := ⟨S2x200, .f32⟩) main_v67) (TRef.of (T := ⟨S2x200, .f32⟩) main_call14_v2) maximumf,
    TRef.unary (TRef.of (T := ⟨S_, .f32⟩) main_cst_28) (TRef.of (T := ⟨S_, .f32⟩) main_call14_v3) id,
    TRef.unary (TRef.of (T := ⟨S_, .f32⟩) main_call14_v3) (TRef.of (T := ⟨S2x200, .f32⟩) main_call14_v4) (broadcastInDim S2x200 ![] bcast_S_S2x200),
    TRef.binary (TRef.of (T := ⟨S2x200, .f32⟩) main_call14_v4) (TRef.of (T := ⟨S2x200, .f32⟩) main_call14_v2) (TRef.of (T := ⟨S2x200, .f32⟩) main_v68) minimumf,
    unary main_v64 main_v69 (broadcastInDim S2x200 ![] bcast_S_S2x200 : (⟨S_, .f32⟩ : BufTy).Contents (Elt F) → (⟨S2x200, .f32⟩ : BufTy).Contents (Elt F)),
    binary main_v68 main_v69 main_v70 (Host.divf : (⟨S2x200, .f32⟩ : BufTy).Contents (Elt F) → (⟨S2x200, .f32⟩ : BufTy).Contents (Elt F) → (⟨S2x200, .f32⟩ : BufTy).Contents (Elt F)),
    binary main_v70 main_arg5 main_v71 (subf : (⟨S2x200, .f32⟩ : BufTy).Contents (Elt F) → (⟨S2x200, .f32⟩ : BufTy).Contents (Elt F) → (⟨S2x200, .f32⟩ : BufTy).Contents (Elt F)),
    binary main_arg5 main_v71 main_v72 (addf : (⟨S2x200, .f32⟩ : BufTy).Contents (Elt F) → (⟨S2x200, .f32⟩ : BufTy).Contents (Elt F) → (⟨S2x200, .f32⟩ : BufTy).Contents (Elt F)),
    unary main_v72 main_v73 ((transpose S200x2 [1, 0] · transposes_S2x200_S200x2_1_0) : (⟨S2x200, .f32⟩ : BufTy).Contents (Elt F) → (⟨S200x2, .f32⟩ : BufTy).Contents (Elt F)),
    binary main_v59 main_v73 main_v74 ((fun l r => Host.dotGeneral dot_S65536x200_S200x2_S65536x2_1_0_0_1_n_n none l r) : (⟨S65536x200, .f32⟩ : BufTy).Contents (Elt F) → (⟨S200x2, .f32⟩ : BufTy).Contents (Elt F) → (⟨S65536x2, .f32⟩ : BufTy).Contents (Elt F)),
    unary main_arg6 main_v75 (Host.absf : (⟨S2x200, .f32⟩ : BufTy).Contents (Elt F) → (⟨S2x200, .f32⟩ : BufTy).Contents (Elt F)),
    nullary main_cst_29 (constant S_ .f32 0x00000000#32),
    binary main_v75 main_cst_29 main_v76 ((fun x v => Host.reduceAdd x v reducesTo_S2x200_S_d0_1 h_S_) : (⟨S2x200, .f32⟩ : BufTy).Contents (Elt F) → (⟨S_, .f32⟩ : BufTy).Contents (Elt F) → (⟨S_, .f32⟩ : BufTy).Contents (Elt F)),
    nullary main_cst_30 (constant S_ .f32 0x43C80000#32),
    binary main_v76 main_cst_30 main_v77 (Host.divf : (⟨S_, .f32⟩ : BufTy).Contents (Elt F) → (⟨S_, .f32⟩ : BufTy).Contents (Elt F) → (⟨S_, .f32⟩ : BufTy).Contents (Elt F)),
    nullary main_cst_31 (constant S_ .f32 0x3727C5AC#32),
    TRef.unary (TRef.of (T := ⟨S_, .f32⟩) main_cst_31) (TRef.of (T := ⟨S_, .f32⟩) main_call15_v0) id,
    TRef.binary (TRef.of (T := ⟨S_, .f32⟩) main_call15_v0) (TRef.of (T := ⟨S_, .f32⟩) main_v77) (TRef.of (T := ⟨S_, .f32⟩) main_v78) maximumf,
    nullary main_cst_32 (constant S_ .f32 0x3F800000#32),
    binary main_cst_32 main_v78 main_v79 (Host.divf : (⟨S_, .f32⟩ : BufTy).Contents (Elt F) → (⟨S_, .f32⟩ : BufTy).Contents (Elt F) → (⟨S_, .f32⟩ : BufTy).Contents (Elt F)),
    unary main_v79 main_v80 (broadcastInDim S2x200 ![] bcast_S_S2x200 : (⟨S_, .f32⟩ : BufTy).Contents (Elt F) → (⟨S2x200, .f32⟩ : BufTy).Contents (Elt F)),
    binary main_arg6 main_v80 main_v81 (mulf : (⟨S2x200, .f32⟩ : BufTy).Contents (Elt F) → (⟨S2x200, .f32⟩ : BufTy).Contents (Elt F) → (⟨S2x200, .f32⟩ : BufTy).Contents (Elt F)),
    TRef.unary (TRef.of (T := ⟨S2x200, .f32⟩) main_v81) (TRef.of (T := ⟨S2x200, .f32⟩) main_v82) Host.roundeven,
    nullary main_cst_33 (constant S_ .f32 0xBF800000#32),
    nullary main_cst_34 (constant S_ .f32 0x3F800000#32),
    TRef.unary (TRef.of (T := ⟨S_, .f32⟩) main_cst_33) (TRef.of (T := ⟨S_, .f32⟩) main_call17_v0) id,
    TRef.unary (TRef.of (T := ⟨S_, .f32⟩) main_call17_v0) (TRef.of (T := ⟨S2x200, .f32⟩) main_call17_v1) (broadcastInDim S2x200 ![] bcast_S_S2x200),
    TRef.binary (TRef.of (T := ⟨S2x200, .f32⟩) main_call17_v1) (TRef.of (T := ⟨S2x200, .f32⟩) main_v82) (TRef.of (T := ⟨S2x200, .f32⟩) main_call17_v2) maximumf,
    TRef.unary (TRef.of (T := ⟨S_, .f32⟩) main_cst_34) (TRef.of (T := ⟨S_, .f32⟩) main_call17_v3) id,
    TRef.unary (TRef.of (T := ⟨S_, .f32⟩) main_call17_v3) (TRef.of (T := ⟨S2x200, .f32⟩) main_call17_v4) (broadcastInDim S2x200 ![] bcast_S_S2x200),
    TRef.binary (TRef.of (T := ⟨S2x200, .f32⟩) main_call17_v4) (TRef.of (T := ⟨S2x200, .f32⟩) main_call17_v2) (TRef.of (T := ⟨S2x200, .f32⟩) main_v83) minimumf,
    unary main_v79 main_v84 (broadcastInDim S2x200 ![] bcast_S_S2x200 : (⟨S_, .f32⟩ : BufTy).Contents (Elt F) → (⟨S2x200, .f32⟩ : BufTy).Contents (Elt F)),
    binary main_v83 main_v84 main_v85 (Host.divf : (⟨S2x200, .f32⟩ : BufTy).Contents (Elt F) → (⟨S2x200, .f32⟩ : BufTy).Contents (Elt F) → (⟨S2x200, .f32⟩ : BufTy).Contents (Elt F)),
    binary main_v85 main_arg6 main_v86 (subf : (⟨S2x200, .f32⟩ : BufTy).Contents (Elt F) → (⟨S2x200, .f32⟩ : BufTy).Contents (Elt F) → (⟨S2x200, .f32⟩ : BufTy).Contents (Elt F)),
    binary main_arg6 main_v86 main_v87 (addf : (⟨S2x200, .f32⟩ : BufTy).Contents (Elt F) → (⟨S2x200, .f32⟩ : BufTy).Contents (Elt F) → (⟨S2x200, .f32⟩ : BufTy).Contents (Elt F)),
    unary main_v87 main_v88 ((transpose S200x2 [1, 0] · transposes_S2x200_S200x2_1_0) : (⟨S2x200, .f32⟩ : BufTy).Contents (Elt F) → (⟨S200x2, .f32⟩ : BufTy).Contents (Elt F)),
    binary main_v59 main_v88 main_v89 ((fun l r => Host.dotGeneral dot_S65536x200_S200x2_S65536x2_1_0_0_1_n_n none l r) : (⟨S65536x200, .f32⟩ : BufTy).Contents (Elt F) → (⟨S200x2, .f32⟩ : BufTy).Contents (Elt F) → (⟨S65536x2, .f32⟩ : BufTy).Contents (Elt F)),
    binary main_v89 main_arg1 main_v90 (mulf : (⟨S65536x2, .f32⟩ : BufTy).Contents (Elt F) → (⟨S65536x2, .f32⟩ : BufTy).Contents (Elt F) → (⟨S65536x2, .f32⟩ : BufTy).Contents (Elt F)),
    binary main_v74 main_v90 main_v91 (addf : (⟨S65536x2, .f32⟩ : BufTy).Contents (Elt F) → (⟨S65536x2, .f32⟩ : BufTy).Contents (Elt F) → (⟨S65536x2, .f32⟩ : BufTy).Contents (Elt F)),
    unary main_arg7 main_v92 (Host.absf : (⟨S200x2, .f32⟩ : BufTy).Contents (Elt F) → (⟨S200x2, .f32⟩ : BufTy).Contents (Elt F)),
    nullary main_cst_35 (constant S_ .f32 0x00000000#32),
    binary main_v92 main_cst_35 main_v93 ((fun x v => Host.reduceAdd x v reducesTo_S200x2_S_d0_1 h_S_) : (⟨S200x2, .f32⟩ : BufTy).Contents (Elt F) → (⟨S_, .f32⟩ : BufTy).Contents (Elt F) → (⟨S_, .f32⟩ : BufTy).Contents (Elt F)),
    nullary main_cst_36 (constant S_ .f32 0x43C80000#32),
    binary main_v93 main_cst_36 main_v94 (Host.divf : (⟨S_, .f32⟩ : BufTy).Contents (Elt F) → (⟨S_, .f32⟩ : BufTy).Contents (Elt F) → (⟨S_, .f32⟩ : BufTy).Contents (Elt F)),
    nullary main_cst_37 (constant S_ .f32 0x3727C5AC#32),
    TRef.unary (TRef.of (T := ⟨S_, .f32⟩) main_cst_37) (TRef.of (T := ⟨S_, .f32⟩) main_call18_v0) id,
    TRef.binary (TRef.of (T := ⟨S_, .f32⟩) main_call18_v0) (TRef.of (T := ⟨S_, .f32⟩) main_v94) (TRef.of (T := ⟨S_, .f32⟩) main_v95) maximumf,
    nullary main_cst_38 (constant S_ .f32 0x3F800000#32),
    binary main_cst_38 main_v95 main_v96 (Host.divf : (⟨S_, .f32⟩ : BufTy).Contents (Elt F) → (⟨S_, .f32⟩ : BufTy).Contents (Elt F) → (⟨S_, .f32⟩ : BufTy).Contents (Elt F)),
    unary main_v96 main_v97 (broadcastInDim S200x2 ![] bcast_S_S200x2 : (⟨S_, .f32⟩ : BufTy).Contents (Elt F) → (⟨S200x2, .f32⟩ : BufTy).Contents (Elt F)),
    binary main_arg7 main_v97 main_v98 (mulf : (⟨S200x2, .f32⟩ : BufTy).Contents (Elt F) → (⟨S200x2, .f32⟩ : BufTy).Contents (Elt F) → (⟨S200x2, .f32⟩ : BufTy).Contents (Elt F)),
    TRef.unary (TRef.of (T := ⟨S200x2, .f32⟩) main_v98) (TRef.of (T := ⟨S200x2, .f32⟩) main_v99) Host.roundeven,
    nullary main_cst_39 (constant S_ .f32 0xBF800000#32),
    nullary main_cst_40 (constant S_ .f32 0x3F800000#32),
    TRef.unary (TRef.of (T := ⟨S_, .f32⟩) main_cst_39) (TRef.of (T := ⟨S_, .f32⟩) main_call20_v0) id,
    TRef.unary (TRef.of (T := ⟨S_, .f32⟩) main_call20_v0) (TRef.of (T := ⟨S200x2, .f32⟩) main_call20_v1) (broadcastInDim S200x2 ![] bcast_S_S200x2),
    TRef.binary (TRef.of (T := ⟨S200x2, .f32⟩) main_call20_v1) (TRef.of (T := ⟨S200x2, .f32⟩) main_v99) (TRef.of (T := ⟨S200x2, .f32⟩) main_call20_v2) maximumf,
    TRef.unary (TRef.of (T := ⟨S_, .f32⟩) main_cst_40) (TRef.of (T := ⟨S_, .f32⟩) main_call20_v3) id,
    TRef.unary (TRef.of (T := ⟨S_, .f32⟩) main_call20_v3) (TRef.of (T := ⟨S200x2, .f32⟩) main_call20_v4) (broadcastInDim S200x2 ![] bcast_S_S200x2),
    TRef.binary (TRef.of (T := ⟨S200x2, .f32⟩) main_call20_v4) (TRef.of (T := ⟨S200x2, .f32⟩) main_call20_v2) (TRef.of (T := ⟨S200x2, .f32⟩) main_v100) minimumf,
    unary main_v96 main_v101 (broadcastInDim S200x2 ![] bcast_S_S200x2 : (⟨S_, .f32⟩ : BufTy).Contents (Elt F) → (⟨S200x2, .f32⟩ : BufTy).Contents (Elt F)),
    binary main_v100 main_v101 main_v102 (Host.divf : (⟨S200x2, .f32⟩ : BufTy).Contents (Elt F) → (⟨S200x2, .f32⟩ : BufTy).Contents (Elt F) → (⟨S200x2, .f32⟩ : BufTy).Contents (Elt F)),
    binary main_v102 main_arg7 main_v103 (subf : (⟨S200x2, .f32⟩ : BufTy).Contents (Elt F) → (⟨S200x2, .f32⟩ : BufTy).Contents (Elt F) → (⟨S200x2, .f32⟩ : BufTy).Contents (Elt F)),
    binary main_arg7 main_v103 main_v104 (addf : (⟨S200x2, .f32⟩ : BufTy).Contents (Elt F) → (⟨S200x2, .f32⟩ : BufTy).Contents (Elt F) → (⟨S200x2, .f32⟩ : BufTy).Contents (Elt F)),
    unary main_v104 main_v105 ((transpose S2x200 [1, 0] · transposes_S200x2_S2x200_1_0) : (⟨S200x2, .f32⟩ : BufTy).Contents (Elt F) → (⟨S2x200, .f32⟩ : BufTy).Contents (Elt F)),
    binary main_v91 main_v105 main_v106 ((fun l r => Host.dotGeneral dot_S65536x2_S2x200_S65536x200_1_0_0_1_n_n none l r) : (⟨S65536x2, .f32⟩ : BufTy).Contents (Elt F) → (⟨S2x200, .f32⟩ : BufTy).Contents (Elt F) → (⟨S65536x200, .f32⟩ : BufTy).Contents (Elt F)),
    nullary main_cst_41 (constant S_ .f32 0x00000000#32),
    unary main_cst_41 main_v107 (broadcastInDim S65536x200 ![] bcast_S_S65536x200 : (⟨S_, .f32⟩ : BufTy).Contents (Elt F) → (⟨S65536x200, .f32⟩ : BufTy).Contents (Elt F)),
    binary main_v106 main_v107 main_v108 (cmpf .oge : (⟨S65536x200, .f32⟩ : BufTy).Contents (Elt F) → (⟨S65536x200, .f32⟩ : BufTy).Contents (Elt F) → (⟨S65536x200, .i1⟩ : BufTy).Contents (Elt F)),
    nullary main_cst_42 (constant S_ .f32 0x3E4CCCCD#32),
    unary main_cst_42 main_v109 (broadcastInDim S65536x200 ![] bcast_S_S65536x200 : (⟨S_, .f32⟩ : BufTy).Contents (Elt F) → (⟨S65536x200, .f32⟩ : BufTy).Contents (Elt F)),
    binary main_v109 main_v106 main_v110 (mulf : (⟨S65536x200, .f32⟩ : BufTy).Contents (Elt F) → (⟨S65536x200, .f32⟩ : BufTy).Contents (Elt F) → (⟨S65536x200, .f32⟩ : BufTy).Contents (Elt F)),
    TRef.ternary (TRef.of (T := ⟨S65536x200, .i1⟩) main_v108) (TRef.of (T := ⟨S65536x200, .f32⟩) main_v106) (TRef.of (T := ⟨S65536x200, .f32⟩) main_v110) (TRef.of (T := ⟨S65536x200, .f32⟩) main_v111) select,
    unary main_arg8 main_v112 (Host.absf : (⟨S400x200, .f32⟩ : BufTy).Contents (Elt F) → (⟨S400x200, .f32⟩ : BufTy).Contents (Elt F)),
    nullary main_cst_43 (constant S_ .f32 0x00000000#32),
    binary main_v112 main_cst_43 main_v113 ((fun x v => Host.reduceAdd x v reducesTo_S400x200_S_d0_1 h_S_) : (⟨S400x200, .f32⟩ : BufTy).Contents (Elt F) → (⟨S_, .f32⟩ : BufTy).Contents (Elt F) → (⟨S_, .f32⟩ : BufTy).Contents (Elt F)),
    nullary main_cst_44 (constant S_ .f32 0x479C4000#32),
    binary main_v113 main_cst_44 main_v114 (Host.divf : (⟨S_, .f32⟩ : BufTy).Contents (Elt F) → (⟨S_, .f32⟩ : BufTy).Contents (Elt F) → (⟨S_, .f32⟩ : BufTy).Contents (Elt F)),
    nullary main_cst_45 (constant S_ .f32 0x3727C5AC#32),
    TRef.unary (TRef.of (T := ⟨S_, .f32⟩) main_cst_45) (TRef.of (T := ⟨S_, .f32⟩) main_call22_v0) id,
    TRef.binary (TRef.of (T := ⟨S_, .f32⟩) main_call22_v0) (TRef.of (T := ⟨S_, .f32⟩) main_v114) (TRef.of (T := ⟨S_, .f32⟩) main_v115) maximumf,
    nullary main_cst_46 (constant S_ .f32 0x3F800000#32),
    binary main_cst_46 main_v115 main_v116 (Host.divf : (⟨S_, .f32⟩ : BufTy).Contents (Elt F) → (⟨S_, .f32⟩ : BufTy).Contents (Elt F) → (⟨S_, .f32⟩ : BufTy).Contents (Elt F)),
    unary main_v116 main_v117 (broadcastInDim S400x200 ![] bcast_S_S400x200 : (⟨S_, .f32⟩ : BufTy).Contents (Elt F) → (⟨S400x200, .f32⟩ : BufTy).Contents (Elt F)),
    binary main_arg8 main_v117 main_v118 (mulf : (⟨S400x200, .f32⟩ : BufTy).Contents (Elt F) → (⟨S400x200, .f32⟩ : BufTy).Contents (Elt F) → (⟨S400x200, .f32⟩ : BufTy).Contents (Elt F)),
    TRef.unary (TRef.of (T := ⟨S400x200, .f32⟩) main_v118) (TRef.of (T := ⟨S400x200, .f32⟩) main_v119) Host.roundeven,
    nullary main_cst_47 (constant S_ .f32 0xBF800000#32),
    nullary main_cst_48 (constant S_ .f32 0x3F800000#32),
    TRef.unary (TRef.of (T := ⟨S_, .f32⟩) main_cst_47) (TRef.of (T := ⟨S_, .f32⟩) main_call24_v0) id,
    TRef.unary (TRef.of (T := ⟨S_, .f32⟩) main_call24_v0) (TRef.of (T := ⟨S400x200, .f32⟩) main_call24_v1) (broadcastInDim S400x200 ![] bcast_S_S400x200),
    TRef.binary (TRef.of (T := ⟨S400x200, .f32⟩) main_call24_v1) (TRef.of (T := ⟨S400x200, .f32⟩) main_v119) (TRef.of (T := ⟨S400x200, .f32⟩) main_call24_v2) maximumf,
    TRef.unary (TRef.of (T := ⟨S_, .f32⟩) main_cst_48) (TRef.of (T := ⟨S_, .f32⟩) main_call24_v3) id,
    TRef.unary (TRef.of (T := ⟨S_, .f32⟩) main_call24_v3) (TRef.of (T := ⟨S400x200, .f32⟩) main_call24_v4) (broadcastInDim S400x200 ![] bcast_S_S400x200),
    TRef.binary (TRef.of (T := ⟨S400x200, .f32⟩) main_call24_v4) (TRef.of (T := ⟨S400x200, .f32⟩) main_call24_v2) (TRef.of (T := ⟨S400x200, .f32⟩) main_v120) minimumf,
    unary main_v116 main_v121 (broadcastInDim S400x200 ![] bcast_S_S400x200 : (⟨S_, .f32⟩ : BufTy).Contents (Elt F) → (⟨S400x200, .f32⟩ : BufTy).Contents (Elt F)),
    binary main_v120 main_v121 main_v122 (Host.divf : (⟨S400x200, .f32⟩ : BufTy).Contents (Elt F) → (⟨S400x200, .f32⟩ : BufTy).Contents (Elt F) → (⟨S400x200, .f32⟩ : BufTy).Contents (Elt F)),
    binary main_v122 main_arg8 main_v123 (subf : (⟨S400x200, .f32⟩ : BufTy).Contents (Elt F) → (⟨S400x200, .f32⟩ : BufTy).Contents (Elt F) → (⟨S400x200, .f32⟩ : BufTy).Contents (Elt F)),
    binary main_arg8 main_v123 main_v124 (addf : (⟨S400x200, .f32⟩ : BufTy).Contents (Elt F) → (⟨S400x200, .f32⟩ : BufTy).Contents (Elt F) → (⟨S400x200, .f32⟩ : BufTy).Contents (Elt F)),
    unary main_v124 main_v125 ((transpose S200x400 [1, 0] · transposes_S400x200_S200x400_1_0) : (⟨S400x200, .f32⟩ : BufTy).Contents (Elt F) → (⟨S200x400, .f32⟩ : BufTy).Contents (Elt F)),
    binary main_v111 main_v125 main_v126 ((fun l r => Host.dotGeneral dot_S65536x200_S200x400_S65536x400_1_0_0_1_n_n none l r) : (⟨S65536x200, .f32⟩ : BufTy).Contents (Elt F) → (⟨S200x400, .f32⟩ : BufTy).Contents (Elt F) → (⟨S65536x400, .f32⟩ : BufTy).Contents (Elt F)),
    nullary main_cst_49 (constant S_ .f32 0x00000000#32),
    unary main_cst_49 main_v127 (broadcastInDim S65536x400 ![] bcast_S_S65536x400 : (⟨S_, .f32⟩ : BufTy).Contents (Elt F) → (⟨S65536x400, .f32⟩ : BufTy).Contents (Elt F)),
    binary main_v126 main_v127 main_v128 (cmpf .oge : (⟨S65536x400, .f32⟩ : BufTy).Contents (Elt F) → (⟨S65536x400, .f32⟩ : BufTy).Contents (Elt F) → (⟨S65536x400, .i1⟩ : BufTy).Contents (Elt F)),
    nullary main_cst_50 (constant S_ .f32 0x3E4CCCCD#32),
    unary main_cst_50 main_v129 (broadcastInDim S65536x400 ![] bcast_S_S65536x400 : (⟨S_, .f32⟩ : BufTy).Contents (Elt F) → (⟨S65536x400, .f32⟩ : BufTy).Contents (Elt F)),
    binary main_v129 main_v126 main_v130 (mulf : (⟨S65536x400, .f32⟩ : BufTy).Contents (Elt F) → (⟨S65536x400, .f32⟩ : BufTy).Contents (Elt F) → (⟨S65536x400, .f32⟩ : BufTy).Contents (Elt F)),
    TRef.ternary (TRef.of (T := ⟨S65536x400, .i1⟩) main_v128) (TRef.of (T := ⟨S65536x400, .f32⟩) main_v126) (TRef.of (T := ⟨S65536x400, .f32⟩) main_v130) (TRef.of (T := ⟨S65536x400, .f32⟩) main_v131) select,
    unary main_arg9 main_v132 (Host.absf : (⟨S400x400, .f32⟩ : BufTy).Contents (Elt F) → (⟨S400x400, .f32⟩ : BufTy).Contents (Elt F)),
    nullary main_cst_51 (constant S_ .f32 0x00000000#32),
    binary main_v132 main_cst_51 main_v133 ((fun x v => Host.reduceAdd x v reducesTo_S400x400_S_d0_1 h_S_) : (⟨S400x400, .f32⟩ : BufTy).Contents (Elt F) → (⟨S_, .f32⟩ : BufTy).Contents (Elt F) → (⟨S_, .f32⟩ : BufTy).Contents (Elt F)),
    nullary main_cst_52 (constant S_ .f32 0x481C4000#32),
    binary main_v133 main_cst_52 main_v134 (Host.divf : (⟨S_, .f32⟩ : BufTy).Contents (Elt F) → (⟨S_, .f32⟩ : BufTy).Contents (Elt F) → (⟨S_, .f32⟩ : BufTy).Contents (Elt F)),
    nullary main_cst_53 (constant S_ .f32 0x3727C5AC#32),
    TRef.unary (TRef.of (T := ⟨S_, .f32⟩) main_cst_53) (TRef.of (T := ⟨S_, .f32⟩) main_call26_v0) id,
    TRef.binary (TRef.of (T := ⟨S_, .f32⟩) main_call26_v0) (TRef.of (T := ⟨S_, .f32⟩) main_v134) (TRef.of (T := ⟨S_, .f32⟩) main_v135) maximumf,
    nullary main_cst_54 (constant S_ .f32 0x3F800000#32),
    binary main_cst_54 main_v135 main_v136 (Host.divf : (⟨S_, .f32⟩ : BufTy).Contents (Elt F) → (⟨S_, .f32⟩ : BufTy).Contents (Elt F) → (⟨S_, .f32⟩ : BufTy).Contents (Elt F)),
    unary main_v136 main_v137 (broadcastInDim S400x400 ![] bcast_S_S400x400 : (⟨S_, .f32⟩ : BufTy).Contents (Elt F) → (⟨S400x400, .f32⟩ : BufTy).Contents (Elt F)),
    binary main_arg9 main_v137 main_v138 (mulf : (⟨S400x400, .f32⟩ : BufTy).Contents (Elt F) → (⟨S400x400, .f32⟩ : BufTy).Contents (Elt F) → (⟨S400x400, .f32⟩ : BufTy).Contents (Elt F)),
    TRef.unary (TRef.of (T := ⟨S400x400, .f32⟩) main_v138) (TRef.of (T := ⟨S400x400, .f32⟩) main_v139) Host.roundeven,
    nullary main_cst_55 (constant S_ .f32 0xBF800000#32),
    nullary main_cst_56 (constant S_ .f32 0x3F800000#32),
    TRef.unary (TRef.of (T := ⟨S_, .f32⟩) main_cst_55) (TRef.of (T := ⟨S_, .f32⟩) main_call28_v0) id,
    TRef.unary (TRef.of (T := ⟨S_, .f32⟩) main_call28_v0) (TRef.of (T := ⟨S400x400, .f32⟩) main_call28_v1) (broadcastInDim S400x400 ![] bcast_S_S400x400),
    TRef.binary (TRef.of (T := ⟨S400x400, .f32⟩) main_call28_v1) (TRef.of (T := ⟨S400x400, .f32⟩) main_v139) (TRef.of (T := ⟨S400x400, .f32⟩) main_call28_v2) maximumf,
    TRef.unary (TRef.of (T := ⟨S_, .f32⟩) main_cst_56) (TRef.of (T := ⟨S_, .f32⟩) main_call28_v3) id,
    TRef.unary (TRef.of (T := ⟨S_, .f32⟩) main_call28_v3) (TRef.of (T := ⟨S400x400, .f32⟩) main_call28_v4) (broadcastInDim S400x400 ![] bcast_S_S400x400),
    TRef.binary (TRef.of (T := ⟨S400x400, .f32⟩) main_call28_v4) (TRef.of (T := ⟨S400x400, .f32⟩) main_call28_v2) (TRef.of (T := ⟨S400x400, .f32⟩) main_v140) minimumf,
    unary main_v136 main_v141 (broadcastInDim S400x400 ![] bcast_S_S400x400 : (⟨S_, .f32⟩ : BufTy).Contents (Elt F) → (⟨S400x400, .f32⟩ : BufTy).Contents (Elt F)),
    binary main_v140 main_v141 main_v142 (Host.divf : (⟨S400x400, .f32⟩ : BufTy).Contents (Elt F) → (⟨S400x400, .f32⟩ : BufTy).Contents (Elt F) → (⟨S400x400, .f32⟩ : BufTy).Contents (Elt F)),
    binary main_v142 main_arg9 main_v143 (subf : (⟨S400x400, .f32⟩ : BufTy).Contents (Elt F) → (⟨S400x400, .f32⟩ : BufTy).Contents (Elt F) → (⟨S400x400, .f32⟩ : BufTy).Contents (Elt F)),
    binary main_arg9 main_v143 main_v144 (addf : (⟨S400x400, .f32⟩ : BufTy).Contents (Elt F) → (⟨S400x400, .f32⟩ : BufTy).Contents (Elt F) → (⟨S400x400, .f32⟩ : BufTy).Contents (Elt F)),
    unary main_v144 main_v145 ((transpose S400x400 [1, 0] · transposes_S400x400_S400x400_1_0) : (⟨S400x400, .f32⟩ : BufTy).Contents (Elt F) → (⟨S400x400, .f32⟩ : BufTy).Contents (Elt F)),
    binary main_v131 main_v145 main_v146 ((fun l r => Host.dotGeneral dot_S65536x400_S400x400_S65536x400_1_0_0_1_n_n none l r) : (⟨S65536x400, .f32⟩ : BufTy).Contents (Elt F) → (⟨S400x400, .f32⟩ : BufTy).Contents (Elt F) → (⟨S65536x400, .f32⟩ : BufTy).Contents (Elt F)),
    nullary main_cst_57 (constant S_ .f32 0x00000000#32),
    unary main_cst_57 main_v147 (broadcastInDim S65536x400 ![] bcast_S_S65536x400 : (⟨S_, .f32⟩ : BufTy).Contents (Elt F) → (⟨S65536x400, .f32⟩ : BufTy).Contents (Elt F)),
    binary main_v146 main_v147 main_v148 (cmpf .oge : (⟨S65536x400, .f32⟩ : BufTy).Contents (Elt F) → (⟨S65536x400, .f32⟩ : BufTy).Contents (Elt F) → (⟨S65536x400, .i1⟩ : BufTy).Contents (Elt F)),
    nullary main_cst_58 (constant S_ .f32 0x3E4CCCCD#32),
    unary main_cst_58 main_v149 (broadcastInDim S65536x400 ![] bcast_S_S65536x400 : (⟨S_, .f32⟩ : BufTy).Contents (Elt F) → (⟨S65536x400, .f32⟩ : BufTy).Contents (Elt F)),
    binary main_v149 main_v146 main_v150 (mulf : (⟨S65536x400, .f32⟩ : BufTy).Contents (Elt F) → (⟨S65536x400, .f32⟩ : BufTy).Contents (Elt F) → (⟨S65536x400, .f32⟩ : BufTy).Contents (Elt F)),
    TRef.ternary (TRef.of (T := ⟨S65536x400, .i1⟩) main_v148) (TRef.of (T := ⟨S65536x400, .f32⟩) main_v146) (TRef.of (T := ⟨S65536x400, .f32⟩) main_v150) (TRef.of (T := ⟨S65536x400, .f32⟩) main_v151) select,
    unary main_arg10 main_v152 (Host.absf : (⟨S400x400, .f32⟩ : BufTy).Contents (Elt F) → (⟨S400x400, .f32⟩ : BufTy).Contents (Elt F)),
    nullary main_cst_59 (constant S_ .f32 0x00000000#32),
    binary main_v152 main_cst_59 main_v153 ((fun x v => Host.reduceAdd x v reducesTo_S400x400_S_d0_1 h_S_) : (⟨S400x400, .f32⟩ : BufTy).Contents (Elt F) → (⟨S_, .f32⟩ : BufTy).Contents (Elt F) → (⟨S_, .f32⟩ : BufTy).Contents (Elt F)),
    nullary main_cst_60 (constant S_ .f32 0x481C4000#32),
    binary main_v153 main_cst_60 main_v154 (Host.divf : (⟨S_, .f32⟩ : BufTy).Contents (Elt F) → (⟨S_, .f32⟩ : BufTy).Contents (Elt F) → (⟨S_, .f32⟩ : BufTy).Contents (Elt F)),
    nullary main_cst_61 (constant S_ .f32 0x3727C5AC#32),
    TRef.unary (TRef.of (T := ⟨S_, .f32⟩) main_cst_61) (TRef.of (T := ⟨S_, .f32⟩) main_call30_v0) id,
    TRef.binary (TRef.of (T := ⟨S_, .f32⟩) main_call30_v0) (TRef.of (T := ⟨S_, .f32⟩) main_v154) (TRef.of (T := ⟨S_, .f32⟩) main_v155) maximumf,
    nullary main_cst_62 (constant S_ .f32 0x3F800000#32),
    binary main_cst_62 main_v155 main_v156 (Host.divf : (⟨S_, .f32⟩ : BufTy).Contents (Elt F) → (⟨S_, .f32⟩ : BufTy).Contents (Elt F) → (⟨S_, .f32⟩ : BufTy).Contents (Elt F)),
    unary main_v156 main_v157 (broadcastInDim S400x400 ![] bcast_S_S400x400 : (⟨S_, .f32⟩ : BufTy).Contents (Elt F) → (⟨S400x400, .f32⟩ : BufTy).Contents (Elt F)),
    binary main_arg10 main_v157 main_v158 (mulf : (⟨S400x400, .f32⟩ : BufTy).Contents (Elt F) → (⟨S400x400, .f32⟩ : BufTy).Contents (Elt F) → (⟨S400x400, .f32⟩ : BufTy).Contents (Elt F)),
    TRef.unary (TRef.of (T := ⟨S400x400, .f32⟩) main_v158) (TRef.of (T := ⟨S400x400, .f32⟩) main_v159) Host.roundeven,
    nullary main_cst_63 (constant S_ .f32 0xBF800000#32),
    nullary main_cst_64 (constant S_ .f32 0x3F800000#32),
    TRef.unary (TRef.of (T := ⟨S_, .f32⟩) main_cst_63) (TRef.of (T := ⟨S_, .f32⟩) main_call32_v0) id,
    TRef.unary (TRef.of (T := ⟨S_, .f32⟩) main_call32_v0) (TRef.of (T := ⟨S400x400, .f32⟩) main_call32_v1) (broadcastInDim S400x400 ![] bcast_S_S400x400),
    TRef.binary (TRef.of (T := ⟨S400x400, .f32⟩) main_call32_v1) (TRef.of (T := ⟨S400x400, .f32⟩) main_v159) (TRef.of (T := ⟨S400x400, .f32⟩) main_call32_v2) maximumf,
    TRef.unary (TRef.of (T := ⟨S_, .f32⟩) main_cst_64) (TRef.of (T := ⟨S_, .f32⟩) main_call32_v3) id,
    TRef.unary (TRef.of (T := ⟨S_, .f32⟩) main_call32_v3) (TRef.of (T := ⟨S400x400, .f32⟩) main_call32_v4) (broadcastInDim S400x400 ![] bcast_S_S400x400),
    TRef.binary (TRef.of (T := ⟨S400x400, .f32⟩) main_call32_v4) (TRef.of (T := ⟨S400x400, .f32⟩) main_call32_v2) (TRef.of (T := ⟨S400x400, .f32⟩) main_v160) minimumf,
    unary main_v156 main_v161 (broadcastInDim S400x400 ![] bcast_S_S400x400 : (⟨S_, .f32⟩ : BufTy).Contents (Elt F) → (⟨S400x400, .f32⟩ : BufTy).Contents (Elt F)),
    binary main_v160 main_v161 main_v162 (Host.divf : (⟨S400x400, .f32⟩ : BufTy).Contents (Elt F) → (⟨S400x400, .f32⟩ : BufTy).Contents (Elt F) → (⟨S400x400, .f32⟩ : BufTy).Contents (Elt F)),
    binary main_v162 main_arg10 main_v163 (subf : (⟨S400x400, .f32⟩ : BufTy).Contents (Elt F) → (⟨S400x400, .f32⟩ : BufTy).Contents (Elt F) → (⟨S400x400, .f32⟩ : BufTy).Contents (Elt F)),
    binary main_arg10 main_v163 main_v164 (addf : (⟨S400x400, .f32⟩ : BufTy).Contents (Elt F) → (⟨S400x400, .f32⟩ : BufTy).Contents (Elt F) → (⟨S400x400, .f32⟩ : BufTy).Contents (Elt F)),
    unary main_v164 main_v165 ((transpose S400x400 [1, 0] · transposes_S400x400_S400x400_1_0) : (⟨S400x400, .f32⟩ : BufTy).Contents (Elt F) → (⟨S400x400, .f32⟩ : BufTy).Contents (Elt F)),
    binary main_v151 main_v165 main_v166 ((fun l r => Host.dotGeneral dot_S65536x400_S400x400_S65536x400_1_0_0_1_n_n none l r) : (⟨S65536x400, .f32⟩ : BufTy).Contents (Elt F) → (⟨S400x400, .f32⟩ : BufTy).Contents (Elt F) → (⟨S65536x400, .f32⟩ : BufTy).Contents (Elt F)),
    nullary main_cst_65 (constant S_ .f32 0x00000000#32),
    unary main_cst_65 main_v167 (broadcastInDim S65536x400 ![] bcast_S_S65536x400 : (⟨S_, .f32⟩ : BufTy).Contents (Elt F) → (⟨S65536x400, .f32⟩ : BufTy).Contents (Elt F)),
    binary main_v166 main_v167 main_v168 (cmpf .oge : (⟨S65536x400, .f32⟩ : BufTy).Contents (Elt F) → (⟨S65536x400, .f32⟩ : BufTy).Contents (Elt F) → (⟨S65536x400, .i1⟩ : BufTy).Contents (Elt F)),
    nullary main_cst_66 (constant S_ .f32 0x3E4CCCCD#32),
    unary main_cst_66 main_v169 (broadcastInDim S65536x400 ![] bcast_S_S65536x400 : (⟨S_, .f32⟩ : BufTy).Contents (Elt F) → (⟨S65536x400, .f32⟩ : BufTy).Contents (Elt F)),
    binary main_v169 main_v166 main_v170 (mulf : (⟨S65536x400, .f32⟩ : BufTy).Contents (Elt F) → (⟨S65536x400, .f32⟩ : BufTy).Contents (Elt F) → (⟨S65536x400, .f32⟩ : BufTy).Contents (Elt F)),
    TRef.ternary (TRef.of (T := ⟨S65536x400, .i1⟩) main_v168) (TRef.of (T := ⟨S65536x400, .f32⟩) main_v166) (TRef.of (T := ⟨S65536x400, .f32⟩) main_v170) (TRef.of (T := ⟨S65536x400, .f32⟩) main_v171) select,
    unary main_arg11 main_v172 (Host.absf : (⟨S784x400, .f32⟩ : BufTy).Contents (Elt F) → (⟨S784x400, .f32⟩ : BufTy).Contents (Elt F)),
    nullary main_cst_67 (constant S_ .f32 0x00000000#32),
    binary main_v172 main_cst_67 main_v173 ((fun x v => Host.reduceAdd x v reducesTo_S784x400_S_d0_1 h_S_) : (⟨S784x400, .f32⟩ : BufTy).Contents (Elt F) → (⟨S_, .f32⟩ : BufTy).Contents (Elt F) → (⟨S_, .f32⟩ : BufTy).Contents (Elt F)),
    nullary main_cst_68 (constant S_ .f32 0x48992000#32),
    binary main_v173 main_cst_68 main_v174 (Host.divf : (⟨S_, .f32⟩ : BufTy).Contents (Elt F) → (⟨S_, .f32⟩ : BufTy).Contents (Elt F) → (⟨S_, .f32⟩ : BufTy).Contents (Elt F)),
    nullary main_cst_69 (constant S_ .f32 0x3727C5AC#32),
    TRef.unary (TRef.of (T := ⟨S_, .f32⟩) main_cst_69) (TRef.of (T := ⟨S_, .f32⟩) main_call34_v0) id,
    TRef.binary (TRef.of (T := ⟨S_, .f32⟩) main_call34_v0) (TRef.of (T := ⟨S_, .f32⟩) main_v174) (TRef.of (T := ⟨S_, .f32⟩) main_v175) maximumf,
    nullary main_cst_70 (constant S_ .f32 0x3F800000#32),
    binary main_cst_70 main_v175 main_v176 (Host.divf : (⟨S_, .f32⟩ : BufTy).Contents (Elt F) → (⟨S_, .f32⟩ : BufTy).Contents (Elt F) → (⟨S_, .f32⟩ : BufTy).Contents (Elt F)),
    unary main_v176 main_v177 (broadcastInDim S784x400 ![] bcast_S_S784x400 : (⟨S_, .f32⟩ : BufTy).Contents (Elt F) → (⟨S784x400, .f32⟩ : BufTy).Contents (Elt F)),
    binary main_arg11 main_v177 main_v178 (mulf : (⟨S784x400, .f32⟩ : BufTy).Contents (Elt F) → (⟨S784x400, .f32⟩ : BufTy).Contents (Elt F) → (⟨S784x400, .f32⟩ : BufTy).Contents (Elt F)),
    TRef.unary (TRef.of (T := ⟨S784x400, .f32⟩) main_v178) (TRef.of (T := ⟨S784x400, .f32⟩) main_v179) Host.roundeven,
    nullary main_cst_71 (constant S_ .f32 0xBF800000#32),
    nullary main_cst_72 (constant S_ .f32 0x3F800000#32),
    TRef.unary (TRef.of (T := ⟨S_, .f32⟩) main_cst_71) (TRef.of (T := ⟨S_, .f32⟩) main_call36_v0) id,
    TRef.unary (TRef.of (T := ⟨S_, .f32⟩) main_call36_v0) (TRef.of (T := ⟨S784x400, .f32⟩) main_call36_v1) (broadcastInDim S784x400 ![] bcast_S_S784x400),
    TRef.binary (TRef.of (T := ⟨S784x400, .f32⟩) main_call36_v1) (TRef.of (T := ⟨S784x400, .f32⟩) main_v179) (TRef.of (T := ⟨S784x400, .f32⟩) main_call36_v2) maximumf,
    TRef.unary (TRef.of (T := ⟨S_, .f32⟩) main_cst_72) (TRef.of (T := ⟨S_, .f32⟩) main_call36_v3) id,
    TRef.unary (TRef.of (T := ⟨S_, .f32⟩) main_call36_v3) (TRef.of (T := ⟨S784x400, .f32⟩) main_call36_v4) (broadcastInDim S784x400 ![] bcast_S_S784x400),
    TRef.binary (TRef.of (T := ⟨S784x400, .f32⟩) main_call36_v4) (TRef.of (T := ⟨S784x400, .f32⟩) main_call36_v2) (TRef.of (T := ⟨S784x400, .f32⟩) main_v180) minimumf,
    unary main_v176 main_v181 (broadcastInDim S784x400 ![] bcast_S_S784x400 : (⟨S_, .f32⟩ : BufTy).Contents (Elt F) → (⟨S784x400, .f32⟩ : BufTy).Contents (Elt F)),
    binary main_v180 main_v181 main_v182 (Host.divf : (⟨S784x400, .f32⟩ : BufTy).Contents (Elt F) → (⟨S784x400, .f32⟩ : BufTy).Contents (Elt F) → (⟨S784x400, .f32⟩ : BufTy).Contents (Elt F)),
    binary main_v182 main_arg11 main_v183 (subf : (⟨S784x400, .f32⟩ : BufTy).Contents (Elt F) → (⟨S784x400, .f32⟩ : BufTy).Contents (Elt F) → (⟨S784x400, .f32⟩ : BufTy).Contents (Elt F)),
    binary main_arg11 main_v183 main_v184 (addf : (⟨S784x400, .f32⟩ : BufTy).Contents (Elt F) → (⟨S784x400, .f32⟩ : BufTy).Contents (Elt F) → (⟨S784x400, .f32⟩ : BufTy).Contents (Elt F)),
    unary main_v184 main_v185 ((transpose S400x784 [1, 0] · transposes_S784x400_S400x784_1_0) : (⟨S784x400, .f32⟩ : BufTy).Contents (Elt F) → (⟨S400x784, .f32⟩ : BufTy).Contents (Elt F)),
    binary main_v171 main_v185 main_v186 ((fun l r => Host.dotGeneral dot_S65536x400_S400x784_S65536x784_1_0_0_1_n_n none l r) : (⟨S65536x400, .f32⟩ : BufTy).Contents (Elt F) → (⟨S400x784, .f32⟩ : BufTy).Contents (Elt F) → (⟨S65536x784, .f32⟩ : BufTy).Contents (Elt F)),
    unary main_v186 main_v187 (Host.negf : (⟨S65536x784, .f32⟩ : BufTy).Contents (Elt F) → (⟨S65536x784, .f32⟩ : BufTy).Contents (Elt F)),
    unary main_v187 main_v188 (Host.exp : (⟨S65536x784, .f32⟩ : BufTy).Contents (Elt F) → (⟨S65536x784, .f32⟩ : BufTy).Contents (Elt F)),
    nullary main_cst_73 (constant S_ .f32 0x3F800000#32),
    unary main_cst_73 main_v189 (broadcastInDim S65536x784 ![] bcast_S_S65536x784 : (⟨S_, .f32⟩ : BufTy).Contents (Elt F) → (⟨S65536x784, .f32⟩ : BufTy).Contents (Elt F)),
    binary main_v189 main_v188 main_v190 (addf : (⟨S65536x784, .f32⟩ : BufTy).Contents (Elt F) → (⟨S65536x784, .f32⟩ : BufTy).Contents (Elt F) → (⟨S65536x784, .f32⟩ : BufTy).Contents (Elt F)),
    nullary main_cst_74 (constant S_ .f32 0x3F800000#32),
    unary main_cst_74 main_v191 (broadcastInDim S65536x784 ![] bcast_S_S65536x784 : (⟨S_, .f32⟩ : BufTy).Contents (Elt F) → (⟨S65536x784, .f32⟩ : BufTy).Contents (Elt F)),
    binary main_v191 main_v190 main_v192 (Host.divf : (⟨S65536x784, .f32⟩ : BufTy).Contents (Elt F) → (⟨S65536x784, .f32⟩ : BufTy).Contents (Elt F) → (⟨S65536x784, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., binary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

set_option maxRecDepth 65536 in
set_option maxHeartbeats 40000000 in
theorem run0 (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.HandRun

end
-- ==== Proof.RefOpsAB.lean ====
/-
  The reference's operation list cut in two after the log-variance head: the encoder and the two heads (the first 156
  operations), and the latent, the decoder and the logistic function (the remaining 173). The fold over the whole list is
  the fold over the second part of the fold over the first.
-/
import proofs.«175214_j61469571940629_2_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 20000000 in
/-- The encoder and the two heads. -/
abbrev opsA : List (HloOp τ sig (Elt F)) :=
  [ unary main_arg2 main_v0 (Host.absf : (⟨S400x784, .f32⟩ : BufTy).Contents (Elt F) → (⟨S400x784, .f32⟩ : BufTy).Contents (Elt F)),
    nullary main_cst (constant S_ .f32 0x00000000#32),
    binary main_v0 main_cst main_v1 ((fun x v => Host.reduceAdd x v reducesTo_S400x784_S_d0_1 h_S_) : (⟨S400x784, .f32⟩ : BufTy).Contents (Elt F) → (⟨S_, .f32⟩ : BufTy).Contents (Elt F) → (⟨S_, .f32⟩ : BufTy).Contents (Elt F)),
    nullary main_cst_0 (constant S_ .f32 0x48992000#32),
    binary main_v1 main_cst_0 main_v2 (Host.divf : (⟨S_, .f32⟩ : BufTy).Contents (Elt F) → (⟨S_, .f32⟩ : BufTy).Contents (Elt F) → (⟨S_, .f32⟩ : BufTy).Contents (Elt F)),
    nullary main_cst_1 (constant S_ .f32 0x3727C5AC#32),
    TRef.unary (TRef.of (T := ⟨S_, .f32⟩) main_cst_1) (TRef.of (T := ⟨S_, .f32⟩) main_call0_v0) id,
    TRef.binary (TRef.of (T := ⟨S_, .f32⟩) main_call0_v0) (TRef.of (T := ⟨S_, .f32⟩) main_v2) (TRef.of (T := ⟨S_, .f32⟩) main_v3) maximumf,
    nullary main_cst_2 (constant S_ .f32 0x3F800000#32),
    binary main_cst_2 main_v3 main_v4 (Host.divf : (⟨S_, .f32⟩ : BufTy).Contents (Elt F) → (⟨S_, .f32⟩ : BufTy).Contents (Elt F) → (⟨S_, .f32⟩ : BufTy).Contents (Elt F)),
    unary main_v4 main_v5 (broadcastInDim S400x784 ![] bcast_S_S400x784 : (⟨S_, .f32⟩ : BufTy).Contents (Elt F) → (⟨S400x784, .f32⟩ : BufTy).Contents (Elt F)),
    binary main_arg2 main_v5 main_v6 (mulf : (⟨S400x784, .f32⟩ : BufTy).Contents (Elt F) → (⟨S400x784, .f32⟩ : BufTy).Contents (Elt F) → (⟨S400x784, .f32⟩ : BufTy).Contents (Elt F)),
    TRef.unary (TRef.of (T := ⟨S400x784, .f32⟩) main_v6) (TRef.of (T := ⟨S400x784, .f32⟩) main_v7) Host.roundeven,
    nullary main_cst_3 (constant S_ .f32 0xBF800000#32),
    nullary main_cst_4 (constant S_ .f32 0x3F800000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S400x784, .f32⟩) main_call2_v1) (broadcastInDim S400x784 ![] bcast_S_S400x784),
    TRef.binary (TRef.of (T := ⟨S400x784, .f32⟩) main_call2_v1) (TRef.of (T := ⟨S400x784, .f32⟩) main_v7) (TRef.of (T := ⟨S400x784, .f32⟩) main_call2_v2) maximumf,
    TRef.unary (TRef.of (T := ⟨S_, .f32⟩) main_cst_4) (TRef.of (T := ⟨S_, .f32⟩) main_call2_v3) id,
    TRef.unary (TRef.of (T := ⟨S_, .f32⟩) main_call2_v3) (TRef.of (T := ⟨S400x784, .f32⟩) main_call2_v4) (broadcastInDim S400x784 ![] bcast_S_S400x784),
    TRef.binary (TRef.of (T := ⟨S400x784, .f32⟩) main_call2_v4) (TRef.of (T := ⟨S400x784, .f32⟩) main_call2_v2) (TRef.of (T := ⟨S400x784, .f32⟩) main_v8) minimumf,
    unary main_v4 main_v9 (broadcastInDim S400x784 ![] bcast_S_S400x784 : (⟨S_, .f32⟩ : BufTy).Contents (Elt F) → (⟨S400x784, .f32⟩ : BufTy).Contents (Elt F)),
    binary main_v8 main_v9 main_v10 (Host.divf : (⟨S400x784, .f32⟩ : BufTy).Contents (Elt F) → (⟨S400x784, .f32⟩ : BufTy).Contents (Elt F) → (⟨S400x784, .f32⟩ : BufTy).Contents (Elt F)),
    binary main_v10 main_arg2 main_v11 (subf : (⟨S400x784, .f32⟩ : BufTy).Contents (Elt F) → (⟨S400x784, .f32⟩ : BufTy).Contents (Elt F) → (⟨S400x784, .f32⟩ : BufTy).Contents (Elt F)),
    binary main_arg2 main_v11 main_v12 (addf : (⟨S400x784, .f32⟩ : BufTy).Contents (Elt F) → (⟨S400x784, .f32⟩ : BufTy).Contents (Elt F) → (⟨S400x784, .f32⟩ : BufTy).Contents (Elt F)),
    unary main_v12 main_v13 ((transpose S784x400 [1, 0] · transposes_S400x784_S784x400_1_0) : (⟨S400x784, .f32⟩ : BufTy).Contents (Elt F) → (⟨S784x400, .f32⟩ : BufTy).Contents (Elt F)),
    binary main_arg0 main_v13 main_v14 ((fun l r => Host.dotGeneral dot_S65536x784_S784x400_S65536x400_1_0_0_1_n_n none l r) : (⟨S65536x784, .f32⟩ : BufTy).Contents (Elt F) → (⟨S784x400, .f32⟩ : BufTy).Contents (Elt F) → (⟨S65536x400, .f32⟩ : BufTy).Contents (Elt F)),
    nullary main_cst_5 (constant S_ .f32 0x00000000#32),
    unary main_cst_5 main_v15 (broadcastInDim S65536x400 ![] bcast_S_S65536x400 : (⟨S_, .f32⟩ : BufTy).Contents (Elt F) → (⟨S65536x400, .f32⟩ : BufTy).Contents (Elt F)),
    binary main_v14 main_v15 main_v16 (cmpf .oge : (⟨S65536x400, .f32⟩ : BufTy).Contents (Elt F) → (⟨S65536x400, .f32⟩ : BufTy).Contents (Elt F) → (⟨S65536x400, .i1⟩ : BufTy).Contents (Elt F)),
    nullary main_cst_6 (constant S_ .f32 0x3E4CCCCD#32),
    unary main_cst_6 main_v17 (broadcastInDim S65536x400 ![] bcast_S_S65536x400 : (⟨S_, .f32⟩ : BufTy).Contents (Elt F) → (⟨S65536x400, .f32⟩ : BufTy).Contents (Elt F)),
    binary main_v17 main_v14 main_v18 (mulf : (⟨S65536x400, .f32⟩ : BufTy).Contents (Elt F) → (⟨S65536x400, .f32⟩ : BufTy).Contents (Elt F) → (⟨S65536x400, .f32⟩ : BufTy).Contents (Elt F)),
    TRef.ternary (TRef.of (T := ⟨S65536x400, .i1⟩) main_v16) (TRef.of (T := ⟨S65536x400, .f32⟩) main_v14) (TRef.of (T := ⟨S65536x400, .f32⟩) main_v18) (TRef.of (T := ⟨S65536x400, .f32⟩) main_v19) select,
    unary main_arg3 main_v20 (Host.absf : (⟨S400x400, .f32⟩ : BufTy).Contents (Elt F) → (⟨S400x400, .f32⟩ : BufTy).Contents (Elt F)),
    nullary main_cst_7 (constant S_ .f32 0x00000000#32),
    binary main_v20 main_cst_7 main_v21 ((fun x v => Host.reduceAdd x v reducesTo_S400x400_S_d0_1 h_S_) : (⟨S400x400, .f32⟩ : BufTy).Contents (Elt F) → (⟨S_, .f32⟩ : BufTy).Contents (Elt F) → (⟨S_, .f32⟩ : BufTy).Contents (Elt F)),
    nullary main_cst_8 (constant S_ .f32 0x481C4000#32),
    binary main_v21 main_cst_8 main_v22 (Host.divf : (⟨S_, .f32⟩ : BufTy).Contents (Elt F) → (⟨S_, .f32⟩ : BufTy).Contents (Elt F) → (⟨S_, .f32⟩ : BufTy).Contents (Elt F)),
    nullary main_cst_9 (constant S_ .f32 0x3727C5AC#32),
    TRef.unary (TRef.of (T := ⟨S_, .f32⟩) main_cst_9) (TRef.of (T := ⟨S_, .f32⟩) main_call4_v0) id,
    TRef.binary (TRef.of (T := ⟨S_, .f32⟩) main_call4_v0) (TRef.of (T := ⟨S_, .f32⟩) main_v22) (TRef.of (T := ⟨S_, .f32⟩) main_v23) maximumf,
    nullary main_cst_10 (constant S_ .f32 0x3F800000#32),
    binary main_cst_10 main_v23 main_v24 (Host.divf : (⟨S_, .f32⟩ : BufTy).Contents (Elt F) → (⟨S_, .f32⟩ : BufTy).Contents (Elt F) → (⟨S_, .f32⟩ : BufTy).Contents (Elt F)),
    unary main_v24 main_v25 (broadcastInDim S400x400 ![] bcast_S_S400x400 : (⟨S_, .f32⟩ : BufTy).Contents (Elt F) → (⟨S400x400, .f32⟩ : BufTy).Contents (Elt F)),
    binary main_arg3 main_v25 main_v26 (mulf : (⟨S400x400, .f32⟩ : BufTy).Contents (Elt F) → (⟨S400x400, .f32⟩ : BufTy).Contents (Elt F) → (⟨S400x400, .f32⟩ : BufTy).Contents (Elt F)),
    TRef.unary (TRef.of (T := ⟨S400x400, .f32⟩) main_v26) (TRef.of (T := ⟨S400x400, .f32⟩) main_v27) Host.roundeven,
    nullary main_cst_11 (constant S_ .f32 0xBF800000#32),
    nullary main_cst_12 (constant S_ .f32 0x3F800000#32),
    TRef.unary (TRef.of (T := ⟨S_, .f32⟩) main_cst_11) (TRef.of (T := ⟨S_, .f32⟩) main_call6_v0) id,
    TRef.unary (TRef.of (T := ⟨S_, .f32⟩) main_call6_v0) (TRef.of (T := ⟨S400x400, .f32⟩) main_call6_v1) (broadcastInDim S400x400 ![] bcast_S_S400x400),
    TRef.binary (TRef.of (T := ⟨S400x400, .f32⟩) main_call6_v1) (TRef.of (T := ⟨S400x400, .f32⟩) main_v27) (TRef.of (T := ⟨S400x400, .f32⟩) main_call6_v2) maximumf,
    TRef.unary (TRef.of (T := ⟨S_, .f32⟩) main_cst_12) (TRef.of (T := ⟨S_, .f32⟩) main_call6_v3) id,
    TRef.unary (TRef.of (T := ⟨S_, .f32⟩) main_call6_v3) (TRef.of (T := ⟨S400x400, .f32⟩) main_call6_v4) (broadcastInDim S400x400 ![] bcast_S_S400x400),
    TRef.binary (TRef.of (T := ⟨S400x400, .f32⟩) main_call6_v4) (TRef.of (T := ⟨S400x400, .f32⟩) main_call6_v2) (TRef.of (T := ⟨S400x400, .f32⟩) main_v28) minimumf,
    unary main_v24 main_v29 (broadcastInDim S400x400 ![] bcast_S_S400x400 : (⟨S_, .f32⟩ : BufTy).Contents (Elt F) → (⟨S400x400, .f32⟩ : BufTy).Contents (Elt F)),
    binary main_v28 main_v29 main_v30 (Host.divf : (⟨S400x400, .f32⟩ : BufTy).Contents (Elt F) → (⟨S400x400, .f32⟩ : BufTy).Contents (Elt F) → (⟨S400x400, .f32⟩ : BufTy).Contents (Elt F)),
    binary main_v30 main_arg3 main_v31 (subf : (⟨S400x400, .f32⟩ : BufTy).Contents (Elt F) → (⟨S400x400, .f32⟩ : BufTy).Contents (Elt F) → (⟨S400x400, .f32⟩ : BufTy).Contents (Elt F)),
    binary main_arg3 main_v31 main_v32 (addf : (⟨S400x400, .f32⟩ : BufTy).Contents (Elt F) → (⟨S400x400, .f32⟩ : BufTy).Contents (Elt F) → (⟨S400x400, .f32⟩ : BufTy).Contents (Elt F)),
    unary main_v32 main_v33 ((transpose S400x400 [1, 0] · transposes_S400x400_S400x400_1_0) : (⟨S400x400, .f32⟩ : BufTy).Contents (Elt F) → (⟨S400x400, .f32⟩ : BufTy).Contents (Elt F)),
    binary main_v19 main_v33 main_v34 ((fun l r => Host.dotGeneral dot_S65536x400_S400x400_S65536x400_1_0_0_1_n_n none l r) : (⟨S65536x400, .f32⟩ : BufTy).Contents (Elt F) → (⟨S400x400, .f32⟩ : BufTy).Contents (Elt F) → (⟨S65536x400, .f32⟩ : BufTy).Contents (Elt F)),
    nullary main_cst_13 (constant S_ .f32 0x00000000#32),
    unary main_cst_13 main_v35 (broadcastInDim S65536x400 ![] bcast_S_S65536x400 : (⟨S_, .f32⟩ : BufTy).Contents (Elt F) → (⟨S65536x400, .f32⟩ : BufTy).Contents (Elt F)),
    binary main_v34 main_v35 main_v36 (cmpf .oge : (⟨S65536x400, .f32⟩ : BufTy).Contents (Elt F) → (⟨S65536x400, .f32⟩ : BufTy).Contents (Elt F) → (⟨S65536x400, .i1⟩ : BufTy).Contents (Elt F)),
    nullary main_cst_14 (constant S_ .f32 0x3E4CCCCD#32),
    unary main_cst_14 main_v37 (broadcastInDim S65536x400 ![] bcast_S_S65536x400 : (⟨S_, .f32⟩ : BufTy).Contents (Elt F) → (⟨S65536x400, .f32⟩ : BufTy).Contents (Elt F)),
    binary main_v37 main_v34 main_v38 (mulf : (⟨S65536x400, .f32⟩ : BufTy).Contents (Elt F) → (⟨S65536x400, .f32⟩ : BufTy).Contents (Elt F) → (⟨S65536x400, .f32⟩ : BufTy).Contents (Elt F)),
    TRef.ternary (TRef.of (T := ⟨S65536x400, .i1⟩) main_v36) (TRef.of (T := ⟨S65536x400, .f32⟩) main_v34) (TRef.of (T := ⟨S65536x400, .f32⟩) main_v38) (TRef.of (T := ⟨S65536x400, .f32⟩) main_v39) select,
    unary main_arg4 main_v40 (Host.absf : (⟨S200x400, .f32⟩ : BufTy).Contents (Elt F) → (⟨S200x400, .f32⟩ : BufTy).Contents (Elt F)),
    nullary main_cst_15 (constant S_ .f32 0x00000000#32),
    binary main_v40 main_cst_15 main_v41 ((fun x v => Host.reduceAdd x v reducesTo_S200x400_S_d0_1 h_S_) : (⟨S200x400, .f32⟩ : BufTy).Contents (Elt F) → (⟨S_, .f32⟩ : BufTy).Contents (Elt F) → (⟨S_, .f32⟩ : BufTy).Contents (Elt F)),
    nullary main_cst_16 (constant S_ .f32 0x479C4000#32),
    binary main_v41 main_cst_16 main_v42 (Host.divf : (⟨S_, .f32⟩ : BufTy).Contents (Elt F) → (⟨S_, .f32⟩ : BufTy).Contents (Elt F) → (⟨S_, .f32⟩ : BufTy).Contents (Elt F)),
    nullary main_cst_17 (constant S_ .f32 0x3727C5AC#32),
    TRef.unary (TRef.of (T := ⟨S_, .f32⟩) main_cst_17) (TRef.of (T := ⟨S_, .f32⟩) main_call8_v0) id,
    TRef.binary (TRef.of (T := ⟨S_, .f32⟩) main_call8_v0) (TRef.of (T := ⟨S_, .f32⟩) main_v42) (TRef.of (T := ⟨S_, .f32⟩) main_v43) maximumf,
    nullary main_cst_18 (constant S_ .f32 0x3F800000#32),
    binary main_cst_18 main_v43 main_v44 (Host.divf : (⟨S_, .f32⟩ : BufTy).Contents (Elt F) → (⟨S_, .f32⟩ : BufTy).Contents (Elt F) → (⟨S_, .f32⟩ : BufTy).Contents (Elt F)),
    unary main_v44 main_v45 (broadcastInDim S200x400 ![] bcast_S_S200x400 : (⟨S_, .f32⟩ : BufTy).Contents (Elt F) → (⟨S200x400, .f32⟩ : BufTy).Contents (Elt F)),
    binary main_arg4 main_v45 main_v46 (mulf : (⟨S200x400, .f32⟩ : BufTy).Contents (Elt F) → (⟨S200x400, .f32⟩ : BufTy).Contents (Elt F) → (⟨S200x400, .f32⟩ : BufTy).Contents (Elt F)),
    TRef.unary (TRef.of (T := ⟨S200x400, .f32⟩) main_v46) (TRef.of (T := ⟨S200x400, .f32⟩) main_v47) Host.roundeven,
    nullary main_cst_19 (constant S_ .f32 0xBF800000#32),
    nullary main_cst_20 (constant S_ .f32 0x3F800000#32),
    TRef.unary (TRef.of (T := ⟨S_, .f32⟩) main_cst_19) (TRef.of (T := ⟨S_, .f32⟩) main_call10_v0) id,
    TRef.unary (TRef.of (T := ⟨S_, .f32⟩) main_call10_v0) (TRef.of (T := ⟨S200x400, .f32⟩) main_call10_v1) (broadcastInDim S200x400 ![] bcast_S_S200x400),
    TRef.binary (TRef.of (T := ⟨S200x400, .f32⟩) main_call10_v1) (TRef.of (T := ⟨S200x400, .f32⟩) main_v47) (TRef.of (T := ⟨S200x400, .f32⟩) main_call10_v2) maximumf,
    TRef.unary (TRef.of (T := ⟨S_, .f32⟩) main_cst_20) (TRef.of (T := ⟨S_, .f32⟩) main_call10_v3) id,
    TRef.unary (TRef.of (T := ⟨S_, .f32⟩) main_call10_v3) (TRef.of (T := ⟨S200x400, .f32⟩) main_call10_v4) (broadcastInDim S200x400 ![] bcast_S_S200x400),
    TRef.binary (TRef.of (T := ⟨S200x400, .f32⟩) main_call10_v4) (TRef.of (T := ⟨S200x400, .f32⟩) main_call10_v2) (TRef.of (T := ⟨S200x400, .f32⟩) main_v48) minimumf,
    unary main_v44 main_v49 (broadcastInDim S200x400 ![] bcast_S_S200x400 : (⟨S_, .f32⟩ : BufTy).Contents (Elt F) → (⟨S200x400, .f32⟩ : BufTy).Contents (Elt F)),
    binary main_v48 main_v49 main_v50 (Host.divf : (⟨S200x400, .f32⟩ : BufTy).Contents (Elt F) → (⟨S200x400, .f32⟩ : BufTy).Contents (Elt F) → (⟨S200x400, .f32⟩ : BufTy).Contents (Elt F)),
    binary main_v50 main_arg4 main_v51 (subf : (⟨S200x400, .f32⟩ : BufTy).Contents (Elt F) → (⟨S200x400, .f32⟩ : BufTy).Contents (Elt F) → (⟨S200x400, .f32⟩ : BufTy).Contents (Elt F)),
    binary main_arg4 main_v51 main_v52 (addf : (⟨S200x400, .f32⟩ : BufTy).Contents (Elt F) → (⟨S200x400, .f32⟩ : BufTy).Contents (Elt F) → (⟨S200x400, .f32⟩ : BufTy).Contents (Elt F)),
    unary main_v52 main_v53 ((transpose S400x200 [1, 0] · transposes_S200x400_S400x200_1_0) : (⟨S200x400, .f32⟩ : BufTy).Contents (Elt F) → (⟨S400x200, .f32⟩ : BufTy).Contents (Elt F)),
    binary main_v39 main_v53 main_v54 ((fun l r => Host.dotGeneral dot_S65536x400_S400x200_S65536x200_1_0_0_1_n_n none l r) : (⟨S65536x400, .f32⟩ : BufTy).Contents (Elt F) → (⟨S400x200, .f32⟩ : BufTy).Contents (Elt F) → (⟨S65536x200, .f32⟩ : BufTy).Contents (Elt F)),
    nullary main_cst_21 (constant S_ .f32 0x00000000#32),
    unary main_cst_21 main_v55 (broadcastInDim S65536x200 ![] bcast_S_S65536x200 : (⟨S_, .f32⟩ : BufTy).Contents (Elt F) → (⟨S65536x200, .f32⟩ : BufTy).Contents (Elt F)),
    binary main_v54 main_v55 main_v56 (cmpf .oge : (⟨S65536x200, .f32⟩ : BufTy).Contents (Elt F) → (⟨S65536x200, .f32⟩ : BufTy).Contents (Elt F) → (⟨S65536x200, .i1⟩ : BufTy).Contents (Elt F)),
    nullary main_cst_22 (constant S_ .f32 0x3E4CCCCD#32),
    unary main_cst_22 main_v57 (broadcastInDim S65536x200 ![] bcast_S_S65536x200 : (⟨S_, .f32⟩ : BufTy).Contents (Elt F) → (⟨S65536x200, .f32⟩ : BufTy).Contents (Elt F)),
    binary main_v57 main_v54 main_v58 (mulf : (⟨S65536x200, .f32⟩ : BufTy).Contents (Elt F) → (⟨S65536x200, .f32⟩ : BufTy).Contents (Elt F) → (⟨S65536x200, .f32⟩ : BufTy).Contents (Elt F)),
    TRef.ternary (TRef.of (T := ⟨S65536x200, .i1⟩) main_v56) (TRef.of (T := ⟨S65536x200, .f32⟩) main_v54) (TRef.of (T := ⟨S65536x200, .f32⟩) main_v58) (TRef.of (T := ⟨S65536x200, .f32⟩) main_v59) select,
    unary main_arg5 main_v60 (Host.absf : (⟨S2x200, .f32⟩ : BufTy).Contents (Elt F) → (⟨S2x200, .f32⟩ : BufTy).Contents (Elt F)),
    nullary main_cst_23 (constant S_ .f32 0x00000000#32),
    binary main_v60 main_cst_23 main_v61 ((fun x v => Host.reduceAdd x v reducesTo_S2x200_S_d0_1 h_S_) : (⟨S2x200, .f32⟩ : BufTy).Contents (Elt F) → (⟨S_, .f32⟩ : BufTy).Contents (Elt F) → (⟨S_, .f32⟩ : BufTy).Contents (Elt F)),
    nullary main_cst_24 (constant S_ .f32 0x43C80000#32),
    binary main_v61 main_cst_24 main_v62 (Host.divf : (⟨S_, .f32⟩ : BufTy).Contents (Elt F) → (⟨S_, .f32⟩ : BufTy).Contents (Elt F) → (⟨S_, .f32⟩ : BufTy).Contents (Elt F)),
    nullary main_cst_25 (constant S_ .f32 0x3727C5AC#32),
    TRef.unary (TRef.of (T := ⟨S_, .f32⟩) main_cst_25) (TRef.of (T := ⟨S_, .f32⟩) main_call12_v0) id,
    TRef.binary (TRef.of (T := ⟨S_, .f32⟩) main_call12_v0) (TRef.of (T := ⟨S_, .f32⟩) main_v62) (TRef.of (T := ⟨S_, .f32⟩) main_v63) maximumf,
    nullary main_cst_26 (constant S_ .f32 0x3F800000#32),
    binary main_cst_26 main_v63 main_v64 (Host.divf : (⟨S_, .f32⟩ : BufTy).Contents (Elt F) → (⟨S_, .f32⟩ : BufTy).Contents (Elt F) → (⟨S_, .f32⟩ : BufTy).Contents (Elt F)),
    unary main_v64 main_v65 (broadcastInDim S2x200 ![] bcast_S_S2x200 : (⟨S_, .f32⟩ : BufTy).Contents (Elt F) → (⟨S2x200, .f32⟩ : BufTy).Contents (Elt F)),
    binary main_arg5 main_v65 main_v66 (mulf : (⟨S2x200, .f32⟩ : BufTy).Contents (Elt F) → (⟨S2x200, .f32⟩ : BufTy).Contents (Elt F) → (⟨S2x200, .f32⟩ : BufTy).Contents (Elt F)),
    TRef.unary (TRef.of (T := ⟨S2x200, .f32⟩) main_v66) (TRef.of (T := ⟨S2x200, .f32⟩) main_v67) Host.roundeven,
    nullary main_cst_27 (constant S_ .f32 0xBF800000#32),
    nullary main_cst_28 (constant S_ .f32 0x3F800000#32),
    TRef.unary (TRef.of (T := ⟨S_, .f32⟩) main_cst_27) (TRef.of (T := ⟨S_, .f32⟩) main_call14_v0) id,
    TRef.unary (TRef.of (T := ⟨S_, .f32⟩) main_call14_v0) (TRef.of (T := ⟨S2x200, .f32⟩) main_call14_v1) (broadcastInDim S2x200 ![] bcast_S_S2x200),
    TRef.binary (TRef.of (T := ⟨S2x200, .f32⟩) main_call14_v1) (TRef.of (T := ⟨S2x200, .f32⟩) main_v67) (TRef.of (T := ⟨S2x200, .f32⟩) main_call14_v2) maximumf,
    TRef.unary (TRef.of (T := ⟨S_, .f32⟩) main_cst_28) (TRef.of (T := ⟨S_, .f32⟩) main_call14_v3) id,
    TRef.unary (TRef.of (T := ⟨S_, .f32⟩) main_call14_v3) (TRef.of (T := ⟨S2x200, .f32⟩) main_call14_v4) (broadcastInDim S2x200 ![] bcast_S_S2x200),
    TRef.binary (TRef.of (T := ⟨S2x200, .f32⟩) main_call14_v4) (TRef.of (T := ⟨S2x200, .f32⟩) main_call14_v2) (TRef.of (T := ⟨S2x200, .f32⟩) main_v68) minimumf,
    unary main_v64 main_v69 (broadcastInDim S2x200 ![] bcast_S_S2x200 : (⟨S_, .f32⟩ : BufTy).Contents (Elt F) → (⟨S2x200, .f32⟩ : BufTy).Contents (Elt F)),
    binary main_v68 main_v69 main_v70 (Host.divf : (⟨S2x200, .f32⟩ : BufTy).Contents (Elt F) → (⟨S2x200, .f32⟩ : BufTy).Contents (Elt F) → (⟨S2x200, .f32⟩ : BufTy).Contents (Elt F)),
    binary main_v70 main_arg5 main_v71 (subf : (⟨S2x200, .f32⟩ : BufTy).Contents (Elt F) → (⟨S2x200, .f32⟩ : BufTy).Contents (Elt F) → (⟨S2x200, .f32⟩ : BufTy).Contents (Elt F)),
    binary main_arg5 main_v71 main_v72 (addf : (⟨S2x200, .f32⟩ : BufTy).Contents (Elt F) → (⟨S2x200, .f32⟩ : BufTy).Contents (Elt F) → (⟨S2x200, .f32⟩ : BufTy).Contents (Elt F)),
    unary main_v72 main_v73 ((transpose S200x2 [1, 0] · transposes_S2x200_S200x2_1_0) : (⟨S2x200, .f32⟩ : BufTy).Contents (Elt F) → (⟨S200x2, .f32⟩ : BufTy).Contents (Elt F)),
    binary main_v59 main_v73 main_v74 ((fun l r => Host.dotGeneral dot_S65536x200_S200x2_S65536x2_1_0_0_1_n_n none l r) : (⟨S65536x200, .f32⟩ : BufTy).Contents (Elt F) → (⟨S200x2, .f32⟩ : BufTy).Contents (Elt F) → (⟨S65536x2, .f32⟩ : BufTy).Contents (Elt F)),
    unary main_arg6 main_v75 (Host.absf : (⟨S2x200, .f32⟩ : BufTy).Contents (Elt F) → (⟨S2x200, .f32⟩ : BufTy).Contents (Elt F)),
    nullary main_cst_29 (constant S_ .f32 0x00000000#32),
    binary main_v75 main_cst_29 main_v76 ((fun x v => Host.reduceAdd x v reducesTo_S2x200_S_d0_1 h_S_) : (⟨S2x200, .f32⟩ : BufTy).Contents (Elt F) → (⟨S_, .f32⟩ : BufTy).Contents (Elt F) → (⟨S_, .f32⟩ : BufTy).Contents (Elt F)),
    nullary main_cst_30 (constant S_ .f32 0x43C80000#32),
    binary main_v76 main_cst_30 main_v77 (Host.divf : (⟨S_, .f32⟩ : BufTy).Contents (Elt F) → (⟨S_, .f32⟩ : BufTy).Contents (Elt F) → (⟨S_, .f32⟩ : BufTy).Contents (Elt F)),
    nullary main_cst_31 (constant S_ .f32 0x3727C5AC#32),
    TRef.unary (TRef.of (T := ⟨S_, .f32⟩) main_cst_31) (TRef.of (T := ⟨S_, .f32⟩) main_call15_v0) id,
    TRef.binary (TRef.of (T := ⟨S_, .f32⟩) main_call15_v0) (TRef.of (T := ⟨S_, .f32⟩) main_v77) (TRef.of (T := ⟨S_, .f32⟩) main_v78) maximumf,
    nullary main_cst_32 (constant S_ .f32 0x3F800000#32),
    binary main_cst_32 main_v78 main_v79 (Host.divf : (⟨S_, .f32⟩ : BufTy).Contents (Elt F) → (⟨S_, .f32⟩ : BufTy).Contents (Elt F) → (⟨S_, .f32⟩ : BufTy).Contents (Elt F)),
    unary main_v79 main_v80 (broadcastInDim S2x200 ![] bcast_S_S2x200 : (⟨S_, .f32⟩ : BufTy).Contents (Elt F) → (⟨S2x200, .f32⟩ : BufTy).Contents (Elt F)),
    binary main_arg6 main_v80 main_v81 (mulf : (⟨S2x200, .f32⟩ : BufTy).Contents (Elt F) → (⟨S2x200, .f32⟩ : BufTy).Contents (Elt F) → (⟨S2x200, .f32⟩ : BufTy).Contents (Elt F)),
    TRef.unary (TRef.of (T := ⟨S2x200, .f32⟩) main_v81) (TRef.of (T := ⟨S2x200, .f32⟩) main_v82) Host.roundeven,
    nullary main_cst_33 (constant S_ .f32 0xBF800000#32),
    nullary main_cst_34 (constant S_ .f32 0x3F800000#32),
    TRef.unary (TRef.of (T := ⟨S_, .f32⟩) main_cst_33) (TRef.of (T := ⟨S_, .f32⟩) main_call17_v0) id,
    TRef.unary (TRef.of (T := ⟨S_, .f32⟩) main_call17_v0) (TRef.of (T := ⟨S2x200, .f32⟩) main_call17_v1) (broadcastInDim S2x200 ![] bcast_S_S2x200),
    TRef.binary (TRef.of (T := ⟨S2x200, .f32⟩) main_call17_v1) (TRef.of (T := ⟨S2x200, .f32⟩) main_v82) (TRef.of (T := ⟨S2x200, .f32⟩) main_call17_v2) maximumf,
    TRef.unary (TRef.of (T := ⟨S_, .f32⟩) main_cst_34) (TRef.of (T := ⟨S_, .f32⟩) main_call17_v3) id,
    TRef.unary (TRef.of (T := ⟨S_, .f32⟩) main_call17_v3) (TRef.of (T := ⟨S2x200, .f32⟩) main_call17_v4) (broadcastInDim S2x200 ![] bcast_S_S2x200),
    TRef.binary (TRef.of (T := ⟨S2x200, .f32⟩) main_call17_v4) (TRef.of (T := ⟨S2x200, .f32⟩) main_call17_v2) (TRef.of (T := ⟨S2x200, .f32⟩) main_v83) minimumf,
    unary main_v79 main_v84 (broadcastInDim S2x200 ![] bcast_S_S2x200 : (⟨S_, .f32⟩ : BufTy).Contents (Elt F) → (⟨S2x200, .f32⟩ : BufTy).Contents (Elt F)),
    binary main_v83 main_v84 main_v85 (Host.divf : (⟨S2x200, .f32⟩ : BufTy).Contents (Elt F) → (⟨S2x200, .f32⟩ : BufTy).Contents (Elt F) → (⟨S2x200, .f32⟩ : BufTy).Contents (Elt F)),
    binary main_v85 main_arg6 main_v86 (subf : (⟨S2x200, .f32⟩ : BufTy).Contents (Elt F) → (⟨S2x200, .f32⟩ : BufTy).Contents (Elt F) → (⟨S2x200, .f32⟩ : BufTy).Contents (Elt F)),
    binary main_arg6 main_v86 main_v87 (addf : (⟨S2x200, .f32⟩ : BufTy).Contents (Elt F) → (⟨S2x200, .f32⟩ : BufTy).Contents (Elt F) → (⟨S2x200, .f32⟩ : BufTy).Contents (Elt F)),
    unary main_v87 main_v88 ((transpose S200x2 [1, 0] · transposes_S2x200_S200x2_1_0) : (⟨S2x200, .f32⟩ : BufTy).Contents (Elt F) → (⟨S200x2, .f32⟩ : BufTy).Contents (Elt F)),
    binary main_v59 main_v88 main_v89 ((fun l r => Host.dotGeneral dot_S65536x200_S200x2_S65536x2_1_0_0_1_n_n none l r) : (⟨S65536x200, .f32⟩ : BufTy).Contents (Elt F) → (⟨S200x2, .f32⟩ : BufTy).Contents (Elt F) → (⟨S65536x2, .f32⟩ : BufTy).Contents (Elt F)) ]

set_option maxHeartbeats 20000000 in
/-- The latent, the decoder and the logistic function. -/
abbrev opsB : List (HloOp τ sig (Elt F)) :=
  [ binary main_v89 main_arg1 main_v90 (mulf : (⟨S65536x2, .f32⟩ : BufTy).Contents (Elt F) → (⟨S65536x2, .f32⟩ : BufTy).Contents (Elt F) → (⟨S65536x2, .f32⟩ : BufTy).Contents (Elt F)),
    binary main_v74 main_v90 main_v91 (addf : (⟨S65536x2, .f32⟩ : BufTy).Contents (Elt F) → (⟨S65536x2, .f32⟩ : BufTy).Contents (Elt F) → (⟨S65536x2, .f32⟩ : BufTy).Contents (Elt F)),
    unary main_arg7 main_v92 (Host.absf : (⟨S200x2, .f32⟩ : BufTy).Contents (Elt F) → (⟨S200x2, .f32⟩ : BufTy).Contents (Elt F)),
    nullary main_cst_35 (constant S_ .f32 0x00000000#32),
    binary main_v92 main_cst_35 main_v93 ((fun x v => Host.reduceAdd x v reducesTo_S200x2_S_d0_1 h_S_) : (⟨S200x2, .f32⟩ : BufTy).Contents (Elt F) → (⟨S_, .f32⟩ : BufTy).Contents (Elt F) → (⟨S_, .f32⟩ : BufTy).Contents (Elt F)),
    nullary main_cst_36 (constant S_ .f32 0x43C80000#32),
    binary main_v93 main_cst_36 main_v94 (Host.divf : (⟨S_, .f32⟩ : BufTy).Contents (Elt F) → (⟨S_, .f32⟩ : BufTy).Contents (Elt F) → (⟨S_, .f32⟩ : BufTy).Contents (Elt F)),
    nullary main_cst_37 (constant S_ .f32 0x3727C5AC#32),
    TRef.unary (TRef.of (T := ⟨S_, .f32⟩) main_cst_37) (TRef.of (T := ⟨S_, .f32⟩) main_call18_v0) id,
    TRef.binary (TRef.of (T := ⟨S_, .f32⟩) main_call18_v0) (TRef.of (T := ⟨S_, .f32⟩) main_v94) (TRef.of (T := ⟨S_, .f32⟩) main_v95) maximumf,
    nullary main_cst_38 (constant S_ .f32 0x3F800000#32),
    binary main_cst_38 main_v95 main_v96 (Host.divf : (⟨S_, .f32⟩ : BufTy).Contents (Elt F) → (⟨S_, .f32⟩ : BufTy).Contents (Elt F) → (⟨S_, .f32⟩ : BufTy).Contents (Elt F)),
    unary main_v96 main_v97 (broadcastInDim S200x2 ![] bcast_S_S200x2 : (⟨S_, .f32⟩ : BufTy).Contents (Elt F) → (⟨S200x2, .f32⟩ : BufTy).Contents (Elt F)),
    binary main_arg7 main_v97 main_v98 (mulf : (⟨S200x2, .f32⟩ : BufTy).Contents (Elt F) → (⟨S200x2, .f32⟩ : BufTy).Contents (Elt F) → (⟨S200x2, .f32⟩ : BufTy).Contents (Elt F)),
    TRef.unary (TRef.of (T := ⟨S200x2, .f32⟩) main_v98) (TRef.of (T := ⟨S200x2, .f32⟩) main_v99) Host.roundeven,
    nullary main_cst_39 (constant S_ .f32 0xBF800000#32),
    nullary main_cst_40 (constant S_ .f32 0x3F800000#32),
    TRef.unary (TRef.of (T := ⟨S_, .f32⟩) main_cst_39) (TRef.of (T := ⟨S_, .f32⟩) main_call20_v0) id,
    TRef.unary (TRef.of (T := ⟨S_, .f32⟩) main_call20_v0) (TRef.of (T := ⟨S200x2, .f32⟩) main_call20_v1) (broadcastInDim S200x2 ![] bcast_S_S200x2),
    TRef.binary (TRef.of (T := ⟨S200x2, .f32⟩) main_call20_v1) (TRef.of (T := ⟨S200x2, .f32⟩) main_v99) (TRef.of (T := ⟨S200x2, .f32⟩) main_call20_v2) maximumf,
    TRef.unary (TRef.of (T := ⟨S_, .f32⟩) main_cst_40) (TRef.of (T := ⟨S_, .f32⟩) main_call20_v3) id,
    TRef.unary (TRef.of (T := ⟨S_, .f32⟩) main_call20_v3) (TRef.of (T := ⟨S200x2, .f32⟩) main_call20_v4) (broadcastInDim S200x2 ![] bcast_S_S200x2),
    TRef.binary (TRef.of (T := ⟨S200x2, .f32⟩) main_call20_v4) (TRef.of (T := ⟨S200x2, .f32⟩) main_call20_v2) (TRef.of (T := ⟨S200x2, .f32⟩) main_v100) minimumf,
    unary main_v96 main_v101 (broadcastInDim S200x2 ![] bcast_S_S200x2 : (⟨S_, .f32⟩ : BufTy).Contents (Elt F) → (⟨S200x2, .f32⟩ : BufTy).Contents (Elt F)),
    binary main_v100 main_v101 main_v102 (Host.divf : (⟨S200x2, .f32⟩ : BufTy).Contents (Elt F) → (⟨S200x2, .f32⟩ : BufTy).Contents (Elt F) → (⟨S200x2, .f32⟩ : BufTy).Contents (Elt F)),
    binary main_v102 main_arg7 main_v103 (subf : (⟨S200x2, .f32⟩ : BufTy).Contents (Elt F) → (⟨S200x2, .f32⟩ : BufTy).Contents (Elt F) → (⟨S200x2, .f32⟩ : BufTy).Contents (Elt F)),
    binary main_arg7 main_v103 main_v104 (addf : (⟨S200x2, .f32⟩ : BufTy).Contents (Elt F) → (⟨S200x2, .f32⟩ : BufTy).Contents (Elt F) → (⟨S200x2, .f32⟩ : BufTy).Contents (Elt F)),
    unary main_v104 main_v105 ((transpose S2x200 [1, 0] · transposes_S200x2_S2x200_1_0) : (⟨S200x2, .f32⟩ : BufTy).Contents (Elt F) → (⟨S2x200, .f32⟩ : BufTy).Contents (Elt F)),
    binary main_v91 main_v105 main_v106 ((fun l r => Host.dotGeneral dot_S65536x2_S2x200_S65536x200_1_0_0_1_n_n none l r) : (⟨S65536x2, .f32⟩ : BufTy).Contents (Elt F) → (⟨S2x200, .f32⟩ : BufTy).Contents (Elt F) → (⟨S65536x200, .f32⟩ : BufTy).Contents (Elt F)),
    nullary main_cst_41 (constant S_ .f32 0x00000000#32),
    unary main_cst_41 main_v107 (broadcastInDim S65536x200 ![] bcast_S_S65536x200 : (⟨S_, .f32⟩ : BufTy).Contents (Elt F) → (⟨S65536x200, .f32⟩ : BufTy).Contents (Elt F)),
    binary main_v106 main_v107 main_v108 (cmpf .oge : (⟨S65536x200, .f32⟩ : BufTy).Contents (Elt F) → (⟨S65536x200, .f32⟩ : BufTy).Contents (Elt F) → (⟨S65536x200, .i1⟩ : BufTy).Contents (Elt F)),
    nullary main_cst_42 (constant S_ .f32 0x3E4CCCCD#32),
    unary main_cst_42 main_v109 (broadcastInDim S65536x200 ![] bcast_S_S65536x200 : (⟨S_, .f32⟩ : BufTy).Contents (Elt F) → (⟨S65536x200, .f32⟩ : BufTy).Contents (Elt F)),
    binary main_v109 main_v106 main_v110 (mulf : (⟨S65536x200, .f32⟩ : BufTy).Contents (Elt F) → (⟨S65536x200, .f32⟩ : BufTy).Contents (Elt F) → (⟨S65536x200, .f32⟩ : BufTy).Contents (Elt F)),
    TRef.ternary (TRef.of (T := ⟨S65536x200, .i1⟩) main_v108) (TRef.of (T := ⟨S65536x200, .f32⟩) main_v106) (TRef.of (T := ⟨S65536x200, .f32⟩) main_v110) (TRef.of (T := ⟨S65536x200, .f32⟩) main_v111) select,
    unary main_arg8 main_v112 (Host.absf : (⟨S400x200, .f32⟩ : BufTy).Contents (Elt F) → (⟨S400x200, .f32⟩ : BufTy).Contents (Elt F)),
    nullary main_cst_43 (constant S_ .f32 0x00000000#32),
    binary main_v112 main_cst_43 main_v113 ((fun x v => Host.reduceAdd x v reducesTo_S400x200_S_d0_1 h_S_) : (⟨S400x200, .f32⟩ : BufTy).Contents (Elt F) → (⟨S_, .f32⟩ : BufTy).Contents (Elt F) → (⟨S_, .f32⟩ : BufTy).Contents (Elt F)),
    nullary main_cst_44 (constant S_ .f32 0x479C4000#32),
    binary main_v113 main_cst_44 main_v114 (Host.divf : (⟨S_, .f32⟩ : BufTy).Contents (Elt F) → (⟨S_, .f32⟩ : BufTy).Contents (Elt F) → (⟨S_, .f32⟩ : BufTy).Contents (Elt F)),
    nullary main_cst_45 (constant S_ .f32 0x3727C5AC#32),
    TRef.unary (TRef.of (T := ⟨S_, .f32⟩) main_cst_45) (TRef.of (T := ⟨S_, .f32⟩) main_call22_v0) id,
    TRef.binary (TRef.of (T := ⟨S_, .f32⟩) main_call22_v0) (TRef.of (T := ⟨S_, .f32⟩) main_v114) (TRef.of (T := ⟨S_, .f32⟩) main_v115) maximumf,
    nullary main_cst_46 (constant S_ .f32 0x3F800000#32),
    binary main_cst_46 main_v115 main_v116 (Host.divf : (⟨S_, .f32⟩ : BufTy).Contents (Elt F) → (⟨S_, .f32⟩ : BufTy).Contents (Elt F) → (⟨S_, .f32⟩ : BufTy).Contents (Elt F)),
    unary main_v116 main_v117 (broadcastInDim S400x200 ![] bcast_S_S400x200 : (⟨S_, .f32⟩ : BufTy).Contents (Elt F) → (⟨S400x200, .f32⟩ : BufTy).Contents (Elt F)),
    binary main_arg8 main_v117 main_v118 (mulf : (⟨S400x200, .f32⟩ : BufTy).Contents (Elt F) → (⟨S400x200, .f32⟩ : BufTy).Contents (Elt F) → (⟨S400x200, .f32⟩ : BufTy).Contents (Elt F)),
    TRef.unary (TRef.of (T := ⟨S400x200, .f32⟩) main_v118) (TRef.of (T := ⟨S400x200, .f32⟩) main_v119) Host.roundeven,
    nullary main_cst_47 (constant S_ .f32 0xBF800000#32),
    nullary main_cst_48 (constant S_ .f32 0x3F800000#32),
    TRef.unary (TRef.of (T := ⟨S_, .f32⟩) main_cst_47) (TRef.of (T := ⟨S_, .f32⟩) main_call24_v0) id,
    TRef.unary (TRef.of (T := ⟨S_, .f32⟩) main_call24_v0) (TRef.of (T := ⟨S400x200, .f32⟩) main_call24_v1) (broadcastInDim S400x200 ![] bcast_S_S400x200),
    TRef.binary (TRef.of (T := ⟨S400x200, .f32⟩) main_call24_v1) (TRef.of (T := ⟨S400x200, .f32⟩) main_v119) (TRef.of (T := ⟨S400x200, .f32⟩) main_call24_v2) maximumf,
    TRef.unary (TRef.of (T := ⟨S_, .f32⟩) main_cst_48) (TRef.of (T := ⟨S_, .f32⟩) main_call24_v3) id,
    TRef.unary (TRef.of (T := ⟨S_, .f32⟩) main_call24_v3) (TRef.of (T := ⟨S400x200, .f32⟩) main_call24_v4) (broadcastInDim S400x200 ![] bcast_S_S400x200),
    TRef.binary (TRef.of (T := ⟨S400x200, .f32⟩) main_call24_v4) (TRef.of (T := ⟨S400x200, .f32⟩) main_call24_v2) (TRef.of (T := ⟨S400x200, .f32⟩) main_v120) minimumf,
    unary main_v116 main_v121 (broadcastInDim S400x200 ![] bcast_S_S400x200 : (⟨S_, .f32⟩ : BufTy).Contents (Elt F) → (⟨S400x200, .f32⟩ : BufTy).Contents (Elt F)),
    binary main_v120 main_v121 main_v122 (Host.divf : (⟨S400x200, .f32⟩ : BufTy).Contents (Elt F) → (⟨S400x200, .f32⟩ : BufTy).Contents (Elt F) → (⟨S400x200, .f32⟩ : BufTy).Contents (Elt F)),
    binary main_v122 main_arg8 main_v123 (subf : (⟨S400x200, .f32⟩ : BufTy).Contents (Elt F) → (⟨S400x200, .f32⟩ : BufTy).Contents (Elt F) → (⟨S400x200, .f32⟩ : BufTy).Contents (Elt F)),
    binary main_arg8 main_v123 main_v124 (addf : (⟨S400x200, .f32⟩ : BufTy).Contents (Elt F) → (⟨S400x200, .f32⟩ : BufTy).Contents (Elt F) → (⟨S400x200, .f32⟩ : BufTy).Contents (Elt F)),
    unary main_v124 main_v125 ((transpose S200x400 [1, 0] · transposes_S400x200_S200x400_1_0) : (⟨S400x200, .f32⟩ : BufTy).Contents (Elt F) → (⟨S200x400, .f32⟩ : BufTy).Contents (Elt F)),
    binary main_v111 main_v125 main_v126 ((fun l r => Host.dotGeneral dot_S65536x200_S200x400_S65536x400_1_0_0_1_n_n none l r) : (⟨S65536x200, .f32⟩ : BufTy).Contents (Elt F) → (⟨S200x400, .f32⟩ : BufTy).Contents (Elt F) → (⟨S65536x400, .f32⟩ : BufTy).Contents (Elt F)),
    nullary main_cst_49 (constant S_ .f32 0x00000000#32),
    unary main_cst_49 main_v127 (broadcastInDim S65536x400 ![] bcast_S_S65536x400 : (⟨S_, .f32⟩ : BufTy).Contents (Elt F) → (⟨S65536x400, .f32⟩ : BufTy).Contents (Elt F)),
    binary main_v126 main_v127 main_v128 (cmpf .oge : (⟨S65536x400, .f32⟩ : BufTy).Contents (Elt F) → (⟨S65536x400, .f32⟩ : BufTy).Contents (Elt F) → (⟨S65536x400, .i1⟩ : BufTy).Contents (Elt F)),
    nullary main_cst_50 (constant S_ .f32 0x3E4CCCCD#32),
    unary main_cst_50 main_v129 (broadcastInDim S65536x400 ![] bcast_S_S65536x400 : (⟨S_, .f32⟩ : BufTy).Contents (Elt F) → (⟨S65536x400, .f32⟩ : BufTy).Contents (Elt F)),
    binary main_v129 main_v126 main_v130 (mulf : (⟨S65536x400, .f32⟩ : BufTy).Contents (Elt F) → (⟨S65536x400, .f32⟩ : BufTy).Contents (Elt F) → (⟨S65536x400, .f32⟩ : BufTy).Contents (Elt F)),
    TRef.ternary (TRef.of (T := ⟨S65536x400, .i1⟩) main_v128) (TRef.of (T := ⟨S65536x400, .f32⟩) main_v126) (TRef.of (T := ⟨S65536x400, .f32⟩) main_v130) (TRef.of (T := ⟨S65536x400, .f32⟩) main_v131) select,
    unary main_arg9 main_v132 (Host.absf : (⟨S400x400, .f32⟩ : BufTy).Contents (Elt F) → (⟨S400x400, .f32⟩ : BufTy).Contents (Elt F)),
    nullary main_cst_51 (constant S_ .f32 0x00000000#32),
    binary main_v132 main_cst_51 main_v133 ((fun x v => Host.reduceAdd x v reducesTo_S400x400_S_d0_1 h_S_) : (⟨S400x400, .f32⟩ : BufTy).Contents (Elt F) → (⟨S_, .f32⟩ : BufTy).Contents (Elt F) → (⟨S_, .f32⟩ : BufTy).Contents (Elt F)),
    nullary main_cst_52 (constant S_ .f32 0x481C4000#32),
    binary main_v133 main_cst_52 main_v134 (Host.divf : (⟨S_, .f32⟩ : BufTy).Contents (Elt F) → (⟨S_, .f32⟩ : BufTy).Contents (Elt F) → (⟨S_, .f32⟩ : BufTy).Contents (Elt F)),
    nullary main_cst_53 (constant S_ .f32 0x3727C5AC#32),
    TRef.unary (TRef.of (T := ⟨S_, .f32⟩) main_cst_53) (TRef.of (T := ⟨S_, .f32⟩) main_call26_v0) id,
    TRef.binary (TRef.of (T := ⟨S_, .f32⟩) main_call26_v0) (TRef.of (T := ⟨S_, .f32⟩) main_v134) (TRef.of (T := ⟨S_, .f32⟩) main_v135) maximumf,
    nullary main_cst_54 (constant S_ .f32 0x3F800000#32),
    binary main_cst_54 main_v135 main_v136 (Host.divf : (⟨S_, .f32⟩ : BufTy).Contents (Elt F) → (⟨S_, .f32⟩ : BufTy).Contents (Elt F) → (⟨S_, .f32⟩ : BufTy).Contents (Elt F)),
    unary main_v136 main_v137 (broadcastInDim S400x400 ![] bcast_S_S400x400 : (⟨S_, .f32⟩ : BufTy).Contents (Elt F) → (⟨S400x400, .f32⟩ : BufTy).Contents (Elt F)),
    binary main_arg9 main_v137 main_v138 (mulf : (⟨S400x400, .f32⟩ : BufTy).Contents (Elt F) → (⟨S400x400, .f32⟩ : BufTy).Contents (Elt F) → (⟨S400x400, .f32⟩ : BufTy).Contents (Elt F)),
    TRef.unary (TRef.of (T := ⟨S400x400, .f32⟩) main_v138) (TRef.of (T := ⟨S400x400, .f32⟩) main_v139) Host.roundeven,
    nullary main_cst_55 (constant S_ .f32 0xBF800000#32),
    nullary main_cst_56 (constant S_ .f32 0x3F800000#32),
    TRef.unary (TRef.of (T := ⟨S_, .f32⟩) main_cst_55) (TRef.of (T := ⟨S_, .f32⟩) main_call28_v0) id,
    TRef.unary (TRef.of (T := ⟨S_, .f32⟩) main_call28_v0) (TRef.of (T := ⟨S400x400, .f32⟩) main_call28_v1) (broadcastInDim S400x400 ![] bcast_S_S400x400),
    TRef.binary (TRef.of (T := ⟨S400x400, .f32⟩) main_call28_v1) (TRef.of (T := ⟨S400x400, .f32⟩) main_v139) (TRef.of (T := ⟨S400x400, .f32⟩) main_call28_v2) maximumf,
    TRef.unary (TRef.of (T := ⟨S_, .f32⟩) main_cst_56) (TRef.of (T := ⟨S_, .f32⟩) main_call28_v3) id,
    TRef.unary (TRef.of (T := ⟨S_, .f32⟩) main_call28_v3) (TRef.of (T := ⟨S400x400, .f32⟩) main_call28_v4) (broadcastInDim S400x400 ![] bcast_S_S400x400),
    TRef.binary (TRef.of (T := ⟨S400x400, .f32⟩) main_call28_v4) (TRef.of (T := ⟨S400x400, .f32⟩) main_call28_v2) (TRef.of (T := ⟨S400x400, .f32⟩) main_v140) minimumf,
    unary main_v136 main_v141 (broadcastInDim S400x400 ![] bcast_S_S400x400 : (⟨S_, .f32⟩ : BufTy).Contents (Elt F) → (⟨S400x400, .f32⟩ : BufTy).Contents (Elt F)),
    binary main_v140 main_v141 main_v142 (Host.divf : (⟨S400x400, .f32⟩ : BufTy).Contents (Elt F) → (⟨S400x400, .f32⟩ : BufTy).Contents (Elt F) → (⟨S400x400, .f32⟩ : BufTy).Contents (Elt F)),
    binary main_v142 main_arg9 main_v143 (subf : (⟨S400x400, .f32⟩ : BufTy).Contents (Elt F) → (⟨S400x400, .f32⟩ : BufTy).Contents (Elt F) → (⟨S400x400, .f32⟩ : BufTy).Contents (Elt F)),
    binary main_arg9 main_v143 main_v144 (addf : (⟨S400x400, .f32⟩ : BufTy).Contents (Elt F) → (⟨S400x400, .f32⟩ : BufTy).Contents (Elt F) → (⟨S400x400, .f32⟩ : BufTy).Contents (Elt F)),
    unary main_v144 main_v145 ((transpose S400x400 [1, 0] · transposes_S400x400_S400x400_1_0) : (⟨S400x400, .f32⟩ : BufTy).Contents (Elt F) → (⟨S400x400, .f32⟩ : BufTy).Contents (Elt F)),
    binary main_v131 main_v145 main_v146 ((fun l r => Host.dotGeneral dot_S65536x400_S400x400_S65536x400_1_0_0_1_n_n none l r) : (⟨S65536x400, .f32⟩ : BufTy).Contents (Elt F) → (⟨S400x400, .f32⟩ : BufTy).Contents (Elt F) → (⟨S65536x400, .f32⟩ : BufTy).Contents (Elt F)),
    nullary main_cst_57 (constant S_ .f32 0x00000000#32),
    unary main_cst_57 main_v147 (broadcastInDim S65536x400 ![] bcast_S_S65536x400 : (⟨S_, .f32⟩ : BufTy).Contents (Elt F) → (⟨S65536x400, .f32⟩ : BufTy).Contents (Elt F)),
    binary main_v146 main_v147 main_v148 (cmpf .oge : (⟨S65536x400, .f32⟩ : BufTy).Contents (Elt F) → (⟨S65536x400, .f32⟩ : BufTy).Contents (Elt F) → (⟨S65536x400, .i1⟩ : BufTy).Contents (Elt F)),
    nullary main_cst_58 (constant S_ .f32 0x3E4CCCCD#32),
    unary main_cst_58 main_v149 (broadcastInDim S65536x400 ![] bcast_S_S65536x400 : (⟨S_, .f32⟩ : BufTy).Contents (Elt F) → (⟨S65536x400, .f32⟩ : BufTy).Contents (Elt F)),
    binary main_v149 main_v146 main_v150 (mulf : (⟨S65536x400, .f32⟩ : BufTy).Contents (Elt F) → (⟨S65536x400, .f32⟩ : BufTy).Contents (Elt F) → (⟨S65536x400, .f32⟩ : BufTy).Contents (Elt F)),
    TRef.ternary (TRef.of (T := ⟨S65536x400, .i1⟩) main_v148) (TRef.of (T := ⟨S65536x400, .f32⟩) main_v146) (TRef.of (T := ⟨S65536x400, .f32⟩) main_v150) (TRef.of (T := ⟨S65536x400, .f32⟩) main_v151) select,
    unary main_arg10 main_v152 (Host.absf : (⟨S400x400, .f32⟩ : BufTy).Contents (Elt F) → (⟨S400x400, .f32⟩ : BufTy).Contents (Elt F)),
    nullary main_cst_59 (constant S_ .f32 0x00000000#32),
    binary main_v152 main_cst_59 main_v153 ((fun x v => Host.reduceAdd x v reducesTo_S400x400_S_d0_1 h_S_) : (⟨S400x400, .f32⟩ : BufTy).Contents (Elt F) → (⟨S_, .f32⟩ : BufTy).Contents (Elt F) → (⟨S_, .f32⟩ : BufTy).Contents (Elt F)),
    nullary main_cst_60 (constant S_ .f32 0x481C4000#32),
    binary main_v153 main_cst_60 main_v154 (Host.divf : (⟨S_, .f32⟩ : BufTy).Contents (Elt F) → (⟨S_, .f32⟩ : BufTy).Contents (Elt F) → (⟨S_, .f32⟩ : BufTy).Contents (Elt F)),
    nullary main_cst_61 (constant S_ .f32 0x3727C5AC#32),
    TRef.unary (TRef.of (T := ⟨S_, .f32⟩) main_cst_61) (TRef.of (T := ⟨S_, .f32⟩) main_call30_v0) id,
    TRef.binary (TRef.of (T := ⟨S_, .f32⟩) main_call30_v0) (TRef.of (T := ⟨S_, .f32⟩) main_v154) (TRef.of (T := ⟨S_, .f32⟩) main_v155) maximumf,
    nullary main_cst_62 (constant S_ .f32 0x3F800000#32),
    binary main_cst_62 main_v155 main_v156 (Host.divf : (⟨S_, .f32⟩ : BufTy).Contents (Elt F) → (⟨S_, .f32⟩ : BufTy).Contents (Elt F) → (⟨S_, .f32⟩ : BufTy).Contents (Elt F)),
    unary main_v156 main_v157 (broadcastInDim S400x400 ![] bcast_S_S400x400 : (⟨S_, .f32⟩ : BufTy).Contents (Elt F) → (⟨S400x400, .f32⟩ : BufTy).Contents (Elt F)),
    binary main_arg10 main_v157 main_v158 (mulf : (⟨S400x400, .f32⟩ : BufTy).Contents (Elt F) → (⟨S400x400, .f32⟩ : BufTy).Contents (Elt F) → (⟨S400x400, .f32⟩ : BufTy).Contents (Elt F)),
    TRef.unary (TRef.of (T := ⟨S400x400, .f32⟩) main_v158) (TRef.of (T := ⟨S400x400, .f32⟩) main_v159) Host.roundeven,
    nullary main_cst_63 (constant S_ .f32 0xBF800000#32),
    nullary main_cst_64 (constant S_ .f32 0x3F800000#32),
    TRef.unary (TRef.of (T := ⟨S_, .f32⟩) main_cst_63) (TRef.of (T := ⟨S_, .f32⟩) main_call32_v0) id,
    TRef.unary (TRef.of (T := ⟨S_, .f32⟩) main_call32_v0) (TRef.of (T := ⟨S400x400, .f32⟩) main_call32_v1) (broadcastInDim S400x400 ![] bcast_S_S400x400),
    TRef.binary (TRef.of (T := ⟨S400x400, .f32⟩) main_call32_v1) (TRef.of (T := ⟨S400x400, .f32⟩) main_v159) (TRef.of (T := ⟨S400x400, .f32⟩) main_call32_v2) maximumf,
    TRef.unary (TRef.of (T := ⟨S_, .f32⟩) main_cst_64) (TRef.of (T := ⟨S_, .f32⟩) main_call32_v3) id,
    TRef.unary (TRef.of (T := ⟨S_, .f32⟩) main_call32_v3) (TRef.of (T := ⟨S400x400, .f32⟩) main_call32_v4) (broadcastInDim S400x400 ![] bcast_S_S400x400),
    TRef.binary (TRef.of (T := ⟨S400x400, .f32⟩) main_call32_v4) (TRef.of (T := ⟨S400x400, .f32⟩) main_call32_v2) (TRef.of (T := ⟨S400x400, .f32⟩) main_v160) minimumf,
    unary main_v156 main_v161 (broadcastInDim S400x400 ![] bcast_S_S400x400 : (⟨S_, .f32⟩ : BufTy).Contents (Elt F) → (⟨S400x400, .f32⟩ : BufTy).Contents (Elt F)),
    binary main_v160 main_v161 main_v162 (Host.divf : (⟨S400x400, .f32⟩ : BufTy).Contents (Elt F) → (⟨S400x400, .f32⟩ : BufTy).Contents (Elt F) → (⟨S400x400, .f32⟩ : BufTy).Contents (Elt F)),
    binary main_v162 main_arg10 main_v163 (subf : (⟨S400x400, .f32⟩ : BufTy).Contents (Elt F) → (⟨S400x400, .f32⟩ : BufTy).Contents (Elt F) → (⟨S400x400, .f32⟩ : BufTy).Contents (Elt F)),
    binary main_arg10 main_v163 main_v164 (addf : (⟨S400x400, .f32⟩ : BufTy).Contents (Elt F) → (⟨S400x400, .f32⟩ : BufTy).Contents (Elt F) → (⟨S400x400, .f32⟩ : BufTy).Contents (Elt F)),
    unary main_v164 main_v165 ((transpose S400x400 [1, 0] · transposes_S400x400_S400x400_1_0) : (⟨S400x400, .f32⟩ : BufTy).Contents (Elt F) → (⟨S400x400, .f32⟩ : BufTy).Contents (Elt F)),
    binary main_v151 main_v165 main_v166 ((fun l r => Host.dotGeneral dot_S65536x400_S400x400_S65536x400_1_0_0_1_n_n none l r) : (⟨S65536x400, .f32⟩ : BufTy).Contents (Elt F) → (⟨S400x400, .f32⟩ : BufTy).Contents (Elt F) → (⟨S65536x400, .f32⟩ : BufTy).Contents (Elt F)),
    nullary main_cst_65 (constant S_ .f32 0x00000000#32),
    unary main_cst_65 main_v167 (broadcastInDim S65536x400 ![] bcast_S_S65536x400 : (⟨S_, .f32⟩ : BufTy).Contents (Elt F) → (⟨S65536x400, .f32⟩ : BufTy).Contents (Elt F)),
    binary main_v166 main_v167 main_v168 (cmpf .oge : (⟨S65536x400, .f32⟩ : BufTy).Contents (Elt F) → (⟨S65536x400, .f32⟩ : BufTy).Contents (Elt F) → (⟨S65536x400, .i1⟩ : BufTy).Contents (Elt F)),
    nullary main_cst_66 (constant S_ .f32 0x3E4CCCCD#32),
    unary main_cst_66 main_v169 (broadcastInDim S65536x400 ![] bcast_S_S65536x400 : (⟨S_, .f32⟩ : BufTy).Contents (Elt F) → (⟨S65536x400, .f32⟩ : BufTy).Contents (Elt F)),
    binary main_v169 main_v166 main_v170 (mulf : (⟨S65536x400, .f32⟩ : BufTy).Contents (Elt F) → (⟨S65536x400, .f32⟩ : BufTy).Contents (Elt F) → (⟨S65536x400, .f32⟩ : BufTy).Contents (Elt F)),
    TRef.ternary (TRef.of (T := ⟨S65536x400, .i1⟩) main_v168) (TRef.of (T := ⟨S65536x400, .f32⟩) main_v166) (TRef.of (T := ⟨S65536x400, .f32⟩) main_v170) (TRef.of (T := ⟨S65536x400, .f32⟩) main_v171) select,
    unary main_arg11 main_v172 (Host.absf : (⟨S784x400, .f32⟩ : BufTy).Contents (Elt F) → (⟨S784x400, .f32⟩ : BufTy).Contents (Elt F)),
    nullary main_cst_67 (constant S_ .f32 0x00000000#32),
    binary main_v172 main_cst_67 main_v173 ((fun x v => Host.reduceAdd x v reducesTo_S784x400_S_d0_1 h_S_) : (⟨S784x400, .f32⟩ : BufTy).Contents (Elt F) → (⟨S_, .f32⟩ : BufTy).Contents (Elt F) → (⟨S_, .f32⟩ : BufTy).Contents (Elt F)),
    nullary main_cst_68 (constant S_ .f32 0x48992000#32),
    binary main_v173 main_cst_68 main_v174 (Host.divf : (⟨S_, .f32⟩ : BufTy).Contents (Elt F) → (⟨S_, .f32⟩ : BufTy).Contents (Elt F) → (⟨S_, .f32⟩ : BufTy).Contents (Elt F)),
    nullary main_cst_69 (constant S_ .f32 0x3727C5AC#32),
    TRef.unary (TRef.of (T := ⟨S_, .f32⟩) main_cst_69) (TRef.of (T := ⟨S_, .f32⟩) main_call34_v0) id,
    TRef.binary (TRef.of (T := ⟨S_, .f32⟩) main_call34_v0) (TRef.of (T := ⟨S_, .f32⟩) main_v174) (TRef.of (T := ⟨S_, .f32⟩) main_v175) maximumf,
    nullary main_cst_70 (constant S_ .f32 0x3F800000#32),
    binary main_cst_70 main_v175 main_v176 (Host.divf : (⟨S_, .f32⟩ : BufTy).Contents (Elt F) → (⟨S_, .f32⟩ : BufTy).Contents (Elt F) → (⟨S_, .f32⟩ : BufTy).Contents (Elt F)),
    unary main_v176 main_v177 (broadcastInDim S784x400 ![] bcast_S_S784x400 : (⟨S_, .f32⟩ : BufTy).Contents (Elt F) → (⟨S784x400, .f32⟩ : BufTy).Contents (Elt F)),
    binary main_arg11 main_v177 main_v178 (mulf : (⟨S784x400, .f32⟩ : BufTy).Contents (Elt F) → (⟨S784x400, .f32⟩ : BufTy).Contents (Elt F) → (⟨S784x400, .f32⟩ : BufTy).Contents (Elt F)),
    TRef.unary (TRef.of (T := ⟨S784x400, .f32⟩) main_v178) (TRef.of (T := ⟨S784x400, .f32⟩) main_v179) Host.roundeven,
    nullary main_cst_71 (constant S_ .f32 0xBF800000#32),
    nullary main_cst_72 (constant S_ .f32 0x3F800000#32),
    TRef.unary (TRef.of (T := ⟨S_, .f32⟩) main_cst_71) (TRef.of (T := ⟨S_, .f32⟩) main_call36_v0) id,
    TRef.unary (TRef.of (T := ⟨S_, .f32⟩) main_call36_v0) (TRef.of (T := ⟨S784x400, .f32⟩) main_call36_v1) (broadcastInDim S784x400 ![] bcast_S_S784x400),
    TRef.binary (TRef.of (T := ⟨S784x400, .f32⟩) main_call36_v1) (TRef.of (T := ⟨S784x400, .f32⟩) main_v179) (TRef.of (T := ⟨S784x400, .f32⟩) main_call36_v2) maximumf,
    TRef.unary (TRef.of (T := ⟨S_, .f32⟩) main_cst_72) (TRef.of (T := ⟨S_, .f32⟩) main_call36_v3) id,
    TRef.unary (TRef.of (T := ⟨S_, .f32⟩) main_call36_v3) (TRef.of (T := ⟨S784x400, .f32⟩) main_call36_v4) (broadcastInDim S784x400 ![] bcast_S_S784x400),
    TRef.binary (TRef.of (T := ⟨S784x400, .f32⟩) main_call36_v4) (TRef.of (T := ⟨S784x400, .f32⟩) main_call36_v2) (TRef.of (T := ⟨S784x400, .f32⟩) main_v180) minimumf,
    unary main_v176 main_v181 (broadcastInDim S784x400 ![] bcast_S_S784x400 : (⟨S_, .f32⟩ : BufTy).Contents (Elt F) → (⟨S784x400, .f32⟩ : BufTy).Contents (Elt F)),
    binary main_v180 main_v181 main_v182 (Host.divf : (⟨S784x400, .f32⟩ : BufTy).Contents (Elt F) → (⟨S784x400, .f32⟩ : BufTy).Contents (Elt F) → (⟨S784x400, .f32⟩ : BufTy).Contents (Elt F)),
    binary main_v182 main_arg11 main_v183 (subf : (⟨S784x400, .f32⟩ : BufTy).Contents (Elt F) → (⟨S784x400, .f32⟩ : BufTy).Contents (Elt F) → (⟨S784x400, .f32⟩ : BufTy).Contents (Elt F)),
    binary main_arg11 main_v183 main_v184 (addf : (⟨S784x400, .f32⟩ : BufTy).Contents (Elt F) → (⟨S784x400, .f32⟩ : BufTy).Contents (Elt F) → (⟨S784x400, .f32⟩ : BufTy).Contents (Elt F)),
    unary main_v184 main_v185 ((transpose S400x784 [1, 0] · transposes_S784x400_S400x784_1_0) : (⟨S784x400, .f32⟩ : BufTy).Contents (Elt F) → (⟨S400x784, .f32⟩ : BufTy).Contents (Elt F)),
    binary main_v171 main_v185 main_v186 ((fun l r => Host.dotGeneral dot_S65536x400_S400x784_S65536x784_1_0_0_1_n_n none l r) : (⟨S65536x400, .f32⟩ : BufTy).Contents (Elt F) → (⟨S400x784, .f32⟩ : BufTy).Contents (Elt F) → (⟨S65536x784, .f32⟩ : BufTy).Contents (Elt F)),
    unary main_v186 main_v187 (Host.negf : (⟨S65536x784, .f32⟩ : BufTy).Contents (Elt F) → (⟨S65536x784, .f32⟩ : BufTy).Contents (Elt F)),
    unary main_v187 main_v188 (Host.exp : (⟨S65536x784, .f32⟩ : BufTy).Contents (Elt F) → (⟨S65536x784, .f32⟩ : BufTy).Contents (Elt F)),
    nullary main_cst_73 (constant S_ .f32 0x3F800000#32),
    unary main_cst_73 main_v189 (broadcastInDim S65536x784 ![] bcast_S_S65536x784 : (⟨S_, .f32⟩ : BufTy).Contents (Elt F) → (⟨S65536x784, .f32⟩ : BufTy).Contents (Elt F)),
    binary main_v189 main_v188 main_v190 (addf : (⟨S65536x784, .f32⟩ : BufTy).Contents (Elt F) → (⟨S65536x784, .f32⟩ : BufTy).Contents (Elt F) → (⟨S65536x784, .f32⟩ : BufTy).Contents (Elt F)),
    nullary main_cst_74 (constant S_ .f32 0x3F800000#32),
    unary main_cst_74 main_v191 (broadcastInDim S65536x784 ![] bcast_S_S65536x784 : (⟨S_, .f32⟩ : BufTy).Contents (Elt F) → (⟨S65536x784, .f32⟩ : BufTy).Contents (Elt F)),
    binary main_v191 main_v190 main_v192 (Host.divf : (⟨S65536x784, .f32⟩ : BufTy).Contents (Elt F) → (⟨S65536x784, .f32⟩ : BufTy).Contents (Elt F) → (⟨S65536x784, .f32⟩ : BufTy).Contents (Elt F)) ]

set_option maxHeartbeats 20000000 in
set_option maxRecDepth 65536 in
theorem ops_eq : (ops : List (HloOp τ sig (Elt F))) = opsA ++ opsB := rfl

theorem after_append (A B : List (HloOp τ sig (Elt F))) (V : Valuation τ sig (Elt F)) : after (A ++ B) V = after B (after A V) := by
  induction A generalizing V with
  | nil => rfl
  | cons op A ih => exact ih (op.result V)

theorem after_ops (V : Valuation τ sig (Elt F)) : after (ops (F := F)) V = after opsB (after opsA V) := by
  rw [ops_eq, after_append]

end Cert.ReferenceIdeal.HandRun

end
-- ==== Proof.RefValXhat.lean ====
/-
  What the reference's operations leave in the reconstruction's buffer. The operation list is cut after the log-variance
  head: the first part leaves the mean and the log-variance (the reference arrangement's) and writes no argument array;
  the second part, on any contents, leaves the decoder and the logistic function of the latent `mean + logvar · noise` read
  off those contents. Together: the reference arrangement's reconstruction of the argument arrays.
-/
import proofs.«175214_j61469571940629_2_alg».proof.Proof.RefOpsAB
import proofs.«175214_j61469571940629_2_alg».proof.Proof.NetEq
import proofs.«175214_j61469571940629_2_alg».proof.Proof.NetWSpecs

noncomputable section

namespace Cert.ReferenceIdeal.HandRun

open Cert.ReferenceIdeal Cert.ReferenceIdeal.Gen Idealize.ShloMosaic Idealize.ShloMosaic.TcCoe Idealize.SL.Sem Idealize.ShloMosaic.StableHlo

open Cert.LibRowwise Cert.LibTernaryWeights Cert.Net

/-- The decoder and the logistic function of a latent `Z`, in the reference arrangement. -/
def rXhatZ {B : Nat} (W6 : FVec Ideal (Sh2 200 2) .f32) (W7 : FVec Ideal (Sh2 400 200) .f32) (W8 : FVec Ideal (Sh2 400 400) .f32)
    (W9 : FVec Ideal (Sh2 400 400) .f32) (W10 : FVec Ideal (Sh2 784 400) .f32) (Z : (Sh2 B 2).Idx → EReal) : (Sh2 B 784).Idx → EReal :=
  Host.divf (F := Ideal) (φ := .f32) (fun _ => Ideal.ofBits .f32 0x3F800000#32)
    (addf (F := Ideal) (φ := .f32) (fun _ => Ideal.ofBits .f32 0x3F800000#32) (Host.exp (F := Ideal) (φ := .f32) (Host.negf (F := Ideal) (φ := .f32)
      (rlin ws10 (lrelu (rlin ws9 (lrelu (rlin ws8 (lrelu (rlin ws7 (lrelu (rlin ws6 Z W6)) W7)) W8)) W9)) W10))))

section
variable (m : (ℓ : Loc nD τ sig) → Buf (Elt Ideal) ℓ) (c : Dev nD)

set_option maxRecDepth 65536 in
set_option maxHeartbeats 40000000 in
theorem pre_mean : after (opsA (F := Ideal)) (launchContents m c) (Proc.devRef .tc main_v74) = rMean ws1 ws2 ws3 ws4 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg0)) := by
  after_results_simp <;> rfl
set_option maxRecDepth 65536 in
set_option maxHeartbeats 40000000 in
theorem pre_logvar : after (opsA (F := Ideal)) (launchContents m c) (Proc.devRef .tc main_v89) = rLogvar ws1 ws2 ws3 ws5 (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg0)) := by
  after_results_simp <;> rfl
set_option maxRecDepth 65536 in
set_option maxHeartbeats 40000000 in
theorem pre_arg1 : after (opsA (F := Ideal)) (launchContents m c) (Proc.devRef .tc main_arg1) = m ((c.tc : Thread nD τ).loc main_arg1) := by
  after_results_simp <;> rfl
set_option maxRecDepth 65536 in
set_option maxHeartbeats 40000000 in
theorem pre_arg7 : after (opsA (F := Ideal)) (launchContents m c) (Proc.devRef .tc main_arg7) = m ((c.tc : Thread nD τ).loc main_arg7) := by
  after_results_simp <;> rfl
set_option maxRecDepth 65536 in
set_option maxHeartbeats 40000000 in
theorem pre_arg8 : after (opsA (F := Ideal)) (launchContents m c) (Proc.devRef .tc main_arg8) = m ((c.tc : Thread nD τ).loc main_arg8) := by
  after_results_simp <;> rfl
set_option maxRecDepth 65536 in
set_option maxHeartbeats 40000000 in
theorem pre_arg9 : after (opsA (F := Ideal)) (launchContents m c) (Proc.devRef .tc main_arg9) = m ((c.tc : Thread nD τ).loc main_arg9) := by
  after_results_simp <;> rfl
set_option maxRecDepth 65536 in
set_option maxHeartbeats 40000000 in
theorem pre_arg10 : after (opsA (F := Ideal)) (launchContents m c) (Proc.devRef .tc main_arg10) = m ((c.tc : Thread nD τ).loc main_arg10) := by
  after_results_simp <;> rfl
set_option maxRecDepth 65536 in
set_option maxHeartbeats 40000000 in
theorem pre_arg11 : after (opsA (F := Ideal)) (launchContents m c) (Proc.devRef .tc main_arg11) = m ((c.tc : Thread nD τ).loc main_arg11) := by
  after_results_simp <;> rfl

set_option maxRecDepth 65536 in
set_option maxHeartbeats 40000000 in
/-- The second part of the list on any contents `W`: the decoder and the logistic function of the latent read off `W`. -/
theorem post_xhat (W : Valuation τ sig (Elt Ideal)) : after (opsB (F := Ideal)) W (Proc.devRef .tc main_v192)
    = rXhatZ (W (Proc.devRef .tc main_arg7)) (W (Proc.devRef .tc main_arg8)) (W (Proc.devRef .tc main_arg9)) (W (Proc.devRef .tc main_arg10)) (W (Proc.devRef .tc main_arg11))
        (addf (F := Ideal) (φ := .f32) (W (Proc.devRef .tc main_v74)) (mulf (F := Ideal) (φ := .f32) (W (Proc.devRef .tc main_v89)) (W (Proc.devRef .tc main_arg1)))) := by
  after_results_simp <;> rfl

theorem after_xhat : after (ops (F := Ideal)) (launchContents m c) (Proc.devRef .tc main_v192) = rXhat ws1 ws2 ws3 ws4 ws5 ws6 ws7 ws8 ws9 ws10 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg0)) (m ((c.tc : Thread nD τ).loc main_arg1)) := by
  rw [after_ops, post_xhat, pre_mean, pre_logvar, pre_arg1, pre_arg7, pre_arg8, pre_arg9, pre_arg10, pre_arg11]
  rfl
end

end Cert.ReferenceIdeal.HandRun

end
-- ==== Proof.RefValMean.lean ====
/-
  What the reference's operations leave in the mean's buffer: the reference arrangement's mean of the argument arrays.
-/
import proofs.«175214_j61469571940629_2_alg».proof.Proof.RefOps
import proofs.«175214_j61469571940629_2_alg».proof.Proof.NetEq
import proofs.«175214_j61469571940629_2_alg».proof.Proof.NetWSpecs

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.LibRowwise Cert.LibTernaryWeights Cert.Net

variable (m : (ℓ : Loc nD τ sig) → Buf (Elt Ideal) ℓ) (c : Dev nD)

set_option maxRecDepth 65536 in
set_option maxHeartbeats 131600000 in
theorem after_mean : after (ops (F := Ideal)) (launchContents m c) (Proc.devRef .tc main_v74) = rMean ws1 ws2 ws3 ws4 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg0)) := by
  after_results_simp <;> rfl

end Cert.ReferenceIdeal.HandRun

end
-- ==== Proof.RefValLogvar.lean ====
/-
  What the reference's operations leave in the log-variance's buffer: the reference arrangement's log-variance of the
  argument arrays.
-/
import proofs.«175214_j61469571940629_2_alg».proof.Proof.RefOps
import proofs.«175214_j61469571940629_2_alg».proof.Proof.NetEq
import proofs.«175214_j61469571940629_2_alg».proof.Proof.NetWSpecs

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.LibRowwise Cert.LibTernaryWeights Cert.Net

variable (m : (ℓ : Loc nD τ sig) → Buf (Elt Ideal) ℓ) (c : Dev nD)

set_option maxRecDepth 65536 in
set_option maxHeartbeats 131600000 in
theorem after_logvar : after (ops (F := Ideal)) (launchContents m c) (Proc.devRef .tc main_v89) = rLogvar ws1 ws2 ws3 ws5 (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg0)) := by
  after_results_simp <;> rfl

end Cert.ReferenceIdeal.HandRun

end
-- ==== Proof.RefValArgs.lean ====
/-
  No operation of the reference writes an argument array: after the operations each holds its launch contents.
-/
import proofs.«175214_j61469571940629_2_alg».proof.Proof.RefOps
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

set_option maxRecDepth 65536 in
set_option maxHeartbeats 40000000 in
theorem after_arg0 : after (ops (F := Ideal)) (launchContents m c) (Proc.devRef .tc main_arg0) = m ((c.tc : Thread nD τ).loc main_arg0) := by
  after_results_simp <;> rfl
set_option maxRecDepth 65536 in
set_option maxHeartbeats 40000000 in
theorem after_arg1 : after (ops (F := Ideal)) (launchContents m c) (Proc.devRef .tc main_arg1) = m ((c.tc : Thread nD τ).loc main_arg1) := by
  after_results_simp <;> rfl
set_option maxRecDepth 65536 in
set_option maxHeartbeats 40000000 in
theorem after_arg2 : after (ops (F := Ideal)) (launchContents m c) (Proc.devRef .tc main_arg2) = m ((c.tc : Thread nD τ).loc main_arg2) := by
  after_results_simp <;> rfl
set_option maxRecDepth 65536 in
set_option maxHeartbeats 40000000 in
theorem after_arg3 : after (ops (F := Ideal)) (launchContents m c) (Proc.devRef .tc main_arg3) = m ((c.tc : Thread nD τ).loc main_arg3) := by
  after_results_simp <;> rfl
set_option maxRecDepth 65536 in
set_option maxHeartbeats 40000000 in
theorem after_arg4 : after (ops (F := Ideal)) (launchContents m c) (Proc.devRef .tc main_arg4) = m ((c.tc : Thread nD τ).loc main_arg4) := by
  after_results_simp <;> rfl
set_option maxRecDepth 65536 in
set_option maxHeartbeats 40000000 in
theorem after_arg5 : after (ops (F := Ideal)) (launchContents m c) (Proc.devRef .tc main_arg5) = m ((c.tc : Thread nD τ).loc main_arg5) := by
  after_results_simp <;> rfl
set_option maxRecDepth 65536 in
set_option maxHeartbeats 40000000 in
theorem after_arg6 : after (ops (F := Ideal)) (launchContents m c) (Proc.devRef .tc main_arg6) = m ((c.tc : Thread nD τ).loc main_arg6) := by
  after_results_simp <;> rfl
set_option maxRecDepth 65536 in
set_option maxHeartbeats 40000000 in
theorem after_arg7 : after (ops (F := Ideal)) (launchContents m c) (Proc.devRef .tc main_arg7) = m ((c.tc : Thread nD τ).loc main_arg7) := by
  after_results_simp <;> rfl
set_option maxRecDepth 65536 in
set_option maxHeartbeats 40000000 in
theorem after_arg8 : after (ops (F := Ideal)) (launchContents m c) (Proc.devRef .tc main_arg8) = m ((c.tc : Thread nD τ).loc main_arg8) := by
  after_results_simp <;> rfl
set_option maxRecDepth 65536 in
set_option maxHeartbeats 40000000 in
theorem after_arg9 : after (ops (F := Ideal)) (launchContents m c) (Proc.devRef .tc main_arg9) = m ((c.tc : Thread nD τ).loc main_arg9) := by
  after_results_simp <;> rfl
set_option maxRecDepth 65536 in
set_option maxHeartbeats 40000000 in
theorem after_arg10 : after (ops (F := Ideal)) (launchContents m c) (Proc.devRef .tc main_arg10) = m ((c.tc : Thread nD τ).loc main_arg10) := by
  after_results_simp <;> rfl
set_option maxRecDepth 65536 in
set_option maxHeartbeats 40000000 in
theorem after_arg11 : after (ops (F := Ideal)) (launchContents m c) (Proc.devRef .tc main_arg11) = m ((c.tc : Thread nD τ).loc main_arg11) := by
  after_results_simp <;> rfl

end Cert.ReferenceIdeal.HandRun

end
-- ==== Proof.RefRun.lean ====
/-
  The reference's host run, read back: every weakly fair execution terminates with the three results at the reference
  arrangement of the network of the argument arrays, and the arguments unchanged.
-/
import proofs.«175214_j61469571940629_2_alg».proof.Proof.RefOps
import proofs.«175214_j61469571940629_2_alg».proof.Proof.RefValXhat
import proofs.«175214_j61469571940629_2_alg».proof.Proof.RefValMean
import proofs.«175214_j61469571940629_2_alg».proof.Proof.RefValLogvar
import proofs.«175214_j61469571940629_2_alg».proof.Proof.RefValArgs

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.LibRowwise Cert.LibTernaryWeights Cert.Net

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v192) = rXhat ws1 ws2 ws3 ws4 ws5 ws6 ws7 ws8 ws9 ws10 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg0)) (m ((c.tc : Thread nD τ).loc main_arg1))
      ∧ r.2.mem ((c.tc : Thread nD τ).loc main_v74) = rMean ws1 ws2 ws3 ws4 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg0))
      ∧ r.2.mem ((c.tc : Thread nD τ).loc main_v89) = rLogvar ws1 ws2 ws3 ws5 (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v192).trans (after_xhat m c), (h c main_v74).trans (after_mean m c), (h c main_v89).trans (after_logvar m c),
      (h c main_arg0).trans (after_arg0 m c), (h c main_arg1).trans (after_arg1 m c), (h c main_arg2).trans (after_arg2 m c), (h c main_arg3).trans (after_arg3 m c), (h c main_arg4).trans (after_arg4 m c), (h c main_arg5).trans (after_arg5 m c), (h c main_arg6).trans (after_arg6 m c), (h c main_arg7).trans (after_arg7 m c), (h c main_arg8).trans (after_arg8 m c), (h c main_arg9).trans (after_arg9 m c), (h c main_arg10).trans (after_arg10 m c), (h c main_arg11).trans (after_arg11 m c)⟩)
    (run0 m ρ)

end Cert.ReferenceIdeal.HandRun

end
-- ==== Proof.FiniteInputs.lean ====
/-
  From the precondition to real entries. The precondition is the conjunction, over the twelve argument arrays, of "every
  entry's absolute value is below plus infinity". On the extended reals the absolute value `max x (-x)` is below plus
  infinity exactly when `x` is neither infinity, that is, when `x` is a real number. So the precondition gives: every entry
  of every argument array is real.
-/
import proofs.«175214_j61469571940629_2_alg».proof.Proof.Gen.Pre_finite_inputs
import proofs.«175214_j61469571940629_2_alg».proof.Proof.LibTernaryLinear
import Idealize.ShloMosaic.Lib.ReduceAll
import Idealize.ShloMosaic.Lib.ValueIdx
import Idealize.ShloMosaic.Lib.Affine

set_option maxRecDepth 16384

noncomputable section

namespace Cert.FiniteInputs

open Idealize.ShloMosaic Idealize.ShloMosaic.ValueIdx Cert.LibTernaryLinear Cert.Pre_finite_inputs Cert.Pre_finite_inputs.Gen

instance : Subsingleton S_.Idx := ⟨fun a b => funext fun d => d.elim0⟩

/-- The pattern of plus infinity denotes plus infinity. -/
theorem ofBits_inf : Ideal.ofBits .f32 0x7F800000#32 = ⊤ := by
  simp [Ideal.ofBits, Ideal.ieee]

/-- An extended real whose absolute value is below plus infinity is real. -/
theorem isReal_of_abs_lt (x : EReal) (h : FloatOps.cmpf (F := Ideal) (φ := .f32) .olt (FloatOps.hostAbsf (F := Ideal) (φ := .f32) x) (Ideal.ofBits .f32 0x7F800000#32) = 1#1) :
    IsReal x := by
  rw [ofBits_inf] at h
  have h' : max x (-x) < ⊤ := by
    by_contra hc
    have : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hc]; rfl
    rw [this] at h; exact absurd h (by decide)
  refine isReal_of_ne (ne_of_lt (lt_of_le_of_lt (le_max_left _ _) h')) ?_
  intro hb
  rw [hb] at h'
  simp at h'

/-- One conjunct of the precondition read at every index. -/
theorem isReal_of_all {s : Shape} {axes : List (Fin s.rank)} (h : s.ReducesTo axes S_) (hu : 0 < S_.numel) (hb : S_.BroadcastsInDim s (![] : Fin 0 → Fin s.rank))
    (a : FVec Ideal s .f32)
    (e : Host.reduce IntOp.andi (cmpf .olt (Host.absf a) (broadcastInDim s ![] hb (constant (F := Ideal) S_ .f32 0x7F800000#32))) (constantI S_ 1 1#1) h hu ix0 = 1#1) :
    ∀ i, IsReal (a i) := fun i =>
  isReal_of_abs_lt (a i) (Host.reduce_andi_all _ _ h hu ix0 e i)

/-- The precondition, all ones, says every entry of every argument array is real. -/
theorem allReal_of_pre [Cert.Pre_finite_inputs.Facts] (a0 : FVec Ideal S65536x784 .f32) (a1 : FVec Ideal S65536x2 .f32) (a2 : FVec Ideal S400x784 .f32) (a3 : FVec Ideal S400x400 .f32) (a4 : FVec Ideal S200x400 .f32) (a5 : FVec Ideal S2x200 .f32) (a6 : FVec Ideal S2x200 .f32) (a7 : FVec Ideal S200x2 .f32) (a8 : FVec Ideal S400x200 .f32) (a9 : FVec Ideal S400x400 .f32) (a10 : FVec Ideal S400x400 .f32) (a11 : FVec Ideal S784x400 .f32)
    (h : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) := by
  have h0 := congrFun h ix0
  dsimp only [Cert.Pre_finite_inputs.fn, Cert.Pre_finite_inputs.fn_part1, Cert.Pre_finite_inputs.fn_part2, Cert.Pre_finite_inputs.fn_part3] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all _ _ _ a0 e0, isReal_of_all _ _ _ a1 e1, isReal_of_all _ _ _ a2 e2, isReal_of_all _ _ _ a3 e3,
    isReal_of_all _ _ _ a4 e4, isReal_of_all _ _ _ a5 e5, isReal_of_all _ _ _ a6 e6, isReal_of_all _ _ _ a7 e7,
    isReal_of_all _ _ _ a8 e8, isReal_of_all _ _ _ a9 e9, isReal_of_all _ _ _ a10 e10, isReal_of_all _ _ _ a11 e11⟩

end Cert.FiniteInputs

end
-- ==== Proof.lean ====
/-
  The five claims about the fused variational autoencoder kernel and its jnp reference.

  The three frames: each program terminates on every weakly fair execution, faults nowhere and leaves its twelve argument
  arrays (the batch, the noise and the ten weight matrices) unchanged. For the two kernel programs this is the pipeline
  run over the kernel body's triple; for the reference it is its straight-line host run with the results dropped.
  The idealization rewrote nothing, so the preservation claim is trivial.

  The value claim. Both programs quantize each weight matrix to a ternary matrix `t` and a positive scale `s`. The kernel
  multiplies the activations by `t` and then by `s`; the reference multiplies them by the dense matrix `w + (t / (1/s) - w)`.
  On the extended reals these agree when every number involved is real: then `t / (1/s) = t·s`, the original weight cancels
  and the scale leaves the finite sum. The precondition makes every input real, the clipping makes every ternary entry
  real, the clamp makes every scale a positive real, and sums, products, the rectifier's selection and the latent
  `mean + logvar·noise` keep activations real from layer to layer; so the ten layers agree one after the other. The kernel
  handles the batch in sixty-four blocks of 1024 rows and every row's result depends on that row alone, so the blocks it
  writes back tile the whole-batch result.
-/
import proofs.«175214_j61469571940629_2_alg».proof.Defs
import proofs.«175214_j61469571940629_2_alg».proof.Proof.Gen.Kernel
import proofs.«175214_j61469571940629_2_alg».proof.Proof.Gen.KernelIdeal
import proofs.«175214_j61469571940629_2_alg».proof.Proof.Gen.ReferenceIdeal
import proofs.«175214_j61469571940629_2_alg».proof.Proof.Gen.Pre_finite_inputs
import proofs.«175214_j61469571940629_2_alg».proof.Proof.KernelRun
import proofs.«175214_j61469571940629_2_alg».proof.Proof.KernelIdealBridge
import proofs.«175214_j61469571940629_2_alg».proof.Proof.KernelIdealBridgeB
import proofs.«175214_j61469571940629_2_alg».proof.Proof.RefRun
import proofs.«175214_j61469571940629_2_alg».proof.Proof.FiniteInputs
import Idealize.ShloMosaic.Adequacy
import Idealize.ShloMosaic.Init

noncomputable section

namespace Cert.Proof

open Idealize.ShloMosaic Idealize.SL.Sem Cert.Net Cert.LibRowwise

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.HandRun.run m ρ)

theorem preserves : Cert.preserves_Kernel_KernelIdeal := trivial

set_option maxHeartbeats 4000000 in
theorem algebraic : Cert.algebraic_KernelIdeal_ReferenceIdeal := by
  intro m ρ m' ρ' hpre hagree
  refine ⟨fun c => Cert.KernelIdeal.Hand.Gxhat m c, fun c => Cert.KernelIdeal.Hand.Gmean m c, fun c => Cert.KernelIdeal.Hand.Glogvar m c,
    Cert.KernelIdeal.Hand.run_vals m ρ, ?_⟩
  refine (θ_run Cert.ReferenceIdeal.defs _ _).mono (fun _ h c => ?_) (Cert.ReferenceIdeal.HandRun.run m' ρ')
  obtain ⟨h0, h1, h2, hrest⟩ := h c
  obtain ⟨g0, g1, g2, g3, g4, g5, g6, g7, g8, g9, g10, g11⟩ := hagree c
  obtain ⟨r0, r1, r2, r3, r4, r5, r6, r7, r8, r9, r10, r11⟩ := Cert.FiniteInputs.allReal_of_pre _ _ _ _ _ _ _ _ _ _ _ _ (hpre c)
  refine ⟨h0.trans ?_, h1.trans ?_, h2.trans ?_, hrest⟩
  · show _ = Cert.KernelIdeal.Hand.Gxhat m c
    rw [g0, g1, g2, g3, g4, g5, g6, g7, g8, g9, g10, g11, Cert.KernelIdeal.Hand.Gxhat_eq]
    exact rXhat_eq ws1 ws2 ws3 ws4 ws5 ws6 ws7 ws8 ws9 ws10 _ _ _ _ _ _ _ _ _ _ _ _ r0 r1 r2 r3 r4 r5 r6 r7 r8 r9 r10 r11
  · show _ = Cert.KernelIdeal.Hand.Gmean m c
    rw [g0, g2, g3, g4, g5, Cert.KernelIdeal.Hand.Gmean_eq]
    exact (rMean_eq ws1 ws2 ws3 ws4 _ _ _ _ _ r0 r2 r3 r4 r5).1
  · show _ = Cert.KernelIdeal.Hand.Glogvar m c
    rw [g0, g2, g3, g4, g6, Cert.KernelIdeal.Hand.Glogvar_eq]
    exact (rLogvar_eq ws1 ws2 ws3 ws5 _ _ _ _ _ r0 r2 r3 r4 r6).1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
